-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x128 : Shape := ⟨2, ![1024, 128]⟩
abbrev S1024x100000 : Shape := ⟨2, ![1024, 100000]⟩
abbrev S1024 : Shape := ⟨1, ![1024]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S100000x128 : S_.BroadcastsInDim S100000x128 (![] : Fin 0 → Fin S100000x128.rank)
  reducesTo_S100000x128_S_d0_1 : S100000x128.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : IVec S1024 32) (main_v13 : IVec S_ 1) (main_v15 : IVec S1024 1) (main_c_5 : IVec S_ 32) : IVec S_ 1 :=
  let main_v16 : IVec S1024 32 := broadcastInDim S1024 ![] bcast_S_S1024 main_c_5
  let main_v17 : IVec S1024 1 := cmpi .sle main_arg2 main_v16
  let main_v18 : IVec S1024 1 := andi main_v15 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v13 main_v19
  main_v20

def fn {F : FTy → Type} [FloatOps F] (main_arg0 : FVec F S1024x128 .f32) (main_arg1 : FVec F S1024x100000 .f32) (main_arg2 : IVec S1024 32) (main_arg3 : FVec F S100000x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg2 main_v14
  let main_c_5 : IVec S_ 32 := constantI S_ 32 99999#32
  fn_part1 (F := F) main_arg2 main_v13 main_v15 main_c_5
-- ==== Kernel.lean ====
abbrev S1024x128 : Shape := ⟨2, ![1024, 128]⟩
abbrev S1024x100000 : Shape := ⟨2, ![1024, 100000]⟩
abbrev S1024 : Shape := ⟨1, ![1024]⟩
abbrev S100000x128 : Shape := ⟨2, ![100000, 128]⟩
abbrev S32 : Shape := ⟨1, ![32]⟩
abbrev S32x128 : Shape := ⟨2, ![32, 128]⟩
abbrev S_ : Shape := ⟨0, ![]⟩
abbrev S1024x1 : Shape := ⟨2, ![1024, 1]⟩
abbrev S1x1024 : Shape := ⟨2, ![1, 1024]⟩
abbrev S1x1 : Shape := ⟨2, ![1, 1]⟩
abbrev S1024x4096 : Shape := ⟨2, ![1024, 4096]⟩
abbrev S1x1024x1 : Shape := ⟨3, ![1, 1024, 1]⟩
abbrev S1 : Shape := ⟨1, ![1]⟩
abbrev S1x1x1 : Shape := ⟨3, ![1, 1, 1]⟩
abbrev S1024x1024 : Shape := ⟨2, ![1024, 1024]⟩
abbrev S1x1024x128 : Shape := ⟨3, ![1, 1024, 128]⟩

abbrev nBuf : Table → Nat
  | .hbm => 9
  | .local .tc .vmem => 9
  | .local .scVector .vmem => 2
  | _ => 0

abbrev bufTy : (tb : Table) → Fin (nBuf tb) → BufTy
  | .hbm, ⟨0, _⟩ => ⟨S1024x128, .f32⟩
  | .hbm, ⟨1, _⟩ => ⟨S1024x100000, .f32⟩
  | .hbm, ⟨2, _⟩ => ⟨S1024, .i32⟩
  | .hbm, ⟨3, _⟩ => ⟨S100000x128, .f32⟩
  | .hbm, ⟨4, _⟩ => ⟨S1024x128, .f32⟩
  | .hbm, ⟨5, _⟩ => ⟨S1024x1, .i32⟩
  | .hbm, ⟨6, _⟩ => ⟨S1x1024, .i32⟩
  | .hbm, ⟨7, _⟩ => ⟨S1x1, .f32⟩
  | .hbm, ⟨8, _⟩ => ⟨S_, .f32⟩
  | .local .tc .vmem, ⟨0, _⟩ => ⟨S1024x1, .i32⟩
  | .local .tc .vmem, ⟨1, _⟩ => ⟨S1x1024, .i32⟩
  | .local .tc .vmem, ⟨2, _⟩ => ⟨S1024x128, .f32⟩
  | .local .tc .vmem, ⟨3, _⟩ => ⟨S1024x128, .f32⟩
  | .local .tc .vmem, ⟨4, _⟩ => ⟨S1024x4096, .f32⟩
  | .local .tc .vmem, ⟨5, _⟩ => ⟨S1024x4096, .f32⟩
  | .local .tc .vmem, ⟨6, _⟩ => ⟨S1x1, .f32⟩
  | .local .tc .vmem, ⟨7, _⟩ => ⟨S1024x1, .f32⟩
  | .local .tc .vmem, ⟨8, _⟩ => ⟨S1024x1, .f32⟩
  | .local .scVector .vmem, ⟨0, _⟩ => ⟨S32, .i32⟩
  | .local .scVector .vmem, ⟨1, _⟩ => ⟨S32x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg4_1 : Ref sig .tc := ⟨.vmem, 5, rfl⟩
abbrev cc1_stg5_0 : Ref sig .tc := ⟨.vmem, 6, rfl⟩
abbrev cc1_scratch0 : Ref sig .tc := ⟨.vmem, 7, rfl⟩
abbrev cc1_scratch1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8
abbrev cc1_sem5_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨1, ![25], ![false]⟩

def k1_cond4 (i : grid1.Coords) : BitVec 1 :=
  let arg0 : BitVec 32 := BitVec.ofNat 32 (i 0).val
  let c24_i32_7 : BitVec 32 := 24#32
  let v16 : BitVec 1 := Scalar.cmpi .eq arg0 c24_i32_7
  let v17 : BitVec 32 := Scalar.extui v16
  let c0_i32_8 : BitVec 32 := 0#32
  let v18 : BitVec 1 := Scalar.cmpi .ne v17 c0_i32_8
  v18

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S32x128 : S100000x128.Gathers 0 S32x128
  shapeCasts_S1024_S1024x1 : S1024.ShapeCasts S1024x1
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  iota_S1024x4096_d1_w32 : S1024x4096.Iotas .tc 32 [1]
  reduces_S1024x4096_S1024 : S1024x4096.Reduces [1] S1024
  broadcasts_S1024x1_S1024x4096 : S1024x1.Broadcasts S1024x4096
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d1_w32 : S1024x1024.Iotas .tc 32 [1]
  reduces_S1024x1024_S1024 : S1024x1024.Reduces [1] S1024
  natLt_1_32 : 1 < 32
  shapeCasts_S1024x128_S1x1024x128 : S1024x128.ShapeCasts S1x1024x128
  reduces_S1x1024x128_S1 : S1x1024x128.Reduces [1, 2] S1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x1024_S1024x128_S1024x128_1_0_0_1_n_n_wf : DotDims.WF S1024x1024 S1024x128 S1024x128 [1] [0] [0] [1] [] []
  hcc0_scratch2 : 0 + S_.numel ≤ 10
  hcc0_scoped0 : 1 + S_.numel ≤ 10
  hcc0_scoped1 : 2 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  k0_off2_inb : ∀ i : grid0.Coords, ∀ a, (k0_off2 i) a + S32x128.size a ≤ S1024x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S1024x1.size a
  hwx1_0 : ∀ i : grid1.Coords, EltTy.bits .i32 = 32 ∨ (Rect.block (s := S1024x1) S1024x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .i32 = 32 ∨ (Rect.block (s := S1x1024) S1x1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S1024x128.size a
  hwx1_3 : ∀ i : grid1.Coords, EltTy.bits .f32 = 32 ∨ (Rect.block (s := S1024x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S1024x4096.size a < S1024x100000.size a
  hwx1_4 : ∀ i : grid1.Coords, EltTy.bits .f32 = 32 ∨ (Rect.unit (s := S1024x100000) (fun a => cc1_transform_4 i a * S1024x4096.size a) (fun a => (Pipeline.Clip.of (cc1_transform_4 i a) (S1024x4096.size a) (S1024x100000.size a)).extent (S1024x4096.size a)) fun a => Pipeline.Clip.inb (Pipeline.Clip.ok_of (hstart1_4 i a))).WholeWords (EltTy.packing .f32)
  hwxs1_4 : ∀ i : grid1.Coords, EltTy.bits .f32 = 32 ∨ (Rect.unit (s := S1024x4096) (fun _ => 0) (fun a => (Pipeline.Clip.of (cc1_transform_4 i a) (S1024x4096.size a) (S1024x100000.size a)).extent (S1024x4096.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win1_0 : Pipeline.Window sig grid1 :=
  Pipeline.Window.ofSpec (Memref.whole main_v1) S1024x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_arg1) S1024x4096.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpec (Memref.whole main_v3) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond4 i == 1#1) | ⟨_ + 6, h⟩ => absurd h (Nat.not_lt.2 (Nat.le_add_left _ _))

class Facts : Prop extends Facts₀ where

variable [Facts]
-- ==== ReferenceIdeal.lean ====
abbrev S1024x128 : Shape := ⟨2, ![1024, 128]⟩
abbrev S1024x100000 : Shape := ⟨2, ![1024, 100000]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x1x1 : Shape := ⟨3, ![1024, 1, 1]⟩
abbrev S1x1x1 : Shape := ⟨3, ![1, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x100000, .f32⟩
  | .hbm, ⟨2, _⟩ => ⟨S1024, .i32⟩
  | .hbm, ⟨3, _⟩ => ⟨S100000x128, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x128, .f32⟩
  | .hbm, ⟨23, _⟩ => ⟨S1024x128, .i1⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S_, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S100000x128, .f32⟩
  | .hbm, ⟨43, _⟩ => ⟨S_, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024x1, .f32⟩
  | .hbm, ⟨49, _⟩ => ⟨S1024x100000, .f32⟩
  | .hbm, ⟨50, _⟩ => ⟨S1024x100000, .f32⟩
  | .hbm, ⟨51, _⟩ => ⟨S1024x100000, .f32⟩
  | .hbm, ⟨52, _⟩ => ⟨S_, .f32⟩
  | .hbm, ⟨53, _⟩ => ⟨S1024, .f32⟩
  | .hbm, ⟨54, _⟩ => ⟨S1024x1, .f32⟩
  | .hbm, ⟨55, _⟩ => ⟨S1024x1, .f32⟩
  | .hbm, ⟨56, _⟩ => ⟨S1024x100000, .f32⟩
  | .hbm, ⟨57, _⟩ => ⟨S1024x100000, .f32⟩
  | .hbm, ⟨58, _⟩ => ⟨S1024x1, .i32⟩
  | .hbm, ⟨59, _⟩ => ⟨S_, .i32⟩
  | .hbm, ⟨60, _⟩ => ⟨S1024x1, .i32⟩
  | .hbm, ⟨61, _⟩ => ⟨S1024x1, .i1⟩
  | .hbm, ⟨62, _⟩ => ⟨S_, .i32⟩
  | .hbm, ⟨63, _⟩ => ⟨S1024x1, .i32⟩
  | .hbm, ⟨64, _⟩ => ⟨S1024x1, .i32⟩
  | .hbm, ⟨65, _⟩ => ⟨S1024x1, .i32⟩
  | .hbm, ⟨66, _⟩ => ⟨S1024x1x1, .i32⟩
  | .hbm, ⟨67, _⟩ => ⟨S1, .i32⟩
  | .hbm, ⟨68, _⟩ => ⟨S_, .i32⟩
  | .hbm, ⟨69, _⟩ => ⟨S1024x1x1, .i32⟩
  | .hbm, ⟨70, _⟩ => ⟨S1024x1x1, .i1⟩
  | .hbm, ⟨71, _⟩ => ⟨S1x1x1, .i32⟩
  | .hbm, ⟨72, _⟩ => ⟨S1024x1x1, .i32⟩
  | .hbm, ⟨73, _⟩ => ⟨S1024x1x1, .i1⟩
  | .hbm, ⟨74, _⟩ => ⟨S1024x1x1, .i1⟩
  | .hbm, ⟨75, _⟩ => ⟨S_, .i1⟩
  | .hbm, ⟨76, _⟩ => ⟨S1024x1, .i1⟩
  | .hbm, ⟨77, _⟩ => ⟨S1024x1, .f32⟩
  | .hbm, ⟨78, _⟩ => ⟨S_, .f32⟩
  | .hbm, ⟨79, _⟩ => ⟨S1024x1, .f32⟩
  | .hbm, ⟨80, _⟩ => ⟨S1024x1, .f32⟩
  | .hbm, ⟨81, _⟩ => ⟨S1024, .f32⟩
  | .hbm, ⟨82, _⟩ => ⟨S1024, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .i32⟩
  | .hbm, ⟨88, _⟩ => ⟨S1024, .i32⟩
  | .hbm, ⟨89, _⟩ => ⟨S1024, .i1⟩
  | .hbm, ⟨90, _⟩ => ⟨S_, .i32⟩
  | .hbm, ⟨91, _⟩ => ⟨S1024, .i32⟩
  | .hbm, ⟨92, _⟩ => ⟨S1024, .i32⟩
  | .hbm, ⟨93, _⟩ => ⟨S1024, .i32⟩
  | .hbm, ⟨94, _⟩ => ⟨S1024x1, .i32⟩
  | .hbm, ⟨95, _⟩ => ⟨S1, .i32⟩
  | .hbm, ⟨96, _⟩ => ⟨S_, .i32⟩
  | .hbm, ⟨97, _⟩ => ⟨S1024x1, .i32⟩
  | .hbm, ⟨98, _⟩ => ⟨S1024x1, .i1⟩
  | .hbm, ⟨99, _⟩ => ⟨S1x1, .i32⟩
  | .hbm, ⟨100, _⟩ => ⟨S1024x1, .i32⟩
  | .hbm, ⟨101, _⟩ => ⟨S1024x1, .i1⟩
  | .hbm, ⟨102, _⟩ => ⟨S1024x1, .i1⟩
  | .hbm, ⟨103, _⟩ => ⟨S_, .i1⟩
  | .hbm, ⟨104, _⟩ => ⟨S1024, .i1⟩
  | .hbm, ⟨105, _⟩ => ⟨S1024x128, .f32⟩
  | .hbm, ⟨106, _⟩ => ⟨S1024x128, .i1⟩
  | .hbm, ⟨107, _⟩ => ⟨S_, .f32⟩
  | .hbm, ⟨108, _⟩ => ⟨S1024x128, .f32⟩
  | .hbm, ⟨109, _⟩ => ⟨S1024x128, .f32⟩
  | .hbm, ⟨110, _⟩ => ⟨S1024x128, .f32⟩
  | .hbm, ⟨111, _⟩ => ⟨S1024x128, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v13 : Ref sig .tc := ⟨.hbm, 57, rfl⟩
abbrev main_v14 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_cst_2 : Ref sig .tc := ⟨.hbm, 83, rfl⟩
abbrev main_v18 : Ref sig .tc := ⟨.hbm, 84, rfl⟩
abbrev main_cst_3 : Ref sig .tc := ⟨.hbm, 85, rfl⟩
abbrev main_v19 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_cst_4 : Ref sig .tc := ⟨.hbm, 112, rfl⟩
abbrev main_v23 : Ref sig .tc := ⟨.hbm, 113, rfl⟩
abbrev main_cst_5 : Ref sig .tc := ⟨.hbm, 114, rfl⟩
abbrev main_v24 : Ref sig .tc := ⟨.hbm, 115, rfl⟩
abbrev main_cst_6 : Ref sig .tc := ⟨.hbm, 116, rfl⟩
abbrev main_v25 : Ref sig .tc := ⟨.hbm, 117, rfl⟩
abbrev main_v26 : Ref sig .tc := ⟨.hbm, 118, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x128_0 : S1024.BroadcastsInDim S1024x128 (![0] : Fin 1 → Fin S1024x128.rank)
  bcast_S_S1024x128 : S_.BroadcastsInDim S1024x128 (![] : Fin 0 → Fin S1024x128.rank)
  reducesTo_S1024x100000_S1024_d1 : S1024x100000.ReducesTo [1] S1024
  bcast_S1024x1_S1024x100000_0_1 : S1024x1.BroadcastsInDim S1024x100000 (![0, 1] : Fin 2 → Fin S1024x100000.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  reducesTo_S1024x128_S_d0_1 : S1024x128.ReducesTo [0, 1] S_
  gather_S100000x128_S1024x1_S1024x128_1_0_n_n_0_1_1128_wf : GatherDims.WF S100000x128 S1024x1 S1024x128 [1] [0] [] [0] [] 1 ![1, 128]
  scatter_S100000x128_S1024x1_S1024x128_1_0_0_1_wf : ScatterDims.WF S100000x128 S1024x1 S1024x128 [1] [0] [0] 1
  gather_S1024x100000_S1024x1x1_S1024x1_n_1_0_0_1_2_11_wf : GatherDims.WF S1024x100000 S1024x1x1 S1024x1 [] [1] [0] [1] [0] 2 ![1, 1]

variable [Facts₀]

def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def scatter_S100000x128_S1024x1_S1024x128_1_0_0_1 : ScatterDims S100000x128 S1024x1 S1024x128 where
  updateWindowDims := [1]
  insertedWindowDims := [0]
  scatterDimsToOperandDims := [0]
  indexVectorDim := 1
  wf := scatter_S100000x128_S1024x1_S1024x128_1_0_0_1_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.ScBase.lean ====
/-
  The gather stage on the vector subcores: each of the 32 tiles (2 cores × 16 subcores) takes 32 consecutive
  samples — tile (c, s) the samples from 32·(2·s + c) —, copies their labels into its index scratch, gathers the
  labelled rows of the class-centre table into its row scratch, and copies those 32 rows to the same 32 rows of the
  output.  Every tile reads the label array and the centre table (a read share of each, whole) and owns exactly its
  32 rows of the output, which it leaves holding, at row r, the centre row numbered by sample r's label.
-/
import proofs.«217730_g43602507989570_cont_8to1c4_241_33_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«217730_g43602507989570_cont_8to1c4_241_33_alg».proof.Proof.Gen.KernelIdeal
import proofs.«217730_g43602507989570_cont_8to1c4_241_33_alg».proof.Proof.Gen.KernelIdeal.Skeleton
import proofs.«217730_g43602507989570_cont_8to1c4_241_33_alg».proof.Proof.Gen.KernelIdeal.Launch

noncomputable section

namespace Cert.KernelIdeal.ScProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev lLoc (d : Dev nD) : Loc nD τ sig := (SparseCore.T d).loc main_arg2
abbrev xLoc (d : Dev nD) : Loc nD τ sig := (SparseCore.T d).loc main_arg3
abbrev oLoc (d : Dev nD) : Loc nD τ sig := (SparseCore.T d).loc main_v0

local notation "lV" => (Memref.whole Cert.KernelIdeal.main_arg2_scv : Memref Cert.KernelIdeal.sig Kind.scVector Space.hbm Cert.KernelIdeal.S1024 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

/-- What the proof asks of the launch memory: every label, read as an unsigned word, is a row number of the table. -/
def PreOK : Prop := ∀ (d : Dev nD) (j : S1024.Idx), (m (lLoc d) j : BitVec 32).toNat < 100000

/-! ## Read shares of the two tables: one per core, one per tile of the core -/

theorem two_pos : 0 < 2 := by decide
theorem sixteen_pos : 0 < 16 := by decide
/-- Tile `(c, i)`'s share of a table every tile reads: the full share cut in two, that half in sixteen. -/
abbrev tq (c : Fin 2) (i : Fin 16) : PosShare TreeShare := pieceOf (pieceOf fullShare 2 two_pos c) 16 sixteen_pos i

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The tile's 32 labels and its 32 output rows, as the task slices them; the table whole. -/
abbrev lRowK (L : grid0.Coords) : Memref sig .scVector .hbm S32 .i32 := (lV).slice (Rect.unit (s := S1024) (k0_off1 L) S32.size (k0_off1_inb L)) (fun _ => rfl)
abbrev oRowK (L : grid0.Coords) : Memref sig .scVector .hbm S32x128 .f32 := (oV).slice (Rect.unit (s := S1024x128) (k0_off2 L) S32x128.size (k0_off2_inb L)) (fun _ => rfl)
abbrev xAllK : Memref sig .scVector .hbm S100000x128 .f32 := (xV).slice (Rect.unit (s := S100000x128) ![0, 0] S100000x128.size inb_S100000x128_S100000x128_0_0) (fun _ => rfl)
abbrev oRowSet (L : grid0.Coords) : Finset S1024x128.Idx := (oRowK L).view.set

abbrev lPts (d : Dev nD) (q : PosShare TreeShare) : sProp 𝕄 := lLoc d ↦{q} m (lLoc d)
abbrev xPts (d : Dev nD) (q : PosShare TreeShare) : sProp 𝕄 := xLoc d ↦{q} m (xLoc d)
abbrev oRowPts (d : Dev nD) (L : grid0.Coords) (f : Buf (Elt F) (oLoc d)) : sProp 𝕄 := oLoc d ↦[oRowSet L]{fullShare} f

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_lV (q : PosShare TreeShare) (f : Buf (Elt F) (lLoc d)) :
    ((lV).view.loc (V d (cV L) (jV L)) ↦{q} f : sProp 𝕄) = lLoc d ↦{q} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The row of the table the gather fetches for the tile's sample `k`: the sample's label, a row number by `PreOK`. -/
theorem inb_of_pre (hpre : PreOK m) (fs : Buf (Elt F) ((V d (cV L) (jV L)).loc cc0_scratch0)) (pay : S32.Idx → Elt F .i32)
    (hpay : pay = (lRowK L).view.read (Elt F) (m (lLoc d))) :
    ∀ x, ((sV).view.read (Elt F) (View.write (Elt F) (sV).view fs pay Finset.univ) x).toNat < S100000x128.size gathers_S100000x128_S32x128.axis := by
  subst hpay; intro x
  rw [View.write_whole_univ]
  simp only [Memref.view_whole, View.read_whole]
  rw [show ∀ j, (lRowK L).view.read (Elt F) (m (lLoc d)) j = m (lLoc d) ((lRowK L).view.emb j) from fun j => (View.read_apply _ _).trans (cast_eq _ _)]
  exact hpre d _

/-- The gathered rows as ONE array: row `r` holds the table's row numbered by sample `r`'s label. -/
def gathered (hpre : PreOK m) (d : Dev nD) : Buf (Elt F) (oLoc d) :=
  fun j => m (xLoc d) (ValueIdx.ix2 (⟨(m (lLoc d) (ValueIdx.ix1 (j 0)) : BitVec 32).toNat, hpre d _⟩ : Fin 100000) (j 1))

end Tile

end Cert.KernelIdeal.ScProof

end
-- ==== Proof.ScValue.lean ====
/-
  What the tile's three transfers leave in its 32 rows of the output: at row r of the block the centre row whose
  number is the label of the block's sample r.  The label copy lands the block's 32 labels in the index scratch
  (entry k is the label of sample off + k); the gather lands row `label k` of the table at row k of the row scratch;
  the copy out lands row k of the scratch at row off + k of the output.  Both offsets are the same number,
  64·s + 32·c for the tile (c, s).
-/
import proofs.«217730_g43602507989570_cont_8to1c4_241_33_alg».proof.Proof.ScBase

noncomputable section

namespace Cert.KernelIdeal.ScProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_arg2_scv : Memref Cert.KernelIdeal.sig Kind.scVector Space.hbm Cert.KernelIdeal.S1024 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (m : (ℓ : Loc nD τ sig) → Buf (Elt F) ℓ) (ρ : Dev nD → PrngReg)
variable [FloatOps F]

section Tile

variable (d : Dev nD) (L : grid0.Coords)

theorem gather_value (hpre : PreOK m) (fs : Buf (Elt F) ((V d (cV L) (jV L)).loc cc0_scratch0)) (fr : Buf (Elt F) ((V d (cV L) (jV L)).loc cc0_scratch1))
    (pay0 : S32.Idx → Elt F .i32) (hpay0 : pay0 = (lRowK L).view.read (Elt F) (m (lLoc d)))
    (hn : S32.numel = S32x128.size gathers_S100000x128_S32x128.axis')
    (hin' : ∀ x, ((sV).view.read (Elt F) (View.write (Elt F) (sV).view fs pay0 Finset.univ) x).toNat < S100000x128.size gathers_S100000x128_S32x128.axis) :
    ∀ j ∈ (oRowK L).view.set,
      ((oRowK L).view.writes (Elt F) (m (oLoc d)) [⟨Rect.whole S32x128, ReadAs.same.apply (View.read (Elt F) (rV).view
        ((rV).view.writes (Elt F) fr [⟨Rect.whole cc0_scratch1.ty.shape, SparseCore.gatherPayload gathers_S100000x128_S32x128
          (View.read (Elt F) xAllK.view (m (xLoc d)))
          (SparseCore.rows (View.read (Elt F) (sV).view (View.write (Elt F) (sV).view fs pay0 Finset.univ)) hn hin')⟩]))⟩]) j
        = gathered m hpre d j := by
  intro j hj
  obtain ⟨x, -, rfl⟩ := Finset.mem_map.mp hj
  have hr : ∀ g : (oRowK L).view.ty.Contents (Elt F), g ((oRowK L).view.emb x) = (oRowK L).view.read (Elt F) g x :=
    fun g => ((View.read_apply _ _).trans (cast_eq _ _)).symm
  refine (hr _).trans ?_
  have h1 : ∀ W : (Rect.whole S32x128).shape.Idx → Elt F .f32,
      (oRowK L).view.read (Elt F) ((oRowK L).view.writes (Elt F) (m (oLoc d)) [⟨Rect.whole S32x128, W⟩]) x = W x := by
    intro W
    have := View.read_writes_cons_emb (oRowK L).view (m (oLoc d)) (Rect.whole S32x128) W [] x
    rwa [Rect.emb_whole_apply] at this
  rw [h1, ReadAs.apply_same]
  have h2 : ∀ G : (Rect.whole cc0_scratch1.ty.shape).shape.Idx → Elt F .f32,
      View.read (Elt F) (rV).view ((rV).view.writes (Elt F) fr [⟨Rect.whole cc0_scratch1.ty.shape, G⟩]) x = G x := by
    intro G
    have := View.read_writes_cons_emb (rV).view fr (Rect.whole cc0_scratch1.ty.shape) G [] x
    rwa [Rect.emb_whole_apply] at this
  rw [h2]
  unfold SparseCore.gatherPayload gathered
  refine ((View.read_apply _ _).trans (cast_eq _ _)).trans ?_
  refine congrArg (m (xLoc d)) ?_
  -- the table's slice is the whole table: its embedding keeps every coordinate
  have hA : ∀ (y : S100000x128.Idx) (a : Fin 2), (xAllK.view.emb y a : Nat) = (y a : Nat) := by
    intro y a
    show ((Rect.unit (s := S100000x128) ![0, 0] S100000x128.size inb_S100000x128_S100000x128_0_0).emb y a : Nat) = _
    rw [Rect.emb_apply]
    match a with
    | ⟨0, _⟩ => simp
    | ⟨1, _⟩ => simp
  -- the index scratch holds the block's labels
  have hp : View.read (Elt F) (sV).view (View.write (Elt F) (sV).view fs pay0 Finset.univ) = pay0 := by
    rw [View.write_whole_univ]; simp only [Memref.view_whole, View.read_whole]
  have hk : ∀ k, ((SparseCore.rows (View.read (Elt F) (sV).view (View.write (Elt F) (sV).view fs pay0 Finset.univ)) hn hin') k).val
      = (m (lLoc d) ((lRowK L).view.emb (S32.rowMajor.symm (k.cast hn.symm))) : BitVec 32).toNat := by
    intro k
    show (View.read (Elt F) (sV).view (View.write (Elt F) (sV).view fs pay0 Finset.univ) (S32.rowMajor.symm (k.cast hn.symm)) : BitVec 32).toNat = _
    rw [hp, hpay0]
    exact congrArg BitVec.toNat ((View.read_apply _ _).trans (cast_eq _ _))
  funext b
  apply Fin.ext
  match b with
  | ⟨0, h0⟩ =>
    rw [hA]
    have hax : (⟨0, h0⟩ : Fin S100000x128.rank) = gathers_S100000x128_S32x128.axis := rfl
    rw [hax, Shape.Gathers.idx_axis, hk]
    show _ = (m (lLoc d) (ValueIdx.ix1 ((oRowK L).view.emb x 0)) : BitVec 32).toNat
    refine congrArg (fun i => (m (lLoc d) i : BitVec 32).toNat) ?_
    funext a
    apply Fin.ext
    match a with
    | ⟨0, _⟩ =>
      show ((Rect.unit (s := S1024) (k0_off1 L) S32.size (k0_off1_inb L)).emb _ 0 : Nat)
        = ((Rect.unit (s := S1024x128) (k0_off2 L) S32x128.size (k0_off2_inb L)).emb x 0 : Nat)
      rw [Rect.emb_apply, Rect.emb_apply]
      simp only [Rect.off_unit, Rect.stride_unit]
      have e1 : k0_off1 L 0 = 64 * (L 1).val + 32 * (L 0).val := by rw [k0_off1_eq]; rfl
      have e2 : k0_off2 L 0 = 64 * (L 1).val + 32 * (L 0).val := by rw [k0_off2_eq]; rfl
      have hx0 : (x gathers_S100000x128_S32x128.axis' : Nat) = (x 0 : Nat) := rfl
      have hz : ((S32.rowMajor.symm ((x gathers_S100000x128_S32x128.axis').cast hn.symm)) 0 : Nat) = (x gathers_S100000x128_S32x128.axis' : Nat) := by
        have := Shape.rowMajor_val_one (S32.rowMajor.symm ((x gathers_S100000x128_S32x128.axis').cast hn.symm))
        rw [Equiv.apply_symm_apply] at this
        exact this.symm
      omega
  | ⟨1, h1'⟩ =>
    rw [hA, Shape.Gathers.idx_of_ne _ _ _ _ (show ((⟨1, h1'⟩ : Fin S100000x128.rank) : ℕ) ≠ 0 from Nat.one_ne_zero)]
    show _ = ((Rect.unit (s := S1024x128) (k0_off2 L) S32x128.size (k0_off2_inb L)).emb x 1 : Nat)
    rw [Rect.emb_apply]
    simp only [Rect.off_unit, Rect.stride_unit]
    have e3 : k0_off2 L 1 = 0 := by rw [k0_off2_eq]; rfl
    have hx1 : ((x (Fin.cast gathers_S100000x128_S32x128.1.symm ⟨1, h1'⟩)) : Nat) = (x 1 : Nat) := rfl
    omega

end Tile

end Cert.KernelIdeal.ScProof

end
-- ==== Proof.ScTile.lean ====
/-
  One tile's task, run: the label copy, the gather of the labelled centre rows, the copy of the 32 rows out; the
  tile's rows of the output end at the gathered array.
-/
import proofs.«217730_g43602507989570_cont_8to1c4_241_33_alg».proof.Proof.ScValue

noncomputable section

namespace Cert.KernelIdeal.ScProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_arg2_scv : Memref Cert.KernelIdeal.sig Kind.scVector Space.hbm Cert.KernelIdeal.S1024 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (m : (ℓ : Loc nD τ sig) → Buf (Elt F) ℓ) (ρ : Dev nD → PrngReg)
variable [FloatOps F]

section Tile

variable (d : Dev nD) (L : grid0.Coords)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (lPts m d (tq (cL L) (jL L)) ∗ xPts m d (tq (cL L) (jL L)) ∗ oRowPts d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_rows L lV (Memref.isWhole_whole _) xV (Memref.isWhole_whole _) oV (Memref.isWhole_whole _)
            sV (Memref.isWhole_whole _) rV (Memref.isWhole_whole _) cc0_scratch2 cc0_scoped0 cc0_scoped1)
          fun _ => iprop((lPts m d (tq (cL L) (jL L)) ∗ xPts m d (tq (cL L) (jL L)) ∗ oRowPts d L (gathered m hpre d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_rows_eq_skeleton]; unfold cc0_gather_rows_skel
  rw [(K (F := F)).scopedBufs_V hF d (cV L) (jV L), SparseCore.Cfg.scopedSems0_V (Val := Elt F) d (cV L) (jV L), ownSems0_V, ownBufs_V]
  iintro ⟨#Hlv, -, ⟨Hl, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lV (F := F) d L _ _).symm) $$ Hl
  ihave Hx' := (Entails.of_eq (pts_xV (F := F) d L _ _).symm) $$ Hx
  ihave Ho' := (Entails.of_eq (pts_oRowK (F := F) d L _).symm) $$ Ho
  ihave Hs' := (Entails.of_eq (pts_sV (F := F) d L _).symm) $$ Hs
  ihave Hr' := (Entails.of_eq (pts_rV (F := F) d L _).symm) $$ Hr
  have hin := inb_of_pre m d L hpre
  sl_exec
  have hin' := hin fs (tile_body.sl.dma0 m d L) rfl
  sl_exec
  have hval : ∀ j ∈ (oRowK L).view.set,
      ((oRowK L).view.writes (Elt F) (m (oLoc d)) [⟨Rect.whole S32x128, tile_body.sl.dma0_1 m d L fs fr hin'⟩]) j = gathered m hpre d j := by
    intro j hj
    exact gather_value m d L hpre fs fr (tile_body.sl.dma0 m d L) rfl _ hin' j hj
  ihave Ho2 := (Entails.of_eq (pointsTo_congr hval)) $$ Ho'
  sl_step
  isplitl [Hl' Hx' Ho2]
  · isplitl [Hl']; · iexact Hl'
    isplitl [Hx']; · iexact Hx'
    iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.KernelIdeal.ScProof

end
-- ==== Proof.ScSplit.lean ====
/-
  How the three arrays of the gather stage go out to the 32 tiles and come back.  Tile (c, s) owns the output rows
  64·s + 32·c … 64·s + 32·c + 31: the 32 blocks are pairwise disjoint and cover all 1024 rows, so the output held
  whole is the 32 blocks held side by side, at any contents.  The label array and the centre table are only read:
  the full share of each is cut in two (one half per core) and each half in sixteen.
-/
import proofs.«217730_g43602507989570_cont_8to1c4_241_33_alg».proof.Proof.ScBase

noncomputable section

namespace Cert.KernelIdeal.ScProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_arg2_scv : Memref Cert.KernelIdeal.sig Kind.scVector Space.hbm Cert.KernelIdeal.S1024 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (m : (ℓ : Loc nD τ sig) → Buf (Elt F) ℓ) (ρ : Dev nD → PrngReg)
variable [FloatOps F]

/-- Tile `(c, s)` as a point of the stage's grid. -/
def coordsT (c : Fin 2) (s : Fin 16) : grid0.Coords :=
  fun | 0 => c | 1 => s | ⟨_ + 2, h⟩ => absurd h (Nat.not_lt.2 (Nat.le_add_left _ _))

omit [FloatOps F] in
theorem oRowSet_eq (L : grid0.Coords) : oRowSet L = (Rect.unit (s := S1024x128) (k0_off2 L) S32x128.size (k0_off2_inb L)).set := by
  show ((View.whole (main_v0_scv : Ref sig .scVector)).slice _).set = _
  rw [View.set_slice]; exact Finset.map_refl

omit [FloatOps F] in
/-- A row-column pair lies in tile `L`'s block exactly when its row does. -/
theorem mem_oRowSet (L : grid0.Coords) (j : S1024x128.Idx) :
    j ∈ oRowSet L ↔ 64 * (L 1).val + 32 * (L 0).val ≤ (j 0).val ∧ (j 0).val < 64 * (L 1).val + 32 * (L 0).val + 32 := by
  rw [oRowSet_eq, Rect.mem_set_unit, k0_off2_eq]
  constructor
  · intro h
    have h0 := h 0
    simpa using h0
  · intro h a
    match a with
    | ⟨0, _⟩ => simpa using h
    | ⟨1, _⟩ =>
      have := (j 1).isLt
      simp at this ⊢
      omega

omit [FloatOps F] in
theorem oRows_disjoint : ∀ t ∈ (Finset.univ : Finset (Fin 2 × Fin 16)), ∀ t' ∈ (Finset.univ : Finset (Fin 2 × Fin 16)), t ≠ t' →
    Disjoint (oRowSet (coordsT t.1 t.2)) (oRowSet (coordsT t'.1 t'.2)) := by
  rintro ⟨c, s⟩ - ⟨c', s'⟩ - hne
  refine Finset.disjoint_left.mpr fun j h h' => hne ?_
  rw [mem_oRowSet] at h h'
  dsimp only at h h'
  have hc : c.val = c'.val ∧ s.val = s'.val := by
    have h1 : (coordsT c s 0).val = c.val := rfl
    have h2 : (coordsT c s 1).val = s.val := rfl
    have h3 : (coordsT c' s' 0).val = c'.val := rfl
    have h4 : (coordsT c' s' 1).val = s'.val := rfl
    have := c.isLt; have := c'.isLt
    omega
  exact Prod.ext (Fin.ext hc.1) (Fin.ext hc.2)

omit [FloatOps F] in
theorem oRows_cover : (Finset.univ : Finset (Fin 2 × Fin 16)).biUnion (fun t => oRowSet (coordsT t.1 t.2)) = Finset.univ := by
  refine Finset.eq_univ_iff_forall.mpr fun j => Finset.mem_biUnion.mpr ?_
  have hj : (j 0).val < 1024 := (j 0).isLt
  refine ⟨(⟨((j 0).val % 64) / 32, by omega⟩, ⟨(j 0).val / 64, by omega⟩), Finset.mem_univ _, ?_⟩
  rw [mem_oRowSet]
  dsimp only
  have h1 : (coordsT ⟨((j 0).val % 64) / 32, by omega⟩ ⟨(j 0).val / 64, by omega⟩ 0).val = ((j 0).val % 64) / 32 := rfl
  have h2 : (coordsT ⟨((j 0).val % 64) / 32, by omega⟩ ⟨(j 0).val / 64, by omega⟩ 1).val = (j 0).val / 64 := rfl
  omega

variable (d : Dev nD)

omit [FloatOps F] in
/-- The output held whole is its 32 row blocks held side by side. -/
theorem oPts_tiles (f : Buf (Elt F) (oLoc d)) :
    (oLoc d ↦{fullShare} f : sProp 𝕄) = bigSep Finset.univ fun c : Fin 2 => bigSep Finset.univ fun s : Fin 16 => oLoc d ↦[oRowSet (coordsT c s)]{fullShare} f := by
  rw [← bigSep_univ_prod (fun t : Fin 2 × Fin 16 => (oLoc d ↦[oRowSet (coordsT t.1 t.2)]{fullShare} f : sProp 𝕄)),
    ← pointsTo_biUnion Finset.univ (ℓ := oLoc d) (fun t : Fin 2 × Fin 16 => oRowSet (coordsT t.1 t.2)) oRows_disjoint, oRows_cover]
  try rfl

omit [FloatOps F] in
/-- A table every tile reads: the full share is the 32 tiles' shares. -/
theorem shares_tiles (ℓ : Loc nD τ sig) (f : Buf (Elt F) ℓ) :
    (ℓ ↦{fullShare} f : sProp 𝕄) = bigSep Finset.univ fun c : Fin 2 => bigSep Finset.univ fun s : Fin 16 => ℓ ↦{tq c s} f := by
  rw [pointsTo_piecesOf Finset.univ f two_pos fullShare]
  refine bigSep_congr fun c _ => ?_
  exact pointsTo_piecesOf Finset.univ f sixteen_pos _

end Cert.KernelIdeal.ScProof

end
-- ==== Proof.ScObl.lean ====
/-
  The gather stage as the launch sees it.  The one call hands each core the sixteen tasks' resources side by side
  (so dealing a core's operands to its tiles, and gathering them back, is the identity); a task takes a read share of
  the label array and of the centre table and its 32 rows of the output at the launch contents, and brings back the
  shares and the rows at the gathered array.
-/
import proofs.«217730_g43602507989570_cont_8to1c4_241_33_alg».proof.Proof.ScTile
import proofs.«217730_g43602507989570_cont_8to1c4_241_33_alg».proof.Proof.ScSplit

noncomputable section

namespace Cert.KernelIdeal.ScProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_arg2_scv : Memref Cert.KernelIdeal.sig Kind.scVector Space.hbm Cert.KernelIdeal.S1024 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (m : (ℓ : Loc nD τ sig) → Buf (Elt F) ℓ) (ρ : Dev nD → PrngReg)
variable [FloatOps F]

/-- What a task on tile `L` takes, and what it brings back. -/
abbrev goRes (d : Dev nD) (L : grid0.Coords) : sProp 𝕄 :=
  iprop(lPts m d (tq (cL L) (jL L)) ∗ xPts m d (tq (cL L) (jL L)) ∗ oRowPts d L (m (oLoc d)))
abbrev tdRes (hpre : PreOK m) (d : Dev nD) (L : grid0.Coords) : sProp 𝕄 :=
  iprop(lPts m d (tq (cL L) (jL L)) ∗ xPts m d (tq (cL L) (jL L)) ∗ oRowPts d L (gathered m hpre d))

abbrev tileOf (c : Fin ((K (F := F)).nCore 0)) (i : Fin ((K (F := F)).nSub 0)) : grid0.Coords :=
  coordsT (Fin.cast nCore_zero c) (Fin.cast nSub_zero i)

def P (hpre : PreOK m) : (K (F := F)).Pay (nD := nD) (Val := Elt F) (Name := ℕ) (U := UU) where
  st := fun q d c => match q with | 0 => bigSep Finset.univ fun i : Fin ((K (F := F)).nSub 0) => goRes m d (tileOf c i)
  dn := fun q d c => match q with | 0 => bigSep Finset.univ fun i : Fin ((K (F := F)).nSub 0) => tdRes m hpre d (tileOf c i)
  go := fun q d c i => match q with | 0 => goRes m d (tileOf c i)
  td := fun q d c i => match q with | 0 => tdRes m hpre d (tileOf c i)
  x := fun _ _ => iprop(emp)

instance P_storable (hpre : PreOK m) : (P (F := F) m hpre).IsStorable where
  st q d c := match q with
    | 0 => (inferInstance : BI.Storable (upEmb : UEmb _ 𝕄) (bigSep Finset.univ fun i : Fin ((K (F := F)).nSub 0) => goRes m d (tileOf c i)))
  dn q d c := match q with
    | 0 => (inferInstance : BI.Storable (upEmb : UEmb _ 𝕄) (bigSep Finset.univ fun i : Fin ((K (F := F)).nSub 0) => tdRes m hpre d (tileOf c i)))
  go q d c i := match q with
    | 0 => (inferInstance : BI.Storable (upEmb : UEmb _ 𝕄) (goRes m d (tileOf c i)))
  td q d c i := match q with
    | 0 => (inferInstance : BI.Storable (upEmb : UEmb _ 𝕄) (tdRes m hpre d (tileOf c i)))

/-! ## The obligation -/

theorem defs₀_vector (c : Fin τ.nSC) (s : Fin τ.nSub) :
    defs₀ (F := F) (.scVector c s) 0 ()
      = SparseCore.onTile hcore0 hsub0 (fun c s => cc0_gather_rows (fun | 0 => c | 1 => s | ⟨_ + 2, h⟩ => absurd h (Nat.not_lt.2 (Nat.le_add_left _ _)))
          lV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsT ⟨_, hci.1⟩ ⟨_, hci.2⟩) hF hpre O W hO).trans (wp_mono frame _ _ fun _ => obl_post)

/-! ## A core's operands are its tasks' -/

theorem vecSplit (hpre : PreOK m) : (K (F := F)).VecSplit' (P m hpre) 0 := by
  intro d c
  show (bigSep Finset.univ fun i : Fin ((K (F := F)).nSub 0) => goRes m d (tileOf c i)) ⊢ |={Set.univ}=> iprop(
      (bigSep Finset.univ fun i : Fin ((K (F := F)).nSub 0) => goRes m d (tileOf c i))
      ∗ ((bigSep Finset.univ fun i : Fin ((K (F := F)).nSub 0) => tdRes m hpre d (tileOf c i))
          -∗ (bigSep Finset.univ fun i : Fin ((K (F := F)).nSub 0) => tdRes m hpre d (tileOf c i))))
  iintro H; imodintro
  isplitl [H]; · iexact H
  iintro H'; iexact H'

end Cert.KernelIdeal.ScProof

end
-- ==== Proof.KerTerm.lean ====
/-
  What the kernel's TensorCore stage leaves in its one output word, as a pure term of what it loads.

  The stage visits 25 column blocks of the logits, 4096 columns each.  Two per-sample accumulators start at
  zero; block `n < 24` adds to the first the block's row sums of `exp` and to the second the block's entry in
  the sample's label column (zero elsewhere); the last block does the same after masking the columns past
  100000 to `-∞`.  The output is then the mean of `log s - t` plus the scaled mean squared distance to the
  moved centres, which the last visit computes from the embeddings, the gathered centre rows and the labels
  (as a column and as a row).
-/
import proofs.«217730_g43602507989570_cont_8to1c4_241_33_alg».proof.Proof.Gen.KernelIdeal.Skeleton
import Idealize.ShloMosaic.Lib.ValueIdx

noncomputable section

namespace Cert.KernelIdeal.KerTerm

open Idealize.ShloMosaic Cert.KernelIdeal Cert.KernelIdeal.Gen

variable {F : FTy → Type} [FloatOps F]

/-- Block number `n` as a grid coordinate (numbers past 24 wrap; only 0 … 24 are used). -/
def cd (n : ℕ) : grid1.Coords := fun a => match a with | ⟨0, _⟩ => ⟨n % 25, Nat.mod_lt _ (by decide)⟩

/-- Column block `n` of the logits as the stage loads it: 4096 columns from column 4096·n; a lane whose column
    lies past the last column (block 24 only) reads the zero word — a stand-in: the stage masks those lanes. -/
def blkOf (lg : FVec F S1024x100000 .f32) (n : ℕ) : Vec F S1024x4096 .f32 := fun j =>
  if h : 4096 * n + (j 1).val < 100000 then lg (ValueIdx.ix2 (j 0) ⟨4096 * n + (j 1).val, h⟩)
  else FloatOps.ofBits .f32 0x00000000#32

/-- The first accumulator after the first `n` blocks (`n ≤ 24`). -/
def sAcc (blk : ℕ → Vec F S1024x4096 .f32) : ℕ → FVec F S1024x1 .f32
  | 0 => k1_pay1
  | n + 1 => k1_pay5 (blk n) (sAcc blk n)

/-- The second accumulator after the first `n` blocks (`n ≤ 24`). -/
def tAcc (blk : ℕ → Vec F S1024x4096 .f32) (labc : Vec F S1024x1 .i32) : ℕ → FVec F S1024x1 .f32
  | 0 => k1_pay2
  | n + 1 => k1_pay6 (cd n) (blk n) labc (tAcc blk labc n)

/-- Both accumulators after all 25 blocks: the last block masked. -/
def sFin (blk : ℕ → Vec F S1024x4096 .f32) : FVec F S1024x1 .f32 := k1_pay7 (cd 24) (blk 24) (sAcc blk 24)
def tFin (blk : ℕ → Vec F S1024x4096 .f32) (labc : Vec F S1024x1 .i32) : FVec F S1024x1 .f32 :=
  k1_pay8 (cd 24) (blk 24) labc (tAcc blk labc 24)

/-- The stage's output word. -/
def out (blk : ℕ → Vec F S1024x4096 .f32) (labc : Vec F S1024x1 .i32) (labr : Vec F S1x1024 .i32)
    (emb gath : Vec F S1024x128 .f32) : FVec F S1x1 .f32 :=
  k1_pay9 (k1_pay10 (sFin blk) (tFin blk labc)) (k1_pay11 emb gath labc labr)

end Cert.KernelIdeal.KerTerm

end
-- ==== Proof.TcData.lean ====
/-
  The TensorCore stage as the pipeline sees it, core by core: what every windowed array holds when the stage is
  entered, what each window's staging buffer holds after each of the 25 visits, and what the two per-sample
  accumulators hold between visits.

  The five inputs are only read: after every visit a staging buffer still holds the block that was fetched into
  it.  The one output word is stored at the last visit only, and is the pure term `KerTerm.out` of the blocks.
  Between visits `n - 1` and `n` (1 ≤ n ≤ 24) the accumulators hold the sums over the first `n` column blocks;
  after the last visit they hold the masked totals; before the first visit they hold anything.
-/
import proofs.«217730_g43602507989570_cont_8to1c4_241_33_alg».proof.Proof.KerTerm
import proofs.«217730_g43602507989570_cont_8to1c4_241_33_alg».proof.Proof.Gen.KernelIdeal.Launch
import proofs.«217730_g43602507989570_cont_8to1c4_241_33_alg».proof.Proof.Gen.KernelIdeal.Points
import Idealize.ShloMosaic.Lib.Pipeline.Kit
import Idealize.ShloMosaic.Lib.Pipeline.Regions

noncomputable section

namespace Cert.KernelIdeal.TcProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The stage prefetches no table: there is one way to admit it. -/
abbrev adm : (p : Fin 1) → (pcfgs (F := F) p).Adm := fun p => (cfgs p).toPCfg_adm

/-- The stage's pipeline, at that admission: `cfg1`. -/
abbrev pcfg : Cfg sig Λ₀ := Pipeline.pin (pcfgs (F := F)) adm 0

section Data

variable (c : Dev nD) (V : (b : Ref sig .tc) → Buf (Elt F) ((c.tc : Thread nD τ).loc b))

/-- Column block `n` of the logits held at entry. -/
abbrev lblk (n : ℕ) : Vec F S1024x4096 .f32 := KerTerm.blkOf (F := F) (V main_arg1) n

/-- The word the stage leaves in its output. -/
def outBlk : FVec F S1x1 .f32 :=
  KerTerm.out (F := F) (lblk c V) (V main_v1) (V main_v2) (V main_arg0) (V main_v0)

/-- What a fetch of window `w` at visit `t` leaves in a staging buffer: the array's block there, and on lanes
    the fetch does not reach (the last logits block overhangs the array) a word nothing reads. -/
def fetchedOf (w : Fin 6) (t : Fin cfg1.N) : (cfg1.win w).block.Idx → Elt F (cfg1.win w).elt :=
  (cfg1.win w).fill (grid1.coords t) (fun _ => Classical.arbitrary _)
    (((cfg1.win w).blk t).view.read (Elt F) (V (Pipeline.arrRef spec1 w)))

/-- The two accumulators between visits: anything before the first, the partial sums before visit `n` for
    1 ≤ n ≤ 24, the masked totals after the last. -/
def accs (n : ℕ) : sProp 𝕄 :=
  if n = 0 then Pipeline.scopedRest (Ix := Ix) (Name := Name) (U := U) (Lvl := Lvl) (Val := Elt F) spec1 c
  else if n ≤ 24 then
    iprop((((c.tc : Thread nD τ).loc cc1_scratch0) ↦{fullShare} (KerTerm.sAcc (F := F) (lblk c V) n : FVec F S1024x1 .f32))
      ∗ (((c.tc : Thread nD τ).loc cc1_scratch1) ↦{fullShare} (KerTerm.tAcc (F := F) (lblk c V) (V main_v1) n : FVec F S1024x1 .f32)))
  else
    iprop((((c.tc : Thread nD τ).loc cc1_scratch0) ↦{fullShare} (KerTerm.sFin (F := F) (lblk c V) : FVec F S1024x1 .f32))
      ∗ (((c.tc : Thread nD τ).loc cc1_scratch1) ↦{fullShare} (KerTerm.tFin (F := F) (lblk c V) (V main_v1) : FVec F S1024x1 .f32)))

/-- The stage's proof data on core `c`, entered with every TensorCore buffer at `V`; `B` bounds, at every visit,
    the waits the core has recorded outside the stage (the stage's body records none). -/
def dats (B : Set (SemLoc sig × Ix)) : Dat τ (Elt F) Ix Name U Lvl (pcfg (F := F)) c where
  A w := V (Pipeline.arrRef spec1 w)
  after w t := match w with
    | ⟨0, _⟩ => fetchedOf c V 0 t
    | ⟨1, _⟩ => fetchedOf c V 1 t
    | ⟨2, _⟩ => fetchedOf c V 2 t
    | ⟨3, _⟩ => fetchedOf c V 3 t
    | ⟨4, _⟩ => fetchedOf c V 4 t
    | ⟨5, _⟩ => outBlk c V
  Φ t := accs c V t.val
  q _ := fullShare
  owed _ := 0
  recorded _ := B

end Data

end Cert.KernelIdeal.TcProof

end
-- ==== Proof.TcLayout.lean ====
/-
  What a staging buffer holds when the body runs, for the five inputs: what the fetch of the visit's block put
  there.  For the logits this is column block `t` of the array on every lane whose column lies inside the array
  (all 4096 lanes at visits 0 … 23, the first 1696 at visit 24) and is unknown on the others.
-/
import proofs.«217730_g43602507989570_cont_8to1c4_241_33_alg».proof.Proof.TcData
import Idealize.ShloMosaic.Lib.Pipeline.Frame
import Idealize.ShloMosaic.Lib.Pipeline.FrameBody

set_option maxRecDepth 16384

noncomputable section

namespace Cert.KernelIdeal.TcProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The logits window's block index at visit `t`: row block 0, column block `t`. -/
theorem idx4 : ∀ t : Fin cfg1.N, win1_4.index t 0 = 0 ∧ win1_4.index t 1 = t.val :=
  (by decide +kernel : ∀ t : Fin grid1.N, win1_4.index t 0 = 0 ∧ win1_4.index t 1 = t.val)

/-- A coordinate whose place in the array is inside it is among those the (possibly cut) transfer moves. -/
theorem extent_of_lt (ix k d x : ℕ) (hx : x < k) (h : ix * k + x < d) : x < (Pipeline.Clip.of ix k d).extent k := by
  unfold Pipeline.Clip.of; split
  · exact hx
  · show x < d - ix * k; omega

/-- At visit `t` the fetch of the logits block reaches every lane whose column is inside the array. -/
theorem moved4 (t : Fin cfg1.N) (j : S1024x4096.Idx) (h : 4096 * t.val + (j 1).val < 100000) :
    win1_4.moved (grid1.coords t) j = true := by
  have h0 : (j 0).val < 1024 := (j 0).isLt
  have h1 : (j 1).val < 4096 := (j 1).isLt
  rw [Window.moved_iff]
  intro a
  match a with
  | ⟨0, _⟩ =>
    show (j 0).val < (Pipeline.Clip.of (win1_4.index t 0) 1024 1024).extent 1024
    rw [(idx4 t).1]; exact extent_of_lt 0 1024 1024 _ h0 (by omega)
  | ⟨1, _⟩ =>
    show (j 1).val < (Pipeline.Clip.of (win1_4.index t 1) 4096 100000).extent 4096
    rw [(idx4 t).2]; exact extent_of_lt _ 4096 100000 _ h1 (by omega)

section Data

variable (c : Dev nD) (V : (b : Ref sig .tc) → Buf (Elt F) ((c.tc : Thread nD τ).loc b)) (B : Set (SemLoc sig × Ix))

local notation "𝔻" => dats (Ix := Ix) (Name := Name) (U := U) (Lvl := Lvl) c V B

/-- What the logits' staging buffer holds after the fetch of visit `t`, on a lane whose column is inside the
    array: the array's entry there, which is what `KerTerm.blkOf` has on that lane. -/
theorem fetched4_apply (t : Fin cfg1.N) (d : S1024x4096.Idx → Elt F .f32) (j : S1024x4096.Idx)
    (h : 4096 * t.val + (j 1).val < 100000) :
    (𝔻).fetched (4 : Fin 6) t d j = KerTerm.blkOf (F := F) (V main_arg1) t.val j := by
  unfold KerTerm.blkOf
  rw [dif_pos h]
  unfold Dat.fetched Window.fill
  rw [dif_pos (moved4 t j h)]
  unfold Dat.blockOf
  show (V main_arg1) ((win1_4.blk t).view.emb _) = (V main_arg1) _
  refine congrArg (V main_arg1) (funext fun a => Fin.ext ?_)
  match a with
  | ⟨0, _⟩ =>
    show win1_4.index t 0 * 1024 + 1 * (j 0).val = (j 0).val
    rw [(idx4 t).1]; omega
  | ⟨1, _⟩ =>
    show win1_4.index t 1 * 4096 + 1 * (j 1).val = 4096 * t.val + (j 1).val
    rw [(idx4 t).2]; omega

/-- Before visit 24 the whole block is inside the array: the buffer holds `KerTerm.blkOf` exactly. -/
theorem fetched4_bulk (t : Fin cfg1.N) (ht : t.val < 24) (d : S1024x4096.Idx → Elt F .f32) :
    (𝔻).fetched (4 : Fin 6) t d = KerTerm.blkOf (F := F) (V main_arg1) t.val := by
  funext j
  have h1 : (j 1).val < 4096 := (j 1).isLt
  exact fetched4_apply c V B t d j (by omega)

/-- Every input's staging buffer holds, when the body runs, what a fetch of the visit's block puts there — whether
    or not the visit fetched it (the resident inputs are fetched once; nothing the body does changes them). -/
theorem before_in (w : Fin 6) (hw : w.val < 5) (t : Fin cfg1.N) (d) : (𝔻).before w t d = (𝔻).fetched w t d := by
  match w, hw with
  | ⟨0, _⟩, _ =>
    exact Dat.before_in_eq_fetched (𝔻) (0 : Fin 6) rfl (fun _ => rfl) (fun _ _ _ => rfl)
      (fun t => by dsimp only [dats, fetchedOf]; exact Window.cut_fill _ _ _ _) t d
  | ⟨1, _⟩, _ =>
    exact Dat.before_in_eq_fetched (𝔻) (1 : Fin 6) rfl (fun _ => rfl) (fun _ _ _ => rfl)
      (fun t => by dsimp only [dats, fetchedOf]; exact Window.cut_fill _ _ _ _) t d
  | ⟨2, _⟩, _ =>
    exact Dat.before_in_eq_fetched (𝔻) (2 : Fin 6) rfl (fun _ => rfl) (fun _ _ _ => rfl)
      (fun t => by dsimp only [dats, fetchedOf]; exact Window.cut_fill _ _ _ _) t d
  | ⟨3, _⟩, _ =>
    exact Dat.before_in_eq_fetched (𝔻) (3 : Fin 6) rfl (fun _ => rfl) (fun _ _ _ => rfl)
      (fun t => by dsimp only [dats, fetchedOf]; exact Window.cut_fill _ _ _ _) t d
  | ⟨4, _⟩, _ =>
    exact Dat.before_in_eq_fetched (𝔻) (4 : Fin 6) rfl (fun _ => rfl)
      (fun t t' h => funext fun a => by
        show Pipeline.Clip.of (win1_4.index t a) _ _ = Pipeline.Clip.of (win1_4.index t' a) _ _
        rw [show win1_4.index t = win1_4.index t' from h])
      (fun t => by dsimp only [dats, fetchedOf]; exact Window.cut_fill _ _ _ _) t d

/-- Window 0's block is its whole array: after a fetch the buffer holds the array. -/
theorem fetched0 (t : Fin cfg1.N) (d) : (𝔻).fetched (0 : Fin 6) t d = V main_v1 := by
  funext j
  unfold Dat.fetched Window.fill
  rw [dif_pos (show win1_0.moved (grid1.coords t) j = true from rfl)]
  unfold Dat.blockOf
  show (V main_v1) ((win1_0.blk t).view.emb _) = (V main_v1) j
  refine congrArg (V main_v1) (funext fun a => Fin.ext ?_)
  match a with
  | ⟨0, _⟩ => show 0 * 1024 + 1 * (j 0).val = (j 0).val; omega
  | ⟨1, _⟩ => show 0 * 1 + 1 * (j 1).val = (j 1).val; omega

/-- and the body leaves it so. -/
theorem after0 (t : Fin cfg1.N) : (𝔻).after (0 : Fin 6) t = V main_v1 :=
  (show (𝔻).after (0 : Fin 6) t = (𝔻).fetched (0 : Fin 6) t (fun _ => Classical.arbitrary _) from by
    dsimp only [dats, fetchedOf]; rfl).trans (fetched0 c V B t _)

/-- Window 1's block is its whole array: after a fetch the buffer holds the array. -/
theorem fetched1 (t : Fin cfg1.N) (d) : (𝔻).fetched (1 : Fin 6) t d = V main_v2 := by
  funext j
  unfold Dat.fetched Window.fill
  rw [dif_pos (show win1_1.moved (grid1.coords t) j = true from rfl)]
  unfold Dat.blockOf
  show (V main_v2) ((win1_1.blk t).view.emb _) = (V main_v2) j
  refine congrArg (V main_v2) (funext fun a => Fin.ext ?_)
  match a with
  | ⟨0, _⟩ => show 0 * 1 + 1 * (j 0).val = (j 0).val; omega
  | ⟨1, _⟩ => show 0 * 1024 + 1 * (j 1).val = (j 1).val; omega

/-- and the body leaves it so. -/
theorem after1 (t : Fin cfg1.N) : (𝔻).after (1 : Fin 6) t = V main_v2 :=
  (show (𝔻).after (1 : Fin 6) t = (𝔻).fetched (1 : Fin 6) t (fun _ => Classical.arbitrary _) from by
    dsimp only [dats, fetchedOf]; rfl).trans (fetched1 c V B t _)

/-- Window 2's block is its whole array: after a fetch the buffer holds the array. -/
theorem fetched2 (t : Fin cfg1.N) (d) : (𝔻).fetched (2 : Fin 6) t d = V main_arg0 := by
  funext j
  unfold Dat.fetched Window.fill
  rw [dif_pos (show win1_2.moved (grid1.coords t) j = true from rfl)]
  unfold Dat.blockOf
  show (V main_arg0) ((win1_2.blk t).view.emb _) = (V main_arg0) j
  refine congrArg (V main_arg0) (funext fun a => Fin.ext ?_)
  match a with
  | ⟨0, _⟩ => show 0 * 1024 + 1 * (j 0).val = (j 0).val; omega
  | ⟨1, _⟩ => show 0 * 128 + 1 * (j 1).val = (j 1).val; omega

/-- and the body leaves it so. -/
theorem after2 (t : Fin cfg1.N) : (𝔻).after (2 : Fin 6) t = V main_arg0 :=
  (show (𝔻).after (2 : Fin 6) t = (𝔻).fetched (2 : Fin 6) t (fun _ => Classical.arbitrary _) from by
    dsimp only [dats, fetchedOf]; rfl).trans (fetched2 c V B t _)

/-- Window 3's block is its whole array: after a fetch the buffer holds the array. -/
theorem fetched3 (t : Fin cfg1.N) (d) : (𝔻).fetched (3 : Fin 6) t d = V main_v0 := by
  funext j
  unfold Dat.fetched Window.fill
  rw [dif_pos (show win1_3.moved (grid1.coords t) j = true from rfl)]
  unfold Dat.blockOf
  show (V main_v0) ((win1_3.blk t).view.emb _) = (V main_v0) j
  refine congrArg (V main_v0) (funext fun a => Fin.ext ?_)
  match a with
  | ⟨0, _⟩ => show 0 * 1024 + 1 * (j 0).val = (j 0).val; omega
  | ⟨1, _⟩ => show 0 * 128 + 1 * (j 1).val = (j 1).val; omega

/-- and the body leaves it so. -/
theorem after3 (t : Fin cfg1.N) : (𝔻).after (3 : Fin 6) t = V main_v0 :=
  (show (𝔻).after (3 : Fin 6) t = (𝔻).fetched (3 : Fin 6) t (fun _ => Classical.arbitrary _) from by
    dsimp only [dats, fetchedOf]; rfl).trans (fetched3 c V B t _)

/-- What the body leaves in the logits' buffer: on the lanes the fetch reached, what it found. -/
theorem cut_after4 (t : Fin cfg1.N) :
    win1_4.cut (grid1.coords t) ((𝔻).after (4 : Fin 6) t) = (𝔻).blockOf (4 : Fin 6) t := by
  dsimp only [dats, fetchedOf]; exact Window.cut_fill _ _ _ _

end Data

end Cert.KernelIdeal.TcProof

end
-- ==== Proof.TcMask.lean ====
/-
  Two facts about the last visit's arithmetic, for any float instance.

  At visit 24 lane `k` of a loaded block stands for column `98304 + k`; only the lanes with column below 100000 lie
  inside the logits.  The masked sum of exponentials replaces every other lane by `-∞` before anything reads it, and
  the label pick selects a lane only where its column IS the sample's label, which is below 100000.  So both results
  depend on the loaded block only through its lanes inside the array.
-/
import proofs.«217730_g43602507989570_cont_8to1c4_241_33_alg».proof.Proof.KerTerm
import Idealize.ShloMosaic.Lib.ValueIdx
import Idealize.ShloMosaic.Lib.Pipeline.Value

noncomputable section

namespace Cert.KernelIdeal.TcProof

open Cert.KernelIdeal Cert.KernelIdeal.Gen
open Idealize.ShloMosaic

variable {F : FTy → Type} [FloatOps F]

/-- The stage's coordinate at visit `t` is `t` itself. -/
theorem cd_coords (t : Fin grid1.N) : KerTerm.cd t.val = grid1.coords t := by
  funext a
  match a with
  | ⟨0, _⟩ =>
    apply Fin.ext
    show t.val % 25 = t.val / grid1.stride 0 % grid1.bound 0
    rw [show grid1.stride 0 = 1 from by decide, Nat.div_one]
    rfl

/-- Lane `j` of the column numbers at visit `n`: column `4096·n + j`. -/
theorem pay3_apply (n : ℕ) (hn : n < 25) (j : S1024x4096.Idx) :
    k1_pay3 (KerTerm.cd n) j = BitVec.ofNat 32 (4096 * n + (j 1).val) := by
  have hj : (j 1).val < 4096 := (j 1).isLt
  show IntOp.addi (IntOp.muli (BitVec.ofNat 32 (n % 25)) 4096#32) (BitVec.ofNat 32 (0 * 4096 + (j 1).val)) = _
  rw [Nat.mod_eq_of_lt hn]
  apply BitVec.eq_of_toNat_eq
  simp only [IntOp.addi, IntOp.muli, BitVec.toNat_add, BitVec.toNat_mul, BitVec.toNat_ofNat]
  omega

theorem ofBool_eq_one (b : Bool) : BitVec.ofBool b = 1#1 ↔ b = true := by cases b <;> decide

/-- A small column number is below 100000 as a signed word iff it is as a number. -/
theorem slt_iff (m : ℕ) (hm : m < 2147483648) : IntOp.cmpi .slt (BitVec.ofNat 32 m) 100000#32 = 1#1 ↔ m < 100000 := by
  have e1 : (BitVec.ofNat 32 m).toInt = (m : Int) := by
    rw [BitVec.toInt_eq_toNat_cond]
    simp only [BitVec.toNat_ofNat]
    rw [Nat.mod_eq_of_lt (by omega)]
    split <;> omega
  have e2 : (100000#32 : BitVec 32).toInt = 100000 := by decide
  show BitVec.ofBool ((BitVec.ofNat 32 m).slt 100000#32) = 1#1 ↔ _
  rw [ofBool_eq_one, BitVec.slt, e1, e2, decide_eq_true_eq]
  omega

/-- A word equals a small column number only if it is that number. -/
theorem eq_iff (m : ℕ) (hm : m < 4294967296) (x : BitVec 32) : IntOp.cmpi .eq (BitVec.ofNat 32 m) x = 1#1 → x.toNat = m := by
  show BitVec.ofBool (BitVec.ofNat 32 m == x) = 1#1 → _
  rw [ofBool_eq_one]
  intro h
  have := eq_of_beq h
  rw [← this, BitVec.toNat_ofNat, Nat.mod_eq_of_lt hm]

/-- The loaded block with every lane past the last column replaced by `-∞`. -/
def maskSel (i : grid1.Coords) (X : Vec F S1024x4096 .f32) : Vec F S1024x4096 .f32 :=
  select (cmpi .slt (k1_pay3 i) (broadcast S1024x4096 100000#32)) X
    (broadcast S1024x4096 (Scalar.ofBits .f32 0xFF800000#32 : F .f32))

/-- The loaded block with every lane but the sample's label column replaced by zero. -/
def labSel (i : grid1.Coords) (X : Vec F S1024x4096 .f32) (lab : Vec F S1024x1 .i32) : Vec F S1024x4096 .f32 :=
  select (cmpi .eq (k1_pay3 i) (broadcastTo S1024x4096 (k1_pay4 (F := F) lab) broadcasts_S1024x1_S1024x4096)) X
    (broadcast S1024x4096 (Scalar.ofBits .f32 0x00000000#32 : F .f32))

/-- What the first accumulator's last update does with the masked block. -/
def sumExp (Z : Vec F S1024x4096 .f32) (s : Vec F S1024x1 .f32) : FVec F S1024x1 .f32 :=
  shapeCast S1024x1 (addf s (shapeCast S1024x1 (multiReduction .add [1] S1024 (exp Z) 0x00000000#32 reduces_S1024x4096_S1024 (.inl rfl) rfl) shapeCasts_S1024_S1024x1)) shapeCasts_S1024x1_S1024x1

/-- What the second accumulator's update does with the picked block. -/
def sumPick (Z : Vec F S1024x4096 .f32) (t : Vec F S1024x1 .f32) : FVec F S1024x1 .f32 :=
  shapeCast S1024x1 (addf t (shapeCast S1024x1 (multiReduction .add [1] S1024 Z 0x00000000#32 reduces_S1024x4096_S1024 (.inl rfl) rfl) shapeCasts_S1024_S1024x1)) shapeCasts_S1024x1_S1024x1

theorem pay7_eq (i : grid1.Coords) (X : Vec F S1024x4096 .f32) (s : Vec F S1024x1 .f32) :
    k1_pay7 i X s = sumExp (maskSel i X) s := rfl

theorem pay8_eq (i : grid1.Coords) (X : Vec F S1024x4096 .f32) (lab : Vec F S1024x1 .i32) (t : Vec F S1024x1 .f32) :
    k1_pay8 i X lab t = sumPick (labSel i X lab) t := rfl

/-- The masked block depends only on the lanes inside the array. -/
theorem maskSel_congr (X X' : Vec F S1024x4096 .f32)
    (h : ∀ j : S1024x4096.Idx, 4096 * 24 + (j 1).val < 100000 → X j = X' j) :
    maskSel (KerTerm.cd 24) X = maskSel (KerTerm.cd 24) X' := by
  funext j
  unfold maskSel
  rw [ValueIdx.select_apply, ValueIdx.select_apply]
  unfold Scalar.select
  split
  · next hm =>
    refine h j ?_
    have hm' : IntOp.cmpi .slt (k1_pay3 (KerTerm.cd 24) j) 100000#32 = 1#1 := hm
    rw [pay3_apply 24 (by omega) j] at hm'
    exact (slt_iff _ (by have hj1 : (j 1).val < 4096 := (j 1).isLt; omega)).mp hm'
  · rfl

/-- The picked block depends only on the lanes inside the array, the labels being class numbers. -/
theorem labSel_congr (X X' : Vec F S1024x4096 .f32) (lab : Vec F S1024x1 .i32)
    (hlab : ∀ k : S1024x1.Idx, (lab k : BitVec 32).toNat < 100000)
    (h : ∀ j : S1024x4096.Idx, 4096 * 24 + (j 1).val < 100000 → X j = X' j) :
    labSel (KerTerm.cd 24) X lab = labSel (KerTerm.cd 24) X' lab := by
  funext j
  unfold labSel
  rw [ValueIdx.select_apply, ValueIdx.select_apply]
  unfold Scalar.select
  split
  · next hm =>
    refine h j ?_
    obtain ⟨k, hk⟩ : ∃ k, broadcastTo S1024x4096 (k1_pay4 (F := F) lab) broadcasts_S1024x1_S1024x4096 j = lab k := ⟨_, rfl⟩
    have hm' : IntOp.cmpi .eq (k1_pay3 (KerTerm.cd 24) j) (lab k) = 1#1 := hk ▸ hm
    rw [pay3_apply 24 (by omega) j] at hm'
    have := eq_iff _ (by have hj1 : (j 1).val < 4096 := (j 1).isLt; omega) _ hm'
    have := hlab k
    omega
  · rfl

/-- The last visit's two updates see the loaded block only through its lanes inside the array. -/
theorem pay7_congr (X X' : Vec F S1024x4096 .f32) (s : Vec F S1024x1 .f32)
    (h : ∀ j : S1024x4096.Idx, 4096 * 24 + (j 1).val < 100000 → X j = X' j) :
    k1_pay7 (KerTerm.cd 24) X s = k1_pay7 (KerTerm.cd 24) X' s := by
  rw [pay7_eq, pay7_eq, maskSel_congr X X' h]

theorem pay8_congr (X X' : Vec F S1024x4096 .f32) (lab : Vec F S1024x1 .i32) (t : Vec F S1024x1 .f32)
    (hlab : ∀ k : S1024x1.Idx, (lab k : BitVec 32).toNat < 100000)
    (h : ∀ j : S1024x4096.Idx, 4096 * 24 + (j 1).val < 100000 → X j = X' j) :
    k1_pay8 (KerTerm.cd 24) X lab t = k1_pay8 (KerTerm.cd 24) X' lab t := by
  rw [pay8_eq, pay8_eq, labSel_congr X X' lab hlab h]

end Cert.KernelIdeal.TcProof

end
-- ==== Proof.TcRun.lean ====
/-
  The stage's body at one visit, run on symbolic whole buffers: which buffers it stores into and what it stores,
  in each of the three kinds of visit (the first, a middle one, the last).  Every access is of a whole buffer, so a
  load reads the buffer's contents and a store replaces them.
-/
import proofs.«217730_g43602507989570_cont_8to1c4_241_33_alg».proof.Proof.TcData
import Idealize.ShloMosaic.Lib.Tactic
import Idealize.ShloMosaic.Lib.Pipeline.Frame
import Idealize.ShloMosaic.Lib.Pipeline.FrameBody
import Idealize.ShloMosaic.Lib.Pipeline.Value
import Idealize.ShloMosaic.Lib.WholeRead

set_option maxRecDepth 16384

noncomputable section

namespace Cert.KernelIdeal.TcProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The three guards of the body other than the last, as propositions on the visit's coordinate: "this is visit 0",
    "this visit is before visit 24", "this is visit 24". -/
abbrev g1 (i : grid1.Coords) : Prop :=
  Scalar.cmpi .ne (Scalar.extui (Scalar.cmpi .eq (BitVec.ofNat 32 (i 0).val) 0#32) : BitVec 32) 0#32 = 1#1
abbrev g2 (i : grid1.Coords) : Prop :=
  Scalar.cmpi .ne (Scalar.extui (Scalar.cmpi .slt (BitVec.ofNat 32 (i 0).val) 24#32) : BitVec 32) 0#32 = 1#1
abbrev g3 (i : grid1.Coords) : Prop :=
  Scalar.cmpi .ne (Scalar.extui (Scalar.cmpi .eq (BitVec.ofNat 32 (i 0).val) 24#32) : BitVec 32) 0#32 = 1#1

/-- The offset of every access: the origin. -/
theorem hz2 : (![0, 0] : Fin 2 → Nat) = fun _ => 0 := funext fun a => by fin_cases a <;> rfl

section Whole
variable {S : Shape} {e : EltTy}

/-- A whole-buffer load of a whole memref held at the contents that read `X` reads `X`. -/
theorem readAt_whole (m : Memref sig .tc .vmem S e) (h : m.IsWhole) (X : S.Idx → Elt F e) {off : Fin S.rank → Nat}
    (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- After a whole-buffer store, whatever came before, the memref reads the payload. -/
theorem read_writes_whole (m : Memref sig .tc .vmem S e) (f : m.view.ty.Contents (Elt F)) {off : Fin S.rank → Nat}
    (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

set_option maxHeartbeats 1000000 in
/-- A middle visit: each accumulator is read and stored once. -/
theorem runBulk (c : Dev nD) (i : grid1.Coords) (arg1 : Memref sig .tc .vmem S1024x1 .i32) (harg1 : arg1.IsWhole) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x4096 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole)
    (h1 : ¬g1 i) (h2 : g2 i) (h3 : ¬g3 i) (h4 : ¬k1_cond4 i = 1#1)
    (lab : Vec F S1024x1 .i32) (X : Vec F S1024x4096 .f32) (s t : Vec F S1024x1 .f32)
    (E : Set Name) (K : PUnit → sProp 𝕄) :
    iprop(owns (c : Thread nD τ) arg1 fullShare lab ∗ owns (c : Thread nD τ) arg5 fullShare X
        ∗ owns (c : Thread nD τ) arg7 fullShare s ∗ owns (c : Thread nD τ) arg8 fullShare t
        ∗ (iprop(owns (c : Thread nD τ) arg1 fullShare lab ∗ owns (c : Thread nD τ) arg5 fullShare X
            ∗ owns (c : Thread nD τ) arg7 fullShare (k1_pay5 X s)
            ∗ owns (c : Thread nD τ) arg8 fullShare (k1_pay6 i X lab t)) -∗ K ⟨⟩))
      ⊢ wp frame (wpE (defs₀ (F := F)) Variants.none c none) E (cc1__tc_body i arg1 harg1 arg2 harg2 arg3 harg3 arg4 harg4 arg5 harg5 arg6 harg6 arg7 harg7 arg8 harg8) K := by
  simp only [cc1__tc_body_eq_skeleton]; unfold cc1__tc_body_skel
  unfold owns
  iintro ⟨⟨%f1, %hf1, H1⟩, ⟨%f5, %hf5, H5⟩, ⟨%f7, %hf7, H7⟩, ⟨%f8, %hf8, H8⟩, Hk⟩
  obtain rfl := harg1.eq_unread hf1; obtain rfl := harg5.eq_unread hf5
  obtain rfl := harg7.eq_unread hf7; obtain rfl := harg8.eq_unread hf8
  sl_exec (disch := first | sl_exact h1 | sl_exact h2 | sl_exact h3 | sl_exact h4)
  sl_step
  iapply Hk
  isplitl [H1]
  · iexists _; isplitr; · ipureintro; exact harg1.read_unread _
    iexact H1
  isplitl [H5]
  · iexists _; isplitr; · ipureintro; exact harg5.read_unread _
    iexact H5
  isplitl [H7]
  · iexists _; isplitr; swap; · iexact H7
    ipureintro
    rw [read_writes_whole _ _ hz2, readAt_whole _ harg5 X hz2, readAt_whole _ harg7 s hz2]
  · iexists _; isplitr; swap; · iexact H8
    ipureintro
    rw [read_writes_whole _ _ hz2, readAt_whole _ harg5 X hz2, readAt_whole _ harg1 lab hz2, readAt_whole _ harg8 t hz2]

end Cert.KernelIdeal.TcProof

end
-- ==== Proof.TcRunFirst.lean ====
/-
  The stage's body at the first visit, run on symbolic whole buffers.
-/
import proofs.«217730_g43602507989570_cont_8to1c4_241_33_alg».proof.Proof.TcRun

set_option maxRecDepth 16384

noncomputable section

namespace Cert.KernelIdeal.TcProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- The first visit: both accumulators are zeroed, then read and stored as at a middle visit. -/
theorem runFirst (c : Dev nD) (i : grid1.Coords) (arg1 : Memref sig .tc .vmem S1024x1 .i32) (harg1 : arg1.IsWhole) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x4096 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole)
    (h1 : g1 i) (h2 : g2 i) (h3 : ¬g3 i) (h4 : ¬k1_cond4 i = 1#1)
    (lab : Vec F S1024x1 .i32) (X : Vec F S1024x4096 .f32)
    (E : Set Name) (K : PUnit → sProp 𝕄) :
    iprop(owns (c : Thread nD τ) arg1 fullShare lab ∗ owns (c : Thread nD τ) arg5 fullShare X
        ∗ (∃ s, owns (c : Thread nD τ) arg7 fullShare s) ∗ (∃ t, owns (c : Thread nD τ) arg8 fullShare t)
        ∗ (iprop(owns (c : Thread nD τ) arg1 fullShare lab ∗ owns (c : Thread nD τ) arg5 fullShare X
            ∗ owns (c : Thread nD τ) arg7 fullShare (k1_pay5 X k1_pay1)
            ∗ owns (c : Thread nD τ) arg8 fullShare (k1_pay6 i X lab k1_pay2)) -∗ K ⟨⟩))
      ⊢ wp frame (wpE (defs₀ (F := F)) Variants.none c none) E (cc1__tc_body i arg1 harg1 arg2 harg2 arg3 harg3 arg4 harg4 arg5 harg5 arg6 harg6 arg7 harg7 arg8 harg8) K := by
  simp only [cc1__tc_body_eq_skeleton]; unfold cc1__tc_body_skel
  unfold owns
  iintro ⟨⟨%f1, %hf1, H1⟩, ⟨%f5, %hf5, H5⟩, ⟨%s0, %f7, -, H7⟩, ⟨%t0, %f8, -, H8⟩, Hk⟩
  obtain rfl := harg1.eq_unread hf1; obtain rfl := harg5.eq_unread hf5
  sl_exec (disch := first | sl_exact h1 | sl_exact h2 | sl_exact h3 | sl_exact h4)
  sl_step
  iapply Hk
  isplitl [H1]
  · iexists _; isplitr; · ipureintro; exact harg1.read_unread _
    iexact H1
  isplitl [H5]
  · iexists _; isplitr; · ipureintro; exact harg5.read_unread _
    iexact H5
  isplitl [H7]
  · iexists _; isplitr; swap; · iexact H7
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]
  · iexists _; isplitr; swap; · iexact H8
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]

end Cert.KernelIdeal.TcProof

end
-- ==== Proof.TcRunLast.lean ====
/-
  The stage's body at the last visit, run on symbolic whole buffers.
-/
import proofs.«217730_g43602507989570_cont_8to1c4_241_33_alg».proof.Proof.TcRun

set_option maxRecDepth 16384

noncomputable section

namespace Cert.KernelIdeal.TcProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 2000000 in
/-- The last visit: the accumulators take the masked block, then the output word is computed from them and from the
    embeddings, the gathered rows and the labels, and stored. -/
theorem runLast (c : Dev nD) (i : grid1.Coords) (arg1 : Memref sig .tc .vmem S1024x1 .i32) (harg1 : arg1.IsWhole) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x4096 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole)
    (h1 : ¬g1 i) (h2 : ¬g2 i) (h3 : g3 i) (h4 : k1_cond4 i = 1#1)
    (lab : Vec F S1024x1 .i32) (labr : Vec F S1x1024 .i32) (emb gath : Vec F S1024x128 .f32)
    (X : Vec F S1024x4096 .f32) (s t : Vec F S1024x1 .f32)
    (E : Set Name) (K : PUnit → sProp 𝕄) :
    iprop(owns (c : Thread nD τ) arg1 fullShare lab ∗ owns (c : Thread nD τ) arg2 fullShare labr
        ∗ owns (c : Thread nD τ) arg3 fullShare emb ∗ owns (c : Thread nD τ) arg4 fullShare gath
        ∗ owns (c : Thread nD τ) arg5 fullShare X ∗ (∃ o, owns (c : Thread nD τ) arg6 fullShare o)
        ∗ owns (c : Thread nD τ) arg7 fullShare s ∗ owns (c : Thread nD τ) arg8 fullShare t
        ∗ (iprop(owns (c : Thread nD τ) arg1 fullShare lab ∗ owns (c : Thread nD τ) arg2 fullShare labr
            ∗ owns (c : Thread nD τ) arg3 fullShare emb ∗ owns (c : Thread nD τ) arg4 fullShare gath
            ∗ owns (c : Thread nD τ) arg5 fullShare X
            ∗ owns (c : Thread nD τ) arg6 fullShare
                (k1_pay9 (k1_pay10 (k1_pay7 i X s) (k1_pay8 i X lab t)) (k1_pay11 emb gath lab labr))
            ∗ owns (c : Thread nD τ) arg7 fullShare (k1_pay7 i X s)
            ∗ owns (c : Thread nD τ) arg8 fullShare (k1_pay8 i X lab t)) -∗ K ⟨⟩))
      ⊢ wp frame (wpE (defs₀ (F := F)) Variants.none c none) E (cc1__tc_body i arg1 harg1 arg2 harg2 arg3 harg3 arg4 harg4 arg5 harg5 arg6 harg6 arg7 harg7 arg8 harg8) K := by
  simp only [cc1__tc_body_eq_skeleton]; unfold cc1__tc_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%o0, %f6, -, H6⟩, ⟨%f7, %hf7, H7⟩, ⟨%f8, %hf8, H8⟩, Hk⟩
  obtain rfl := harg1.eq_unread hf1; obtain rfl := harg2.eq_unread hf2
  obtain rfl := harg3.eq_unread hf3; obtain rfl := harg4.eq_unread hf4
  obtain rfl := harg5.eq_unread hf5
  obtain rfl := harg7.eq_unread hf7; obtain rfl := harg8.eq_unread hf8
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]
  isplitl [H7]
  · iexists _; isplitr; swap; · iexact H7
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]
  · iexists _; isplitr; swap; · iexact H8
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]

end Cert.KernelIdeal.TcProof

end
-- ==== Proof.TcBody.lean ====
/-
  The body obligation of the TensorCore stage: at each of the 25 visits, from the accumulators' invariant and the
  six staging buffers as the pipeline hands them over, the body runs to the invariant of the next visit and the
  buffers as the proof data says it leaves them.  Three kinds of visit: the first zeroes the accumulators and adds
  block 0; visits 1 … 23 add their block; visit 24 adds the masked last block — whose lanes past the last column the
  fetch did not reach, and which the mask and the label pick never let through — and stores the output word.
-/
import proofs.«217730_g43602507989570_cont_8to1c4_241_33_alg».proof.Proof.TcLayout
import proofs.«217730_g43602507989570_cont_8to1c4_241_33_alg».proof.Proof.TcMask
import proofs.«217730_g43602507989570_cont_8to1c4_241_33_alg».proof.Proof.TcRunFirst
import proofs.«217730_g43602507989570_cont_8to1c4_241_33_alg».proof.Proof.TcRunLast

set_option maxRecDepth 16384

noncomputable section

namespace Cert.KernelIdeal.TcProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The guards, visit by visit -/

theorem g1_iff : ∀ t : Fin grid1.N, g1 (grid1.coords t) ↔ t.val = 0 := by decide +kernel
theorem g2_iff : ∀ t : Fin grid1.N, g2 (grid1.coords t) ↔ t.val < 24 := by decide +kernel
theorem g3_iff : ∀ t : Fin grid1.N, g3 (grid1.coords t) ↔ t.val = 24 := by decide +kernel
theorem cond4_iff : ∀ t : Fin grid1.N, k1_cond4 (grid1.coords t) = 1#1 ↔ t.val = 24 := by decide +kernel

/-! ## What the obligation asks of a window's buffer after the body -/

/-- At a visit where the window is live, the buffer is left at what the proof data names (for a window whose last
    block overhangs its array: on the lanes the transfers move). -/
theorem leaves_live {cfg : Cfg sig Λ₀} {c : Dev nD} (dat : Dat τ (Elt F) Ix Name U Lvl cfg c) (w : Fin cfg.W) (t : Fin cfg.N)
    (hi : cfg.idle w (cfg.grid.coords t) = false) :
    dat.leaves w t = (match cfg.loose w with
      | true => iprop(∃ d, owns (c.tc : Thread nD τ) ((cfg.win w).stage (cfg.slots t w)) fullShare
          ((cfg.win w).fill (cfg.grid.coords t) d ((cfg.win w).cut (cfg.grid.coords t) (dat.after w t))))
      | false => owns (c.tc : Thread nD τ) ((cfg.win w).stage (cfg.slots t w)) fullShare (dat.after w t) : sProp 𝕄) := by
  unfold Dat.leaves; rw [hi]; rfl

section Data

variable (c : Dev nD) (V : (b : Ref sig .tc) → Buf (Elt F) ((c.tc : Thread nD τ).loc b)) (B : Set (SemLoc sig × Ix)) (ι : Ix)

local notation "𝔻" => dats (Ix := Ix) (Name := Name) (U := U) (Lvl := Lvl) c V B

/-! ### The accumulators' invariant, case by case -/

theorem accs_zero : accs (Ix := Ix) (Name := Name) (U := U) (Lvl := Lvl) c V 0
    = iprop((∃ f, owns (c.tc : Thread nD τ) (Memref.whole cc1_scratch0 : Memref sig .tc .vmem S1024x1 .f32) fullShare f) ∗ (∃ f, owns (c.tc : Thread nD τ) (Memref.whole cc1_scratch1 : Memref sig .tc .vmem S1024x1 .f32) fullShare f)) := by
  unfold accs; rw [if_pos rfl, scopedRest1_eq]; simp only [owns_whole]

theorem accs_mid (n : ℕ) (h0 : n ≠ 0) (h24 : n ≤ 24) : accs (Ix := Ix) (Name := Name) (U := U) (Lvl := Lvl) c V n
    = iprop(owns (c.tc : Thread nD τ) (Memref.whole cc1_scratch0 : Memref sig .tc .vmem S1024x1 .f32) fullShare (KerTerm.sAcc (F := F) (lblk c V) n)
      ∗ owns (c.tc : Thread nD τ) (Memref.whole cc1_scratch1 : Memref sig .tc .vmem S1024x1 .f32) fullShare (KerTerm.tAcc (F := F) (lblk c V) (V main_v1) n)) := by
  unfold accs; rw [if_neg h0, if_pos h24, owns_whole, owns_whole]

theorem accs_end (n : ℕ) (h : 24 < n) : accs (Ix := Ix) (Name := Name) (U := U) (Lvl := Lvl) c V n
    = iprop(owns (c.tc : Thread nD τ) (Memref.whole cc1_scratch0 : Memref sig .tc .vmem S1024x1 .f32) fullShare (KerTerm.sFin (F := F) (lblk c V))
      ∗ owns (c.tc : Thread nD τ) (Memref.whole cc1_scratch1 : Memref sig .tc .vmem S1024x1 .f32) fullShare (KerTerm.tFin (F := F) (lblk c V) (V main_v1))) := by
  unfold accs; rw [if_neg (by omega), if_neg (by omega), owns_whole, owns_whole]

/-! ### What each window's buffer is left at -/

theorem leaves0 (t : Fin cfg1.N) : (𝔻).leaves (0 : Fin 6) t = owns (c.tc : Thread nD τ) (st1_0 t) fullShare (V main_v1) := by
  rw [leaves_live (𝔻) (0 : Fin 6) t rfl]; show owns _ _ _ ((𝔻).after (0 : Fin 6) t) = _; rw [after0]
theorem leaves1 (t : Fin cfg1.N) : (𝔻).leaves (1 : Fin 6) t = owns (c.tc : Thread nD τ) (st1_1 t) fullShare (V main_v2) := by
  rw [leaves_live (𝔻) (1 : Fin 6) t rfl]; show owns _ _ _ ((𝔻).after (1 : Fin 6) t) = _; rw [after1]
theorem leaves2 (t : Fin cfg1.N) : (𝔻).leaves (2 : Fin 6) t = owns (c.tc : Thread nD τ) (st1_2 t) fullShare (V main_arg0) := by
  rw [leaves_live (𝔻) (2 : Fin 6) t rfl]; show owns _ _ _ ((𝔻).after (2 : Fin 6) t) = _; rw [after2]
theorem leaves3 (t : Fin cfg1.N) : (𝔻).leaves (3 : Fin 6) t = owns (c.tc : Thread nD τ) (st1_3 t) fullShare (V main_v0) := by
  rw [leaves_live (𝔻) (3 : Fin 6) t rfl]; show owns _ _ _ ((𝔻).after (3 : Fin 6) t) = _; rw [after3]

theorem leaves4 (t : Fin cfg1.N) : (𝔻).leaves (4 : Fin 6) t
    = iprop(∃ d, owns (c.tc : Thread nD τ) (st1_4 t) fullShare ((𝔻).fetched (4 : Fin 6) t d)) := by
  rw [leaves_live (𝔻) (4 : Fin 6) t rfl]
  show iprop(∃ d, owns _ _ _ (win1_4.fill (grid1.coords t) d (win1_4.cut (grid1.coords t) ((𝔻).after (4 : Fin 6) t)))) = _
  rw [cut_after4]; rfl

theorem idle5 (t : Fin cfg1.N) (ht : t.val ≠ 24) : (pcfg (F := F)).idle (5 : Fin 6) ((pcfg (F := F)).grid.coords t) = true := by
  show (!(k1_cond4 (grid1.coords t) == 1#1)) = true
  rw [Bool.not_eq_true', beq_eq_false_iff_ne]
  exact fun h => ht ((cond4_iff t).mp h)

theorem live5 (t : Fin cfg1.N) (ht : t.val = 24) : (pcfg (F := F)).idle (5 : Fin 6) ((pcfg (F := F)).grid.coords t) = false := by
  show (!(k1_cond4 (grid1.coords t) == 1#1)) = false
  rw [Bool.not_eq_false', beq_iff_eq]
  exact (cond4_iff t).mpr ht

theorem leaves5_idle (t : Fin cfg1.N) (ht : t.val ≠ 24) : (𝔻).leaves (5 : Fin 6) t
    = iprop(∃ d, owns (c.tc : Thread nD τ) (st1_5 t) fullShare ((𝔻).before (5 : Fin 6) t d)) :=
  (𝔻).leaves_idle (5 : Fin 6) t (idle5 t ht)
    (Bool.eq_false_iff.mpr fun h => by have := (flush1_5 t).mp h; have := lt_of_lt_of_eq t.isLt N_1; omega)

theorem leaves5_last (t : Fin cfg1.N) (ht : t.val = 24) : (𝔻).leaves (5 : Fin 6) t
    = owns (c.tc : Thread nD τ) (st1_5 t) fullShare (outBlk c V) := by
  rw [leaves_live (𝔻) (5 : Fin 6) t (live5 t ht)]; rfl

/-! ### The accumulators' recursion, at the stage's coordinates -/

theorem sAcc_succ (t : Fin cfg1.N) : KerTerm.sAcc (F := F) (lblk c V) (t.val + 1) = k1_pay5 (lblk c V t.val) (KerTerm.sAcc (F := F) (lblk c V) t.val) := rfl

theorem tAcc_succ (t : Fin cfg1.N) : KerTerm.tAcc (F := F) (lblk c V) (V main_v1) (t.val + 1)
    = k1_pay6 (grid1.coords t) (lblk c V t.val) (V main_v1) (KerTerm.tAcc (F := F) (lblk c V) (V main_v1) t.val) := by
  rw [← cd_coords t]; rfl

end Data

section Body

variable (c : Dev nD) (V : (b : Ref sig .tc) → Buf (Elt F) ((c.tc : Thread nD τ).loc b)) (B : Set (SemLoc sig × Ix)) (ι : Ix)
  (hlab : ∀ j : S1024x1.Idx, (V main_v1 j : BitVec 32).toNat < 100000)

local notation "𝔻" => dats (Ix := Ix) (Name := Name) (U := U) (Lvl := Lvl) c V B

include hlab in
set_option maxHeartbeats 4000000 in
/-- The body at any visit. -/
theorem sound_body (t : Fin cfg1.N) :
    iprop((𝔻).Φ t.castSucc ∗ (𝔻).owesAt ι t.castSucc
      ∗ (∃ d, owns (c.tc : Thread nD τ) (st1_0 t) fullShare ((𝔻).before (0 : Fin 6) t d))
      ∗ (∃ d, owns (c.tc : Thread nD τ) (st1_1 t) fullShare ((𝔻).before (1 : Fin 6) t d))
      ∗ (∃ d, owns (c.tc : Thread nD τ) (st1_2 t) fullShare ((𝔻).before (2 : Fin 6) t d))
      ∗ (∃ d, owns (c.tc : Thread nD τ) (st1_3 t) fullShare ((𝔻).before (3 : Fin 6) t d))
      ∗ (∃ d, owns (c.tc : Thread nD τ) (st1_4 t) fullShare ((𝔻).before (4 : Fin 6) t d))
      ∗ (∃ d, owns (c.tc : Thread nD τ) (st1_5 t) fullShare ((𝔻).before (5 : Fin 6) t d)))
    ⊢ wp frame (wpE (defs₀ (F := F)) Variants.none (c.tc : Thread nD τ) none) Set.univ (bodyAt1 (F := F) t)
        (fun _ => iprop((𝔻).Φ t.succ ∗ (𝔻).owesAt ι t.succ ∗ (𝔻).leaves (0 : Fin 6) t ∗ (𝔻).leaves (1 : Fin 6) t
          ∗ (𝔻).leaves (2 : Fin 6) t ∗ (𝔻).leaves (3 : Fin 6) t ∗ (𝔻).leaves (4 : Fin 6) t ∗ (𝔻).leaves (5 : Fin 6) t)) := by
  have hN : t.val < 25 := lt_of_lt_of_eq t.isLt N_1
  rw [show (𝔻).owesAt ι t.succ = (𝔻).owesAt ι t.castSucc from rfl,
    leaves0, leaves1, leaves2, leaves3, leaves4]
  simp only [before_in (Ix := Ix) (Name := Name) (U := U) (Lvl := Lvl) c V B (0 : Fin 6) (by decide) t, before_in (Ix := Ix) (Name := Name) (U := U) (Lvl := Lvl) c V B (1 : Fin 6) (by decide) t,
    before_in (Ix := Ix) (Name := Name) (U := U) (Lvl := Lvl) c V B (2 : Fin 6) (by decide) t, before_in (Ix := Ix) (Name := Name) (U := U) (Lvl := Lvl) c V B (3 : Fin 6) (by decide) t,
    before_in (Ix := Ix) (Name := Name) (U := U) (Lvl := Lvl) c V B (4 : Fin 6) (by decide) t,
    fetched0 (Ix := Ix) (Name := Name) (U := U) (Lvl := Lvl) c V B t, fetched1 (Ix := Ix) (Name := Name) (U := U) (Lvl := Lvl) c V B t, fetched2 (Ix := Ix) (Name := Name) (U := U) (Lvl := Lvl) c V B t, fetched3 (Ix := Ix) (Name := Name) (U := U) (Lvl := Lvl) c V B t]
  unfold bodyAt1
  by_cases h0 : t.val = 0
  · -- the first visit
    have h1 : g1 (grid1.coords t) := (g1_iff t).mpr h0
    have h2 : g2 (grid1.coords t) := (g2_iff t).mpr (by omega)
    have h3 : ¬g3 (grid1.coords t) := fun h => by have := (g3_iff t).mp h; omega
    have h4 : ¬k1_cond4 (grid1.coords t) = 1#1 := fun h => by have := (cond4_iff t).mp h; omega
    rw [show (𝔻).Φ t.castSucc = _ from (congrArg (accs c V) h0).trans (accs_zero c V),
      show (𝔻).Φ t.succ = _ from accs_mid c V (t.val + 1) (by omega) (by omega),
      leaves5_idle (Ix := Ix) (Name := Name) (U := U) (Lvl := Lvl) c V B t (by omega), sAcc_succ c V t, tAcc_succ c V t,
      show KerTerm.sAcc (F := F) (lblk c V) t.val = k1_pay1 from by rw [h0]; rfl,
      show KerTerm.tAcc (F := F) (lblk c V) (V main_v1) t.val = k1_pay2 from by rw [h0]; rfl]
    simp only [fetched4_bulk (Ix := Ix) (Name := Name) (U := U) (Lvl := Lvl) c V B t (by omega)]
    iintro ⟨⟨Hs, Ht⟩, Ho, ⟨%d0, H0⟩, ⟨%d1, H1⟩, ⟨%d2, H2⟩, ⟨%d3, H3⟩, ⟨%d4, H4⟩, H5⟩
    iapply (runFirst (F := F) c (grid1.coords t) _ _ _ _ _ _ _ _ _ _ _ _ _ _ _ _ h1 h2 h3 h4 (V main_v1) (lblk c V t.val) Set.univ _)
    isplitl [H0]; · iexact H0
    isplitl [H4]; · iexact H4
    isplitl [Hs]; · iexact Hs
    isplitl [Ht]; · iexact Ht
    iintro ⟨H0, H4, Hs, Ht⟩
    isplitl [Hs Ht]
    · isplitl [Hs]
      · iexact Hs
      · iexact Ht
    isplitl [Ho]; · iexact Ho
    isplitl [H0]; · iexact H0
    isplitl [H1]; · iexact H1
    isplitl [H2]; · iexact H2
    isplitl [H3]; · iexact H3
    isplitl [H4]; · iexists d4; iexact H4
    iexact H5
  by_cases h24 : t.val = 24
  · -- the last visit
    have h1 : ¬g1 (grid1.coords t) := fun h => by have := (g1_iff t).mp h; omega
    have h2 : ¬g2 (grid1.coords t) := fun h => by have := (g2_iff t).mp h; omega
    have h3 : g3 (grid1.coords t) := (g3_iff t).mpr h24
    have h4 : k1_cond4 (grid1.coords t) = 1#1 := (cond4_iff t).mpr h24
    have hag : ∀ d4, ∀ j : S1024x4096.Idx, 4096 * 24 + (j 1).val < 100000 →
        (𝔻).fetched (4 : Fin 6) t d4 j = lblk c V 24 j := fun d4 j hj => by
      have := fetched4_apply (Ix := Ix) (Name := Name) (U := U) (Lvl := Lvl) c V B t d4 j (by rw [h24]; exact hj)
      rw [h24] at this; exact this
    have e7 : ∀ d4, k1_pay7 (grid1.coords t) ((𝔻).fetched (4 : Fin 6) t d4) (KerTerm.sAcc (F := F) (lblk c V) t.val)
        = KerTerm.sFin (F := F) (lblk c V) := fun d4 => by
      rw [← cd_coords t, h24]
      exact pay7_congr _ _ _ (hag d4)
    have e8 : ∀ d4, k1_pay8 (grid1.coords t) ((𝔻).fetched (4 : Fin 6) t d4) (V main_v1) (KerTerm.tAcc (F := F) (lblk c V) (V main_v1) t.val)
        = KerTerm.tFin (F := F) (lblk c V) (V main_v1) := fun d4 => by
      rw [← cd_coords t, h24]
      exact pay8_congr _ _ _ _ hlab (hag d4)
    rw [show (𝔻).Φ t.castSucc = _ from accs_mid c V t.val (by omega) (by omega),
      show (𝔻).Φ t.succ = _ from accs_end c V (t.val + 1) (by omega),
      leaves5_last (Ix := Ix) (Name := Name) (U := U) (Lvl := Lvl) c V B t h24,
      show outBlk c V = k1_pay9 (k1_pay10 (KerTerm.sFin (F := F) (lblk c V)) (KerTerm.tFin (F := F) (lblk c V) (V main_v1)))
        (k1_pay11 (V main_arg0) (V main_v0) (V main_v1) (V main_v2)) from rfl]
    iintro ⟨⟨Hs, Ht⟩, Ho, ⟨%d0, H0⟩, ⟨%d1, H1⟩, ⟨%d2, H2⟩, ⟨%d3, H3⟩, ⟨%d4, H4⟩, ⟨%d5, H5⟩⟩
    iapply (runLast (F := F) c (grid1.coords t) _ _ _ _ _ _ _ _ _ _ _ _ _ _ _ _ h1 h2 h3 h4 (V main_v1) (V main_v2) (V main_arg0) (V main_v0)
      ((𝔻).fetched (4 : Fin 6) t d4) (KerTerm.sAcc (F := F) (lblk c V) t.val) (KerTerm.tAcc (F := F) (lblk c V) (V main_v1) t.val) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    isplitl [Ht]; · iexact Ht
    iintro ⟨H0, H1, H2, H3, H4, H5, Hs, Ht⟩
    rw [e7 d4, e8 d4]
    isplitl [Hs Ht]
    · isplitl [Hs]
      · iexact Hs
      · iexact Ht
    isplitl [Ho]; · iexact Ho
    isplitl [H0]; · iexact H0
    isplitl [H1]; · iexact H1
    isplitl [H2]; · iexact H2
    isplitl [H3]; · iexact H3
    isplitl [H4]; · iexists d4; iexact H4
    iexact H5
  · -- a middle visit
    have h1 : ¬g1 (grid1.coords t) := fun h => by have := (g1_iff t).mp h; omega
    have h2 : g2 (grid1.coords t) := (g2_iff t).mpr (by omega)
    have h3 : ¬g3 (grid1.coords t) := fun h => by have := (g3_iff t).mp h; omega
    have h4 : ¬k1_cond4 (grid1.coords t) = 1#1 := fun h => by have := (cond4_iff t).mp h; omega
    rw [show (𝔻).Φ t.castSucc = _ from accs_mid c V t.val h0 (by omega),
      show (𝔻).Φ t.succ = _ from accs_mid c V (t.val + 1) (by omega) (by omega),
      leaves5_idle (Ix := Ix) (Name := Name) (U := U) (Lvl := Lvl) c V B t h24, sAcc_succ c V t, tAcc_succ c V t]
    simp only [fetched4_bulk (Ix := Ix) (Name := Name) (U := U) (Lvl := Lvl) c V B t (by omega)]
    iintro ⟨⟨Hs, Ht⟩, Ho, ⟨%d0, H0⟩, ⟨%d1, H1⟩, ⟨%d2, H2⟩, ⟨%d3, H3⟩, ⟨%d4, H4⟩, H5⟩
    iapply (runBulk (F := F) c (grid1.coords t) _ _ _ _ _ _ _ _ _ _ _ _ _ _ _ _ h1 h2 h3 h4 (V main_v1) (lblk c V t.val)
      (KerTerm.sAcc (F := F) (lblk c V) t.val) (KerTerm.tAcc (F := F) (lblk c V) (V main_v1) t.val) Set.univ _)
    isplitl [H0]; · iexact H0
    isplitl [H4]; · iexact H4
    isplitl [Hs]; · iexact Hs
    isplitl [Ht]; · iexact Ht
    iintro ⟨H0, H4, Hs, Ht⟩
    isplitl [Hs Ht]
    · isplitl [Hs]
      · iexact Hs
      · iexact Ht
    isplitl [Ho]; · iexact Ho
    isplitl [H0]; · iexact H0
    isplitl [H1]; · iexact H1
    isplitl [H2]; · iexact H2
    isplitl [H3]; · iexact H3
    isplitl [H4]; · iexists d4; iexact H4
    iexact H5

include hlab in
/-- The stage's body obligation. -/
theorem hbody : BodyObligationLoose (𝔻) (defs₀ (F := F)) Variants.none ι Set.univ := fun t => by
  rw [bigSep_W1, bigSep_W1]
  exact sound_body c V B ι hlab t

end Body

end Cert.KernelIdeal.TcProof

end
-- ==== Proof.TcFacts.lean ====
/-
  What the launch of the TensorCore stage needs beside its body obligation: the accumulators' invariant holds before
  the first visit of whatever the two scratch buffers contain, gives them back after the last, and the one output
  array ends holding the stage's output word.
-/
import proofs.«217730_g43602507989570_cont_8to1c4_241_33_alg».proof.Proof.TcBody

set_option maxRecDepth 16384

noncomputable section

namespace Cert.KernelIdeal.TcProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Data

variable (c : Dev nD) (V : (b : Ref sig .tc) → Buf (Elt F) ((c.tc : Thread nD τ).loc b)) (B : Set (SemLoc sig × Ix)) (ι : Ix)

local notation "𝔻" => dats (Ix := Ix) (Name := Name) (U := U) (Lvl := Lvl) c V B

/-- Before the first visit the invariant asks nothing of the scratch buffers but that the core holds them. -/
theorem hin : iprop((BI.emp : sProp 𝕄) ∗ Pipeline.prefHeld (pcfgs (F := F) 0).pre c (fun _ => fullShare) (adm (F := F) 0).1
      ∗ Pipeline.scopedRest (Ix := Ix) (Name := Name) (U := U) (Lvl := Lvl) (Val := Elt F) (pcfg (F := F)).spec c)
    ⊢ (𝔻).Φ 0 := by
  show _ ⊢ accs c V 0
  unfold accs; rw [if_pos rfl]
  iintro ⟨-, -, H⟩; iexact H

/-- After the last visit the scratch buffers are still the core's; the stage has no semaphore of its own. -/
theorem hout : (𝔻).Φ (Fin.last (pcfg (F := F)).N)
    ⊢ iprop((BI.emp : sProp 𝕄) ∗ Pipeline.ownSems0 (fun k : PEmpty => k.elim) c
      ∗ Pipeline.scopedRest (Ix := Ix) (Name := Name) (U := U) (Lvl := Lvl) (Val := Elt F) (pcfg (F := F)).spec c) := by
  rw [Pipeline.ownSems0_none]
  show accs c V grid1.N ⊢ iprop(_ ∗ _ ∗ Pipeline.scopedRest spec1 c)
  rw [N_1]; unfold accs
  rw [if_neg (by omega), if_neg (by omega), scopedRest1_eq]
  iintro ⟨Hs, Ht⟩
  isplitr; · iempintro
  isplitr; · iempintro
  isplitl [Hs]
  · iexists _; iexact Hs
  · iexists _; iexact Ht

/-- The output array has one element. -/
theorem idx11_eq (a b : S1x1.Idx) : a = b := by
  funext d
  match d with
  | ⟨0, _⟩ =>
    have ha : (a 0).val < 1 := (a 0).isLt
    have hb : (b 0).val < 1 := (b 0).isLt
    exact Fin.ext (by show (a 0).val = (b 0).val; omega)
  | ⟨1, _⟩ =>
    have ha : (a 1).val < 1 := (a 1).isLt
    have hb : (b 1).val < 1 := (b 1).isLt
    exact Fin.ext (by show (a 1).val = (b 1).val; omega)

/-- The output window's block is the whole one-element array. -/
theorem mem_blk5 (t : Fin cfg1.N) (i : S1x1.Idx) : i ∈ (win1_5.blk t).view.set := by
  show i ∈ ((View.whole main_v3).slice (win1_5.rect t)).set
  rw [View.set_slice_whole, Rect.mem_set_unit]
  intro a
  match a with
  | ⟨0, _⟩ =>
    have hi : (i 0).val < 1 := (i 0).isLt
    show 0 * 1 ≤ (i 0).val ∧ (i 0).val < 0 * 1 + 1
    omega
  | ⟨1, _⟩ =>
    have hi : (i 1).val < 1 := (i 1).isLt
    show 0 * 1 ≤ (i 1).val ∧ (i 1).val < 0 * 1 + 1
    omega

/-- The output array after the stage: the one write-back, at the last visit, of the word the body stored there. -/
theorem arrAt_out : (𝔻).arrAt (5 : Fin 6) (pcfg (F := F)).N = outBlk c V := by
  refine (𝔻).arrAt_eq_of_cover (5 : Fin 6) (outBlk c V) (fun t _ => funext fun x => ?_) (fun i => ?_)
  · show outBlk c V (win1_5.xinj (grid1.coords t) x) = outBlk c V ((win1_5.blk t).view.emb x)
    exact congrArg _ (idx11_eq _ _)
  · refine ⟨⟨24, by rw [show (pcfg (F := F)).N = 25 from N_1]; omega⟩, (flush1_5 _).mpr rfl, ?_⟩
    exact mem_blk5 _ i

/-- The five inputs are never written back. -/
theorem arrAt_in (w : Fin 6) (hw : w.val < 5) : (𝔻).arrAt w (pcfg (F := F)).N = V (Pipeline.arrRef spec1 w) := by
  match w, hw with
  | ⟨0, _⟩, _ => exact (𝔻).arrAt_in (0 : Fin 6) rfl _
  | ⟨1, _⟩, _ => exact (𝔻).arrAt_in (1 : Fin 6) rfl _
  | ⟨2, _⟩, _ => exact (𝔻).arrAt_in (2 : Fin 6) rfl _
  | ⟨3, _⟩, _ => exact (𝔻).arrAt_in (3 : Fin 6) rfl _
  | ⟨4, _⟩, _ => exact (𝔻).arrAt_in (4 : Fin 6) rfl _

/-- The stage's layout facts, as the region record takes them. -/
theorem win : Pipeline.WinFacts₀ (pcfgs (F := F) 0).spec := launch1.win.to₀
theorem block_pos : ∀ w : Fin (pcfg (F := F)).W, 0 < ((pcfg (F := F)).spec w).block.numel := launch1.block_pos
theorem stage_whole : ∀ (w : Fin (pcfg (F := F)).W) (s : Fin ((pcfg (F := F)).spec w).nbuf), (((pcfg (F := F)).spec w).stage s).IsWhole :=
  launch1.stage_whole

/-- The stage names no semaphore of its own. -/
theorem ho : Pipeline.OwnSemFacts (pcfgs (F := F) 0).spec (fun k : PEmpty => k.elim) := Pipeline.OwnSemFacts.none _

end Data

/-- The stage's body owes no other core anything at any visit, so the pipeline's own waits need no level evidence. -/
theorem hwaits (L : GSem nD τ sig → Finset Ix) (lv : GSem nD τ sig → Ix → Lvl)
    (Vs : (c : Dev nD) → (b : Ref sig .tc) → Buf (Elt F) ((c.tc : Thread nD τ).loc b))
    (Bs : Dev nD → Set (SemLoc sig × Ix)) (ι : Ix) (c : Dev nD) :
    (levAts L lv : sProp 𝕄) ⊢ Pipeline.cellsWaits (Pipeline.pin (pcfgs (F := F)) adm)
      (fun (_ : Fin 1) c => dats (Ix := Ix) (Name := Name) (U := U) (Lvl := Lvl) c (Vs c) (Bs c)) ι 0 c :=
  Pipeline.hwaits_of_owed_zero _ _ _ _ L lv 0 (fun _ _ => rfl) c

end Cert.KernelIdeal.TcProof

end
-- ==== Proof.ScMain.lean ====
/-
  The whole kernel program on a device: the TensorCore starts the gather stage on the two SparseCores and waits for
  it, reshapes the labels into a column and a row, runs the 25-visit stage over the logits, and reshapes its one
  output word into the scalar result.  The four argument arrays end as they began; the result is the stage's output
  term of the embeddings, the logits in 4096-column blocks, the labels and the gathered centre rows.
-/
import proofs.«217730_g43602507989570_cont_8to1c4_241_33_alg».proof.Proof.ScObl
import proofs.«217730_g43602507989570_cont_8to1c4_241_33_alg».proof.Proof.TcFacts
import Idealize.ShloMosaic.Lib.Pipeline.Regions
import Idealize.ShloMosaic.Lib.Pipeline.RegionsLoop

noncomputable section

namespace Cert.KernelIdeal.ScProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_arg2_scv : Memref Cert.KernelIdeal.sig Kind.scVector Space.hbm Cert.KernelIdeal.S1024 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (m : (ℓ : Loc nD τ sig) → Buf (Elt F) ℓ) (ρ : Dev nD → PrngReg)
variable [FloatOps F]

open Idealize.ShloMosaic.StableHlo (held held_split held_sdiff_result wp_hlo_within)
open Cert.KernelIdeal.TcProof (adm dats outBlk)
open Cert.KernelIdeal.TcProof (hbody hin hout arrAt_out)

/-! ## The ghost state's three parts -/

abbrev EP : Emb UP (MT nD τ sig (HIx 1) (Elt F) ℕ UU ℕ) := (Emb.inl : Emb UP (UP × Counters)).trans embR
abbrev EC' : Emb Counters (MT nD τ sig (HIx 1) (Elt F) ℕ UU ℕ) := (Emb.inr : Emb Counters (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The stage's pipeline table at its one admission. -/
abbrev pc : Fin 1 → Pipeline.Cfg sig Λ₀ := Pipeline.pin (pcfgs (F := F)) adm

theorem pinj : Function.Injective (Pipeline.cellOf (nD := nD) (τ := τ) (pc (F := F))) := cellOf_inj

def u₀ : UU := (initOf (K (F := F)).hsCells (K (F := F)).hsToks,
  (initOf (Pipeline.cells (pc (F := F)) pinj) (Pipeline.launchToks (pc (F := F)) pinj), (1 : Counters)))

/-- What @main's proof starts from on a device: the stage's staging cells' ghost state and duty tokens. -/
abbrev G (d : Dev nD) : sProp 𝕄 :=
  iprop(Pipeline.cellsGhost (pc (F := F)) EP 0 d ∗ Pipeline.toksInit (pc (F := F)) EP 0 d)

omit [FloatOps F] in
theorem bigSep_emp' {I : Type} (s : Finset I) : (bigSep s fun _ => iprop(emp)) = (iprop(emp) : sProp 𝕄) := bigSep_emp_const s

omit [FloatOps F] in
theorem G_join :
    iprop((bigSep Finset.univ fun c : Dev nD => bigSep Finset.univ fun p : Fin 1 => Pipeline.cellsGhost (pc (F := F)) EP p c)
      ∗ (bigSep Finset.univ fun c : Dev nD => bigSep Finset.univ fun p : Fin 1 => (Pipeline.toksInit (pc (F := F)) EP p c : sProp 𝕄)))
    ⊢ bigSep Finset.univ fun d : Dev nD => G (F := F) d := by
  rw [show (bigSep Finset.univ fun d : Dev nD => G (F := F) d)
      = iprop((bigSep Finset.univ fun d : Dev nD => Pipeline.cellsGhost (pc (F := F)) EP 0 d)
          ∗ (bigSep Finset.univ fun d : Dev nD => (Pipeline.toksInit (pc (F := F)) EP 0 d : sProp 𝕄))) from bigSep_sep' _ _ _]
  exact BI.sep_mono (Entails.of_eq (bigSep_congr fun c _ => bigSep_univ_of_subsingleton (0 : Fin 1)))
    (Entails.of_eq (bigSep_congr fun c _ => bigSep_univ_of_subsingleton (0 : Fin 1)))

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m hpre).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (pc (F := F)) EP pinj) $$ HP with ⟨Hg, Ht⟩
  imodintro
  isplitl [HH]; · iexact HH
  isplitl [Hg Ht]
  · iapply G_join; isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's nine arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- All of them: every unscoped buffer of the TensorCore. -/
abbrev S9 : Finset (DevRef τ sig) := {a0', a1', a2', a3', v0', v1', v2', v3', v4'}

abbrev tl (d : Dev nD) (b : Ref sig .tc) : Loc nD τ sig := (SparseCore.T d).loc b

omit [FloatOps F] in
theorem held_S9 (d : Dev nD) (W : Valuation τ sig (Elt F)) :
    (held (T d) S9 W : sProp 𝕄) = iprop((tl d main_arg0 ↦{fullShare} W a0') ∗ (tl d main_arg1 ↦{fullShare} W a1') ∗ (tl d main_arg2 ↦{fullShare} W a2')
      ∗ (tl d main_arg3 ↦{fullShare} W a3') ∗ (tl d main_v0 ↦{fullShare} W v0') ∗ (tl d main_v1 ↦{fullShare} W v1') ∗ (tl d main_v2 ↦{fullShare} W v2')
      ∗ (tl d main_v3 ↦{fullShare} W v3') ∗ (tl d main_v4 ↦{fullShare} W v4')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((tl d main_arg0 ↦{fullShare} W main_arg0) ∗ (tl d main_arg1 ↦{fullShare} W main_arg1) ∗ (tl d main_arg2 ↦{fullShare} W main_arg2)
      ∗ (tl d main_arg3 ↦{fullShare} W main_arg3) ∗ (tl d main_v0 ↦{fullShare} W main_v0) ∗ (tl d main_v1 ↦{fullShare} W main_v1) ∗ (tl d main_v2 ↦{fullShare} W main_v2)
      ∗ (tl d main_v3 ↦{fullShare} W main_v3) ∗ (tl d main_v4 ↦{fullShare} W main_v4)) := by
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- A valuation of the device's buffers, as the TensorCore's references see it. -/
abbrev tcV (d : Dev nD) (W : Valuation τ sig (Elt F)) : (b : Ref sig .tc) → Buf (Elt F) ((d.tc : Thread nD τ).loc b) := fun b => W (Proc.devRef .tc b)

omit [FloatOps F] in
theorem unscoped_held (d : Dev nD) (W : Valuation τ sig (Elt F)) : (unscopedBufs d (tcV d W) : sProp 𝕄) = held (T d) S9 W := by
  rw [unscopedBufs_eq, held_S9]

/-! ## What the gather stage's call takes and hands back -/

theorem st0_eq (hpre : PreOK m) (d : Dev nD) :
    (bigSep Finset.univ fun c : Fin ((K (F := F)).nCore 0) => (P m hpre).st 0 d c)
      = iprop((lLoc d ↦{fullShare} m (lLoc d)) ∗ (xLoc d ↦{fullShare} m (xLoc d)) ∗ (oLoc d ↦{fullShare} m (oLoc d))) := by
  show (bigSep (Finset.univ : Finset (Fin 2)) fun c => bigSep (Finset.univ : Finset (Fin 16)) fun i =>
      (iprop((lLoc d ↦{tq c i} m (lLoc d)) ∗ (xLoc d ↦{tq c i} m (xLoc d)) ∗ (oLoc d ↦[oRowSet (coordsT c i)]{fullShare} m (oLoc d))) : sProp 𝕄)) = _
  rw [shares_tiles (lLoc d), shares_tiles (xLoc d), oPts_tiles d]
  simp only [bigSep_sep']

theorem dn0_eq (hpre : PreOK m) (d : Dev nD) :
    (bigSep Finset.univ fun c : Fin ((K (F := F)).nCore 0) => (P m hpre).dn 0 d c)
      = iprop((lLoc d ↦{fullShare} m (lLoc d)) ∗ (xLoc d ↦{fullShare} m (xLoc d)) ∗ (oLoc d ↦{fullShare} gathered m hpre d)) := by
  show (bigSep (Finset.univ : Finset (Fin 2)) fun c => bigSep (Finset.univ : Finset (Fin 16)) fun i =>
      (iprop((lLoc d ↦{tq c i} m (lLoc d)) ∗ (xLoc d ↦{tq c i} m (xLoc d)) ∗ (oLoc d ↦[oRowSet (coordsT c i)]{fullShare} gathered m hpre d)) : sProp 𝕄)) = _
  rw [shares_tiles (lLoc d), shares_tiles (xLoc d), oPts_tiles d]
  simp only [bigSep_sep']

/-! ## The valuations @main passes through -/

/-- At launch; -/
def V0 (d : Dev nD) : Valuation τ sig (Elt F) := fun b => m (d, b)
/-- after the gather stage: its output at the gathered array; -/
def V1 (hpre : PreOK m) (d : Dev nD) : Valuation τ sig (Elt F) := Function.update (V0 m d) v0' (gathered m hpre d)
/-- the labels as a column, as a row; the stage's output word as a scalar. -/
abbrev op1 : HloOp τ sig (Elt F) := StableHlo.reshape main_arg2 main_v1 rfl shapeCasts_S1024_S1024x1
abbrev op2 : HloOp τ sig (Elt F) := StableHlo.reshape main_arg2 main_v2 rfl shapeCasts_S1024_S1x1024
abbrev op3 : HloOp τ sig (Elt F) := StableHlo.reshape main_v3 main_v4 rfl shapeCasts_S1x1_S_
abbrev V2 (hpre : PreOK m) (d : Dev nD) : Valuation τ sig (Elt F) := (op1 (F := F)).result (V1 m hpre d)
abbrev V3 (hpre : PreOK m) (d : Dev nD) : Valuation τ sig (Elt F) := (op2 (F := F)).result (V2 m hpre d)

/-! ## The 25-visit stage as a region of @main -/

section Region

-- every TensorCore buffer when the stage is entered, core by core
variable (Vt : (c : Dev nD) → (b : Ref sig .tc) → Buf (Elt F) ((c.tc : Thread nD τ).loc b))
-- a bound on what each core's waits have recorded outside the stage
variable (B : Dev nD → Set (SemLoc sig × HIx 1))

/-- The stage's proof data, as the one-pipeline family the region rule takes. -/
def pdats : (p : Fin 1) → (c : Dev nD) → Pipeline.Dat τ (Elt F) (HIx 1) ℕ UU ℕ (Pipeline.pin (pcfgs (F := F)) adm p) c
  | ⟨0, _⟩ => fun c => dats c (Vt c) (B c)

/-- The stage's output array after the last visit, as the pipeline computes it. -/
def outArr (c : Dev nD) : Buf (Elt F) ((c.tc : Thread nD τ).loc main_v3) := (pdats Vt B 0 c).arrAt 5 cfg1.N

variable (Vp : (c : Dev nD) → (b : Ref sig .tc) → Buf (Elt F) ((c.tc : Thread nD τ).loc b))

set_option backward.isDefEq.respectTransparency.types false in
/-- The region over the thread state "every unscoped buffer at `Vt c`, `R c` beside, the core owing nothing with its
    recorded waits inside `B c`": entered by taking the six windowed arrays out of the unscoped buffers, left with
    them put back at `Vp`; the stage has no semaphore of its own and nothing enters its invariant but the two
    accumulators' buffers. -/
def reg (R : Dev nD → sProp 𝕄) (L : GSem nD τ sig → Finset (HIx 1)) (lv : GSem nD τ sig → HIx 1 → ℕ)
    (hbody : ∀ c, Pipeline.BodyObligationLoose (pdats Vt B 0 c) (defs₀ (F := F)) 𝒱₀ none Set.univ)
    (hin : ∀ c, iprop((BI.emp : sProp 𝕄) ∗ Pipeline.prefHeld (pcfgs (F := F) 0).pre c (fun _ => fullShare) (adm (F := F) 0).1 ∗ Pipeline.scopedRest (Pipeline.pin (pcfgs (F := F)) adm 0).spec c) ⊢ (pdats Vt B 0 c).Φ 0)
    (hout : ∀ c, (pdats Vt B 0 c).Φ (Fin.last (Pipeline.pin (pcfgs (F := F)) adm 0).N) ⊢ iprop((BI.emp : sProp 𝕄) ∗ Pipeline.ownSems0 (fun k : PEmpty => k.elim) c ∗ Pipeline.scopedRest (Pipeline.pin (pcfgs (F := F)) adm 0).spec c))
    (hVp_out : ∀ c, Vp c main_v3 = outArr Vt B c)
    (hVp_ne : ∀ c (b : Ref sig .tc), b ≠ main_v3 → Vp c b = Vt c b) :
    Pipeline.RegionSeg (pcfgs (F := F)) adm (pdats Vt B) none defs₀ 𝒱₀ L lv 0 where
  win := launch1.win.to₀
  block_pos := launch1.block_pos
  stage_whole := launch1.stage_whole
  K := PEmpty
  osem k := k.elim
  ho := Pipeline.OwnSemFacts.none _
  hbody := hbody
  hwaits := Pipeline.hwaits_of_owed_zero _ _ _ _ L lv 0 fun _ _ => rfl
  pre c := iprop(unscopedBufs c (Vt c) ∗ R c ∗ ∃ W : Waits sig (HIx 1), ⌜(↑W : Set (SemLoc sig × HIx 1)) ⊆ B c⌝ ∗ owes (c.tc : Thread nD τ) (0 : CellTallies nD τ sig (HIx 1)) W)
  post c := iprop(unscopedBufs c (Vp c) ∗ R c ∗ ∃ W : Waits sig (HIx 1), ⌜(↑W : Set (SemLoc sig × HIx 1)) ⊆ B c ∪ (Pipeline.pin (pcfgs (F := F)) adm 0).waitPairs none⌝ ∗ owes (c.tc : Thread nD τ) (0 : CellTallies nD τ sig (HIx 1)) W)
  X _ := BI.emp
  Y _ := BI.emp
  Z c := iprop(Pipeline.unscopedRest (Ix := HIx 1) (Name := ℕ) (U := UU) (Lvl := ℕ) spec1 c (Vt c) ∗ R c)
  hentry c := by
    rw [Pipeline.ownSems0_none]
    have hsplit := Pipeline.arrays_of_unscopedBufs (p := 0) (pcfgs (F := F)) adm (pdats Vt B) launch1.win launch1.arr_whole c
      ((pdats Vt B 0 c).share_full fun _ => rfl) (Vt c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest] <;> iassumption
  hin := hin
  hout := hout
  hexit c := by
    have hjoin := Pipeline.unscopedBufs_of_arrays (p := 0) (pcfgs (F := F)) adm (Ix := HIx 1) (Name := ℕ) (U := UU) (Lvl := ℕ) launch1.win launch1.arr_whole c
      (pdats Vt B) ((pdats Vt B 0 c).share_full fun _ => rfl) (Vt c) (Vp c) ((pdats Vt B 0 c).arrAt · cfg1.N)
      (fun w => by
        fin_cases w
        · exact ((pdats Vt B 0 c).arrAt_in 0 rfl _).trans (hVp_ne c main_v1 (by decide)).symm
        · exact ((pdats Vt B 0 c).arrAt_in 1 rfl _).trans (hVp_ne c main_v2 (by decide)).symm
        · exact ((pdats Vt B 0 c).arrAt_in 2 rfl _).trans (hVp_ne c main_arg0 (by decide)).symm
        · exact ((pdats Vt B 0 c).arrAt_in 3 rfl _).trans (hVp_ne c main_v0 (by decide)).symm
        · exact ((pdats Vt B 0 c).arrAt_in 4 rfl _).trans (hVp_ne c main_arg1 (by decide)).symm
        · exact (hVp_out c).symm)
      (fun b hb => hVp_ne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; · ipureintro; exact hW
    iexact HO

end Region

/-! ## @main on the TensorCore -/

/-- The level bound the TensorCore's recorded waits keep after its one SparseCore call. -/
abbrev Blev (c : Dev nD) : Set (SemLoc sig × HIx 1) := {p | (K (F := F)).lev (T c, p.1) p.2 ≤ 8 * 1}

/-- Every TensorCore buffer when the 25-visit stage is entered. -/
abbrev Vt (hpre : PreOK m) : (c : Dev nD) → (b : Ref sig .tc) → Buf (Elt F) ((c.tc : Thread nD τ).loc b) := fun c => tcV c (V3 m hpre c)

/-- After the stage: its output array at what the pipeline computes; after the last reshape. -/
def V4 (hpre : PreOK m) (d : Dev nD) : Valuation τ sig (Elt F) := Function.update (V3 m hpre d) v3' (outArr (Vt m hpre) (Blev (F := F)) d)
abbrev V5 (hpre : PreOK m) (d : Dev nD) : Valuation τ sig (Elt F) := (op3 (F := F)).result (V4 m hpre d)

theorem hsub1 : (op1 (F := F)).bufs ⊆ S9 := show ({a2', v1'} : Finset (DevRef τ sig)) ⊆ S9 by decide
theorem hsub2 : (op2 (F := F)).bufs ⊆ S9 := show ({a2', v2'} : Finset (DevRef τ sig)) ⊆ S9 by decide
theorem hsub3 : (op3 (F := F)).bufs ⊆ S9 := show ({v3', v4'} : Finset (DevRef τ sig)) ⊆ S9 by decide

/-- A buffer no step of @main writes keeps its launch contents to the end. -/
theorem V5_keep (hpre : PreOK m) (d : Dev nD) (b : DevRef τ sig) (h0 : b ≠ v0') (h1 : b ≠ v1') (h2 : b ≠ v2') (h3 : b ≠ v3') (h4 : b ≠ v4') :
    V5 m hpre d b = V0 m d b := by
  unfold V5 V4 V3 V2 V1
  rw [(op3 (F := F)).result_of_not_mem _ (b := b) (by simpa using h4), Function.update_of_ne h3,
    (op2 (F := F)).result_of_not_mem _ (b := b) (by simpa using h2), (op1 (F := F)).result_of_not_mem _ (b := b) (by simpa using h1),
    Function.update_of_ne h0]

/-- The rest of the TensorCore's handshake state after its one call: what rides along through the stage. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) :
    ((K (F := F)).tcSt EH d 1 : sProp 𝕄)
      = iprop((∃ W, ⌜(K (F := F)).WBelow (T d) W (8 * 1)⌝ ∗ owes (T d) ((K (F := F)).Otc d 1) W) ∗ tcRest (F := F) d) := rfl

/-- What @main leaves the claim: the four arguments at their launch contents, the result at the last reshape's value. -/
abbrev FIN (hpre : PreOK m) (d : Dev nD) : sProp 𝕄 :=
  iprop((tl d main_arg0 ↦{fullShare} m (tl d main_arg0)) ∗ (tl d main_arg1 ↦{fullShare} m (tl d main_arg1)) ∗ (tl d main_arg2 ↦{fullShare} m (tl d main_arg2))
    ∗ (tl d main_arg3 ↦{fullShare} m (tl d main_arg3)) ∗ (tl d main_v4 ↦{fullShare} V5 m hpre d v4'))

section Main

variable (hpre : PreOK m)
/-- The labels as a column are the labels: every word a row number of the table. -/
theorem hlab (c : Dev nD) : ∀ j : S1024x1.Idx, (Vt m hpre c main_v1 j : BitVec 32).toNat < 100000 := by
  intro j
  have e : Vt m hpre c main_v1 = fun i => shapeCast S1024x1 (m (lLoc c)) shapeCasts_S1024_S1024x1 i := by
    show V3 m hpre c v1' = _
    unfold V3 V2
    rw [(op2 (F := F)).result_of_not_mem _ (b := v1') (by simpa using (show v1' ≠ v2' by decide)), StableHlo.reshape_result]
    unfold V1
    rw [Function.update_of_ne (show a2' ≠ v0' by decide)]
    rfl
  rw [e]
  exact hpre c _

theorem hVp_out (c : Dev nD) : tcV c (V4 m hpre c) main_v3 = outArr (Vt m hpre) (Blev (F := F)) c := Function.update_self _ _ _
theorem hVp_ne (c : Dev nD) (b : Ref sig .tc) (hb : b ≠ main_v3) : tcV c (V4 m hpre c) b = Vt m hpre c b :=
  Function.update_of_ne (fun e => hb (Proc.devRef_injective _ e)) _ _

set_option maxHeartbeats 1000000 in
theorem hmain [∀ e, Nonempty (Elt F e)] (κ : GSem nD τ sig → ℕ) (d : Dev nD) :
    iprop((K (F := F)).ctx EH (P m hpre) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [show (fun b : Ref sig .tc => m ((SparseCore.T d).loc b)) = tcV d (V0 m d) from rfl, unscoped_held]
  simp only [main, wp_bind, wp_pure]
  iintro ⟨#Hctx, Hst, ⟨Hb, Hheld, -, -⟩, ⟨Hcg, Htk⟩⟩
  ihave Hh := (Entails.of_eq (held_S9 (F := F) d _)) $$ Hheld
  icases Hh with ⟨Ha0, Ha1, Ha2, Ha3, Hv0, Hv1, Hv2, Hv3, Hv4⟩
  -- the gather stage's call: the labels, the table and the output to the two SparseCores and back
  iapply ((K (F := F)).wp_run (D (F := F)) 𝒱 (EH := EH) (P := P m hpre) κ d 0) $$ [Hst Ha2 Ha3 Hv0 Hb Ha0 Ha1 Hv1 Hv2 Hv3 Hv4 Hcg Htk]
  isplitr; · iexact Hctx
  isplitl [Hst]; · iexact Hst
  isplitl [Ha2 Ha3 Hv0]
  · rw [st0_eq]
    isplitl [Ha2]; · iexact Ha2
    isplitl [Ha3]; · iexact Ha3
    iexact Hv0
  iintro ⟨Hst, Hdn⟩
  ihave Hdn' := (Entails.of_eq (dn0_eq m hpre d)) $$ Hdn
  icases Hdn' with ⟨Ha2, Ha3, Hv0⟩
  -- the labels as a column
  iapply (wp_hlo_within 𝒱 (SparseCore.T d) none Set.univ (op := op1) (S := S9) hsub1 (V := V1 m hpre d)) $$ [Hb Ha0 Ha1 Ha2 Ha3 Hv0 Hv1 Hv2 Hv3 Hv4]
  · isplitl [Hb]; · iexact Hb
    rw [held_S9]
    simp (disch := decide) only [V1, Function.update_self, Function.update_of_ne]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  -- the labels as a row
  iapply (wp_hlo_within 𝒱 (SparseCore.T d) none Set.univ (op := op2) (S := S9) hsub2 (V := V2 m hpre d)) $$ [Hb Hheld]
  · isplitl [Hb]; · iexact Hb
    iexact Hheld
  iintro ⟨Hb, Hheld⟩
  rw [wp_ret]; imodintro
  -- the 25-visit stage, entered from every unscoped buffer at `V3`, the core owing nothing
  ihave Hub := (Entails.of_eq (unscoped_held (F := F) d (V3 m hpre d)).symm) $$ Hheld
  ihave Hst' := (Entails.of_eq (show ((K (F := F)).tcSt EH d ((0 : Fin 1).val + 1) : sProp 𝕄) = _ from tcSt_one (F := F) d)) $$ Hst
  icases Hst' with ⟨⟨%W, %hW, HO⟩, Hrest⟩
  ihave HO' := (Entails.of_eq (show (owes (T d) ((K (F := F)).Otc d 1) W : sProp 𝕄) = owes (T d) 0 W by rw [(K (F := F)).Otc_end d (le_refl 1)])) $$ HO
  ihave Hlev := (SparseCore.Cfg.ctx_levAts κ) $$ Hctx
  iapply ((K (F := F)).wp_liftProg (D (F := F)) 𝒱 (SparseCore.T d) Set.univ none (Prog.lift (TpuEff.customCall (Pipeline.entry 0) ())) _)
  iapply (Pipeline.RegionSeg.wp (pcfgs (F := F)) adm (pdats (Vt m hpre) Blev) none pinj EP defs₀ 𝒱₀ (K (F := F)).L (K (F := F)).lev
      (reg (Vt m hpre) Blev (fun c => tcV c (V4 m hpre c)) (tcRest (F := F)) (K (F := F)).L (K (F := F)).lev
        (fun c => hbody c _ _ none (hlab m hpre c)) (fun c => hin c _ _) (fun c => hout c _ _) (hVp_out m hpre) (hVp_ne m hpre))
      d none (fun u hu => nomatch hu) (fun _ => Prog.ret PUnit.unit) _) $$ [Hb Hub Hrest HO' Hlev Hcg Htk]
  unfold reg; dsimp only
  isplitr [Hb Hub Hrest HO' Hcg Htk]
  · -- after the stage: the last reshape, and the post
    iintro ⟨Hb, Hpost⟩
    icases Hpost with ⟨Hub, Hrest, %W', %hW', HO⟩
    rw [wp_ret]; imodintro
    ihave Hheld := (Entails.of_eq (unscoped_held (F := F) d (V4 m hpre d))) $$ Hub
    iapply (wp_hlo_within 𝒱 (SparseCore.T d) none Set.univ (op := op3) (S := S9) hsub3 (V := V4 m hpre d)) $$ [Hb Hheld]
    · isplitl [Hb]; · iexact Hb
      iexact Hheld
    iintro ⟨Hb, Hheld⟩
    rw [wp_ret]; imodintro; imodintro
    isplitl [Hrest HO]
    · rw [tcSt_one]
      isplitl [HO]
      · iexists W'; isplitr
        · ipureintro
          intro p hp
          rcases hW' (Finset.mem_coe.mpr hp) with h | ⟨w, s, rfl⟩
          · exact h
          · show (K (F := F)).lev _ none ≤ _
            rw [SparseCore.Cfg.lev_none]; exact Nat.zero_le _
        · rw [(K (F := F)).Otc_end d (le_refl 1)]; iexact HO
      iexact Hrest
    ihave Hh := (Entails.of_eq (held_S9 (F := F) d _)) $$ Hheld
    icases Hh with ⟨Ha0, Ha1, Ha2, Ha3, -, -, -, -, Hv4⟩
    have e0 : (op3 (F := F)).result (V4 m hpre d) a0' = m (tl d main_arg0) := V5_keep m hpre d a0' (by decide) (by decide) (by decide) (by decide) (by decide)
    have e1 : (op3 (F := F)).result (V4 m hpre d) a1' = m (tl d main_arg1) := V5_keep m hpre d a1' (by decide) (by decide) (by decide) (by decide) (by decide)
    have e2 : (op3 (F := F)).result (V4 m hpre d) a2' = m (tl d main_arg2) := V5_keep m hpre d a2' (by decide) (by decide) (by decide) (by decide) (by decide)
    have e3 : (op3 (F := F)).result (V4 m hpre d) a3' = m (tl d main_arg3) := V5_keep m hpre d a3' (by decide) (by decide) (by decide) (by decide) (by decide)
    ihave Ha0 := (Entails.of_eq (congrArg (fun f => (tl d main_arg0 ↦{fullShare} f : sProp 𝕄)) e0)) $$ Ha0
    ihave Ha1 := (Entails.of_eq (congrArg (fun f => (tl d main_arg1 ↦{fullShare} f : sProp 𝕄)) e1)) $$ Ha1
    ihave Ha2 := (Entails.of_eq (congrArg (fun f => (tl d main_arg2 ↦{fullShare} f : sProp 𝕄)) e2)) $$ Ha2
    ihave Ha3 := (Entails.of_eq (congrArg (fun f => (tl d main_arg3 ↦{fullShare} f : sProp 𝕄)) e3)) $$ Ha3
    isplitl [Ha0]; · iexact Ha0
    isplitl [Ha1]; · iexact Ha1
    isplitl [Ha2]; · iexact Ha2
    isplitl [Ha3]; · iexact Ha3
    iexact Hv4
  · -- what the stage is entered with
    isplitl [Hb]; · iexact Hb
    isplitl [Hub Hrest HO']
    · isplitl [Hub]; · iexact Hub
      isplitl [Hrest]; · iexact Hrest
      iexists W; isplitr
      · ipureintro; exact fun p hp => hW p (Finset.mem_coe.mp hp)
      · iexact HO'
    isplitr; · iexact Hlev
    isplitl [Hcg]; · iexact Hcg
    iexact Htk

end Main

end Cert.KernelIdeal.ScProof

end
-- ==== Proof.ScRun.lean ====
/-
  The kernel program's run, and its result as a term of the launch arrays.  From a launch memory whose labels are
  row numbers of the centre table, every weakly fair execution of the TensorCore and the two SparseCores' threads
  ends; the four arguments are unchanged; and the scalar result is the 25-visit stage's output term of the
  embeddings, the logits in column blocks, the labels as a column and as a row, and the gathered centre rows.
-/
import proofs.«217730_g43602507989570_cont_8to1c4_241_33_alg».proof.Proof.ScMain

noncomputable section

namespace Cert.KernelIdeal.ScProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.KernelIdeal.main_arg2_scv : Memref Cert.KernelIdeal.sig Kind.scVector Space.hbm Cert.KernelIdeal.S1024 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (m : (ℓ : Loc nD τ sig) → Buf (Elt F) ℓ) (ρ : Dev nD → PrngReg)
variable [FloatOps F]

open Idealize.ShloMosaic.StableHlo (held held_split held_sdiff_result wp_hlo_within)
open Cert.KernelIdeal.TcProof (adm dats outBlk arrAt_out)

/-! ## The claim read off a final memory -/

/-- What a final memory shows on device `d`. -/
def fqM (hpre : PreOK m) (d : Dev nD) (s : MemSt nD τ sig (Elt F)) : Prop :=
  s.mem (tl d main_v4) = V5 m hpre d v4' ∧ s.mem (tl d main_arg0) = m (tl d main_arg0) ∧ s.mem (tl d main_arg1) = m (tl d main_arg1)
    ∧ s.mem (tl d main_arg2) = m (tl d main_arg2) ∧ s.mem (tl d main_arg3) = m (tl d main_arg3)

def fq (hpre : PreOK m) (d : Dev nD) (s' : Phys nD τ sig (Elt F)) : Prop := fqM m hpre d s'.mem

set_option maxRecDepth 16384 in
theorem hfin (hpre : PreOK m) (d : Dev nD) (s' : Phys nD τ sig (Elt F)) : iprop(FIN m hpre d ∗ SI s') ⊢ (⌜fq m hpre d s'⌝ : sProp 𝕄) := by
  iintro ⟨⟨H0, H1, H2, H3, H4⟩, HSI⟩
  ihave H := (persistent_entails_right (SI_pointsTo_agree (st := s') (ℓ := tl d main_arg0) (I := Finset.univ) (q := fullShare) (f := m (tl d main_arg0)))) $$ [HSI H0]
  · isplitl [HSI] <;> iassumption
  icases H with ⟨%h0, HSI, -⟩
  ihave H := (persistent_entails_right (SI_pointsTo_agree (st := s') (ℓ := tl d main_arg1) (I := Finset.univ) (q := fullShare) (f := m (tl d main_arg1)))) $$ [HSI H1]
  · isplitl [HSI] <;> iassumption
  icases H with ⟨%h1, HSI, -⟩
  ihave H := (persistent_entails_right (SI_pointsTo_agree (st := s') (ℓ := tl d main_arg2) (I := Finset.univ) (q := fullShare) (f := m (tl d main_arg2)))) $$ [HSI H2]
  · isplitl [HSI] <;> iassumption
  icases H with ⟨%h2, HSI, -⟩
  ihave H := (persistent_entails_right (SI_pointsTo_agree (st := s') (ℓ := tl d main_arg3) (I := Finset.univ) (q := fullShare) (f := m (tl d main_arg3)))) $$ [HSI H3]
  · isplitl [HSI] <;> iassumption
  icases H with ⟨%h3, HSI, -⟩
  ihave H := (SI_pointsTo_agree (st := s') (ℓ := tl d main_v4) (I := Finset.univ) (q := fullShare) (f := V5 m hpre d v4')) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

/-! ## The run -/

def QC (hpre : PreOK m) : PUnit × MemSt nD τ sig (Elt F) → Prop := fun r => ∀ c : Dev nD, fqM m hpre c r.2

theorem run_main [∀ e, Nonempty (Elt F e)] (hpre : PreOK m) :
    θ_run (Cert.KernelIdeal.defs (F := F)) (Cert.KernelIdeal.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (G (F := F)) (FIN m hpre) (u₀ (F := F)) (sep_elim_left.trans (hu₀ m hpre)) (hmain m ρ hpre) (fq m hpre) (hfin m hpre) (QC m hpre) (fun _ h => h)

/-! ## The result as a term of the launch arrays -/

theorem Vt_v1 (hpre : PreOK m) (c : Dev nD) : Vt m hpre c main_v1 = fun i => shapeCast S1024x1 (m (lLoc c)) shapeCasts_S1024_S1024x1 i := by
  show V3 m hpre c v1' = _
  unfold V3 V2
  rw [(op2 (F := F)).result_of_not_mem _ (b := v1') (by simpa using (show v1' ≠ v2' by decide)), StableHlo.reshape_result]
  unfold V1
  rw [Function.update_of_ne (show a2' ≠ v0' by decide)]
  rfl

theorem Vt_v2 (hpre : PreOK m) (c : Dev nD) : Vt m hpre c main_v2 = fun i => shapeCast S1x1024 (m (lLoc c)) shapeCasts_S1024_S1x1024 i := by
  show V3 m hpre c v2' = _
  unfold V3
  rw [StableHlo.reshape_result]
  unfold V2
  rw [(op1 (F := F)).result_of_not_mem _ (b := a2') (by simpa using (show a2' ≠ v1' by decide))]
  unfold V1
  rw [Function.update_of_ne (show a2' ≠ v0' by decide)]
  rfl

theorem Vt_keep (hpre : PreOK m) (c : Dev nD) (b : Ref sig .tc) (h0 : (Proc.devRef .tc b : DevRef τ sig) ≠ v0') (h1 : (Proc.devRef .tc b : DevRef τ sig) ≠ v1')
    (h2 : (Proc.devRef .tc b : DevRef τ sig) ≠ v2') : Vt m hpre c b = m (tl c b) := by
  show V3 m hpre c (Proc.devRef .tc b) = _
  unfold V3 V2 V1
  rw [(op2 (F := F)).result_of_not_mem _ (b := Proc.devRef .tc b) (by simpa using h2), (op1 (F := F)).result_of_not_mem _ (b := Proc.devRef .tc b) (by simpa using h1),
    Function.update_of_ne h0]
  rfl

theorem Vt_v0 (hpre : PreOK m) (c : Dev nD) : Vt m hpre c main_v0 = gathered m hpre c := by
  show V3 m hpre c v0' = _
  unfold V3 V2 V1
  rw [(op2 (F := F)).result_of_not_mem _ (b := v0') (by simpa using (show v0' ≠ v2' by decide)), (op1 (F := F)).result_of_not_mem _ (b := v0') (by simpa using (show v0' ≠ v1' by decide)),
    Function.update_self]

/-- The scalar the program returns. -/
def resultOf (hpre : PreOK m) (d : Dev nD) : FVec F S_ .f32 :=
  shapeCast S_ (KerTerm.out (F := F) (KerTerm.blkOf (m (tl d main_arg1))) (fun i => shapeCast S1024x1 (m (lLoc d)) shapeCasts_S1024_S1024x1 i)
    (fun i => shapeCast S1x1024 (m (lLoc d)) shapeCasts_S1024_S1x1024 i) (m (tl d main_arg0)) (gathered m hpre d)) shapeCasts_S1x1_S_

theorem result_eq (hpre : PreOK m) (d : Dev nD) : V5 m hpre d v4' = resultOf m hpre d := by
  unfold V5
  rw [StableHlo.reshape_result]
  unfold V4
  rw [Function.update_self]
  unfold outArr pdats
  dsimp only
  rw [arrAt_out]
  unfold outBlk TcProof.lblk resultOf
  rw [Vt_v1, Vt_v2, Vt_v0, Vt_keep m hpre d main_arg0 (by decide) (by decide) (by decide), Vt_keep m hpre d main_arg1 (by decide) (by decide) (by decide)]
  rfl

end Cert.KernelIdeal.ScProof

end
-- ==== Proof.WScBase.lean ====
/-
  The gather stage on the vector subcores: each of the 32 tiles (2 cores × 16 subcores) takes 32 consecutive
  samples — tile (c, s) the samples from 32·(2·s + c) —, copies their labels into its index scratch, gathers the
  labelled rows of the class-centre table into its row scratch, and copies those 32 rows to the same 32 rows of the
  output.  Every tile reads the label array and the centre table (a read share of each, whole) and owns exactly its
  32 rows of the output, which it leaves holding, at row r, the centre row numbered by sample r's label.
-/
import proofs.«217730_g43602507989570_cont_8to1c4_241_33_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«217730_g43602507989570_cont_8to1c4_241_33_alg».proof.Proof.Gen.Kernel
import proofs.«217730_g43602507989570_cont_8to1c4_241_33_alg».proof.Proof.Gen.Kernel.Skeleton
import proofs.«217730_g43602507989570_cont_8to1c4_241_33_alg».proof.Proof.Gen.Kernel.Launch

noncomputable section

namespace Cert.Kernel.ScProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev lLoc (d : Dev nD) : Loc nD τ sig := (SparseCore.T d).loc main_arg2
abbrev xLoc (d : Dev nD) : Loc nD τ sig := (SparseCore.T d).loc main_arg3
abbrev oLoc (d : Dev nD) : Loc nD τ sig := (SparseCore.T d).loc main_v0

local notation "lV" => (Memref.whole Cert.Kernel.main_arg2_scv : Memref Cert.Kernel.sig Kind.scVector Space.hbm Cert.Kernel.S1024 EltTy.i32)
local notation "xV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

/-- What the proof asks of the launch memory: every label, read as an unsigned word, is a row number of the table. -/
def PreOK : Prop := ∀ (d : Dev nD) (j : S1024.Idx), (m (lLoc d) j : BitVec 32).toNat < 100000

/-! ## Read shares of the two tables: one per core, one per tile of the core -/

theorem two_pos : 0 < 2 := by decide
theorem sixteen_pos : 0 < 16 := by decide
/-- Tile `(c, i)`'s share of a table every tile reads: the full share cut in two, that half in sixteen. -/
abbrev tq (c : Fin 2) (i : Fin 16) : PosShare TreeShare := pieceOf (pieceOf fullShare 2 two_pos c) 16 sixteen_pos i

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The tile's 32 labels and its 32 output rows, as the task slices them; the table whole. -/
abbrev lRowK (L : grid0.Coords) : Memref sig .scVector .hbm S32 .i32 := (lV).slice (Rect.unit (s := S1024) (k0_off1 L) S32.size (k0_off1_inb L)) (fun _ => rfl)
abbrev oRowK (L : grid0.Coords) : Memref sig .scVector .hbm S32x128 .f32 := (oV).slice (Rect.unit (s := S1024x128) (k0_off2 L) S32x128.size (k0_off2_inb L)) (fun _ => rfl)
abbrev xAllK : Memref sig .scVector .hbm S100000x128 .f32 := (xV).slice (Rect.unit (s := S100000x128) ![0, 0] S100000x128.size inb_S100000x128_S100000x128_0_0) (fun _ => rfl)
abbrev oRowSet (L : grid0.Coords) : Finset S1024x128.Idx := (oRowK L).view.set

abbrev lPts (d : Dev nD) (q : PosShare TreeShare) : sProp 𝕄 := lLoc d ↦{q} m (lLoc d)
abbrev xPts (d : Dev nD) (q : PosShare TreeShare) : sProp 𝕄 := xLoc d ↦{q} m (xLoc d)
abbrev oRowPts (d : Dev nD) (L : grid0.Coords) (f : Buf (Elt F) (oLoc d)) : sProp 𝕄 := oLoc d ↦[oRowSet L]{fullShare} f

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_lV (q : PosShare TreeShare) (f : Buf (Elt F) (lLoc d)) :
    ((lV).view.loc (V d (cV L) (jV L)) ↦{q} f : sProp 𝕄) = lLoc d ↦{q} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The row of the table the gather fetches for the tile's sample `k`: the sample's label, a row number by `PreOK`. -/
theorem inb_of_pre (hpre : PreOK m) (fs : Buf (Elt F) ((V d (cV L) (jV L)).loc cc0_scratch0)) (pay : S32.Idx → Elt F .i32)
    (hpay : pay = (lRowK L).view.read (Elt F) (m (lLoc d))) :
    ∀ x, ((sV).view.read (Elt F) (View.write (Elt F) (sV).view fs pay Finset.univ) x).toNat < S100000x128.size gathers_S100000x128_S32x128.axis := by
  subst hpay; intro x
  rw [View.write_whole_univ]
  simp only [Memref.view_whole, View.read_whole]
  rw [show ∀ j, (lRowK L).view.read (Elt F) (m (lLoc d)) j = m (lLoc d) ((lRowK L).view.emb j) from fun j => (View.read_apply _ _).trans (cast_eq _ _)]
  exact hpre d _

/-- The gathered rows as ONE array: row `r` holds the table's row numbered by sample `r`'s label. -/
def gathered (hpre : PreOK m) (d : Dev nD) : Buf (Elt F) (oLoc d) :=
  fun j => m (xLoc d) (ValueIdx.ix2 (⟨(m (lLoc d) (ValueIdx.ix1 (j 0)) : BitVec 32).toNat, hpre d _⟩ : Fin 100000) (j 1))

end Tile

end Cert.Kernel.ScProof

end
-- ==== Proof.WScValue.lean ====
/-
  What the tile's three transfers leave in its 32 rows of the output: at row r of the block the centre row whose
  number is the label of the block's sample r.  The label copy lands the block's 32 labels in the index scratch
  (entry k is the label of sample off + k); the gather lands row `label k` of the table at row k of the row scratch;
  the copy out lands row k of the scratch at row off + k of the output.  Both offsets are the same number,
  64·s + 32·c for the tile (c, s).
-/
import proofs.«217730_g43602507989570_cont_8to1c4_241_33_alg».proof.Proof.WScBase

noncomputable section

namespace Cert.Kernel.ScProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.Kernel.main_arg2_scv : Memref Cert.Kernel.sig Kind.scVector Space.hbm Cert.Kernel.S1024 EltTy.i32)
local notation "xV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

variable (m : (ℓ : Loc nD τ sig) → Buf (Elt F) ℓ) (ρ : Dev nD → PrngReg)
variable [FloatOps F]

section Tile

variable (d : Dev nD) (L : grid0.Coords)

theorem gather_value (hpre : PreOK m) (fs : Buf (Elt F) ((V d (cV L) (jV L)).loc cc0_scratch0)) (fr : Buf (Elt F) ((V d (cV L) (jV L)).loc cc0_scratch1))
    (pay0 : S32.Idx → Elt F .i32) (hpay0 : pay0 = (lRowK L).view.read (Elt F) (m (lLoc d)))
    (hn : S32.numel = S32x128.size gathers_S100000x128_S32x128.axis')
    (hin' : ∀ x, ((sV).view.read (Elt F) (View.write (Elt F) (sV).view fs pay0 Finset.univ) x).toNat < S100000x128.size gathers_S100000x128_S32x128.axis) :
    ∀ j ∈ (oRowK L).view.set,
      ((oRowK L).view.writes (Elt F) (m (oLoc d)) [⟨Rect.whole S32x128, ReadAs.same.apply (View.read (Elt F) (rV).view
        ((rV).view.writes (Elt F) fr [⟨Rect.whole cc0_scratch1.ty.shape, SparseCore.gatherPayload gathers_S100000x128_S32x128
          (View.read (Elt F) xAllK.view (m (xLoc d)))
          (SparseCore.rows (View.read (Elt F) (sV).view (View.write (Elt F) (sV).view fs pay0 Finset.univ)) hn hin')⟩]))⟩]) j
        = gathered m hpre d j := by
  intro j hj
  obtain ⟨x, -, rfl⟩ := Finset.mem_map.mp hj
  have hr : ∀ g : (oRowK L).view.ty.Contents (Elt F), g ((oRowK L).view.emb x) = (oRowK L).view.read (Elt F) g x :=
    fun g => ((View.read_apply _ _).trans (cast_eq _ _)).symm
  refine (hr _).trans ?_
  have h1 : ∀ W : (Rect.whole S32x128).shape.Idx → Elt F .f32,
      (oRowK L).view.read (Elt F) ((oRowK L).view.writes (Elt F) (m (oLoc d)) [⟨Rect.whole S32x128, W⟩]) x = W x := by
    intro W
    have := View.read_writes_cons_emb (oRowK L).view (m (oLoc d)) (Rect.whole S32x128) W [] x
    rwa [Rect.emb_whole_apply] at this
  rw [h1, ReadAs.apply_same]
  have h2 : ∀ G : (Rect.whole cc0_scratch1.ty.shape).shape.Idx → Elt F .f32,
      View.read (Elt F) (rV).view ((rV).view.writes (Elt F) fr [⟨Rect.whole cc0_scratch1.ty.shape, G⟩]) x = G x := by
    intro G
    have := View.read_writes_cons_emb (rV).view fr (Rect.whole cc0_scratch1.ty.shape) G [] x
    rwa [Rect.emb_whole_apply] at this
  rw [h2]
  unfold SparseCore.gatherPayload gathered
  refine ((View.read_apply _ _).trans (cast_eq _ _)).trans ?_
  refine congrArg (m (xLoc d)) ?_
  -- the table's slice is the whole table: its embedding keeps every coordinate
  have hA : ∀ (y : S100000x128.Idx) (a : Fin 2), (xAllK.view.emb y a : Nat) = (y a : Nat) := by
    intro y a
    show ((Rect.unit (s := S100000x128) ![0, 0] S100000x128.size inb_S100000x128_S100000x128_0_0).emb y a : Nat) = _
    rw [Rect.emb_apply]
    match a with
    | ⟨0, _⟩ => simp
    | ⟨1, _⟩ => simp
  -- the index scratch holds the block's labels
  have hp : View.read (Elt F) (sV).view (View.write (Elt F) (sV).view fs pay0 Finset.univ) = pay0 := by
    rw [View.write_whole_univ]; simp only [Memref.view_whole, View.read_whole]
  have hk : ∀ k, ((SparseCore.rows (View.read (Elt F) (sV).view (View.write (Elt F) (sV).view fs pay0 Finset.univ)) hn hin') k).val
      = (m (lLoc d) ((lRowK L).view.emb (S32.rowMajor.symm (k.cast hn.symm))) : BitVec 32).toNat := by
    intro k
    show (View.read (Elt F) (sV).view (View.write (Elt F) (sV).view fs pay0 Finset.univ) (S32.rowMajor.symm (k.cast hn.symm)) : BitVec 32).toNat = _
    rw [hp, hpay0]
    exact congrArg BitVec.toNat ((View.read_apply _ _).trans (cast_eq _ _))
  funext b
  apply Fin.ext
  match b with
  | ⟨0, h0⟩ =>
    rw [hA]
    have hax : (⟨0, h0⟩ : Fin S100000x128.rank) = gathers_S100000x128_S32x128.axis := rfl
    rw [hax, Shape.Gathers.idx_axis, hk]
    show _ = (m (lLoc d) (ValueIdx.ix1 ((oRowK L).view.emb x 0)) : BitVec 32).toNat
    refine congrArg (fun i => (m (lLoc d) i : BitVec 32).toNat) ?_
    funext a
    apply Fin.ext
    match a with
    | ⟨0, _⟩ =>
      show ((Rect.unit (s := S1024) (k0_off1 L) S32.size (k0_off1_inb L)).emb _ 0 : Nat)
        = ((Rect.unit (s := S1024x128) (k0_off2 L) S32x128.size (k0_off2_inb L)).emb x 0 : Nat)
      rw [Rect.emb_apply, Rect.emb_apply]
      simp only [Rect.off_unit, Rect.stride_unit]
      have e1 : k0_off1 L 0 = 64 * (L 1).val + 32 * (L 0).val := by rw [k0_off1_eq]; rfl
      have e2 : k0_off2 L 0 = 64 * (L 1).val + 32 * (L 0).val := by rw [k0_off2_eq]; rfl
      have hx0 : (x gathers_S100000x128_S32x128.axis' : Nat) = (x 0 : Nat) := rfl
      have hz : ((S32.rowMajor.symm ((x gathers_S100000x128_S32x128.axis').cast hn.symm)) 0 : Nat) = (x gathers_S100000x128_S32x128.axis' : Nat) := by
        have := Shape.rowMajor_val_one (S32.rowMajor.symm ((x gathers_S100000x128_S32x128.axis').cast hn.symm))
        rw [Equiv.apply_symm_apply] at this
        exact this.symm
      omega
  | ⟨1, h1'⟩ =>
    rw [hA, Shape.Gathers.idx_of_ne _ _ _ _ (show ((⟨1, h1'⟩ : Fin S100000x128.rank) : ℕ) ≠ 0 from Nat.one_ne_zero)]
    show _ = ((Rect.unit (s := S1024x128) (k0_off2 L) S32x128.size (k0_off2_inb L)).emb x 1 : Nat)
    rw [Rect.emb_apply]
    simp only [Rect.off_unit, Rect.stride_unit]
    have e3 : k0_off2 L 1 = 0 := by rw [k0_off2_eq]; rfl
    have hx1 : ((x (Fin.cast gathers_S100000x128_S32x128.1.symm ⟨1, h1'⟩)) : Nat) = (x 1 : Nat) := rfl
    omega

end Tile

end Cert.Kernel.ScProof

end
-- ==== Proof.WScTile.lean ====
/-
  One tile's task, run: the label copy, the gather of the labelled centre rows, the copy of the 32 rows out; the
  tile's rows of the output end at the gathered array.
-/
import proofs.«217730_g43602507989570_cont_8to1c4_241_33_alg».proof.Proof.WScValue

noncomputable section

namespace Cert.Kernel.ScProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.Kernel.main_arg2_scv : Memref Cert.Kernel.sig Kind.scVector Space.hbm Cert.Kernel.S1024 EltTy.i32)
local notation "xV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

variable (m : (ℓ : Loc nD τ sig) → Buf (Elt F) ℓ) (ρ : Dev nD → PrngReg)
variable [FloatOps F]

section Tile

variable (d : Dev nD) (L : grid0.Coords)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (lPts m d (tq (cL L) (jL L)) ∗ xPts m d (tq (cL L) (jL L)) ∗ oRowPts d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_rows L lV (Memref.isWhole_whole _) xV (Memref.isWhole_whole _) oV (Memref.isWhole_whole _)
            sV (Memref.isWhole_whole _) rV (Memref.isWhole_whole _) cc0_scratch2 cc0_scoped0 cc0_scoped1)
          fun _ => iprop((lPts m d (tq (cL L) (jL L)) ∗ xPts m d (tq (cL L) (jL L)) ∗ oRowPts d L (gathered m hpre d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_rows_eq_skeleton]; unfold cc0_gather_rows_skel
  rw [(K (F := F)).scopedBufs_V hF d (cV L) (jV L), SparseCore.Cfg.scopedSems0_V (Val := Elt F) d (cV L) (jV L), ownSems0_V, ownBufs_V]
  iintro ⟨#Hlv, -, ⟨Hl, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lV (F := F) d L _ _).symm) $$ Hl
  ihave Hx' := (Entails.of_eq (pts_xV (F := F) d L _ _).symm) $$ Hx
  ihave Ho' := (Entails.of_eq (pts_oRowK (F := F) d L _).symm) $$ Ho
  ihave Hs' := (Entails.of_eq (pts_sV (F := F) d L _).symm) $$ Hs
  ihave Hr' := (Entails.of_eq (pts_rV (F := F) d L _).symm) $$ Hr
  have hin := inb_of_pre m d L hpre
  sl_exec
  have hin' := hin fs (tile_body.sl.dma0 m d L) rfl
  sl_exec
  have hval : ∀ j ∈ (oRowK L).view.set,
      ((oRowK L).view.writes (Elt F) (m (oLoc d)) [⟨Rect.whole S32x128, tile_body.sl.dma0_1 m d L fs fr hin'⟩]) j = gathered m hpre d j := by
    intro j hj
    exact gather_value m d L hpre fs fr (tile_body.sl.dma0 m d L) rfl _ hin' j hj
  ihave Ho2 := (Entails.of_eq (pointsTo_congr hval)) $$ Ho'
  sl_step
  isplitl [Hl' Hx' Ho2]
  · isplitl [Hl']; · iexact Hl'
    isplitl [Hx']; · iexact Hx'
    iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Kernel.ScProof

end
-- ==== Proof.WScSplit.lean ====
/-
  How the three arrays of the gather stage go out to the 32 tiles and come back.  Tile (c, s) owns the output rows
  64·s + 32·c … 64·s + 32·c + 31: the 32 blocks are pairwise disjoint and cover all 1024 rows, so the output held
  whole is the 32 blocks held side by side, at any contents.  The label array and the centre table are only read:
  the full share of each is cut in two (one half per core) and each half in sixteen.
-/
import proofs.«217730_g43602507989570_cont_8to1c4_241_33_alg».proof.Proof.WScBase

noncomputable section

namespace Cert.Kernel.ScProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.Kernel.main_arg2_scv : Memref Cert.Kernel.sig Kind.scVector Space.hbm Cert.Kernel.S1024 EltTy.i32)
local notation "xV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

variable (m : (ℓ : Loc nD τ sig) → Buf (Elt F) ℓ) (ρ : Dev nD → PrngReg)
variable [FloatOps F]

/-- Tile `(c, s)` as a point of the stage's grid. -/
def coordsT (c : Fin 2) (s : Fin 16) : grid0.Coords :=
  fun | 0 => c | 1 => s | ⟨_ + 2, h⟩ => absurd h (Nat.not_lt.2 (Nat.le_add_left _ _))

omit [FloatOps F] in
theorem oRowSet_eq (L : grid0.Coords) : oRowSet L = (Rect.unit (s := S1024x128) (k0_off2 L) S32x128.size (k0_off2_inb L)).set := by
  show ((View.whole (main_v0_scv : Ref sig .scVector)).slice _).set = _
  rw [View.set_slice]; exact Finset.map_refl

omit [FloatOps F] in
/-- A row-column pair lies in tile `L`'s block exactly when its row does. -/
theorem mem_oRowSet (L : grid0.Coords) (j : S1024x128.Idx) :
    j ∈ oRowSet L ↔ 64 * (L 1).val + 32 * (L 0).val ≤ (j 0).val ∧ (j 0).val < 64 * (L 1).val + 32 * (L 0).val + 32 := by
  rw [oRowSet_eq, Rect.mem_set_unit, k0_off2_eq]
  constructor
  · intro h
    have h0 := h 0
    simpa using h0
  · intro h a
    match a with
    | ⟨0, _⟩ => simpa using h
    | ⟨1, _⟩ =>
      have := (j 1).isLt
      simp at this ⊢
      omega

omit [FloatOps F] in
theorem oRows_disjoint : ∀ t ∈ (Finset.univ : Finset (Fin 2 × Fin 16)), ∀ t' ∈ (Finset.univ : Finset (Fin 2 × Fin 16)), t ≠ t' →
    Disjoint (oRowSet (coordsT t.1 t.2)) (oRowSet (coordsT t'.1 t'.2)) := by
  rintro ⟨c, s⟩ - ⟨c', s'⟩ - hne
  refine Finset.disjoint_left.mpr fun j h h' => hne ?_
  rw [mem_oRowSet] at h h'
  dsimp only at h h'
  have hc : c.val = c'.val ∧ s.val = s'.val := by
    have h1 : (coordsT c s 0).val = c.val := rfl
    have h2 : (coordsT c s 1).val = s.val := rfl
    have h3 : (coordsT c' s' 0).val = c'.val := rfl
    have h4 : (coordsT c' s' 1).val = s'.val := rfl
    have := c.isLt; have := c'.isLt
    omega
  exact Prod.ext (Fin.ext hc.1) (Fin.ext hc.2)

omit [FloatOps F] in
theorem oRows_cover : (Finset.univ : Finset (Fin 2 × Fin 16)).biUnion (fun t => oRowSet (coordsT t.1 t.2)) = Finset.univ := by
  refine Finset.eq_univ_iff_forall.mpr fun j => Finset.mem_biUnion.mpr ?_
  have hj : (j 0).val < 1024 := (j 0).isLt
  refine ⟨(⟨((j 0).val % 64) / 32, by omega⟩, ⟨(j 0).val / 64, by omega⟩), Finset.mem_univ _, ?_⟩
  rw [mem_oRowSet]
  dsimp only
  have h1 : (coordsT ⟨((j 0).val % 64) / 32, by omega⟩ ⟨(j 0).val / 64, by omega⟩ 0).val = ((j 0).val % 64) / 32 := rfl
  have h2 : (coordsT ⟨((j 0).val % 64) / 32, by omega⟩ ⟨(j 0).val / 64, by omega⟩ 1).val = (j 0).val / 64 := rfl
  omega

variable (d : Dev nD)

omit [FloatOps F] in
/-- The output held whole is its 32 row blocks held side by side. -/
theorem oPts_tiles (f : Buf (Elt F) (oLoc d)) :
    (oLoc d ↦{fullShare} f : sProp 𝕄) = bigSep Finset.univ fun c : Fin 2 => bigSep Finset.univ fun s : Fin 16 => oLoc d ↦[oRowSet (coordsT c s)]{fullShare} f := by
  rw [← bigSep_univ_prod (fun t : Fin 2 × Fin 16 => (oLoc d ↦[oRowSet (coordsT t.1 t.2)]{fullShare} f : sProp 𝕄)),
    ← pointsTo_biUnion Finset.univ (ℓ := oLoc d) (fun t : Fin 2 × Fin 16 => oRowSet (coordsT t.1 t.2)) oRows_disjoint, oRows_cover]
  try rfl

omit [FloatOps F] in
/-- A table every tile reads: the full share is the 32 tiles' shares. -/
theorem shares_tiles (ℓ : Loc nD τ sig) (f : Buf (Elt F) ℓ) :
    (ℓ ↦{fullShare} f : sProp 𝕄) = bigSep Finset.univ fun c : Fin 2 => bigSep Finset.univ fun s : Fin 16 => ℓ ↦{tq c s} f := by
  rw [pointsTo_piecesOf Finset.univ f two_pos fullShare]
  refine bigSep_congr fun c _ => ?_
  exact pointsTo_piecesOf Finset.univ f sixteen_pos _

end Cert.Kernel.ScProof

end
-- ==== Proof.WScObl.lean ====
/-
  The gather stage as the launch sees it.  The one call hands each core the sixteen tasks' resources side by side
  (so dealing a core's operands to its tiles, and gathering them back, is the identity); a task takes a read share of
  the label array and of the centre table and its 32 rows of the output at the launch contents, and brings back the
  shares and the rows at the gathered array.
-/
import proofs.«217730_g43602507989570_cont_8to1c4_241_33_alg».proof.Proof.WScTile
import proofs.«217730_g43602507989570_cont_8to1c4_241_33_alg».proof.Proof.WScSplit

noncomputable section

namespace Cert.Kernel.ScProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.Kernel.main_arg2_scv : Memref Cert.Kernel.sig Kind.scVector Space.hbm Cert.Kernel.S1024 EltTy.i32)
local notation "xV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

variable (m : (ℓ : Loc nD τ sig) → Buf (Elt F) ℓ) (ρ : Dev nD → PrngReg)
variable [FloatOps F]

/-- What a task on tile `L` takes, and what it brings back. -/
abbrev goRes (d : Dev nD) (L : grid0.Coords) : sProp 𝕄 :=
  iprop(lPts m d (tq (cL L) (jL L)) ∗ xPts m d (tq (cL L) (jL L)) ∗ oRowPts d L (m (oLoc d)))
abbrev tdRes (hpre : PreOK m) (d : Dev nD) (L : grid0.Coords) : sProp 𝕄 :=
  iprop(lPts m d (tq (cL L) (jL L)) ∗ xPts m d (tq (cL L) (jL L)) ∗ oRowPts d L (gathered m hpre d))

abbrev tileOf (c : Fin ((K (F := F)).nCore 0)) (i : Fin ((K (F := F)).nSub 0)) : grid0.Coords :=
  coordsT (Fin.cast nCore_zero c) (Fin.cast nSub_zero i)

def P (hpre : PreOK m) : (K (F := F)).Pay (nD := nD) (Val := Elt F) (Name := ℕ) (U := UU) where
  st := fun q d c => match q with | 0 => bigSep Finset.univ fun i : Fin ((K (F := F)).nSub 0) => goRes m d (tileOf c i)
  dn := fun q d c => match q with | 0 => bigSep Finset.univ fun i : Fin ((K (F := F)).nSub 0) => tdRes m hpre d (tileOf c i)
  go := fun q d c i => match q with | 0 => goRes m d (tileOf c i)
  td := fun q d c i => match q with | 0 => tdRes m hpre d (tileOf c i)
  x := fun _ _ => iprop(emp)

instance P_storable (hpre : PreOK m) : (P (F := F) m hpre).IsStorable where
  st q d c := match q with
    | 0 => (inferInstance : BI.Storable (upEmb : UEmb _ 𝕄) (bigSep Finset.univ fun i : Fin ((K (F := F)).nSub 0) => goRes m d (tileOf c i)))
  dn q d c := match q with
    | 0 => (inferInstance : BI.Storable (upEmb : UEmb _ 𝕄) (bigSep Finset.univ fun i : Fin ((K (F := F)).nSub 0) => tdRes m hpre d (tileOf c i)))
  go q d c i := match q with
    | 0 => (inferInstance : BI.Storable (upEmb : UEmb _ 𝕄) (goRes m d (tileOf c i)))
  td q d c i := match q with
    | 0 => (inferInstance : BI.Storable (upEmb : UEmb _ 𝕄) (tdRes m hpre d (tileOf c i)))

/-! ## The obligation -/

theorem defs₀_vector (c : Fin τ.nSC) (s : Fin τ.nSub) :
    defs₀ (F := F) (.scVector c s) 0 ()
      = SparseCore.onTile hcore0 hsub0 (fun c s => cc0_gather_rows (fun | 0 => c | 1 => s | ⟨_ + 2, h⟩ => absurd h (Nat.not_lt.2 (Nat.le_add_left _ _)))
          lV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsT ⟨_, hci.1⟩ ⟨_, hci.2⟩) hF hpre O W hO).trans (wp_mono frame _ _ fun _ => obl_post)

/-! ## A core's operands are its tasks' -/

theorem vecSplit (hpre : PreOK m) : (K (F := F)).VecSplit' (P m hpre) 0 := by
  intro d c
  show (bigSep Finset.univ fun i : Fin ((K (F := F)).nSub 0) => goRes m d (tileOf c i)) ⊢ |={Set.univ}=> iprop(
      (bigSep Finset.univ fun i : Fin ((K (F := F)).nSub 0) => goRes m d (tileOf c i))
      ∗ ((bigSep Finset.univ fun i : Fin ((K (F := F)).nSub 0) => tdRes m hpre d (tileOf c i))
          -∗ (bigSep Finset.univ fun i : Fin ((K (F := F)).nSub 0) => tdRes m hpre d (tileOf c i))))
  iintro H; imodintro
  isplitl [H]; · iexact H
  iintro H'; iexact H'

end Cert.Kernel.ScProof

end
-- ==== Proof.WKerTerm.lean ====
/-
  What the kernel's TensorCore stage leaves in its one output word, as a pure term of what it loads.

  The stage visits 25 column blocks of the logits, 4096 columns each.  Two per-sample accumulators start at
  zero; block `n < 24` adds to the first the block's row sums of `exp` and to the second the block's entry in
  the sample's label column (zero elsewhere); the last block does the same after masking the columns past
  100000 to `-∞`.  The output is then the mean of `log s - t` plus the scaled mean squared distance to the
  moved centres, which the last visit computes from the embeddings, the gathered centre rows and the labels
  (as a column and as a row).
-/
import proofs.«217730_g43602507989570_cont_8to1c4_241_33_alg».proof.Proof.Gen.Kernel.Skeleton
import Idealize.ShloMosaic.Lib.ValueIdx

noncomputable section

namespace Cert.Kernel.KerTerm

open Idealize.ShloMosaic Cert.Kernel Cert.Kernel.Gen

variable {F : FTy → Type} [FloatOps F]

/-- Block number `n` as a grid coordinate (numbers past 24 wrap; only 0 … 24 are used). -/
def cd (n : ℕ) : grid1.Coords := fun a => match a with | ⟨0, _⟩ => ⟨n % 25, Nat.mod_lt _ (by decide)⟩

/-- Column block `n` of the logits as the stage loads it: 4096 columns from column 4096·n; a lane whose column
    lies past the last column (block 24 only) reads the zero word — a stand-in: the stage masks those lanes. -/
def blkOf (lg : FVec F S1024x100000 .f32) (n : ℕ) : Vec F S1024x4096 .f32 := fun j =>
  if h : 4096 * n + (j 1).val < 100000 then lg (ValueIdx.ix2 (j 0) ⟨4096 * n + (j 1).val, h⟩)
  else FloatOps.ofBits .f32 0x00000000#32

/-- The first accumulator after the first `n` blocks (`n ≤ 24`). -/
def sAcc (blk : ℕ → Vec F S1024x4096 .f32) : ℕ → FVec F S1024x1 .f32
  | 0 => k1_pay1
  | n + 1 => k1_pay5 (blk n) (sAcc blk n)

/-- The second accumulator after the first `n` blocks (`n ≤ 24`). -/
def tAcc (blk : ℕ → Vec F S1024x4096 .f32) (labc : Vec F S1024x1 .i32) : ℕ → FVec F S1024x1 .f32
  | 0 => k1_pay2
  | n + 1 => k1_pay6 (cd n) (blk n) labc (tAcc blk labc n)

/-- Both accumulators after all 25 blocks: the last block masked. -/
def sFin (blk : ℕ → Vec F S1024x4096 .f32) : FVec F S1024x1 .f32 := k1_pay7 (cd 24) (blk 24) (sAcc blk 24)
def tFin (blk : ℕ → Vec F S1024x4096 .f32) (labc : Vec F S1024x1 .i32) : FVec F S1024x1 .f32 :=
  k1_pay8 (cd 24) (blk 24) labc (tAcc blk labc 24)

/-- The stage's output word. -/
def out (blk : ℕ → Vec F S1024x4096 .f32) (labc : Vec F S1024x1 .i32) (labr : Vec F S1x1024 .i32)
    (emb gath : Vec F S1024x128 .f32) : FVec F S1x1 .f32 :=
  k1_pay9 (k1_pay10 (sFin blk) (tFin blk labc)) (k1_pay11 emb gath labc labr)

end Cert.Kernel.KerTerm

end
-- ==== Proof.WTcData.lean ====
/-
  The TensorCore stage as the pipeline sees it, core by core: what every windowed array holds when the stage is
  entered, what each window's staging buffer holds after each of the 25 visits, and what the two per-sample
  accumulators hold between visits.

  The five inputs are only read: after every visit a staging buffer still holds the block that was fetched into
  it.  The one output word is stored at the last visit only, and is the pure term `KerTerm.out` of the blocks.
  Between visits `n - 1` and `n` (1 ≤ n ≤ 24) the accumulators hold the sums over the first `n` column blocks;
  after the last visit they hold the masked totals; before the first visit they hold anything.
-/
import proofs.«217730_g43602507989570_cont_8to1c4_241_33_alg».proof.Proof.WKerTerm
import proofs.«217730_g43602507989570_cont_8to1c4_241_33_alg».proof.Proof.Gen.Kernel.Launch
import proofs.«217730_g43602507989570_cont_8to1c4_241_33_alg».proof.Proof.Gen.Kernel.Points
import Idealize.ShloMosaic.Lib.Pipeline.Kit
import Idealize.ShloMosaic.Lib.Pipeline.Regions

noncomputable section

namespace Cert.Kernel.TcProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The stage prefetches no table: there is one way to admit it. -/
abbrev adm : (p : Fin 1) → (pcfgs (F := F) p).Adm := fun p => (cfgs p).toPCfg_adm

/-- The stage's pipeline, at that admission: `cfg1`. -/
abbrev pcfg : Cfg sig Λ₀ := Pipeline.pin (pcfgs (F := F)) adm 0

section Data

variable (c : Dev nD) (V : (b : Ref sig .tc) → Buf (Elt F) ((c.tc : Thread nD τ).loc b))

/-- Column block `n` of the logits held at entry. -/
abbrev lblk (n : ℕ) : Vec F S1024x4096 .f32 := KerTerm.blkOf (F := F) (V main_arg1) n

/-- The word the stage leaves in its output. -/
def outBlk : FVec F S1x1 .f32 :=
  KerTerm.out (F := F) (lblk c V) (V main_v1) (V main_v2) (V main_arg0) (V main_v0)

/-- What a fetch of window `w` at visit `t` leaves in a staging buffer: the array's block there, and on lanes
    the fetch does not reach (the last logits block overhangs the array) a word nothing reads. -/
def fetchedOf (w : Fin 6) (t : Fin cfg1.N) : (cfg1.win w).block.Idx → Elt F (cfg1.win w).elt :=
  (cfg1.win w).fill (grid1.coords t) (fun _ => Classical.arbitrary _)
    (((cfg1.win w).blk t).view.read (Elt F) (V (Pipeline.arrRef spec1 w)))

/-- The two accumulators between visits: anything before the first, the partial sums before visit `n` for
    1 ≤ n ≤ 24, the masked totals after the last. -/
def accs (n : ℕ) : sProp 𝕄 :=
  if n = 0 then Pipeline.scopedRest (Ix := Ix) (Name := Name) (U := U) (Lvl := Lvl) (Val := Elt F) spec1 c
  else if n ≤ 24 then
    iprop((((c.tc : Thread nD τ).loc cc1_scratch0) ↦{fullShare} (KerTerm.sAcc (F := F) (lblk c V) n : FVec F S1024x1 .f32))
      ∗ (((c.tc : Thread nD τ).loc cc1_scratch1) ↦{fullShare} (KerTerm.tAcc (F := F) (lblk c V) (V main_v1) n : FVec F S1024x1 .f32)))
  else
    iprop((((c.tc : Thread nD τ).loc cc1_scratch0) ↦{fullShare} (KerTerm.sFin (F := F) (lblk c V) : FVec F S1024x1 .f32))
      ∗ (((c.tc : Thread nD τ).loc cc1_scratch1) ↦{fullShare} (KerTerm.tFin (F := F) (lblk c V) (V main_v1) : FVec F S1024x1 .f32)))

/-- The stage's proof data on core `c`, entered with every TensorCore buffer at `V`; `B` bounds, at every visit,
    the waits the core has recorded outside the stage (the stage's body records none). -/
def dats (B : Set (SemLoc sig × Ix)) : Dat τ (Elt F) Ix Name U Lvl (pcfg (F := F)) c where
  A w := V (Pipeline.arrRef spec1 w)
  after w t := match w with
    | ⟨0, _⟩ => fetchedOf c V 0 t
    | ⟨1, _⟩ => fetchedOf c V 1 t
    | ⟨2, _⟩ => fetchedOf c V 2 t
    | ⟨3, _⟩ => fetchedOf c V 3 t
    | ⟨4, _⟩ => fetchedOf c V 4 t
    | ⟨5, _⟩ => outBlk c V
  Φ t := accs c V t.val
  q _ := fullShare
  owed _ := 0
  recorded _ := B

end Data

end Cert.Kernel.TcProof

end
-- ==== Proof.WTcLayout.lean ====
/-
  What a staging buffer holds when the body runs, for the five inputs: what the fetch of the visit's block put
  there.  For the logits this is column block `t` of the array on every lane whose column lies inside the array
  (all 4096 lanes at visits 0 … 23, the first 1696 at visit 24) and is unknown on the others.
-/
import proofs.«217730_g43602507989570_cont_8to1c4_241_33_alg».proof.Proof.WTcData
import Idealize.ShloMosaic.Lib.Pipeline.Frame
import Idealize.ShloMosaic.Lib.Pipeline.FrameBody

set_option maxRecDepth 16384

noncomputable section

namespace Cert.Kernel.TcProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The logits window's block index at visit `t`: row block 0, column block `t`. -/
theorem idx4 : ∀ t : Fin cfg1.N, win1_4.index t 0 = 0 ∧ win1_4.index t 1 = t.val :=
  (by decide +kernel : ∀ t : Fin grid1.N, win1_4.index t 0 = 0 ∧ win1_4.index t 1 = t.val)

/-- A coordinate whose place in the array is inside it is among those the (possibly cut) transfer moves. -/
theorem extent_of_lt (ix k d x : ℕ) (hx : x < k) (h : ix * k + x < d) : x < (Pipeline.Clip.of ix k d).extent k := by
  unfold Pipeline.Clip.of; split
  · exact hx
  · show x < d - ix * k; omega

/-- At visit `t` the fetch of the logits block reaches every lane whose column is inside the array. -/
theorem moved4 (t : Fin cfg1.N) (j : S1024x4096.Idx) (h : 4096 * t.val + (j 1).val < 100000) :
    win1_4.moved (grid1.coords t) j = true := by
  have h0 : (j 0).val < 1024 := (j 0).isLt
  have h1 : (j 1).val < 4096 := (j 1).isLt
  rw [Window.moved_iff]
  intro a
  match a with
  | ⟨0, _⟩ =>
    show (j 0).val < (Pipeline.Clip.of (win1_4.index t 0) 1024 1024).extent 1024
    rw [(idx4 t).1]; exact extent_of_lt 0 1024 1024 _ h0 (by omega)
  | ⟨1, _⟩ =>
    show (j 1).val < (Pipeline.Clip.of (win1_4.index t 1) 4096 100000).extent 4096
    rw [(idx4 t).2]; exact extent_of_lt _ 4096 100000 _ h1 (by omega)

section Data

variable (c : Dev nD) (V : (b : Ref sig .tc) → Buf (Elt F) ((c.tc : Thread nD τ).loc b)) (B : Set (SemLoc sig × Ix))

local notation "𝔻" => dats (Ix := Ix) (Name := Name) (U := U) (Lvl := Lvl) c V B

/-- What the logits' staging buffer holds after the fetch of visit `t`, on a lane whose column is inside the
    array: the array's entry there, which is what `KerTerm.blkOf` has on that lane. -/
theorem fetched4_apply (t : Fin cfg1.N) (d : S1024x4096.Idx → Elt F .f32) (j : S1024x4096.Idx)
    (h : 4096 * t.val + (j 1).val < 100000) :
    (𝔻).fetched (4 : Fin 6) t d j = KerTerm.blkOf (F := F) (V main_arg1) t.val j := by
  unfold KerTerm.blkOf
  rw [dif_pos h]
  unfold Dat.fetched Window.fill
  rw [dif_pos (moved4 t j h)]
  unfold Dat.blockOf
  show (V main_arg1) ((win1_4.blk t).view.emb _) = (V main_arg1) _
  refine congrArg (V main_arg1) (funext fun a => Fin.ext ?_)
  match a with
  | ⟨0, _⟩ =>
    show win1_4.index t 0 * 1024 + 1 * (j 0).val = (j 0).val
    rw [(idx4 t).1]; omega
  | ⟨1, _⟩ =>
    show win1_4.index t 1 * 4096 + 1 * (j 1).val = 4096 * t.val + (j 1).val
    rw [(idx4 t).2]; omega

/-- Before visit 24 the whole block is inside the array: the buffer holds `KerTerm.blkOf` exactly. -/
theorem fetched4_bulk (t : Fin cfg1.N) (ht : t.val < 24) (d : S1024x4096.Idx → Elt F .f32) :
    (𝔻).fetched (4 : Fin 6) t d = KerTerm.blkOf (F := F) (V main_arg1) t.val := by
  funext j
  have h1 : (j 1).val < 4096 := (j 1).isLt
  exact fetched4_apply c V B t d j (by omega)

/-- Every input's staging buffer holds, when the body runs, what a fetch of the visit's block puts there — whether
    or not the visit fetched it (the resident inputs are fetched once; nothing the body does changes them). -/
theorem before_in (w : Fin 6) (hw : w.val < 5) (t : Fin cfg1.N) (d) : (𝔻).before w t d = (𝔻).fetched w t d := by
  match w, hw with
  | ⟨0, _⟩, _ =>
    exact Dat.before_in_eq_fetched (𝔻) (0 : Fin 6) rfl (fun _ => rfl) (fun _ _ _ => rfl)
      (fun t => by dsimp only [dats, fetchedOf]; exact Window.cut_fill _ _ _ _) t d
  | ⟨1, _⟩, _ =>
    exact Dat.before_in_eq_fetched (𝔻) (1 : Fin 6) rfl (fun _ => rfl) (fun _ _ _ => rfl)
      (fun t => by dsimp only [dats, fetchedOf]; exact Window.cut_fill _ _ _ _) t d
  | ⟨2, _⟩, _ =>
    exact Dat.before_in_eq_fetched (𝔻) (2 : Fin 6) rfl (fun _ => rfl) (fun _ _ _ => rfl)
      (fun t => by dsimp only [dats, fetchedOf]; exact Window.cut_fill _ _ _ _) t d
  | ⟨3, _⟩, _ =>
    exact Dat.before_in_eq_fetched (𝔻) (3 : Fin 6) rfl (fun _ => rfl) (fun _ _ _ => rfl)
      (fun t => by dsimp only [dats, fetchedOf]; exact Window.cut_fill _ _ _ _) t d
  | ⟨4, _⟩, _ =>
    exact Dat.before_in_eq_fetched (𝔻) (4 : Fin 6) rfl (fun _ => rfl)
      (fun t t' h => funext fun a => by
        show Pipeline.Clip.of (win1_4.index t a) _ _ = Pipeline.Clip.of (win1_4.index t' a) _ _
        rw [show win1_4.index t = win1_4.index t' from h])
      (fun t => by dsimp only [dats, fetchedOf]; exact Window.cut_fill _ _ _ _) t d

/-- Window 0's block is its whole array: after a fetch the buffer holds the array. -/
theorem fetched0 (t : Fin cfg1.N) (d) : (𝔻).fetched (0 : Fin 6) t d = V main_v1 := by
  funext j
  unfold Dat.fetched Window.fill
  rw [dif_pos (show win1_0.moved (grid1.coords t) j = true from rfl)]
  unfold Dat.blockOf
  show (V main_v1) ((win1_0.blk t).view.emb _) = (V main_v1) j
  refine congrArg (V main_v1) (funext fun a => Fin.ext ?_)
  match a with
  | ⟨0, _⟩ => show 0 * 1024 + 1 * (j 0).val = (j 0).val; omega
  | ⟨1, _⟩ => show 0 * 1 + 1 * (j 1).val = (j 1).val; omega

/-- and the body leaves it so. -/
theorem after0 (t : Fin cfg1.N) : (𝔻).after (0 : Fin 6) t = V main_v1 :=
  (show (𝔻).after (0 : Fin 6) t = (𝔻).fetched (0 : Fin 6) t (fun _ => Classical.arbitrary _) from by
    dsimp only [dats, fetchedOf]; rfl).trans (fetched0 c V B t _)

/-- Window 1's block is its whole array: after a fetch the buffer holds the array. -/
theorem fetched1 (t : Fin cfg1.N) (d) : (𝔻).fetched (1 : Fin 6) t d = V main_v2 := by
  funext j
  unfold Dat.fetched Window.fill
  rw [dif_pos (show win1_1.moved (grid1.coords t) j = true from rfl)]
  unfold Dat.blockOf
  show (V main_v2) ((win1_1.blk t).view.emb _) = (V main_v2) j
  refine congrArg (V main_v2) (funext fun a => Fin.ext ?_)
  match a with
  | ⟨0, _⟩ => show 0 * 1 + 1 * (j 0).val = (j 0).val; omega
  | ⟨1, _⟩ => show 0 * 1024 + 1 * (j 1).val = (j 1).val; omega

/-- and the body leaves it so. -/
theorem after1 (t : Fin cfg1.N) : (𝔻).after (1 : Fin 6) t = V main_v2 :=
  (show (𝔻).after (1 : Fin 6) t = (𝔻).fetched (1 : Fin 6) t (fun _ => Classical.arbitrary _) from by
    dsimp only [dats, fetchedOf]; rfl).trans (fetched1 c V B t _)

/-- Window 2's block is its whole array: after a fetch the buffer holds the array. -/
theorem fetched2 (t : Fin cfg1.N) (d) : (𝔻).fetched (2 : Fin 6) t d = V main_arg0 := by
  funext j
  unfold Dat.fetched Window.fill
  rw [dif_pos (show win1_2.moved (grid1.coords t) j = true from rfl)]
  unfold Dat.blockOf
  show (V main_arg0) ((win1_2.blk t).view.emb _) = (V main_arg0) j
  refine congrArg (V main_arg0) (funext fun a => Fin.ext ?_)
  match a with
  | ⟨0, _⟩ => show 0 * 1024 + 1 * (j 0).val = (j 0).val; omega
  | ⟨1, _⟩ => show 0 * 128 + 1 * (j 1).val = (j 1).val; omega

/-- and the body leaves it so. -/
theorem after2 (t : Fin cfg1.N) : (𝔻).after (2 : Fin 6) t = V main_arg0 :=
  (show (𝔻).after (2 : Fin 6) t = (𝔻).fetched (2 : Fin 6) t (fun _ => Classical.arbitrary _) from by
    dsimp only [dats, fetchedOf]; rfl).trans (fetched2 c V B t _)

/-- Window 3's block is its whole array: after a fetch the buffer holds the array. -/
theorem fetched3 (t : Fin cfg1.N) (d) : (𝔻).fetched (3 : Fin 6) t d = V main_v0 := by
  funext j
  unfold Dat.fetched Window.fill
  rw [dif_pos (show win1_3.moved (grid1.coords t) j = true from rfl)]
  unfold Dat.blockOf
  show (V main_v0) ((win1_3.blk t).view.emb _) = (V main_v0) j
  refine congrArg (V main_v0) (funext fun a => Fin.ext ?_)
  match a with
  | ⟨0, _⟩ => show 0 * 1024 + 1 * (j 0).val = (j 0).val; omega
  | ⟨1, _⟩ => show 0 * 128 + 1 * (j 1).val = (j 1).val; omega

/-- and the body leaves it so. -/
theorem after3 (t : Fin cfg1.N) : (𝔻).after (3 : Fin 6) t = V main_v0 :=
  (show (𝔻).after (3 : Fin 6) t = (𝔻).fetched (3 : Fin 6) t (fun _ => Classical.arbitrary _) from by
    dsimp only [dats, fetchedOf]; rfl).trans (fetched3 c V B t _)

/-- What the body leaves in the logits' buffer: on the lanes the fetch reached, what it found. -/
theorem cut_after4 (t : Fin cfg1.N) :
    win1_4.cut (grid1.coords t) ((𝔻).after (4 : Fin 6) t) = (𝔻).blockOf (4 : Fin 6) t := by
  dsimp only [dats, fetchedOf]; exact Window.cut_fill _ _ _ _

end Data

end Cert.Kernel.TcProof

end
-- ==== Proof.WTcMask.lean ====
/-
  Two facts about the last visit's arithmetic, for any float instance.

  At visit 24 lane `k` of a loaded block stands for column `98304 + k`; only the lanes with column below 100000 lie
  inside the logits.  The masked sum of exponentials replaces every other lane by `-∞` before anything reads it, and
  the label pick selects a lane only where its column IS the sample's label, which is below 100000.  So both results
  depend on the loaded block only through its lanes inside the array.
-/
import proofs.«217730_g43602507989570_cont_8to1c4_241_33_alg».proof.Proof.WKerTerm
import Idealize.ShloMosaic.Lib.ValueIdx
import Idealize.ShloMosaic.Lib.Pipeline.Value

noncomputable section

namespace Cert.Kernel.TcProof

open Cert.Kernel Cert.Kernel.Gen
open Idealize.ShloMosaic

variable {F : FTy → Type} [FloatOps F]

/-- The stage's coordinate at visit `t` is `t` itself. -/
theorem cd_coords (t : Fin grid1.N) : KerTerm.cd t.val = grid1.coords t := by
  funext a
  match a with
  | ⟨0, _⟩ =>
    apply Fin.ext
    show t.val % 25 = t.val / grid1.stride 0 % grid1.bound 0
    rw [show grid1.stride 0 = 1 from by decide, Nat.div_one]
    rfl

/-- Lane `j` of the column numbers at visit `n`: column `4096·n + j`. -/
theorem pay3_apply (n : ℕ) (hn : n < 25) (j : S1024x4096.Idx) :
    k1_pay3 (KerTerm.cd n) j = BitVec.ofNat 32 (4096 * n + (j 1).val) := by
  have hj : (j 1).val < 4096 := (j 1).isLt
  show IntOp.addi (IntOp.muli (BitVec.ofNat 32 (n % 25)) 4096#32) (BitVec.ofNat 32 (0 * 4096 + (j 1).val)) = _
  rw [Nat.mod_eq_of_lt hn]
  apply BitVec.eq_of_toNat_eq
  simp only [IntOp.addi, IntOp.muli, BitVec.toNat_add, BitVec.toNat_mul, BitVec.toNat_ofNat]
  omega

theorem ofBool_eq_one (b : Bool) : BitVec.ofBool b = 1#1 ↔ b = true := by cases b <;> decide

/-- A small column number is below 100000 as a signed word iff it is as a number. -/
theorem slt_iff (m : ℕ) (hm : m < 2147483648) : IntOp.cmpi .slt (BitVec.ofNat 32 m) 100000#32 = 1#1 ↔ m < 100000 := by
  have e1 : (BitVec.ofNat 32 m).toInt = (m : Int) := by
    rw [BitVec.toInt_eq_toNat_cond]
    simp only [BitVec.toNat_ofNat]
    rw [Nat.mod_eq_of_lt (by omega)]
    split <;> omega
  have e2 : (100000#32 : BitVec 32).toInt = 100000 := by decide
  show BitVec.ofBool ((BitVec.ofNat 32 m).slt 100000#32) = 1#1 ↔ _
  rw [ofBool_eq_one, BitVec.slt, e1, e2, decide_eq_true_eq]
  omega

/-- A word equals a small column number only if it is that number. -/
theorem eq_iff (m : ℕ) (hm : m < 4294967296) (x : BitVec 32) : IntOp.cmpi .eq (BitVec.ofNat 32 m) x = 1#1 → x.toNat = m := by
  show BitVec.ofBool (BitVec.ofNat 32 m == x) = 1#1 → _
  rw [ofBool_eq_one]
  intro h
  have := eq_of_beq h
  rw [← this, BitVec.toNat_ofNat, Nat.mod_eq_of_lt hm]

/-- The loaded block with every lane past the last column replaced by `-∞`. -/
def maskSel (i : grid1.Coords) (X : Vec F S1024x4096 .f32) : Vec F S1024x4096 .f32 :=
  select (cmpi .slt (k1_pay3 i) (broadcast S1024x4096 100000#32)) X
    (broadcast S1024x4096 (Scalar.ofBits .f32 0xFF800000#32 : F .f32))

/-- The loaded block with every lane but the sample's label column replaced by zero. -/
def labSel (i : grid1.Coords) (X : Vec F S1024x4096 .f32) (lab : Vec F S1024x1 .i32) : Vec F S1024x4096 .f32 :=
  select (cmpi .eq (k1_pay3 i) (broadcastTo S1024x4096 (k1_pay4 (F := F) lab) broadcasts_S1024x1_S1024x4096)) X
    (broadcast S1024x4096 (Scalar.ofBits .f32 0x00000000#32 : F .f32))

/-- What the first accumulator's last update does with the masked block. -/
def sumExp (Z : Vec F S1024x4096 .f32) (s : Vec F S1024x1 .f32) : FVec F S1024x1 .f32 :=
  shapeCast S1024x1 (addf s (shapeCast S1024x1 (multiReduction .add [1] S1024 (exp Z) 0x00000000#32 reduces_S1024x4096_S1024 (.inl rfl) rfl) shapeCasts_S1024_S1024x1)) shapeCasts_S1024x1_S1024x1

/-- What the second accumulator's update does with the picked block. -/
def sumPick (Z : Vec F S1024x4096 .f32) (t : Vec F S1024x1 .f32) : FVec F S1024x1 .f32 :=
  shapeCast S1024x1 (addf t (shapeCast S1024x1 (multiReduction .add [1] S1024 Z 0x00000000#32 reduces_S1024x4096_S1024 (.inl rfl) rfl) shapeCasts_S1024_S1024x1)) shapeCasts_S1024x1_S1024x1

theorem pay7_eq (i : grid1.Coords) (X : Vec F S1024x4096 .f32) (s : Vec F S1024x1 .f32) :
    k1_pay7 i X s = sumExp (maskSel i X) s := rfl

theorem pay8_eq (i : grid1.Coords) (X : Vec F S1024x4096 .f32) (lab : Vec F S1024x1 .i32) (t : Vec F S1024x1 .f32) :
    k1_pay8 i X lab t = sumPick (labSel i X lab) t := rfl

/-- The masked block depends only on the lanes inside the array. -/
theorem maskSel_congr (X X' : Vec F S1024x4096 .f32)
    (h : ∀ j : S1024x4096.Idx, 4096 * 24 + (j 1).val < 100000 → X j = X' j) :
    maskSel (KerTerm.cd 24) X = maskSel (KerTerm.cd 24) X' := by
  funext j
  unfold maskSel
  rw [ValueIdx.select_apply, ValueIdx.select_apply]
  unfold Scalar.select
  split
  · next hm =>
    refine h j ?_
    have hm' : IntOp.cmpi .slt (k1_pay3 (KerTerm.cd 24) j) 100000#32 = 1#1 := hm
    rw [pay3_apply 24 (by omega) j] at hm'
    exact (slt_iff _ (by have hj1 : (j 1).val < 4096 := (j 1).isLt; omega)).mp hm'
  · rfl

/-- The picked block depends only on the lanes inside the array, the labels being class numbers. -/
theorem labSel_congr (X X' : Vec F S1024x4096 .f32) (lab : Vec F S1024x1 .i32)
    (hlab : ∀ k : S1024x1.Idx, (lab k : BitVec 32).toNat < 100000)
    (h : ∀ j : S1024x4096.Idx, 4096 * 24 + (j 1).val < 100000 → X j = X' j) :
    labSel (KerTerm.cd 24) X lab = labSel (KerTerm.cd 24) X' lab := by
  funext j
  unfold labSel
  rw [ValueIdx.select_apply, ValueIdx.select_apply]
  unfold Scalar.select
  split
  · next hm =>
    refine h j ?_
    obtain ⟨k, hk⟩ : ∃ k, broadcastTo S1024x4096 (k1_pay4 (F := F) lab) broadcasts_S1024x1_S1024x4096 j = lab k := ⟨_, rfl⟩
    have hm' : IntOp.cmpi .eq (k1_pay3 (KerTerm.cd 24) j) (lab k) = 1#1 := hk ▸ hm
    rw [pay3_apply 24 (by omega) j] at hm'
    have := eq_iff _ (by have hj1 : (j 1).val < 4096 := (j 1).isLt; omega) _ hm'
    have := hlab k
    omega
  · rfl

/-- The last visit's two updates see the loaded block only through its lanes inside the array. -/
theorem pay7_congr (X X' : Vec F S1024x4096 .f32) (s : Vec F S1024x1 .f32)
    (h : ∀ j : S1024x4096.Idx, 4096 * 24 + (j 1).val < 100000 → X j = X' j) :
    k1_pay7 (KerTerm.cd 24) X s = k1_pay7 (KerTerm.cd 24) X' s := by
  rw [pay7_eq, pay7_eq, maskSel_congr X X' h]

theorem pay8_congr (X X' : Vec F S1024x4096 .f32) (lab : Vec F S1024x1 .i32) (t : Vec F S1024x1 .f32)
    (hlab : ∀ k : S1024x1.Idx, (lab k : BitVec 32).toNat < 100000)
    (h : ∀ j : S1024x4096.Idx, 4096 * 24 + (j 1).val < 100000 → X j = X' j) :
    k1_pay8 (KerTerm.cd 24) X lab t = k1_pay8 (KerTerm.cd 24) X' lab t := by
  rw [pay8_eq, pay8_eq, labSel_congr X X' lab hlab h]

end Cert.Kernel.TcProof

end
-- ==== Proof.WTcRun.lean ====
/-
  The stage's body at one visit, run on symbolic whole buffers: which buffers it stores into and what it stores,
  in each of the three kinds of visit (the first, a middle one, the last).  Every access is of a whole buffer, so a
  load reads the buffer's contents and a store replaces them.
-/
import proofs.«217730_g43602507989570_cont_8to1c4_241_33_alg».proof.Proof.WTcData
import Idealize.ShloMosaic.Lib.Tactic
import Idealize.ShloMosaic.Lib.Pipeline.Frame
import Idealize.ShloMosaic.Lib.Pipeline.FrameBody
import Idealize.ShloMosaic.Lib.Pipeline.Value
import Idealize.ShloMosaic.Lib.WholeRead

set_option maxRecDepth 16384

noncomputable section

namespace Cert.Kernel.TcProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The three guards of the body other than the last, as propositions on the visit's coordinate: "this is visit 0",
    "this visit is before visit 24", "this is visit 24". -/
abbrev g1 (i : grid1.Coords) : Prop :=
  Scalar.cmpi .ne (Scalar.extui (Scalar.cmpi .eq (BitVec.ofNat 32 (i 0).val) 0#32) : BitVec 32) 0#32 = 1#1
abbrev g2 (i : grid1.Coords) : Prop :=
  Scalar.cmpi .ne (Scalar.extui (Scalar.cmpi .slt (BitVec.ofNat 32 (i 0).val) 24#32) : BitVec 32) 0#32 = 1#1
abbrev g3 (i : grid1.Coords) : Prop :=
  Scalar.cmpi .ne (Scalar.extui (Scalar.cmpi .eq (BitVec.ofNat 32 (i 0).val) 24#32) : BitVec 32) 0#32 = 1#1

/-- The offset of every access: the origin. -/
theorem hz2 : (![0, 0] : Fin 2 → Nat) = fun _ => 0 := funext fun a => by fin_cases a <;> rfl

section Whole
variable {S : Shape} {e : EltTy}

/-- A whole-buffer load of a whole memref held at the contents that read `X` reads `X`. -/
theorem readAt_whole (m : Memref sig .tc .vmem S e) (h : m.IsWhole) (X : S.Idx → Elt F e) {off : Fin S.rank → Nat}
    (hz : off = fun _ => 0) (inb : ∀ a, off a + S.size a ≤ S.size a) :
    View.readAt (Elt F) m.view (Rect.unit off S.size inb).toLoadRect (h.unread X) = X := by
  rw [View.readAt_eq_ld, h.read_unread, View.ld_unit_zero hz]

/-- After a whole-buffer store, whatever came before, the memref reads the payload. -/
theorem read_writes_whole (m : Memref sig .tc .vmem S e) (f : m.view.ty.Contents (Elt F)) {off : Fin S.rank → Nat}
    (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

set_option maxHeartbeats 1000000 in
/-- A middle visit: each accumulator is read and stored once. -/
theorem runBulk (c : Dev nD) (i : grid1.Coords) (arg1 : Memref sig .tc .vmem S1024x1 .i32) (harg1 : arg1.IsWhole) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x4096 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole)
    (h1 : ¬g1 i) (h2 : g2 i) (h3 : ¬g3 i) (h4 : ¬k1_cond4 i = 1#1)
    (lab : Vec F S1024x1 .i32) (X : Vec F S1024x4096 .f32) (s t : Vec F S1024x1 .f32)
    (E : Set Name) (K : PUnit → sProp 𝕄) :
    iprop(owns (c : Thread nD τ) arg1 fullShare lab ∗ owns (c : Thread nD τ) arg5 fullShare X
        ∗ owns (c : Thread nD τ) arg7 fullShare s ∗ owns (c : Thread nD τ) arg8 fullShare t
        ∗ (iprop(owns (c : Thread nD τ) arg1 fullShare lab ∗ owns (c : Thread nD τ) arg5 fullShare X
            ∗ owns (c : Thread nD τ) arg7 fullShare (k1_pay5 X s)
            ∗ owns (c : Thread nD τ) arg8 fullShare (k1_pay6 i X lab t)) -∗ K ⟨⟩))
      ⊢ wp frame (wpE (defs₀ (F := F)) Variants.none c none) E (cc1__tc_body i arg1 harg1 arg2 harg2 arg3 harg3 arg4 harg4 arg5 harg5 arg6 harg6 arg7 harg7 arg8 harg8) K := by
  simp only [cc1__tc_body_eq_skeleton]; unfold cc1__tc_body_skel
  unfold owns
  iintro ⟨⟨%f1, %hf1, H1⟩, ⟨%f5, %hf5, H5⟩, ⟨%f7, %hf7, H7⟩, ⟨%f8, %hf8, H8⟩, Hk⟩
  obtain rfl := harg1.eq_unread hf1; obtain rfl := harg5.eq_unread hf5
  obtain rfl := harg7.eq_unread hf7; obtain rfl := harg8.eq_unread hf8
  sl_exec (disch := first | sl_exact h1 | sl_exact h2 | sl_exact h3 | sl_exact h4)
  sl_step
  iapply Hk
  isplitl [H1]
  · iexists _; isplitr; · ipureintro; exact harg1.read_unread _
    iexact H1
  isplitl [H5]
  · iexists _; isplitr; · ipureintro; exact harg5.read_unread _
    iexact H5
  isplitl [H7]
  · iexists _; isplitr; swap; · iexact H7
    ipureintro
    rw [read_writes_whole _ _ hz2, readAt_whole _ harg5 X hz2, readAt_whole _ harg7 s hz2]
  · iexists _; isplitr; swap; · iexact H8
    ipureintro
    rw [read_writes_whole _ _ hz2, readAt_whole _ harg5 X hz2, readAt_whole _ harg1 lab hz2, readAt_whole _ harg8 t hz2]

end Cert.Kernel.TcProof

end
-- ==== Proof.WTcRunFirst.lean ====
/-
  The stage's body at the first visit, run on symbolic whole buffers.
-/
import proofs.«217730_g43602507989570_cont_8to1c4_241_33_alg».proof.Proof.WTcRun

set_option maxRecDepth 16384

noncomputable section

namespace Cert.Kernel.TcProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- The first visit: both accumulators are zeroed, then read and stored as at a middle visit. -/
theorem runFirst (c : Dev nD) (i : grid1.Coords) (arg1 : Memref sig .tc .vmem S1024x1 .i32) (harg1 : arg1.IsWhole) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x4096 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole)
    (h1 : g1 i) (h2 : g2 i) (h3 : ¬g3 i) (h4 : ¬k1_cond4 i = 1#1)
    (lab : Vec F S1024x1 .i32) (X : Vec F S1024x4096 .f32)
    (E : Set Name) (K : PUnit → sProp 𝕄) :
    iprop(owns (c : Thread nD τ) arg1 fullShare lab ∗ owns (c : Thread nD τ) arg5 fullShare X
        ∗ (∃ s, owns (c : Thread nD τ) arg7 fullShare s) ∗ (∃ t, owns (c : Thread nD τ) arg8 fullShare t)
        ∗ (iprop(owns (c : Thread nD τ) arg1 fullShare lab ∗ owns (c : Thread nD τ) arg5 fullShare X
            ∗ owns (c : Thread nD τ) arg7 fullShare (k1_pay5 X k1_pay1)
            ∗ owns (c : Thread nD τ) arg8 fullShare (k1_pay6 i X lab k1_pay2)) -∗ K ⟨⟩))
      ⊢ wp frame (wpE (defs₀ (F := F)) Variants.none c none) E (cc1__tc_body i arg1 harg1 arg2 harg2 arg3 harg3 arg4 harg4 arg5 harg5 arg6 harg6 arg7 harg7 arg8 harg8) K := by
  simp only [cc1__tc_body_eq_skeleton]; unfold cc1__tc_body_skel
  unfold owns
  iintro ⟨⟨%f1, %hf1, H1⟩, ⟨%f5, %hf5, H5⟩, ⟨%s0, %f7, -, H7⟩, ⟨%t0, %f8, -, H8⟩, Hk⟩
  obtain rfl := harg1.eq_unread hf1; obtain rfl := harg5.eq_unread hf5
  sl_exec (disch := first | sl_exact h1 | sl_exact h2 | sl_exact h3 | sl_exact h4)
  sl_step
  iapply Hk
  isplitl [H1]
  · iexists _; isplitr; · ipureintro; exact harg1.read_unread _
    iexact H1
  isplitl [H5]
  · iexists _; isplitr; · ipureintro; exact harg5.read_unread _
    iexact H5
  isplitl [H7]
  · iexists _; isplitr; swap; · iexact H7
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]
  · iexists _; isplitr; swap; · iexact H8
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]

end Cert.Kernel.TcProof

end
-- ==== Proof.WTcRunLast.lean ====
/-
  The stage's body at the last visit, run on symbolic whole buffers.
-/
import proofs.«217730_g43602507989570_cont_8to1c4_241_33_alg».proof.Proof.WTcRun

set_option maxRecDepth 16384

noncomputable section

namespace Cert.Kernel.TcProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 2000000 in
/-- The last visit: the accumulators take the masked block, then the output word is computed from them and from the
    embeddings, the gathered rows and the labels, and stored. -/
theorem runLast (c : Dev nD) (i : grid1.Coords) (arg1 : Memref sig .tc .vmem S1024x1 .i32) (harg1 : arg1.IsWhole) (arg2 : Memref sig .tc .vmem S1x1024 .i32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x4096 .f32) (harg5 : arg5.IsWhole) (arg6 : Memref sig .tc .vmem S1x1 .f32) (harg6 : arg6.IsWhole) (arg7 : Memref sig .tc .vmem S1024x1 .f32) (harg7 : arg7.IsWhole) (arg8 : Memref sig .tc .vmem S1024x1 .f32) (harg8 : arg8.IsWhole)
    (h1 : ¬g1 i) (h2 : ¬g2 i) (h3 : g3 i) (h4 : k1_cond4 i = 1#1)
    (lab : Vec F S1024x1 .i32) (labr : Vec F S1x1024 .i32) (emb gath : Vec F S1024x128 .f32)
    (X : Vec F S1024x4096 .f32) (s t : Vec F S1024x1 .f32)
    (E : Set Name) (K : PUnit → sProp 𝕄) :
    iprop(owns (c : Thread nD τ) arg1 fullShare lab ∗ owns (c : Thread nD τ) arg2 fullShare labr
        ∗ owns (c : Thread nD τ) arg3 fullShare emb ∗ owns (c : Thread nD τ) arg4 fullShare gath
        ∗ owns (c : Thread nD τ) arg5 fullShare X ∗ (∃ o, owns (c : Thread nD τ) arg6 fullShare o)
        ∗ owns (c : Thread nD τ) arg7 fullShare s ∗ owns (c : Thread nD τ) arg8 fullShare t
        ∗ (iprop(owns (c : Thread nD τ) arg1 fullShare lab ∗ owns (c : Thread nD τ) arg2 fullShare labr
            ∗ owns (c : Thread nD τ) arg3 fullShare emb ∗ owns (c : Thread nD τ) arg4 fullShare gath
            ∗ owns (c : Thread nD τ) arg5 fullShare X
            ∗ owns (c : Thread nD τ) arg6 fullShare
                (k1_pay9 (k1_pay10 (k1_pay7 i X s) (k1_pay8 i X lab t)) (k1_pay11 emb gath lab labr))
            ∗ owns (c : Thread nD τ) arg7 fullShare (k1_pay7 i X s)
            ∗ owns (c : Thread nD τ) arg8 fullShare (k1_pay8 i X lab t)) -∗ K ⟨⟩))
      ⊢ wp frame (wpE (defs₀ (F := F)) Variants.none c none) E (cc1__tc_body i arg1 harg1 arg2 harg2 arg3 harg3 arg4 harg4 arg5 harg5 arg6 harg6 arg7 harg7 arg8 harg8) K := by
  simp only [cc1__tc_body_eq_skeleton]; unfold cc1__tc_body_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%o0, %f6, -, H6⟩, ⟨%f7, %hf7, H7⟩, ⟨%f8, %hf8, H8⟩, Hk⟩
  obtain rfl := harg1.eq_unread hf1; obtain rfl := harg2.eq_unread hf2
  obtain rfl := harg3.eq_unread hf3; obtain rfl := harg4.eq_unread hf4
  obtain rfl := harg5.eq_unread hf5
  obtain rfl := harg7.eq_unread hf7; obtain rfl := harg8.eq_unread hf8
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]
  isplitl [H7]
  · iexists _; isplitr; swap; · iexact H7
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]
  · iexists _; isplitr; swap; · iexact H8
    ipureintro
    sl_unfold_run_names
    simp only [read_writes_whole (S := S1024x1) _ _ hz2, read_writes_whole (S := S1x1) _ _ hz2,
      readAt_whole (S := S1024x1) _ _ _ hz2, readAt_whole (S := S1024x4096) _ _ _ hz2,
      readAt_whole (S := S1x1024) _ _ _ hz2, readAt_whole (S := S1024x128) _ _ _ hz2,
      View.readCov_unit_zero (S := S1024x1) _ hz2]

end Cert.Kernel.TcProof

end
-- ==== Proof.WTcBody.lean ====
/-
  The body obligation of the TensorCore stage: at each of the 25 visits, from the accumulators' invariant and the
  six staging buffers as the pipeline hands them over, the body runs to the invariant of the next visit and the
  buffers as the proof data says it leaves them.  Three kinds of visit: the first zeroes the accumulators and adds
  block 0; visits 1 … 23 add their block; visit 24 adds the masked last block — whose lanes past the last column the
  fetch did not reach, and which the mask and the label pick never let through — and stores the output word.
-/
import proofs.«217730_g43602507989570_cont_8to1c4_241_33_alg».proof.Proof.WTcLayout
import proofs.«217730_g43602507989570_cont_8to1c4_241_33_alg».proof.Proof.WTcMask
import proofs.«217730_g43602507989570_cont_8to1c4_241_33_alg».proof.Proof.WTcRunFirst
import proofs.«217730_g43602507989570_cont_8to1c4_241_33_alg».proof.Proof.WTcRunLast

set_option maxRecDepth 16384

noncomputable section

namespace Cert.Kernel.TcProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The guards, visit by visit -/

theorem g1_iff : ∀ t : Fin grid1.N, g1 (grid1.coords t) ↔ t.val = 0 := by decide +kernel
theorem g2_iff : ∀ t : Fin grid1.N, g2 (grid1.coords t) ↔ t.val < 24 := by decide +kernel
theorem g3_iff : ∀ t : Fin grid1.N, g3 (grid1.coords t) ↔ t.val = 24 := by decide +kernel
theorem cond4_iff : ∀ t : Fin grid1.N, k1_cond4 (grid1.coords t) = 1#1 ↔ t.val = 24 := by decide +kernel

/-! ## What the obligation asks of a window's buffer after the body -/

/-- At a visit where the window is live, the buffer is left at what the proof data names (for a window whose last
    block overhangs its array: on the lanes the transfers move). -/
theorem leaves_live {cfg : Cfg sig Λ₀} {c : Dev nD} (dat : Dat τ (Elt F) Ix Name U Lvl cfg c) (w : Fin cfg.W) (t : Fin cfg.N)
    (hi : cfg.idle w (cfg.grid.coords t) = false) :
    dat.leaves w t = (match cfg.loose w with
      | true => iprop(∃ d, owns (c.tc : Thread nD τ) ((cfg.win w).stage (cfg.slots t w)) fullShare
          ((cfg.win w).fill (cfg.grid.coords t) d ((cfg.win w).cut (cfg.grid.coords t) (dat.after w t))))
      | false => owns (c.tc : Thread nD τ) ((cfg.win w).stage (cfg.slots t w)) fullShare (dat.after w t) : sProp 𝕄) := by
  unfold Dat.leaves; rw [hi]; rfl

section Data

variable (c : Dev nD) (V : (b : Ref sig .tc) → Buf (Elt F) ((c.tc : Thread nD τ).loc b)) (B : Set (SemLoc sig × Ix)) (ι : Ix)

local notation "𝔻" => dats (Ix := Ix) (Name := Name) (U := U) (Lvl := Lvl) c V B

/-! ### The accumulators' invariant, case by case -/

theorem accs_zero : accs (Ix := Ix) (Name := Name) (U := U) (Lvl := Lvl) c V 0
    = iprop((∃ f, owns (c.tc : Thread nD τ) (Memref.whole cc1_scratch0 : Memref sig .tc .vmem S1024x1 .f32) fullShare f) ∗ (∃ f, owns (c.tc : Thread nD τ) (Memref.whole cc1_scratch1 : Memref sig .tc .vmem S1024x1 .f32) fullShare f)) := by
  unfold accs; rw [if_pos rfl, scopedRest1_eq]; simp only [owns_whole]

theorem accs_mid (n : ℕ) (h0 : n ≠ 0) (h24 : n ≤ 24) : accs (Ix := Ix) (Name := Name) (U := U) (Lvl := Lvl) c V n
    = iprop(owns (c.tc : Thread nD τ) (Memref.whole cc1_scratch0 : Memref sig .tc .vmem S1024x1 .f32) fullShare (KerTerm.sAcc (F := F) (lblk c V) n)
      ∗ owns (c.tc : Thread nD τ) (Memref.whole cc1_scratch1 : Memref sig .tc .vmem S1024x1 .f32) fullShare (KerTerm.tAcc (F := F) (lblk c V) (V main_v1) n)) := by
  unfold accs; rw [if_neg h0, if_pos h24, owns_whole, owns_whole]

theorem accs_end (n : ℕ) (h : 24 < n) : accs (Ix := Ix) (Name := Name) (U := U) (Lvl := Lvl) c V n
    = iprop(owns (c.tc : Thread nD τ) (Memref.whole cc1_scratch0 : Memref sig .tc .vmem S1024x1 .f32) fullShare (KerTerm.sFin (F := F) (lblk c V))
      ∗ owns (c.tc : Thread nD τ) (Memref.whole cc1_scratch1 : Memref sig .tc .vmem S1024x1 .f32) fullShare (KerTerm.tFin (F := F) (lblk c V) (V main_v1))) := by
  unfold accs; rw [if_neg (by omega), if_neg (by omega), owns_whole, owns_whole]

/-! ### What each window's buffer is left at -/

theorem leaves0 (t : Fin cfg1.N) : (𝔻).leaves (0 : Fin 6) t = owns (c.tc : Thread nD τ) (st1_0 t) fullShare (V main_v1) := by
  rw [leaves_live (𝔻) (0 : Fin 6) t rfl]; show owns _ _ _ ((𝔻).after (0 : Fin 6) t) = _; rw [after0]
theorem leaves1 (t : Fin cfg1.N) : (𝔻).leaves (1 : Fin 6) t = owns (c.tc : Thread nD τ) (st1_1 t) fullShare (V main_v2) := by
  rw [leaves_live (𝔻) (1 : Fin 6) t rfl]; show owns _ _ _ ((𝔻).after (1 : Fin 6) t) = _; rw [after1]
theorem leaves2 (t : Fin cfg1.N) : (𝔻).leaves (2 : Fin 6) t = owns (c.tc : Thread nD τ) (st1_2 t) fullShare (V main_arg0) := by
  rw [leaves_live (𝔻) (2 : Fin 6) t rfl]; show owns _ _ _ ((𝔻).after (2 : Fin 6) t) = _; rw [after2]
theorem leaves3 (t : Fin cfg1.N) : (𝔻).leaves (3 : Fin 6) t = owns (c.tc : Thread nD τ) (st1_3 t) fullShare (V main_v0) := by
  rw [leaves_live (𝔻) (3 : Fin 6) t rfl]; show owns _ _ _ ((𝔻).after (3 : Fin 6) t) = _; rw [after3]

theorem leaves4 (t : Fin cfg1.N) : (𝔻).leaves (4 : Fin 6) t
    = iprop(∃ d, owns (c.tc : Thread nD τ) (st1_4 t) fullShare ((𝔻).fetched (4 : Fin 6) t d)) := by
  rw [leaves_live (𝔻) (4 : Fin 6) t rfl]
  show iprop(∃ d, owns _ _ _ (win1_4.fill (grid1.coords t) d (win1_4.cut (grid1.coords t) ((𝔻).after (4 : Fin 6) t)))) = _
  rw [cut_after4]; rfl

theorem idle5 (t : Fin cfg1.N) (ht : t.val ≠ 24) : (pcfg (F := F)).idle (5 : Fin 6) ((pcfg (F := F)).grid.coords t) = true := by
  show (!(k1_cond4 (grid1.coords t) == 1#1)) = true
  rw [Bool.not_eq_true', beq_eq_false_iff_ne]
  exact fun h => ht ((cond4_iff t).mp h)

theorem live5 (t : Fin cfg1.N) (ht : t.val = 24) : (pcfg (F := F)).idle (5 : Fin 6) ((pcfg (F := F)).grid.coords t) = false := by
  show (!(k1_cond4 (grid1.coords t) == 1#1)) = false
  rw [Bool.not_eq_false', beq_iff_eq]
  exact (cond4_iff t).mpr ht

theorem leaves5_idle (t : Fin cfg1.N) (ht : t.val ≠ 24) : (𝔻).leaves (5 : Fin 6) t
    = iprop(∃ d, owns (c.tc : Thread nD τ) (st1_5 t) fullShare ((𝔻).before (5 : Fin 6) t d)) :=
  (𝔻).leaves_idle (5 : Fin 6) t (idle5 t ht)
    (Bool.eq_false_iff.mpr fun h => by have := (flush1_5 t).mp h; have := lt_of_lt_of_eq t.isLt N_1; omega)

theorem leaves5_last (t : Fin cfg1.N) (ht : t.val = 24) : (𝔻).leaves (5 : Fin 6) t
    = owns (c.tc : Thread nD τ) (st1_5 t) fullShare (outBlk c V) := by
  rw [leaves_live (𝔻) (5 : Fin 6) t (live5 t ht)]; rfl

/-! ### The accumulators' recursion, at the stage's coordinates -/

theorem sAcc_succ (t : Fin cfg1.N) : KerTerm.sAcc (F := F) (lblk c V) (t.val + 1) = k1_pay5 (lblk c V t.val) (KerTerm.sAcc (F := F) (lblk c V) t.val) := rfl

theorem tAcc_succ (t : Fin cfg1.N) : KerTerm.tAcc (F := F) (lblk c V) (V main_v1) (t.val + 1)
    = k1_pay6 (grid1.coords t) (lblk c V t.val) (V main_v1) (KerTerm.tAcc (F := F) (lblk c V) (V main_v1) t.val) := by
  rw [← cd_coords t]; rfl

end Data

section Body

variable (c : Dev nD) (V : (b : Ref sig .tc) → Buf (Elt F) ((c.tc : Thread nD τ).loc b)) (B : Set (SemLoc sig × Ix)) (ι : Ix)
  (hlab : ∀ j : S1024x1.Idx, (V main_v1 j : BitVec 32).toNat < 100000)

local notation "𝔻" => dats (Ix := Ix) (Name := Name) (U := U) (Lvl := Lvl) c V B

include hlab in
set_option maxHeartbeats 4000000 in
/-- The body at any visit. -/
theorem sound_body (t : Fin cfg1.N) :
    iprop((𝔻).Φ t.castSucc ∗ (𝔻).owesAt ι t.castSucc
      ∗ (∃ d, owns (c.tc : Thread nD τ) (st1_0 t) fullShare ((𝔻).before (0 : Fin 6) t d))
      ∗ (∃ d, owns (c.tc : Thread nD τ) (st1_1 t) fullShare ((𝔻).before (1 : Fin 6) t d))
      ∗ (∃ d, owns (c.tc : Thread nD τ) (st1_2 t) fullShare ((𝔻).before (2 : Fin 6) t d))
      ∗ (∃ d, owns (c.tc : Thread nD τ) (st1_3 t) fullShare ((𝔻).before (3 : Fin 6) t d))
      ∗ (∃ d, owns (c.tc : Thread nD τ) (st1_4 t) fullShare ((𝔻).before (4 : Fin 6) t d))
      ∗ (∃ d, owns (c.tc : Thread nD τ) (st1_5 t) fullShare ((𝔻).before (5 : Fin 6) t d)))
    ⊢ wp frame (wpE (defs₀ (F := F)) Variants.none (c.tc : Thread nD τ) none) Set.univ (bodyAt1 (F := F) t)
        (fun _ => iprop((𝔻).Φ t.succ ∗ (𝔻).owesAt ι t.succ ∗ (𝔻).leaves (0 : Fin 6) t ∗ (𝔻).leaves (1 : Fin 6) t
          ∗ (𝔻).leaves (2 : Fin 6) t ∗ (𝔻).leaves (3 : Fin 6) t ∗ (𝔻).leaves (4 : Fin 6) t ∗ (𝔻).leaves (5 : Fin 6) t)) := by
  have hN : t.val < 25 := lt_of_lt_of_eq t.isLt N_1
  rw [show (𝔻).owesAt ι t.succ = (𝔻).owesAt ι t.castSucc from rfl,
    leaves0, leaves1, leaves2, leaves3, leaves4]
  simp only [before_in (Ix := Ix) (Name := Name) (U := U) (Lvl := Lvl) c V B (0 : Fin 6) (by decide) t, before_in (Ix := Ix) (Name := Name) (U := U) (Lvl := Lvl) c V B (1 : Fin 6) (by decide) t,
    before_in (Ix := Ix) (Name := Name) (U := U) (Lvl := Lvl) c V B (2 : Fin 6) (by decide) t, before_in (Ix := Ix) (Name := Name) (U := U) (Lvl := Lvl) c V B (3 : Fin 6) (by decide) t,
    before_in (Ix := Ix) (Name := Name) (U := U) (Lvl := Lvl) c V B (4 : Fin 6) (by decide) t,
    fetched0 (Ix := Ix) (Name := Name) (U := U) (Lvl := Lvl) c V B t, fetched1 (Ix := Ix) (Name := Name) (U := U) (Lvl := Lvl) c V B t, fetched2 (Ix := Ix) (Name := Name) (U := U) (Lvl := Lvl) c V B t, fetched3 (Ix := Ix) (Name := Name) (U := U) (Lvl := Lvl) c V B t]
  unfold bodyAt1
  by_cases h0 : t.val = 0
  · -- the first visit
    have h1 : g1 (grid1.coords t) := (g1_iff t).mpr h0
    have h2 : g2 (grid1.coords t) := (g2_iff t).mpr (by omega)
    have h3 : ¬g3 (grid1.coords t) := fun h => by have := (g3_iff t).mp h; omega
    have h4 : ¬k1_cond4 (grid1.coords t) = 1#1 := fun h => by have := (cond4_iff t).mp h; omega
    rw [show (𝔻).Φ t.castSucc = _ from (congrArg (accs c V) h0).trans (accs_zero c V),
      show (𝔻).Φ t.succ = _ from accs_mid c V (t.val + 1) (by omega) (by omega),
      leaves5_idle (Ix := Ix) (Name := Name) (U := U) (Lvl := Lvl) c V B t (by omega), sAcc_succ c V t, tAcc_succ c V t,
      show KerTerm.sAcc (F := F) (lblk c V) t.val = k1_pay1 from by rw [h0]; rfl,
      show KerTerm.tAcc (F := F) (lblk c V) (V main_v1) t.val = k1_pay2 from by rw [h0]; rfl]
    simp only [fetched4_bulk (Ix := Ix) (Name := Name) (U := U) (Lvl := Lvl) c V B t (by omega)]
    iintro ⟨⟨Hs, Ht⟩, Ho, ⟨%d0, H0⟩, ⟨%d1, H1⟩, ⟨%d2, H2⟩, ⟨%d3, H3⟩, ⟨%d4, H4⟩, H5⟩
    iapply (runFirst (F := F) c (grid1.coords t) _ _ _ _ _ _ _ _ _ _ _ _ _ _ _ _ h1 h2 h3 h4 (V main_v1) (lblk c V t.val) Set.univ _)
    isplitl [H0]; · iexact H0
    isplitl [H4]; · iexact H4
    isplitl [Hs]; · iexact Hs
    isplitl [Ht]; · iexact Ht
    iintro ⟨H0, H4, Hs, Ht⟩
    isplitl [Hs Ht]
    · isplitl [Hs]
      · iexact Hs
      · iexact Ht
    isplitl [Ho]; · iexact Ho
    isplitl [H0]; · iexact H0
    isplitl [H1]; · iexact H1
    isplitl [H2]; · iexact H2
    isplitl [H3]; · iexact H3
    isplitl [H4]; · iexists d4; iexact H4
    iexact H5
  by_cases h24 : t.val = 24
  · -- the last visit
    have h1 : ¬g1 (grid1.coords t) := fun h => by have := (g1_iff t).mp h; omega
    have h2 : ¬g2 (grid1.coords t) := fun h => by have := (g2_iff t).mp h; omega
    have h3 : g3 (grid1.coords t) := (g3_iff t).mpr h24
    have h4 : k1_cond4 (grid1.coords t) = 1#1 := (cond4_iff t).mpr h24
    have hag : ∀ d4, ∀ j : S1024x4096.Idx, 4096 * 24 + (j 1).val < 100000 →
        (𝔻).fetched (4 : Fin 6) t d4 j = lblk c V 24 j := fun d4 j hj => by
      have := fetched4_apply (Ix := Ix) (Name := Name) (U := U) (Lvl := Lvl) c V B t d4 j (by rw [h24]; exact hj)
      rw [h24] at this; exact this
    have e7 : ∀ d4, k1_pay7 (grid1.coords t) ((𝔻).fetched (4 : Fin 6) t d4) (KerTerm.sAcc (F := F) (lblk c V) t.val)
        = KerTerm.sFin (F := F) (lblk c V) := fun d4 => by
      rw [← cd_coords t, h24]
      exact pay7_congr _ _ _ (hag d4)
    have e8 : ∀ d4, k1_pay8 (grid1.coords t) ((𝔻).fetched (4 : Fin 6) t d4) (V main_v1) (KerTerm.tAcc (F := F) (lblk c V) (V main_v1) t.val)
        = KerTerm.tFin (F := F) (lblk c V) (V main_v1) := fun d4 => by
      rw [← cd_coords t, h24]
      exact pay8_congr _ _ _ _ hlab (hag d4)
    rw [show (𝔻).Φ t.castSucc = _ from accs_mid c V t.val (by omega) (by omega),
      show (𝔻).Φ t.succ = _ from accs_end c V (t.val + 1) (by omega),
      leaves5_last (Ix := Ix) (Name := Name) (U := U) (Lvl := Lvl) c V B t h24,
      show outBlk c V = k1_pay9 (k1_pay10 (KerTerm.sFin (F := F) (lblk c V)) (KerTerm.tFin (F := F) (lblk c V) (V main_v1)))
        (k1_pay11 (V main_arg0) (V main_v0) (V main_v1) (V main_v2)) from rfl]
    iintro ⟨⟨Hs, Ht⟩, Ho, ⟨%d0, H0⟩, ⟨%d1, H1⟩, ⟨%d2, H2⟩, ⟨%d3, H3⟩, ⟨%d4, H4⟩, ⟨%d5, H5⟩⟩
    iapply (runLast (F := F) c (grid1.coords t) _ _ _ _ _ _ _ _ _ _ _ _ _ _ _ _ h1 h2 h3 h4 (V main_v1) (V main_v2) (V main_arg0) (V main_v0)
      ((𝔻).fetched (4 : Fin 6) t d4) (KerTerm.sAcc (F := F) (lblk c V) t.val) (KerTerm.tAcc (F := F) (lblk c V) (V main_v1) t.val) Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    isplitl [Ht]; · iexact Ht
    iintro ⟨H0, H1, H2, H3, H4, H5, Hs, Ht⟩
    rw [e7 d4, e8 d4]
    isplitl [Hs Ht]
    · isplitl [Hs]
      · iexact Hs
      · iexact Ht
    isplitl [Ho]; · iexact Ho
    isplitl [H0]; · iexact H0
    isplitl [H1]; · iexact H1
    isplitl [H2]; · iexact H2
    isplitl [H3]; · iexact H3
    isplitl [H4]; · iexists d4; iexact H4
    iexact H5
  · -- a middle visit
    have h1 : ¬g1 (grid1.coords t) := fun h => by have := (g1_iff t).mp h; omega
    have h2 : g2 (grid1.coords t) := (g2_iff t).mpr (by omega)
    have h3 : ¬g3 (grid1.coords t) := fun h => by have := (g3_iff t).mp h; omega
    have h4 : ¬k1_cond4 (grid1.coords t) = 1#1 := fun h => by have := (cond4_iff t).mp h; omega
    rw [show (𝔻).Φ t.castSucc = _ from accs_mid c V t.val h0 (by omega),
      show (𝔻).Φ t.succ = _ from accs_mid c V (t.val + 1) (by omega) (by omega),
      leaves5_idle (Ix := Ix) (Name := Name) (U := U) (Lvl := Lvl) c V B t h24, sAcc_succ c V t, tAcc_succ c V t]
    simp only [fetched4_bulk (Ix := Ix) (Name := Name) (U := U) (Lvl := Lvl) c V B t (by omega)]
    iintro ⟨⟨Hs, Ht⟩, Ho, ⟨%d0, H0⟩, ⟨%d1, H1⟩, ⟨%d2, H2⟩, ⟨%d3, H3⟩, ⟨%d4, H4⟩, H5⟩
    iapply (runBulk (F := F) c (grid1.coords t) _ _ _ _ _ _ _ _ _ _ _ _ _ _ _ _ h1 h2 h3 h4 (V main_v1) (lblk c V t.val)
      (KerTerm.sAcc (F := F) (lblk c V) t.val) (KerTerm.tAcc (F := F) (lblk c V) (V main_v1) t.val) Set.univ _)
    isplitl [H0]; · iexact H0
    isplitl [H4]; · iexact H4
    isplitl [Hs]; · iexact Hs
    isplitl [Ht]; · iexact Ht
    iintro ⟨H0, H4, Hs, Ht⟩
    isplitl [Hs Ht]
    · isplitl [Hs]
      · iexact Hs
      · iexact Ht
    isplitl [Ho]; · iexact Ho
    isplitl [H0]; · iexact H0
    isplitl [H1]; · iexact H1
    isplitl [H2]; · iexact H2
    isplitl [H3]; · iexact H3
    isplitl [H4]; · iexists d4; iexact H4
    iexact H5

include hlab in
/-- The stage's body obligation. -/
theorem hbody : BodyObligationLoose (𝔻) (defs₀ (F := F)) Variants.none ι Set.univ := fun t => by
  rw [bigSep_W1, bigSep_W1]
  exact sound_body c V B ι hlab t

end Body

end Cert.Kernel.TcProof

end
-- ==== Proof.WTcFacts.lean ====
/-
  What the launch of the TensorCore stage needs beside its body obligation: the accumulators' invariant holds before
  the first visit of whatever the two scratch buffers contain, gives them back after the last, and the one output
  array ends holding the stage's output word.
-/
import proofs.«217730_g43602507989570_cont_8to1c4_241_33_alg».proof.Proof.WTcBody

set_option maxRecDepth 16384

noncomputable section

namespace Cert.Kernel.TcProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Data

variable (c : Dev nD) (V : (b : Ref sig .tc) → Buf (Elt F) ((c.tc : Thread nD τ).loc b)) (B : Set (SemLoc sig × Ix)) (ι : Ix)

local notation "𝔻" => dats (Ix := Ix) (Name := Name) (U := U) (Lvl := Lvl) c V B

/-- Before the first visit the invariant asks nothing of the scratch buffers but that the core holds them. -/
theorem hin : iprop((BI.emp : sProp 𝕄) ∗ Pipeline.prefHeld (pcfgs (F := F) 0).pre c (fun _ => fullShare) (adm (F := F) 0).1
      ∗ Pipeline.scopedRest (Ix := Ix) (Name := Name) (U := U) (Lvl := Lvl) (Val := Elt F) (pcfg (F := F)).spec c)
    ⊢ (𝔻).Φ 0 := by
  show _ ⊢ accs c V 0
  unfold accs; rw [if_pos rfl]
  iintro ⟨-, -, H⟩; iexact H

/-- After the last visit the scratch buffers are still the core's; the stage has no semaphore of its own. -/
theorem hout : (𝔻).Φ (Fin.last (pcfg (F := F)).N)
    ⊢ iprop((BI.emp : sProp 𝕄) ∗ Pipeline.ownSems0 (fun k : PEmpty => k.elim) c
      ∗ Pipeline.scopedRest (Ix := Ix) (Name := Name) (U := U) (Lvl := Lvl) (Val := Elt F) (pcfg (F := F)).spec c) := by
  rw [Pipeline.ownSems0_none]
  show accs c V grid1.N ⊢ iprop(_ ∗ _ ∗ Pipeline.scopedRest spec1 c)
  rw [N_1]; unfold accs
  rw [if_neg (by omega), if_neg (by omega), scopedRest1_eq]
  iintro ⟨Hs, Ht⟩
  isplitr; · iempintro
  isplitr; · iempintro
  isplitl [Hs]
  · iexists _; iexact Hs
  · iexists _; iexact Ht

/-- The output array has one element. -/
theorem idx11_eq (a b : S1x1.Idx) : a = b := by
  funext d
  match d with
  | ⟨0, _⟩ =>
    have ha : (a 0).val < 1 := (a 0).isLt
    have hb : (b 0).val < 1 := (b 0).isLt
    exact Fin.ext (by show (a 0).val = (b 0).val; omega)
  | ⟨1, _⟩ =>
    have ha : (a 1).val < 1 := (a 1).isLt
    have hb : (b 1).val < 1 := (b 1).isLt
    exact Fin.ext (by show (a 1).val = (b 1).val; omega)

/-- The output window's block is the whole one-element array. -/
theorem mem_blk5 (t : Fin cfg1.N) (i : S1x1.Idx) : i ∈ (win1_5.blk t).view.set := by
  show i ∈ ((View.whole main_v3).slice (win1_5.rect t)).set
  rw [View.set_slice_whole, Rect.mem_set_unit]
  intro a
  match a with
  | ⟨0, _⟩ =>
    have hi : (i 0).val < 1 := (i 0).isLt
    show 0 * 1 ≤ (i 0).val ∧ (i 0).val < 0 * 1 + 1
    omega
  | ⟨1, _⟩ =>
    have hi : (i 1).val < 1 := (i 1).isLt
    show 0 * 1 ≤ (i 1).val ∧ (i 1).val < 0 * 1 + 1
    omega

/-- The output array after the stage: the one write-back, at the last visit, of the word the body stored there. -/
theorem arrAt_out : (𝔻).arrAt (5 : Fin 6) (pcfg (F := F)).N = outBlk c V := by
  refine (𝔻).arrAt_eq_of_cover (5 : Fin 6) (outBlk c V) (fun t _ => funext fun x => ?_) (fun i => ?_)
  · show outBlk c V (win1_5.xinj (grid1.coords t) x) = outBlk c V ((win1_5.blk t).view.emb x)
    exact congrArg _ (idx11_eq _ _)
  · refine ⟨⟨24, by rw [show (pcfg (F := F)).N = 25 from N_1]; omega⟩, (flush1_5 _).mpr rfl, ?_⟩
    exact mem_blk5 _ i

/-- The five inputs are never written back. -/
theorem arrAt_in (w : Fin 6) (hw : w.val < 5) : (𝔻).arrAt w (pcfg (F := F)).N = V (Pipeline.arrRef spec1 w) := by
  match w, hw with
  | ⟨0, _⟩, _ => exact (𝔻).arrAt_in (0 : Fin 6) rfl _
  | ⟨1, _⟩, _ => exact (𝔻).arrAt_in (1 : Fin 6) rfl _
  | ⟨2, _⟩, _ => exact (𝔻).arrAt_in (2 : Fin 6) rfl _
  | ⟨3, _⟩, _ => exact (𝔻).arrAt_in (3 : Fin 6) rfl _
  | ⟨4, _⟩, _ => exact (𝔻).arrAt_in (4 : Fin 6) rfl _

/-- The stage's layout facts, as the region record takes them. -/
theorem win : Pipeline.WinFacts₀ (pcfgs (F := F) 0).spec := launch1.win.to₀
theorem block_pos : ∀ w : Fin (pcfg (F := F)).W, 0 < ((pcfg (F := F)).spec w).block.numel := launch1.block_pos
theorem stage_whole : ∀ (w : Fin (pcfg (F := F)).W) (s : Fin ((pcfg (F := F)).spec w).nbuf), (((pcfg (F := F)).spec w).stage s).IsWhole :=
  launch1.stage_whole

/-- The stage names no semaphore of its own. -/
theorem ho : Pipeline.OwnSemFacts (pcfgs (F := F) 0).spec (fun k : PEmpty => k.elim) := Pipeline.OwnSemFacts.none _

end Data

/-- The stage's body owes no other core anything at any visit, so the pipeline's own waits need no level evidence. -/
theorem hwaits (L : GSem nD τ sig → Finset Ix) (lv : GSem nD τ sig → Ix → Lvl)
    (Vs : (c : Dev nD) → (b : Ref sig .tc) → Buf (Elt F) ((c.tc : Thread nD τ).loc b))
    (Bs : Dev nD → Set (SemLoc sig × Ix)) (ι : Ix) (c : Dev nD) :
    (levAts L lv : sProp 𝕄) ⊢ Pipeline.cellsWaits (Pipeline.pin (pcfgs (F := F)) adm)
      (fun (_ : Fin 1) c => dats (Ix := Ix) (Name := Name) (U := U) (Lvl := Lvl) c (Vs c) (Bs c)) ι 0 c :=
  Pipeline.hwaits_of_owed_zero _ _ _ _ L lv 0 (fun _ _ => rfl) c

end Cert.Kernel.TcProof

end
-- ==== Proof.WScMain.lean ====
/-
  The whole kernel program on a device: the TensorCore starts the gather stage on the two SparseCores and waits for
  it, reshapes the labels into a column and a row, runs the 25-visit stage over the logits, and reshapes its one
  output word into the scalar result.  The four argument arrays end as they began; the result is the stage's output
  term of the embeddings, the logits in 4096-column blocks, the labels and the gathered centre rows.
-/
import proofs.«217730_g43602507989570_cont_8to1c4_241_33_alg».proof.Proof.WScObl
import proofs.«217730_g43602507989570_cont_8to1c4_241_33_alg».proof.Proof.WTcFacts
import Idealize.ShloMosaic.Lib.Pipeline.Regions
import Idealize.ShloMosaic.Lib.Pipeline.RegionsLoop

noncomputable section

namespace Cert.Kernel.ScProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.Kernel.main_arg2_scv : Memref Cert.Kernel.sig Kind.scVector Space.hbm Cert.Kernel.S1024 EltTy.i32)
local notation "xV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

variable (m : (ℓ : Loc nD τ sig) → Buf (Elt F) ℓ) (ρ : Dev nD → PrngReg)
variable [FloatOps F]

open Idealize.ShloMosaic.StableHlo (held held_split held_sdiff_result wp_hlo_within)
open Cert.Kernel.TcProof (adm dats outBlk)
open Cert.Kernel.TcProof (hbody hin hout arrAt_out)

/-! ## The ghost state's three parts -/

abbrev EP : Emb UP (MT nD τ sig (HIx 1) (Elt F) ℕ UU ℕ) := (Emb.inl : Emb UP (UP × Counters)).trans embR
abbrev EC' : Emb Counters (MT nD τ sig (HIx 1) (Elt F) ℕ UU ℕ) := (Emb.inr : Emb Counters (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The stage's pipeline table at its one admission. -/
abbrev pc : Fin 1 → Pipeline.Cfg sig Λ₀ := Pipeline.pin (pcfgs (F := F)) adm

theorem pinj : Function.Injective (Pipeline.cellOf (nD := nD) (τ := τ) (pc (F := F))) := cellOf_inj

def u₀ : UU := (initOf (K (F := F)).hsCells (K (F := F)).hsToks,
  (initOf (Pipeline.cells (pc (F := F)) pinj) (Pipeline.launchToks (pc (F := F)) pinj), (1 : Counters)))

/-- What @main's proof starts from on a device: the stage's staging cells' ghost state and duty tokens. -/
abbrev G (d : Dev nD) : sProp 𝕄 :=
  iprop(Pipeline.cellsGhost (pc (F := F)) EP 0 d ∗ Pipeline.toksInit (pc (F := F)) EP 0 d)

omit [FloatOps F] in
theorem bigSep_emp' {I : Type} (s : Finset I) : (bigSep s fun _ => iprop(emp)) = (iprop(emp) : sProp 𝕄) := bigSep_emp_const s

omit [FloatOps F] in
theorem G_join :
    iprop((bigSep Finset.univ fun c : Dev nD => bigSep Finset.univ fun p : Fin 1 => Pipeline.cellsGhost (pc (F := F)) EP p c)
      ∗ (bigSep Finset.univ fun c : Dev nD => bigSep Finset.univ fun p : Fin 1 => (Pipeline.toksInit (pc (F := F)) EP p c : sProp 𝕄)))
    ⊢ bigSep Finset.univ fun d : Dev nD => G (F := F) d := by
  rw [show (bigSep Finset.univ fun d : Dev nD => G (F := F) d)
      = iprop((bigSep Finset.univ fun d : Dev nD => Pipeline.cellsGhost (pc (F := F)) EP 0 d)
          ∗ (bigSep Finset.univ fun d : Dev nD => (Pipeline.toksInit (pc (F := F)) EP 0 d : sProp 𝕄))) from bigSep_sep' _ _ _]
  exact BI.sep_mono (Entails.of_eq (bigSep_congr fun c _ => bigSep_univ_of_subsingleton (0 : Fin 1)))
    (Entails.of_eq (bigSep_congr fun c _ => bigSep_univ_of_subsingleton (0 : Fin 1)))

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m hpre).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (pc (F := F)) EP pinj) $$ HP with ⟨Hg, Ht⟩
  imodintro
  isplitl [HH]; · iexact HH
  isplitl [Hg Ht]
  · iapply G_join; isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's nine arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- All of them: every unscoped buffer of the TensorCore. -/
abbrev S9 : Finset (DevRef τ sig) := {a0', a1', a2', a3', v0', v1', v2', v3', v4'}

abbrev tl (d : Dev nD) (b : Ref sig .tc) : Loc nD τ sig := (SparseCore.T d).loc b

omit [FloatOps F] in
theorem held_S9 (d : Dev nD) (W : Valuation τ sig (Elt F)) :
    (held (T d) S9 W : sProp 𝕄) = iprop((tl d main_arg0 ↦{fullShare} W a0') ∗ (tl d main_arg1 ↦{fullShare} W a1') ∗ (tl d main_arg2 ↦{fullShare} W a2')
      ∗ (tl d main_arg3 ↦{fullShare} W a3') ∗ (tl d main_v0 ↦{fullShare} W v0') ∗ (tl d main_v1 ↦{fullShare} W v1') ∗ (tl d main_v2 ↦{fullShare} W v2')
      ∗ (tl d main_v3 ↦{fullShare} W v3') ∗ (tl d main_v4 ↦{fullShare} W v4')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((tl d main_arg0 ↦{fullShare} W main_arg0) ∗ (tl d main_arg1 ↦{fullShare} W main_arg1) ∗ (tl d main_arg2 ↦{fullShare} W main_arg2)
      ∗ (tl d main_arg3 ↦{fullShare} W main_arg3) ∗ (tl d main_v0 ↦{fullShare} W main_v0) ∗ (tl d main_v1 ↦{fullShare} W main_v1) ∗ (tl d main_v2 ↦{fullShare} W main_v2)
      ∗ (tl d main_v3 ↦{fullShare} W main_v3) ∗ (tl d main_v4 ↦{fullShare} W main_v4)) := by
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- A valuation of the device's buffers, as the TensorCore's references see it. -/
abbrev tcV (d : Dev nD) (W : Valuation τ sig (Elt F)) : (b : Ref sig .tc) → Buf (Elt F) ((d.tc : Thread nD τ).loc b) := fun b => W (Proc.devRef .tc b)

omit [FloatOps F] in
theorem unscoped_held (d : Dev nD) (W : Valuation τ sig (Elt F)) : (unscopedBufs d (tcV d W) : sProp 𝕄) = held (T d) S9 W := by
  rw [unscopedBufs_eq, held_S9]

/-! ## What the gather stage's call takes and hands back -/

theorem st0_eq (hpre : PreOK m) (d : Dev nD) :
    (bigSep Finset.univ fun c : Fin ((K (F := F)).nCore 0) => (P m hpre).st 0 d c)
      = iprop((lLoc d ↦{fullShare} m (lLoc d)) ∗ (xLoc d ↦{fullShare} m (xLoc d)) ∗ (oLoc d ↦{fullShare} m (oLoc d))) := by
  show (bigSep (Finset.univ : Finset (Fin 2)) fun c => bigSep (Finset.univ : Finset (Fin 16)) fun i =>
      (iprop((lLoc d ↦{tq c i} m (lLoc d)) ∗ (xLoc d ↦{tq c i} m (xLoc d)) ∗ (oLoc d ↦[oRowSet (coordsT c i)]{fullShare} m (oLoc d))) : sProp 𝕄)) = _
  rw [shares_tiles (lLoc d), shares_tiles (xLoc d), oPts_tiles d]
  simp only [bigSep_sep']

theorem dn0_eq (hpre : PreOK m) (d : Dev nD) :
    (bigSep Finset.univ fun c : Fin ((K (F := F)).nCore 0) => (P m hpre).dn 0 d c)
      = iprop((lLoc d ↦{fullShare} m (lLoc d)) ∗ (xLoc d ↦{fullShare} m (xLoc d)) ∗ (oLoc d ↦{fullShare} gathered m hpre d)) := by
  show (bigSep (Finset.univ : Finset (Fin 2)) fun c => bigSep (Finset.univ : Finset (Fin 16)) fun i =>
      (iprop((lLoc d ↦{tq c i} m (lLoc d)) ∗ (xLoc d ↦{tq c i} m (xLoc d)) ∗ (oLoc d ↦[oRowSet (coordsT c i)]{fullShare} gathered m hpre d)) : sProp 𝕄)) = _
  rw [shares_tiles (lLoc d), shares_tiles (xLoc d), oPts_tiles d]
  simp only [bigSep_sep']

/-! ## The valuations @main passes through -/

/-- At launch; -/
def V0 (d : Dev nD) : Valuation τ sig (Elt F) := fun b => m (d, b)
/-- after the gather stage: its output at the gathered array; -/
def V1 (hpre : PreOK m) (d : Dev nD) : Valuation τ sig (Elt F) := Function.update (V0 m d) v0' (gathered m hpre d)
/-- the labels as a column, as a row; the stage's output word as a scalar. -/
abbrev op1 : HloOp τ sig (Elt F) := StableHlo.reshape main_arg2 main_v1 rfl shapeCasts_S1024_S1024x1
abbrev op2 : HloOp τ sig (Elt F) := StableHlo.reshape main_arg2 main_v2 rfl shapeCasts_S1024_S1x1024
abbrev op3 : HloOp τ sig (Elt F) := StableHlo.reshape main_v3 main_v4 rfl shapeCasts_S1x1_S_
abbrev V2 (hpre : PreOK m) (d : Dev nD) : Valuation τ sig (Elt F) := (op1 (F := F)).result (V1 m hpre d)
abbrev V3 (hpre : PreOK m) (d : Dev nD) : Valuation τ sig (Elt F) := (op2 (F := F)).result (V2 m hpre d)

/-! ## The 25-visit stage as a region of @main -/

section Region

-- every TensorCore buffer when the stage is entered, core by core
variable (Vt : (c : Dev nD) → (b : Ref sig .tc) → Buf (Elt F) ((c.tc : Thread nD τ).loc b))
-- a bound on what each core's waits have recorded outside the stage
variable (B : Dev nD → Set (SemLoc sig × HIx 1))

/-- The stage's proof data, as the one-pipeline family the region rule takes. -/
def pdats : (p : Fin 1) → (c : Dev nD) → Pipeline.Dat τ (Elt F) (HIx 1) ℕ UU ℕ (Pipeline.pin (pcfgs (F := F)) adm p) c
  | ⟨0, _⟩ => fun c => dats c (Vt c) (B c)

/-- The stage's output array after the last visit, as the pipeline computes it. -/
def outArr (c : Dev nD) : Buf (Elt F) ((c.tc : Thread nD τ).loc main_v3) := (pdats Vt B 0 c).arrAt 5 cfg1.N

variable (Vp : (c : Dev nD) → (b : Ref sig .tc) → Buf (Elt F) ((c.tc : Thread nD τ).loc b))

set_option backward.isDefEq.respectTransparency.types false in
/-- The region over the thread state "every unscoped buffer at `Vt c`, `R c` beside, the core owing nothing with its
    recorded waits inside `B c`": entered by taking the six windowed arrays out of the unscoped buffers, left with
    them put back at `Vp`; the stage has no semaphore of its own and nothing enters its invariant but the two
    accumulators' buffers. -/
def reg (R : Dev nD → sProp 𝕄) (L : GSem nD τ sig → Finset (HIx 1)) (lv : GSem nD τ sig → HIx 1 → ℕ)
    (hbody : ∀ c, Pipeline.BodyObligationLoose (pdats Vt B 0 c) (defs₀ (F := F)) 𝒱₀ none Set.univ)
    (hin : ∀ c, iprop((BI.emp : sProp 𝕄) ∗ Pipeline.prefHeld (pcfgs (F := F) 0).pre c (fun _ => fullShare) (adm (F := F) 0).1 ∗ Pipeline.scopedRest (Pipeline.pin (pcfgs (F := F)) adm 0).spec c) ⊢ (pdats Vt B 0 c).Φ 0)
    (hout : ∀ c, (pdats Vt B 0 c).Φ (Fin.last (Pipeline.pin (pcfgs (F := F)) adm 0).N) ⊢ iprop((BI.emp : sProp 𝕄) ∗ Pipeline.ownSems0 (fun k : PEmpty => k.elim) c ∗ Pipeline.scopedRest (Pipeline.pin (pcfgs (F := F)) adm 0).spec c))
    (hVp_out : ∀ c, Vp c main_v3 = outArr Vt B c)
    (hVp_ne : ∀ c (b : Ref sig .tc), b ≠ main_v3 → Vp c b = Vt c b) :
    Pipeline.RegionSeg (pcfgs (F := F)) adm (pdats Vt B) none defs₀ 𝒱₀ L lv 0 where
  win := launch1.win.to₀
  block_pos := launch1.block_pos
  stage_whole := launch1.stage_whole
  K := PEmpty
  osem k := k.elim
  ho := Pipeline.OwnSemFacts.none _
  hbody := hbody
  hwaits := Pipeline.hwaits_of_owed_zero _ _ _ _ L lv 0 fun _ _ => rfl
  pre c := iprop(unscopedBufs c (Vt c) ∗ R c ∗ ∃ W : Waits sig (HIx 1), ⌜(↑W : Set (SemLoc sig × HIx 1)) ⊆ B c⌝ ∗ owes (c.tc : Thread nD τ) (0 : CellTallies nD τ sig (HIx 1)) W)
  post c := iprop(unscopedBufs c (Vp c) ∗ R c ∗ ∃ W : Waits sig (HIx 1), ⌜(↑W : Set (SemLoc sig × HIx 1)) ⊆ B c ∪ (Pipeline.pin (pcfgs (F := F)) adm 0).waitPairs none⌝ ∗ owes (c.tc : Thread nD τ) (0 : CellTallies nD τ sig (HIx 1)) W)
  X _ := BI.emp
  Y _ := BI.emp
  Z c := iprop(Pipeline.unscopedRest (Ix := HIx 1) (Name := ℕ) (U := UU) (Lvl := ℕ) spec1 c (Vt c) ∗ R c)
  hentry c := by
    rw [Pipeline.ownSems0_none]
    have hsplit := Pipeline.arrays_of_unscopedBufs (p := 0) (pcfgs (F := F)) adm (pdats Vt B) launch1.win launch1.arr_whole c
      ((pdats Vt B 0 c).share_full fun _ => rfl) (Vt c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest] <;> iassumption
  hin := hin
  hout := hout
  hexit c := by
    have hjoin := Pipeline.unscopedBufs_of_arrays (p := 0) (pcfgs (F := F)) adm (Ix := HIx 1) (Name := ℕ) (U := UU) (Lvl := ℕ) launch1.win launch1.arr_whole c
      (pdats Vt B) ((pdats Vt B 0 c).share_full fun _ => rfl) (Vt c) (Vp c) ((pdats Vt B 0 c).arrAt · cfg1.N)
      (fun w => by
        fin_cases w
        · exact ((pdats Vt B 0 c).arrAt_in 0 rfl _).trans (hVp_ne c main_v1 (by decide)).symm
        · exact ((pdats Vt B 0 c).arrAt_in 1 rfl _).trans (hVp_ne c main_v2 (by decide)).symm
        · exact ((pdats Vt B 0 c).arrAt_in 2 rfl _).trans (hVp_ne c main_arg0 (by decide)).symm
        · exact ((pdats Vt B 0 c).arrAt_in 3 rfl _).trans (hVp_ne c main_v0 (by decide)).symm
        · exact ((pdats Vt B 0 c).arrAt_in 4 rfl _).trans (hVp_ne c main_arg1 (by decide)).symm
        · exact (hVp_out c).symm)
      (fun b hb => hVp_ne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; · ipureintro; exact hW
    iexact HO

end Region

/-! ## @main on the TensorCore -/

/-- The level bound the TensorCore's recorded waits keep after its one SparseCore call. -/
abbrev Blev (c : Dev nD) : Set (SemLoc sig × HIx 1) := {p | (K (F := F)).lev (T c, p.1) p.2 ≤ 8 * 1}

/-- Every TensorCore buffer when the 25-visit stage is entered. -/
abbrev Vt (hpre : PreOK m) : (c : Dev nD) → (b : Ref sig .tc) → Buf (Elt F) ((c.tc : Thread nD τ).loc b) := fun c => tcV c (V3 m hpre c)

/-- After the stage: its output array at what the pipeline computes; after the last reshape. -/
def V4 (hpre : PreOK m) (d : Dev nD) : Valuation τ sig (Elt F) := Function.update (V3 m hpre d) v3' (outArr (Vt m hpre) (Blev (F := F)) d)
abbrev V5 (hpre : PreOK m) (d : Dev nD) : Valuation τ sig (Elt F) := (op3 (F := F)).result (V4 m hpre d)

theorem hsub1 : (op1 (F := F)).bufs ⊆ S9 := show ({a2', v1'} : Finset (DevRef τ sig)) ⊆ S9 by decide
theorem hsub2 : (op2 (F := F)).bufs ⊆ S9 := show ({a2', v2'} : Finset (DevRef τ sig)) ⊆ S9 by decide
theorem hsub3 : (op3 (F := F)).bufs ⊆ S9 := show ({v3', v4'} : Finset (DevRef τ sig)) ⊆ S9 by decide

/-- A buffer no step of @main writes keeps its launch contents to the end. -/
theorem V5_keep (hpre : PreOK m) (d : Dev nD) (b : DevRef τ sig) (h0 : b ≠ v0') (h1 : b ≠ v1') (h2 : b ≠ v2') (h3 : b ≠ v3') (h4 : b ≠ v4') :
    V5 m hpre d b = V0 m d b := by
  unfold V5 V4 V3 V2 V1
  rw [(op3 (F := F)).result_of_not_mem _ (b := b) (by simpa using h4), Function.update_of_ne h3,
    (op2 (F := F)).result_of_not_mem _ (b := b) (by simpa using h2), (op1 (F := F)).result_of_not_mem _ (b := b) (by simpa using h1),
    Function.update_of_ne h0]

/-- The rest of the TensorCore's handshake state after its one call: what rides along through the stage. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_one (d : Dev nD) :
    ((K (F := F)).tcSt EH d 1 : sProp 𝕄)
      = iprop((∃ W, ⌜(K (F := F)).WBelow (T d) W (8 * 1)⌝ ∗ owes (T d) ((K (F := F)).Otc d 1) W) ∗ tcRest (F := F) d) := rfl

/-- What @main leaves the claim: the four arguments at their launch contents, the result at the last reshape's value. -/
abbrev FIN (hpre : PreOK m) (d : Dev nD) : sProp 𝕄 :=
  iprop((tl d main_arg0 ↦{fullShare} m (tl d main_arg0)) ∗ (tl d main_arg1 ↦{fullShare} m (tl d main_arg1)) ∗ (tl d main_arg2 ↦{fullShare} m (tl d main_arg2))
    ∗ (tl d main_arg3 ↦{fullShare} m (tl d main_arg3)) ∗ (tl d main_v4 ↦{fullShare} V5 m hpre d v4'))

section Main

variable (hpre : PreOK m)
/-- The labels as a column are the labels: every word a row number of the table. -/
theorem hlab (c : Dev nD) : ∀ j : S1024x1.Idx, (Vt m hpre c main_v1 j : BitVec 32).toNat < 100000 := by
  intro j
  have e : Vt m hpre c main_v1 = fun i => shapeCast S1024x1 (m (lLoc c)) shapeCasts_S1024_S1024x1 i := by
    show V3 m hpre c v1' = _
    unfold V3 V2
    rw [(op2 (F := F)).result_of_not_mem _ (b := v1') (by simpa using (show v1' ≠ v2' by decide)), StableHlo.reshape_result]
    unfold V1
    rw [Function.update_of_ne (show a2' ≠ v0' by decide)]
    rfl
  rw [e]
  exact hpre c _

theorem hVp_out (c : Dev nD) : tcV c (V4 m hpre c) main_v3 = outArr (Vt m hpre) (Blev (F := F)) c := Function.update_self _ _ _
theorem hVp_ne (c : Dev nD) (b : Ref sig .tc) (hb : b ≠ main_v3) : tcV c (V4 m hpre c) b = Vt m hpre c b :=
  Function.update_of_ne (fun e => hb (Proc.devRef_injective _ e)) _ _

set_option maxHeartbeats 1000000 in
theorem hmain [∀ e, Nonempty (Elt F e)] (κ : GSem nD τ sig → ℕ) (d : Dev nD) :
    iprop((K (F := F)).ctx EH (P m hpre) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [show (fun b : Ref sig .tc => m ((SparseCore.T d).loc b)) = tcV d (V0 m d) from rfl, unscoped_held]
  simp only [main, wp_bind, wp_pure]
  iintro ⟨#Hctx, Hst, ⟨Hb, Hheld, -, -⟩, ⟨Hcg, Htk⟩⟩
  ihave Hh := (Entails.of_eq (held_S9 (F := F) d _)) $$ Hheld
  icases Hh with ⟨Ha0, Ha1, Ha2, Ha3, Hv0, Hv1, Hv2, Hv3, Hv4⟩
  -- the gather stage's call: the labels, the table and the output to the two SparseCores and back
  iapply ((K (F := F)).wp_run (D (F := F)) 𝒱 (EH := EH) (P := P m hpre) κ d 0) $$ [Hst Ha2 Ha3 Hv0 Hb Ha0 Ha1 Hv1 Hv2 Hv3 Hv4 Hcg Htk]
  isplitr; · iexact Hctx
  isplitl [Hst]; · iexact Hst
  isplitl [Ha2 Ha3 Hv0]
  · rw [st0_eq]
    isplitl [Ha2]; · iexact Ha2
    isplitl [Ha3]; · iexact Ha3
    iexact Hv0
  iintro ⟨Hst, Hdn⟩
  ihave Hdn' := (Entails.of_eq (dn0_eq m hpre d)) $$ Hdn
  icases Hdn' with ⟨Ha2, Ha3, Hv0⟩
  -- the labels as a column
  iapply (wp_hlo_within 𝒱 (SparseCore.T d) none Set.univ (op := op1) (S := S9) hsub1 (V := V1 m hpre d)) $$ [Hb Ha0 Ha1 Ha2 Ha3 Hv0 Hv1 Hv2 Hv3 Hv4]
  · isplitl [Hb]; · iexact Hb
    rw [held_S9]
    simp (disch := decide) only [V1, Function.update_self, Function.update_of_ne]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  -- the labels as a row
  iapply (wp_hlo_within 𝒱 (SparseCore.T d) none Set.univ (op := op2) (S := S9) hsub2 (V := V2 m hpre d)) $$ [Hb Hheld]
  · isplitl [Hb]; · iexact Hb
    iexact Hheld
  iintro ⟨Hb, Hheld⟩
  rw [wp_ret]; imodintro
  -- the 25-visit stage, entered from every unscoped buffer at `V3`, the core owing nothing
  ihave Hub := (Entails.of_eq (unscoped_held (F := F) d (V3 m hpre d)).symm) $$ Hheld
  ihave Hst' := (Entails.of_eq (show ((K (F := F)).tcSt EH d ((0 : Fin 1).val + 1) : sProp 𝕄) = _ from tcSt_one (F := F) d)) $$ Hst
  icases Hst' with ⟨⟨%W, %hW, HO⟩, Hrest⟩
  ihave HO' := (Entails.of_eq (show (owes (T d) ((K (F := F)).Otc d 1) W : sProp 𝕄) = owes (T d) 0 W by rw [(K (F := F)).Otc_end d (le_refl 1)])) $$ HO
  ihave Hlev := (SparseCore.Cfg.ctx_levAts κ) $$ Hctx
  iapply ((K (F := F)).wp_liftProg (D (F := F)) 𝒱 (SparseCore.T d) Set.univ none (Prog.lift (TpuEff.customCall (Pipeline.entry 0) ())) _)
  iapply (Pipeline.RegionSeg.wp (pcfgs (F := F)) adm (pdats (Vt m hpre) Blev) none pinj EP defs₀ 𝒱₀ (K (F := F)).L (K (F := F)).lev
      (reg (Vt m hpre) Blev (fun c => tcV c (V4 m hpre c)) (tcRest (F := F)) (K (F := F)).L (K (F := F)).lev
        (fun c => hbody c _ _ none (hlab m hpre c)) (fun c => hin c _ _) (fun c => hout c _ _) (hVp_out m hpre) (hVp_ne m hpre))
      d none (fun u hu => nomatch hu) (fun _ => Prog.ret PUnit.unit) _) $$ [Hb Hub Hrest HO' Hlev Hcg Htk]
  unfold reg; dsimp only
  isplitr [Hb Hub Hrest HO' Hcg Htk]
  · -- after the stage: the last reshape, and the post
    iintro ⟨Hb, Hpost⟩
    icases Hpost with ⟨Hub, Hrest, %W', %hW', HO⟩
    rw [wp_ret]; imodintro
    ihave Hheld := (Entails.of_eq (unscoped_held (F := F) d (V4 m hpre d))) $$ Hub
    iapply (wp_hlo_within 𝒱 (SparseCore.T d) none Set.univ (op := op3) (S := S9) hsub3 (V := V4 m hpre d)) $$ [Hb Hheld]
    · isplitl [Hb]; · iexact Hb
      iexact Hheld
    iintro ⟨Hb, Hheld⟩
    rw [wp_ret]; imodintro; imodintro
    isplitl [Hrest HO]
    · rw [tcSt_one]
      isplitl [HO]
      · iexists W'; isplitr
        · ipureintro
          intro p hp
          rcases hW' (Finset.mem_coe.mpr hp) with h | ⟨w, s, rfl⟩
          · exact h
          · show (K (F := F)).lev _ none ≤ _
            rw [SparseCore.Cfg.lev_none]; exact Nat.zero_le _
        · rw [(K (F := F)).Otc_end d (le_refl 1)]; iexact HO
      iexact Hrest
    ihave Hh := (Entails.of_eq (held_S9 (F := F) d _)) $$ Hheld
    icases Hh with ⟨Ha0, Ha1, Ha2, Ha3, -, -, -, -, Hv4⟩
    have e0 : (op3 (F := F)).result (V4 m hpre d) a0' = m (tl d main_arg0) := V5_keep m hpre d a0' (by decide) (by decide) (by decide) (by decide) (by decide)
    have e1 : (op3 (F := F)).result (V4 m hpre d) a1' = m (tl d main_arg1) := V5_keep m hpre d a1' (by decide) (by decide) (by decide) (by decide) (by decide)
    have e2 : (op3 (F := F)).result (V4 m hpre d) a2' = m (tl d main_arg2) := V5_keep m hpre d a2' (by decide) (by decide) (by decide) (by decide) (by decide)
    have e3 : (op3 (F := F)).result (V4 m hpre d) a3' = m (tl d main_arg3) := V5_keep m hpre d a3' (by decide) (by decide) (by decide) (by decide) (by decide)
    ihave Ha0 := (Entails.of_eq (congrArg (fun f => (tl d main_arg0 ↦{fullShare} f : sProp 𝕄)) e0)) $$ Ha0
    ihave Ha1 := (Entails.of_eq (congrArg (fun f => (tl d main_arg1 ↦{fullShare} f : sProp 𝕄)) e1)) $$ Ha1
    ihave Ha2 := (Entails.of_eq (congrArg (fun f => (tl d main_arg2 ↦{fullShare} f : sProp 𝕄)) e2)) $$ Ha2
    ihave Ha3 := (Entails.of_eq (congrArg (fun f => (tl d main_arg3 ↦{fullShare} f : sProp 𝕄)) e3)) $$ Ha3
    isplitl [Ha0]; · iexact Ha0
    isplitl [Ha1]; · iexact Ha1
    isplitl [Ha2]; · iexact Ha2
    isplitl [Ha3]; · iexact Ha3
    iexact Hv4
  · -- what the stage is entered with
    isplitl [Hb]; · iexact Hb
    isplitl [Hub Hrest HO']
    · isplitl [Hub]; · iexact Hub
      isplitl [Hrest]; · iexact Hrest
      iexists W; isplitr
      · ipureintro; exact fun p hp => hW p (Finset.mem_coe.mp hp)
      · iexact HO'
    isplitr; · iexact Hlev
    isplitl [Hcg]; · iexact Hcg
    iexact Htk

end Main

end Cert.Kernel.ScProof

end
-- ==== Proof.WScRun.lean ====
/-
  The kernel program's run, and its result as a term of the launch arrays.  From a launch memory whose labels are
  row numbers of the centre table, every weakly fair execution of the TensorCore and the two SparseCores' threads
  ends; the four arguments are unchanged; and the scalar result is the 25-visit stage's output term of the
  embeddings, the logits in column blocks, the labels as a column and as a row, and the gathered centre rows.
-/
import proofs.«217730_g43602507989570_cont_8to1c4_241_33_alg».proof.Proof.WScMain

noncomputable section

namespace Cert.Kernel.ScProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "lV" => (Memref.whole Cert.Kernel.main_arg2_scv : Memref Cert.Kernel.sig Kind.scVector Space.hbm Cert.Kernel.S1024 EltTy.i32)
local notation "xV" => (Memref.whole Cert.Kernel.main_arg3_scv : Memref Cert.Kernel.sig Kind.scVector Space.hbm Cert.Kernel.S100000x128 EltTy.f32)
local notation "oV" => (Memref.whole Cert.Kernel.main_v0_scv : Memref Cert.Kernel.sig Kind.scVector Space.hbm Cert.Kernel.S1024x128 EltTy.f32)
local notation "sV" => (Memref.whole Cert.Kernel.cc0_scratch0 : Memref Cert.Kernel.sig Kind.scVector Space.vmem Cert.Kernel.S32 EltTy.i32)
local notation "rV" => (Memref.whole Cert.Kernel.cc0_scratch1 : Memref Cert.Kernel.sig Kind.scVector Space.vmem Cert.Kernel.S32x128 EltTy.f32)

variable (m : (ℓ : Loc nD τ sig) → Buf (Elt F) ℓ) (ρ : Dev nD → PrngReg)
variable [FloatOps F]

open Idealize.ShloMosaic.StableHlo (held held_split held_sdiff_result wp_hlo_within)
open Cert.Kernel.TcProof (adm dats outBlk arrAt_out)

/-! ## The claim read off a final memory -/

/-- What a final memory shows on device `d`. -/
def fqM (hpre : PreOK m) (d : Dev nD) (s : MemSt nD τ sig (Elt F)) : Prop :=
  s.mem (tl d main_v4) = V5 m hpre d v4' ∧ s.mem (tl d main_arg0) = m (tl d main_arg0) ∧ s.mem (tl d main_arg1) = m (tl d main_arg1)
    ∧ s.mem (tl d main_arg2) = m (tl d main_arg2) ∧ s.mem (tl d main_arg3) = m (tl d main_arg3)

def fq (hpre : PreOK m) (d : Dev nD) (s' : Phys nD τ sig (Elt F)) : Prop := fqM m hpre d s'.mem

set_option maxRecDepth 16384 in
theorem hfin (hpre : PreOK m) (d : Dev nD) (s' : Phys nD τ sig (Elt F)) : iprop(FIN m hpre d ∗ SI s') ⊢ (⌜fq m hpre d s'⌝ : sProp 𝕄) := by
  iintro ⟨⟨H0, H1, H2, H3, H4⟩, HSI⟩
  ihave H := (persistent_entails_right (SI_pointsTo_agree (st := s') (ℓ := tl d main_arg0) (I := Finset.univ) (q := fullShare) (f := m (tl d main_arg0)))) $$ [HSI H0]
  · isplitl [HSI] <;> iassumption
  icases H with ⟨%h0, HSI, -⟩
  ihave H := (persistent_entails_right (SI_pointsTo_agree (st := s') (ℓ := tl d main_arg1) (I := Finset.univ) (q := fullShare) (f := m (tl d main_arg1)))) $$ [HSI H1]
  · isplitl [HSI] <;> iassumption
  icases H with ⟨%h1, HSI, -⟩
  ihave H := (persistent_entails_right (SI_pointsTo_agree (st := s') (ℓ := tl d main_arg2) (I := Finset.univ) (q := fullShare) (f := m (tl d main_arg2)))) $$ [HSI H2]
  · isplitl [HSI] <;> iassumption
  icases H with ⟨%h2, HSI, -⟩
  ihave H := (persistent_entails_right (SI_pointsTo_agree (st := s') (ℓ := tl d main_arg3) (I := Finset.univ) (q := fullShare) (f := m (tl d main_arg3)))) $$ [HSI H3]
  · isplitl [HSI] <;> iassumption
  icases H with ⟨%h3, HSI, -⟩
  ihave H := (SI_pointsTo_agree (st := s') (ℓ := tl d main_v4) (I := Finset.univ) (q := fullShare) (f := V5 m hpre d v4')) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

/-! ## The run -/

def QC (hpre : PreOK m) : PUnit × MemSt nD τ sig (Elt F) → Prop := fun r => ∀ c : Dev nD, fqM m hpre c r.2

theorem run_main [∀ e, Nonempty (Elt F e)] (hpre : PreOK m) :
    θ_run (Cert.Kernel.defs (F := F)) (Cert.Kernel.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (G (F := F)) (FIN m hpre) (u₀ (F := F)) (sep_elim_left.trans (hu₀ m hpre)) (hmain m ρ hpre) (fq m hpre) (hfin m hpre) (QC m hpre) (fun _ h => h)

/-! ## The result as a term of the launch arrays -/

theorem Vt_v1 (hpre : PreOK m) (c : Dev nD) : Vt m hpre c main_v1 = fun i => shapeCast S1024x1 (m (lLoc c)) shapeCasts_S1024_S1024x1 i := by
  show V3 m hpre c v1' = _
  unfold V3 V2
  rw [(op2 (F := F)).result_of_not_mem _ (b := v1') (by simpa using (show v1' ≠ v2' by decide)), StableHlo.reshape_result]
  unfold V1
  rw [Function.update_of_ne (show a2' ≠ v0' by decide)]
  rfl

theorem Vt_v2 (hpre : PreOK m) (c : Dev nD) : Vt m hpre c main_v2 = fun i => shapeCast S1x1024 (m (lLoc c)) shapeCasts_S1024_S1x1024 i := by
  show V3 m hpre c v2' = _
  unfold V3
  rw [StableHlo.reshape_result]
  unfold V2
  rw [(op1 (F := F)).result_of_not_mem _ (b := a2') (by simpa using (show a2' ≠ v1' by decide))]
  unfold V1
  rw [Function.update_of_ne (show a2' ≠ v0' by decide)]
  rfl

theorem Vt_keep (hpre : PreOK m) (c : Dev nD) (b : Ref sig .tc) (h0 : (Proc.devRef .tc b : DevRef τ sig) ≠ v0') (h1 : (Proc.devRef .tc b : DevRef τ sig) ≠ v1')
    (h2 : (Proc.devRef .tc b : DevRef τ sig) ≠ v2') : Vt m hpre c b = m (tl c b) := by
  show V3 m hpre c (Proc.devRef .tc b) = _
  unfold V3 V2 V1
  rw [(op2 (F := F)).result_of_not_mem _ (b := Proc.devRef .tc b) (by simpa using h2), (op1 (F := F)).result_of_not_mem _ (b := Proc.devRef .tc b) (by simpa using h1),
    Function.update_of_ne h0]
  rfl

theorem Vt_v0 (hpre : PreOK m) (c : Dev nD) : Vt m hpre c main_v0 = gathered m hpre c := by
  show V3 m hpre c v0' = _
  unfold V3 V2 V1
  rw [(op2 (F := F)).result_of_not_mem _ (b := v0') (by simpa using (show v0' ≠ v2' by decide)), (op1 (F := F)).result_of_not_mem _ (b := v0') (by simpa using (show v0' ≠ v1' by decide)),
    Function.update_self]

/-- The scalar the program returns. -/
def resultOf (hpre : PreOK m) (d : Dev nD) : FVec F S_ .f32 :=
  shapeCast S_ (KerTerm.out (F := F) (KerTerm.blkOf (m (tl d main_arg1))) (fun i => shapeCast S1024x1 (m (lLoc d)) shapeCasts_S1024_S1024x1 i)
    (fun i => shapeCast S1x1024 (m (lLoc d)) shapeCasts_S1024_S1x1024 i) (m (tl d main_arg0)) (gathered m hpre d)) shapeCasts_S1x1_S_

theorem result_eq (hpre : PreOK m) (d : Dev nD) : V5 m hpre d v4' = resultOf m hpre d := by
  unfold V5
  rw [StableHlo.reshape_result]
  unfold V4
  rw [Function.update_self]
  unfold outArr pdats
  dsimp only
  rw [arrAt_out]
  unfold outBlk TcProof.lblk resultOf
  rw [Vt_v1, Vt_v2, Vt_v0, Vt_keep m hpre d main_arg0 (by decide) (by decide) (by decide), Vt_keep m hpre d main_arg1 (by decide) (by decide) (by decide)]
  rfl

end Cert.Kernel.ScProof

end
-- ==== Proof.LibBlockSum.lean ====
/-
  Two general facts about finite sums.

  A sum over the first `N * B` natural numbers is the sum, over `B` consecutive blocks of `N`, of each
  block's sum; and the coercion from the reals to the extended reals commutes with finite sums.
-/
import Mathlib.Data.EReal.Basic
import Mathlib.Algebra.BigOperators.Intervals
import Mathlib.Algebra.BigOperators.Fin

namespace Cert.LibBlockSum

open scoped BigOperators

/-- A sum over `range (N * B)` cut into `B` blocks of `N` consecutive terms. -/
theorem sum_range_mul {M : Type*} [AddCommMonoid M] (N B : ℕ) (g : ℕ → M) :
    ∑ k ∈ Finset.range (N * B), g k = ∑ n ∈ Finset.range B, ∑ j ∈ Finset.range N, g (N * n + j) := by
  induction B with
  | zero => simp
  | succ B ih => rw [Nat.mul_succ, Finset.sum_range_add, ih, Finset.sum_range_succ]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibBlockSum
-- ==== Proof.KerAcc.lean ====
/-
  The kernel's two per-sample accumulators as mathematics.

  Each of the 25 visits adds to the first accumulator the row sums of `exp` over the block's 4096 lanes and to
  the second the block's entry in the sample's label column. Read at a row, the first ends as the sum of `exp`
  over the row's 100000 logits (the last block's overhanging lanes are masked to `-∞`, and `exp (-∞) = 0`), the
  second as the logit in the label's column (labels are below 100000, so no overhanging lane is selected).
-/
import proofs.«217730_g43602507989570_cont_8to1c4_241_33_alg».proof.Proof.KerTerm
import Idealize.ShloMosaic.PureOps.Ideal.Laws
import Idealize.ShloMosaic.Lib.ValueIdx
import Idealize.ShloMosaic.Lib.ValueLayout
import proofs.«217730_g43602507989570_cont_8to1c4_241_33_alg».proof.Proof.LibBlockSum

noncomputable section
namespace Cert.KernelIdeal.KerValue
open Idealize.ShloMosaic Idealize.ShloMosaic.ValueIdx Cert.KernelIdeal Cert.KernelIdeal.Gen Cert.KernelIdeal.KerTerm

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem select_eq_ofNat {α : Type} (a b : ℕ) (ha : a < 4294967296) (hb : b < 4294967296) (A B : α) :
    Scalar.select (IntOp.cmpi .eq (BitVec.ofNat 32 a) (BitVec.ofNat 32 b)) A B = if a = b then A else B := by
  unfold Scalar.select IntOp.cmpi
  by_cases h : a = b
  · subst h; simp
  · have hne : BitVec.ofNat 32 a ≠ BitVec.ofNat 32 b := by
      intro e; apply h
      have := congrArg BitVec.toNat e
      simp only [BitVec.toNat_ofNat] at this; omega
    have hbeq : (BitVec.ofNat 32 a == BitVec.ofNat 32 b) = false := beq_eq_false_iff_ne.mpr hne
    simp [h, hbeq]

theorem select_slt_ofNat {α : Type} (a : ℕ) (ha : a < 2147483648) (A B : α) :
    Scalar.select (IntOp.cmpi .slt (BitVec.ofNat 32 a) 100000#32) A B = if a < 100000 then A else B := by
  unfold Scalar.select IntOp.cmpi
  have e := BitVec.toInt_eq_toNat_cond (BitVec.ofNat 32 a)
  have hs : (BitVec.ofNat 32 a).slt 100000#32 = decide (a < 100000) := by
    rw [BitVec.slt_eq_decide]
    simp only [BitVec.toNat_ofNat] at e
    have h2 : (100000#32 : BitVec 32).toInt = 100000 := by decide
    rw [h2, e]
    congr 1
    apply propext
    constructor <;> intro h <;> split at * <;> omega
  simp only [hs]
  by_cases h : a < 100000 <;> simp [h]

theorem pay3_apply (n : ℕ) (hn : n < 25) (i : Fin 1024) (k : Fin 4096) :
    k1_pay3 (cd n) (ix2 i k) = BitVec.ofNat 32 (4096 * n + k.val) := by
  unfold k1_pay3
  show IntOp.addi (Scalar.muli (BitVec.ofNat 32 ((cd n) 0).val) 4096#32) (iota .tc S1024x4096 32 [1] iota_S1024x4096_d1_w32 (ix2 i k)) = _
  rw [iota_single_apply]
  have h0 : ((cd n) 0).val = n := Nat.mod_eq_of_lt hn
  rw [h0]
  apply BitVec.eq_of_toNat_eq
  have hk := k.isLt
  show ((BitVec.ofNat 32 n * 4096#32) + BitVec.ofNat 32 k.val).toNat = _
  simp only [BitVec.toNat_add, BitVec.toNat_mul, BitVec.toNat_ofNat]
  omega

theorem ofBits_negInf : Ideal.ofBits .f32 0xFF800000#32 = ⊥ := by simp [Ideal.ofBits, Ideal.ieee]

/-- A vector cast to a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The sum over the 4096 lanes of a block, at row `i`. -/
theorem rowSum_apply (src : FVec Ideal S1024x4096 .f32) (hacc : (0x00000000#32 : BitVec 32) = 0x00000000#32) (i : Fin 1024) :
    multiReduction (F := Ideal) .add [1] S1024 src 0x00000000#32 reduces_S1024x4096_S1024 (.inl rfl) hacc (ix1 i)
      = ∑ k : Fin 4096, src (ix2 i k) := by
  refine (Ideal.multiReduction_add_single src 0x00000000#32 reduces_S1024x4096_S1024 (.inl rfl) hacc (ix1 i)).trans ?_
  refine Finset.sum_congr rfl fun k _ => congrArg src ?_
  funext a
  match a with
  | ⟨0, _⟩ => rfl
  | ⟨1, _⟩ => rfl

theorem pay5_apply (v3 : Vec Ideal S1024x4096 .f32) (v19 : Vec Ideal S1024x1 .f32) (i : Fin 1024) (u : Fin 1) :
    k1_pay5 (F := Ideal) v3 v19 (ix2 i u) = v19 (ix2 i u) + ∑ k : Fin 4096, Ideal.exp (v3 (ix2 i k)) := by
  unfold k1_pay5
  rw [shapeCast_self, addf_apply, shapeCast_a_a1_apply, rowSum_apply]
  rfl

theorem pay6_apply (c : grid1.Coords) (v3 : Vec Ideal S1024x4096 .f32) (v8 : Vec Ideal S1024x1 .i32)
    (v27 : Vec Ideal S1024x1 .f32) (i : Fin 1024) (u : Fin 1) :
    k1_pay6 (F := Ideal) c v3 v8 v27 (ix2 i u) = v27 (ix2 i u) + ∑ k : Fin 4096,
      Scalar.select (IntOp.cmpi .eq (k1_pay3 c (ix2 i k)) (v8 (ix2 i (0 : Fin 1)))) (v3 (ix2 i k)) (0 : EReal) := by
  unfold k1_pay6
  rw [shapeCast_self, addf_apply, shapeCast_a_a1_apply, rowSum_apply]
  refine congrArg _ (Finset.sum_congr rfl fun k _ => ?_)
  show Scalar.select (IntOp.cmpi .eq (k1_pay3 c (ix2 i k))
    (broadcastTo S1024x4096 (k1_pay4 (F := Ideal) v8) broadcasts_S1024x1_S1024x4096 (ix2 i k))) (v3 (ix2 i k)) (Ideal.ofBits .f32 0x00000000#32) = _
  rw [broadcastTo_a1_ab_apply, Ideal.ofBits_zero_f32]
  unfold k1_pay4
  rw [shapeCast_self]

theorem pay8_apply (c : grid1.Coords) (v3 : Vec Ideal S1024x4096 .f32) (v8 : Vec Ideal S1024x1 .i32)
    (v31 : Vec Ideal S1024x1 .f32) (i : Fin 1024) (u : Fin 1) :
    k1_pay8 (F := Ideal) c v3 v8 v31 (ix2 i u) = v31 (ix2 i u) + ∑ k : Fin 4096,
      Scalar.select (IntOp.cmpi .eq (k1_pay3 c (ix2 i k)) (v8 (ix2 i (0 : Fin 1)))) (v3 (ix2 i k)) (0 : EReal) := by
  unfold k1_pay8
  rw [shapeCast_self, addf_apply, shapeCast_a_a1_apply, rowSum_apply]
  refine congrArg _ (Finset.sum_congr rfl fun k _ => ?_)
  show Scalar.select (IntOp.cmpi .eq (k1_pay3 c (ix2 i k))
    (broadcastTo S1024x4096 (k1_pay4 (F := Ideal) v8) broadcasts_S1024x1_S1024x4096 (ix2 i k))) (v3 (ix2 i k)) (Ideal.ofBits .f32 0x00000000#32) = _
  rw [broadcastTo_a1_ab_apply, Ideal.ofBits_zero_f32]
  unfold k1_pay4
  rw [shapeCast_self]

theorem pay7_apply (c : grid1.Coords) (v3 : Vec Ideal S1024x4096 .f32) (v23 : Vec Ideal S1024x1 .f32) (i : Fin 1024) (u : Fin 1) :
    k1_pay7 (F := Ideal) c v3 v23 (ix2 i u) = v23 (ix2 i u) + ∑ k : Fin 4096,
      Ideal.exp (Scalar.select (IntOp.cmpi .slt (k1_pay3 c (ix2 i k)) 100000#32) (v3 (ix2 i k)) (⊥ : EReal)) := by
  unfold k1_pay7
  rw [shapeCast_self, addf_apply, shapeCast_a_a1_apply, rowSum_apply]
  refine congrArg _ (Finset.sum_congr rfl fun k _ => ?_)
  show Ideal.exp (Scalar.select (IntOp.cmpi .slt (k1_pay3 c (ix2 i k)) 100000#32) (v3 (ix2 i k)) (Ideal.ofBits .f32 0xFF800000#32)) = _
  rw [ofBits_negInf]

/-! ## The two accumulators over the 25 column blocks, as real sums -/

/-- `exp` of the logit at column `k` of row `i`; zero past the last column. -/
def E (x : Fin 1024 → Fin 100000 → ℝ) (i : Fin 1024) (k : ℕ) : ℝ :=
  if h : k < 100000 then Real.exp (x i ⟨k, h⟩) else 0

/-- The logit at column `k` of row `i` if `k` is the row's label, else zero. -/
def T (x : Fin 1024 → Fin 100000 → ℝ) (lab : Fin 1024 → Fin 100000) (i : Fin 1024) (k : ℕ) : ℝ :=
  if h : k < 100000 then (if k = (lab i).val then x i ⟨k, h⟩ else 0) else 0

/-- 25 blocks of 4096 columns cover the 100000 columns, with 2400 columns to spare that carry zero. -/
theorem sum_blocks (g : ℕ → ℝ) (hg : ∀ k, 100000 ≤ k → g k = 0) :
    ∑ m ∈ Finset.range 25, ∑ j ∈ Finset.range 4096, g (4096 * m + j) = ∑ k ∈ Finset.range 100000, g k := by
  have hz : ∑ k ∈ Finset.range 2400, g (100000 + k) = 0 := Finset.sum_eq_zero (fun k _ => hg _ (by omega))
  rw [← LibBlockSum.sum_range_mul 4096 25 g, show 4096 * 25 = 100000 + 2400 from rfl, Finset.sum_range_add, hz, add_zero]

theorem sum_E (x : Fin 1024 → Fin 100000 → ℝ) (i : Fin 1024) :
    ∑ m ∈ Finset.range 25, ∑ j ∈ Finset.range 4096, E x i (4096 * m + j) = ∑ k : Fin 100000, Real.exp (x i k) := by
  rw [sum_blocks (E x i) (fun k hk => by unfold E; rw [dif_neg (by omega)]), Finset.sum_range]
  refine Finset.sum_congr rfl fun k _ => ?_
  unfold E; rw [dif_pos k.isLt]

theorem sum_T (x : Fin 1024 → Fin 100000 → ℝ) (lab : Fin 1024 → Fin 100000) (i : Fin 1024) :
    ∑ m ∈ Finset.range 25, ∑ j ∈ Finset.range 4096, T x lab i (4096 * m + j) = x i (lab i) := by
  rw [sum_blocks (T x lab i) (fun k hk => by unfold T; rw [dif_neg (by omega)]), Finset.sum_range,
    Finset.sum_eq_single (lab i)]
  · unfold T; rw [dif_pos (lab i).isLt, if_pos rfl]
  · intro k _ hk
    unfold T; rw [dif_pos k.isLt, if_neg (fun e => hk (Fin.ext e))]
  · intro h; exact absurd (Finset.mem_univ _) h

section Acc
variable (blk : ℕ → Vec Ideal S1024x4096 .f32) (labc : Vec Ideal S1024x1 .i32)
  (x : Fin 1024 → Fin 100000 → ℝ) (lab : Fin 1024 → Fin 100000)
  (hblk : ∀ (n : ℕ) (i : Fin 1024) (k : Fin 4096) (h : 4096 * n + k.val < 100000),
    blk n (ix2 i k) = ((x i ⟨4096 * n + k.val, h⟩ : ℝ) : EReal))
  (hlc : ∀ i : Fin 1024, labc (ix2 i (0 : Fin 1)) = BitVec.ofNat 32 (lab i).val)
include hblk

/-- The first accumulator after `n ≤ 24` blocks: the sum of `exp` over the first `4096 n` columns. -/
theorem sAcc_apply (n : ℕ) (hn : n ≤ 24) (i : Fin 1024) (u : Fin 1) :
    sAcc (F := Ideal) blk n (ix2 i u)
      = ((∑ m ∈ Finset.range n, ∑ j ∈ Finset.range 4096, E x i (4096 * m + j) : ℝ) : EReal) := by
  induction n with
  | zero =>
    show k1_pay1 (F := Ideal) (ix2 i u) = _
    unfold k1_pay1
    rw [shapeCast_self]
    show Ideal.ofBits .f32 0x00000000#32 = _
    rw [Ideal.ofBits_zero_f32]; simp
  | succ n ih =>
    show k1_pay5 (F := Ideal) (blk n) (sAcc blk n) (ix2 i u) = _
    rw [pay5_apply, ih (by omega), Finset.sum_range_succ, EReal.coe_add]
    refine congrArg (_ + ·) ?_
    rw [Finset.sum_range (fun j => E x i (4096 * n + j)), LibBlockSum.coe_sum]
    refine Finset.sum_congr rfl fun k _ => ?_
    have hk := k.isLt
    have h : 4096 * n + k.val < 100000 := by omega
    rw [hblk n i k h, Ideal.exp_coe]
    unfold E; rw [dif_pos h]

/-- The first accumulator after all 25 blocks: the sum of `exp` over the row. The lanes of the last block past
    column 100000 are masked to `-∞`, whose `exp` is zero. -/
theorem sFin_apply (i : Fin 1024) (u : Fin 1) :
    sFin (F := Ideal) blk (ix2 i u) = ((∑ k : Fin 100000, Real.exp (x i k) : ℝ) : EReal) := by
  show k1_pay7 (F := Ideal) (cd 24) (blk 24) (sAcc blk 24) (ix2 i u) = _
  have hS : ∑ m ∈ Finset.range 25, ∑ j ∈ Finset.range 4096, E x i (4096 * m + j)
      = (∑ m ∈ Finset.range 24, ∑ j ∈ Finset.range 4096, E x i (4096 * m + j))
        + ∑ j ∈ Finset.range 4096, E x i (4096 * 24 + j) :=
    Finset.sum_range_succ (fun m => ∑ j ∈ Finset.range 4096, E x i (4096 * m + j)) 24
  rw [pay7_apply, sAcc_apply blk x hblk 24 (le_refl _), ← sum_E, hS, EReal.coe_add]
  refine congrArg (_ + ·) ?_
  rw [Finset.sum_range (fun j => E x i (4096 * 24 + j)), LibBlockSum.coe_sum]
  refine Finset.sum_congr rfl fun k _ => ?_
  have hk := k.isLt
  rw [pay3_apply 24 (by omega), select_slt_ofNat _ (by omega)]
  by_cases h : 4096 * 24 + k.val < 100000
  · rw [if_pos h, hblk 24 i k h, Ideal.exp_coe]
    unfold E; rw [dif_pos h]
  · rw [if_neg h, Ideal.exp_bot]
    unfold E; rw [dif_neg h]; simp

include hlc

/-- One block's contribution to the second accumulator: the entry in the label's column, if the block holds it. -/
theorem tTerm (n : ℕ) (hn : n < 25) (i : Fin 1024) :
    ∑ k : Fin 4096, Scalar.select (IntOp.cmpi .eq (k1_pay3 (cd n) (ix2 i k)) (labc (ix2 i (0 : Fin 1)))) (blk n (ix2 i k)) (0 : EReal)
      = ((∑ j ∈ Finset.range 4096, T x lab i (4096 * n + j) : ℝ) : EReal) := by
  rw [Finset.sum_range (fun j => T x lab i (4096 * n + j)), LibBlockSum.coe_sum]
  refine Finset.sum_congr rfl fun k _ => ?_
  have hk := k.isLt
  have hl := (lab i).isLt
  rw [pay3_apply n hn, hlc i, select_eq_ofNat _ _ (by omega) (by omega)]
  unfold T
  by_cases he : 4096 * n + k.val = (lab i).val
  · have h : 4096 * n + k.val < 100000 := by omega
    rw [if_pos he, dif_pos h, if_pos he, hblk n i k h]
  · rw [if_neg he]
    by_cases h : 4096 * n + k.val < 100000
    · rw [dif_pos h, if_neg he]; simp
    · rw [dif_neg h]; simp

/-- The second accumulator after `n ≤ 24` blocks. -/
theorem tAcc_apply (n : ℕ) (hn : n ≤ 24) (i : Fin 1024) (u : Fin 1) :
    tAcc (F := Ideal) blk labc n (ix2 i u)
      = ((∑ m ∈ Finset.range n, ∑ j ∈ Finset.range 4096, T x lab i (4096 * m + j) : ℝ) : EReal) := by
  induction n with
  | zero =>
    show k1_pay2 (F := Ideal) (ix2 i u) = _
    unfold k1_pay2
    rw [shapeCast_self]
    show Ideal.ofBits .f32 0x00000000#32 = _
    rw [Ideal.ofBits_zero_f32]; simp
  | succ n ih =>
    show k1_pay6 (F := Ideal) (cd n) (blk n) labc (tAcc blk labc n) (ix2 i u) = _
    rw [pay6_apply, ih (by omega), Finset.sum_range_succ, EReal.coe_add,
      tTerm blk labc x lab hblk hlc n (by omega) i]

/-- The second accumulator after all 25 blocks: the logit in the label's column. Every label is below 100000,
    so the select never reads a lane past the last column. -/
theorem tFin_apply (i : Fin 1024) (u : Fin 1) :
    tFin (F := Ideal) blk labc (ix2 i u) = ((x i (lab i) : ℝ) : EReal) := by
  show k1_pay8 (F := Ideal) (cd 24) (blk 24) labc (tAcc blk labc 24) (ix2 i u) = _
  have hS : ∑ m ∈ Finset.range 25, ∑ j ∈ Finset.range 4096, T x lab i (4096 * m + j)
      = (∑ m ∈ Finset.range 24, ∑ j ∈ Finset.range 4096, T x lab i (4096 * m + j))
        + ∑ j ∈ Finset.range 4096, T x lab i (4096 * 24 + j) :=
    Finset.sum_range_succ (fun m => ∑ j ∈ Finset.range 4096, T x lab i (4096 * m + j)) 24
  rw [pay8_apply, tAcc_apply blk labc x lab hblk hlc 24 (le_refl _), tTerm blk labc x lab hblk hlc 24 (by omega) i,
    ← EReal.coe_add, ← hS, sum_T]

end Acc

end Cert.KernelIdeal.KerValue
end
-- ==== Proof.Spec.lean ====
/-
  The loss both programs compute, as ONE real number of real data.

  Data: embeddings `e i d`, logits `x i k`, class centers `cen k d` (1024 samples, 100000 classes, 128
  features) and a label `lab i` per sample.  Samples that share a label compete for that class's centre:
  the sample of LARGEST index wins (`lastSame`), and the centre moves to the blend
  `c6 · cen (lab j) d + c4 · e j d` of the winner `j`.  The loss is the mean cross entropy
  `log (∑ₖ exp (x i k)) - x i (lab i)` plus `c8` times the mean squared distance of each sample to its
  class's moved centre.  `c6`, `c4`, `c8` are the real numbers the three shared float words denote.
-/
import Idealize.ShloMosaic.PureOps.Ideal
import Idealize.ShloMosaic.PureOps.Ideal.Laws
import Idealize.ShloMosaic.Lib.ValueIdx
import Mathlib.Analysis.SpecialFunctions.Log.Basic

noncomputable section

namespace Cert.Spec

open Idealize.ShloMosaic

/-- The word `0x3F19999A` (the float nearest 3/5) as a real number. -/
def c6 : ℝ := (Ideal.ofBits .f32 0x3F19999A#32).toReal
/-- The word `0x3ECCCCCD` (the float nearest 2/5) as a real number. -/
def c4 : ℝ := (Ideal.ofBits .f32 0x3ECCCCCD#32).toReal
/-- The word `0x3C03126F` (the float nearest 1/125) as a real number. -/
def c8 : ℝ := (Ideal.ofBits .f32 0x3C03126F#32).toReal

/-- Among the samples carrying sample `i`'s label, the one of largest index. -/
def lastSame (lab : Fin 1024 → Fin 100000) (i : Fin 1024) : Fin 1024 :=
  (Finset.univ.filter fun j => lab j = lab i).max' ⟨i, by simp⟩

theorem lastSame_lab (lab : Fin 1024 → Fin 100000) (i : Fin 1024) : lab (lastSame lab i) = lab i := by
  have h := Finset.max'_mem (Finset.univ.filter fun j => lab j = lab i) ⟨i, by simp⟩
  exact (Finset.mem_filter.mp h).2

theorem le_lastSame (lab : Fin 1024 → Fin 100000) (i j : Fin 1024) (h : lab j = lab i) : j ≤ lastSame lab i := by
  unfold lastSame
  exact Finset.le_max' (Finset.univ.filter fun j' => lab j' = lab i) j (Finset.mem_filter.mpr ⟨Finset.mem_univ j, h⟩)

/-- The class centre sample `i` is measured against: the winner's blend. -/
def moved (e : Fin 1024 → Fin 128 → ℝ) (lab : Fin 1024 → Fin 100000) (cen : Fin 100000 → Fin 128 → ℝ)
    (i : Fin 1024) (d : Fin 128) : ℝ :=
  c6 * cen (lab (lastSame lab i)) d + c4 * e (lastSame lab i) d

/-- The loss. -/
def lossR (e : Fin 1024 → Fin 128 → ℝ) (x : Fin 1024 → Fin 100000 → ℝ) (lab : Fin 1024 → Fin 100000)
    (cen : Fin 100000 → Fin 128 → ℝ) : ℝ :=
  (∑ i, (Real.log (∑ k, Real.exp (x i k)) - x i (lab i))) / 1024
    + c8 * ((∑ i, ∑ d, (e i d - moved e lab cen i d) ^ 2) / 131072)

end Cert.Spec

end
-- ==== Proof.KerCenter.lean ====
/-
  The kernel's centre term as mathematics.

  From the labels (as a column and as a row) the kernel finds, for every sample `i`, the largest sample index
  `j` with the same label: a signed maximum over `j` of "`j` if the labels agree, else `-1`". The one-hot
  matrix of that winner, times the matrix of blended rows `c6 · centre(label j) + c4 · embedding j`, picks the
  winner's blended row; the term is the sum over samples and features of the squared distance of the sample's
  embedding to it.
-/
import proofs.«217730_g43602507989570_cont_8to1c4_241_33_alg».proof.Proof.KerAcc
import proofs.«217730_g43602507989570_cont_8to1c4_241_33_alg».proof.Proof.Spec
import proofs.«217730_g43602507989570_cont_8to1c4_241_33_alg».proof.Proof.LibBlockSum
import Idealize.ShloMosaic.PureOps.Ideal.Laws
import Idealize.ShloMosaic.Lib.ValueIdx
import Idealize.ShloMosaic.Lib.ValueLayout

noncomputable section
namespace Cert.KernelIdeal.KerValue
open Idealize.ShloMosaic Idealize.ShloMosaic.ValueIdx Cert.KernelIdeal Cert.KernelIdeal.Gen Cert.KernelIdeal.KerTerm

/-! ## Words -/

theorem toInt_ofNat_small (a : ℕ) (ha : a < 2147483648) : (BitVec.ofNat 32 a).toInt = (a : ℤ) := by
  have e := BitVec.toInt_eq_toNat_cond (BitVec.ofNat 32 a)
  simp only [BitVec.toNat_ofNat] at e
  rw [e]; split <;> omega

theorem toInt_maxsi (x y : BitVec 32) : (IntOp.maxsi x y).toInt = max x.toInt y.toInt := by
  unfold IntOp.maxsi
  by_cases h : y.slt x
  · rw [if_pos h]; have := BitVec.slt_iff_toInt_lt.mp h; omega
  · rw [if_neg h]
    have : ¬ y.toInt < x.toInt := fun h' => h (BitVec.slt_iff_toInt_lt.mpr h')
    omega

/-- A signed maximum over a finite family, from a start value below the target, is the target when the target
    is attained and bounds the family. -/
theorem fold_maxsi_eq {ι : Type} (s : Finset ι) (f : ι → BitVec 32) (acc b : BitVec 32)
    (hacc : acc.toInt ≤ b.toInt) (hall : ∀ j ∈ s, (f j).toInt ≤ b.toInt) (hex : ∃ j ∈ s, f j = b) :
    s.fold IntOp.maxsi acc f = b := by
  apply BitVec.eq_of_toInt_eq
  apply le_antisymm
  · exact (Finset.fold_op_rel_iff_and (r := fun c y : BitVec 32 => y.toInt ≤ c.toInt)
      (fun {x y z} => by
        show (IntOp.maxsi y z).toInt ≤ x.toInt ↔ _
        rw [toInt_maxsi]; exact max_le_iff)).mpr ⟨hacc, hall⟩
  · obtain ⟨j, hj, e⟩ := hex
    exact (Finset.fold_op_rel_iff_or (r := fun c y : BitVec 32 => c.toInt ≤ y.toInt)
      (fun {x y z} => by
        show x.toInt ≤ (IntOp.maxsi y z).toInt ↔ _
        rw [toInt_maxsi]; exact le_max_iff)).mpr (Or.inr ⟨j, hj, by rw [e]⟩)

/-- The one-hot entry: the comparison bit, widened and converted, is the real `1` or `0`. -/
theorem onehot_word (a b : ℕ) (ha : a < 4294967296) (hb : b < 4294967296) :
    ((((IntOp.cmpi .eq (BitVec.ofNat 32 a) (BitVec.ofNat 32 b)).setWidth 32).toInt : ℝ) : EReal)
      = (((if a = b then 1 else 0 : ℝ)) : EReal) := by
  by_cases h : a = b
  · subst h
    have : IntOp.cmpi .eq (BitVec.ofNat 32 a) (BitVec.ofNat 32 a) = 1#1 := by simp [IntOp.cmpi]
    rw [this, if_pos rfl]
    have : ((1#1 : BitVec 1).setWidth 32).toInt = 1 := by decide
    rw [this]; simp
  · have hne : BitVec.ofNat 32 a ≠ BitVec.ofNat 32 b := by
      intro e; apply h
      have := congrArg BitVec.toNat e
      simp only [BitVec.toNat_ofNat] at this; omega
    have hbeq : (BitVec.ofNat 32 a == BitVec.ofNat 32 b) = false := beq_eq_false_iff_ne.mpr hne
    have : IntOp.cmpi .eq (BitVec.ofNat 32 a) (BitVec.ofNat 32 b) = 0#1 := by
      simp [IntOp.cmpi, hbeq]
    rw [this, if_neg h]
    have : ((0#1 : BitVec 1).setWidth 32).toInt = 0 := by decide
    rw [this]; simp

/-! ## Float words -/

/-- An f32 word whose exponent field is not all ones denotes a real number. -/
theorem ofBits_f32_real (w : BitVec 32) (h : (w.extractLsb' 23 8).toNat ≠ 255) :
    Ideal.ofBits .f32 w = (((Ideal.ofBits .f32 w).toReal : ℝ) : EReal) := by
  have hr : ∃ r : ℝ, Ideal.ofBits .f32 w = (r : EReal) := by
    show ∃ r : ℝ, Ideal.ieee 8 23 w = (r : EReal)
    unfold Ideal.ieee
    simp only []
    rw [if_neg (by simpa using h)]
    split <;> exact ⟨_, rfl⟩
  obtain ⟨r, hr⟩ := hr
  rw [hr, EReal.toReal_coe]

theorem ofBits_c6 : Ideal.ofBits .f32 0x3F19999A#32 = ((Cert.Spec.c6 : ℝ) : EReal) :=
  ofBits_f32_real _ (by decide)
theorem ofBits_c4 : Ideal.ofBits .f32 0x3ECCCCCD#32 = ((Cert.Spec.c4 : ℝ) : EReal) :=
  ofBits_f32_real _ (by decide)
theorem ofBits_c8 : Ideal.ofBits .f32 0x3C03126F#32 = ((Cert.Spec.c8 : ℝ) : EReal) :=
  ofBits_f32_real _ (by decide)

/-! ## Layout and reduction steps -/

/-- A sum over the indices of a `[1, a, b]` array is the double sum over its last two coordinates. -/
theorem sum_idx_1ab {M : Type*} [AddCommMonoid M] {a b : ℕ} (f : (⟨3, ![1, a, b]⟩ : Shape).Idx → M) :
    ∑ i, f i = ∑ p : Fin a, ∑ q : Fin b, f (ix3 (0 : Fin 1) p q) := by
  let eqv : (⟨3, ![1, a, b]⟩ : Shape).Idx ≃ Fin a × Fin b :=
    { toFun := fun i => (i 1, i 2)
      invFun := fun p => ix3 (0 : Fin 1) p.1 p.2
      left_inv := fun i => by
        funext ax
        match ax with
        | ⟨0, _⟩ => exact Fin.ext (by have h0 : (i 0).val < 1 := (i 0).isLt; show (0 : ℕ) = (i 0).val; omega)
        | ⟨1, _⟩ => rfl
        | ⟨2, _⟩ => rfl
      right_inv := fun _ => rfl }
  rw [← Equiv.sum_comp eqv.symm f, Fintype.sum_prod_type]
  rfl

/-- A sum over all axes but the leading unit one, cast to `[1, 1, 1]` and read at its one position: the total. -/
theorem extract_total {s : Shape} (axes : List (Fin s.rank)) (src : FVec Ideal s .f32) (h : s.Reduces axes S1)
    (hacc : (0x00000000#32 : BitVec 32) = 0x00000000#32) :
    extractAt ![0, 0, 0] (shapeCast S1x1x1 (multiReduction (F := Ideal) .add axes S1 src 0x00000000#32 h (.inl rfl) hacc)
      shapeCasts_S1_S1x1x1) inpos_S1x1x1_p0_0_0 = ∑ i : s.Idx, src i := by
  unfold extractAt shapeCast
  exact Ideal.multiReduction_add_total src _ h (fun b => by
    match b with
    | ⟨0, _⟩ => rfl) (.inl rfl) hacc _

/-! ## The pieces of the centre term, named -/

/-- The blended rows `c6 · (gathered centre row) + c4 · (embedding row)`. -/
def upd (emb gath : Vec Ideal S1024x128 .f32) : FVec Ideal S1024x128 .f32 :=
  addf (mulf (broadcast S1024x128 (Scalar.ofBits (F := Ideal) .f32 0x3F19999A#32))
          (shapeCast S1024x128 gath shapeCasts_S1024x128_S1024x128))
    (mulf (broadcast S1024x128 (Scalar.ofBits (F := Ideal) .f32 0x3ECCCCCD#32)) emb)

/-- At `(i, j)`: `j` if sample `j` carries sample `i`'s label, else `-1`. -/
def cand (labc : Vec Ideal S1024x1 .i32) (labr : Vec Ideal S1x1024 .i32) : IVec S1024x1024 32 :=
  select (cmpi .eq
      (broadcastTo S1024x1024 (shapeCast S1024x1 labc shapeCasts_S1024x1_S1024x1) broadcasts_S1024x1_S1024x1024)
      (broadcastTo S1024x1024 (shapeCast S1x1024 labr shapeCasts_S1x1024_S1x1024) broadcasts_S1x1024_S1024x1024))
    (iota .tc S1024x1024 32 [1] iota_S1024x1024_d1_w32) (broadcast S1024x1024 4294967295#32)

/-- The winner of each sample: the signed maximum of its candidates. -/
def win (labc : Vec Ideal S1024x1 .i32) (labr : Vec Ideal S1x1024 .i32) : IVec S1024 32 :=
  multiReductionI .maxsi [1] S1024 (cand labc labr) 2147483648#32 reduces_S1024x1024_S1024 rfl

/-- The one-hot matrix of the winners, as floats. -/
def hot (labc : Vec Ideal S1024x1 .i32) (labr : Vec Ideal S1x1024 .i32) : FVec Ideal S1024x1024 .f32 :=
  sitofp .f32 (extui 32 (cmpi .eq (iota .tc S1024x1024 32 [1] iota_S1024x1024_d1_w32)
    (broadcastTo S1024x1024 (shapeCast S1024x1 (win labc labr) shapeCasts_S1024_S1024x1) broadcasts_S1024x1_S1024x1024))
    natLt_1_32)

/-- Embedding minus the winner's blended row. -/
def dist (emb gath : Vec Ideal S1024x128 .f32) (labc : Vec Ideal S1024x1 .i32) (labr : Vec Ideal S1x1024 .i32) :
    FVec Ideal S1024x128 .f32 :=
  subf emb (matmul dot_S1024x1024_S1024x128_S1024x128_1_0_0_1_n_n none (hot labc labr) (upd emb gath)
    (constant (F := Ideal) S1024x128 .f32 0x00000000#32))

theorem pay11_eq_named (emb gath : Vec Ideal S1024x128 .f32) (labc : Vec Ideal S1024x1 .i32) (labr : Vec Ideal S1x1024 .i32) :
    k1_pay11 (F := Ideal) emb gath labc labr
      = extractAt ![0, 0, 0] (shapeCast S1x1x1 (multiReduction (F := Ideal) .add [1, 2] S1
          (shapeCast S1x1024x128 (mulf (dist emb gath labc labr) (dist emb gath labc labr)) shapeCasts_S1024x128_S1x1024x128)
          0x00000000#32 reduces_S1x1024x128_S1 (.inl rfl) rfl) shapeCasts_S1_S1x1x1) inpos_S1x1x1_p0_0_0 := rfl

/-- The matrix product into a zero accumulator, at `(i, d)`: the sum over the contracted coordinate. -/
theorem mm_apply (A : FVec Ideal S1024x1024 .f32) (B : FVec Ideal S1024x128 .f32) (i : Fin 1024) (d : Fin 128) :
    matmul dot_S1024x1024_S1024x128_S1024x128_1_0_0_1_n_n none A B (constant (F := Ideal) S1024x128 .f32 0x00000000#32) (ix2 i d)
      = ∑ c : Fin 1024, A (ix2 i c) * B (ix2 c d) := by
  show FloatOps.matmul dot_S1024x1024_S1024x128_S1024x128_1_0_0_1_n_n none A B (constant S1024x128 .f32 0x00000000#32) (ix2 i d) = _
  rw [Ideal.matmul_constant_zero_apply,
    ← Equiv.sum_comp (contrEquiv1 dot_S1024x1024_S1024x128_S1024x128_1_0_0_1_n_n 1024 rfl rfl).symm]
  refine Finset.sum_congr rfl fun c _ => ?_
  have c2 := contrEquiv1_symm_val dot_S1024x1024_S1024x128_S1024x128_1_0_0_1_n_n 1024 rfl rfl c
  have l2 : dot_S1024x1024_S1024x128_S1024x128_1_0_0_1_n_n.lhsIdx (ix2 i d) ((contrEquiv1 _ 1024 rfl rfl).symm c) = ix2 i c := by
    funext ax; apply Fin.ext
    match ax with
    | ⟨0, _⟩ => rfl
    | ⟨1, _⟩ => exact (DotDims.lhsIdx_val_of_single _ rfl _ _).trans c2
  have r2 : dot_S1024x1024_S1024x128_S1024x128_1_0_0_1_n_n.rhsIdx (ix2 i d) ((contrEquiv1 _ 1024 rfl rfl).symm c) = ix2 c d := by
    funext ax; apply Fin.ext
    match ax with
    | ⟨0, _⟩ => exact (DotDims.rhsIdx_val_of_single _ rfl _ _).trans c2
    | ⟨1, _⟩ => rfl
  rw [l2, r2]

section Center
variable (emb gath : Vec Ideal S1024x128 .f32) (labc : Vec Ideal S1024x1 .i32) (labr : Vec Ideal S1x1024 .i32)
  (e : Fin 1024 → Fin 128 → ℝ) (lab : Fin 1024 → Fin 100000) (cen : Fin 100000 → Fin 128 → ℝ)
  (hlc : ∀ i : Fin 1024, labc (ix2 i (0 : Fin 1)) = BitVec.ofNat 32 (lab i).val)
  (hlr : ∀ i : Fin 1024, labr (ix2 (0 : Fin 1) i) = BitVec.ofNat 32 (lab i).val)
  (he : ∀ i d, emb (ix2 i d) = ((e i d : ℝ) : EReal))
  (hg : ∀ i d, gath (ix2 i d) = ((cen (lab i) d : ℝ) : EReal))

include he hg in
theorem upd_apply (j : Fin 1024) (d : Fin 128) :
    upd emb gath (ix2 j d) = ((Cert.Spec.c6 * cen (lab j) d + Cert.Spec.c4 * e j d : ℝ) : EReal) := by
  unfold upd
  rw [addf_apply, mulf_apply, mulf_apply, shapeCast_self, broadcast_apply, broadcast_apply, hg, he]
  show Ideal.ofBits .f32 0x3F19999A#32 * _ + Ideal.ofBits .f32 0x3ECCCCCD#32 * _ = _
  rw [ofBits_c6, ofBits_c4, ← EReal.coe_mul, ← EReal.coe_mul, ← EReal.coe_add]

include hlc hlr

theorem cand_apply (i j : Fin 1024) :
    cand labc labr (ix2 i j) = if (lab i).val = (lab j).val then BitVec.ofNat 32 j.val else 4294967295#32 := by
  unfold cand
  rw [select_apply]
  show Scalar.select (IntOp.cmpi .eq (broadcastTo S1024x1024 _ broadcasts_S1024x1_S1024x1024 (ix2 i j))
    (broadcastTo S1024x1024 _ broadcasts_S1x1024_S1024x1024 (ix2 i j)))
    (iota .tc S1024x1024 32 [1] iota_S1024x1024_d1_w32 (ix2 i j)) 4294967295#32 = _
  rw [broadcastTo_a1_ab_apply, broadcastTo_1b_ab_apply, shapeCast_self, shapeCast_self, iota_single_apply, hlc, hlr]
  have := (lab i).isLt
  have := (lab j).isLt
  rw [select_eq_ofNat _ _ (by omega) (by omega)]

/-- The winner is the largest sample index carrying the sample's label. -/
theorem win_apply (i : Fin 1024) : win labc labr (ix1 i) = BitVec.ofNat 32 (Cert.Spec.lastSame lab i).val := by
  unfold win
  refine (multiReductionI_eq_fold .maxsi (cand labc labr) 2147483648#32 reduces_S1024x1024_S1024 rfl (ix1 i)).trans ?_
  rw [reduces_S1024x1024_S1024.fold_filter_drop_single]
  have hl : ∀ j : Fin 1024, reduces_S1024x1024_S1024.lift (ix1 i) j = ix2 i j := fun j =>
    funext fun a => match a with
      | ⟨0, _⟩ => rfl
      | ⟨1, _⟩ => rfl
  have hfun : (fun j : Fin 1024 => cand labc labr (reduces_S1024x1024_S1024.lift (ix1 i) j))
      = fun j : Fin 1024 => cand labc labr (ix2 i j) := funext fun j => congrArg _ (hl j)
  refine Eq.trans (congrArg (fun f : Fin 1024 → BitVec 32 =>
    (Finset.univ : Finset (Fin 1024)).fold IntOp.maxsi 2147483648#32 f) hfun) ?_
  show (Finset.univ : Finset (Fin 1024)).fold IntOp.maxsi 2147483648#32 (fun j : Fin 1024 => cand labc labr (ix2 i j)) = _
  have hL := (Cert.Spec.lastSame lab i).isLt
  have hmin : (2147483648#32 : BitVec 32).toInt = -2147483648 := by decide
  have hneg : (4294967295#32 : BitVec 32).toInt = -1 := by decide
  refine fold_maxsi_eq _ _ _ _ ?_ ?_ ?_
  · rw [toInt_ofNat_small (Cert.Spec.lastSame lab i).val (by omega), hmin]; omega
  · intro j _
    have hj := j.isLt
    rw [cand_apply labc labr lab hlc hlr i j, toInt_ofNat_small (Cert.Spec.lastSame lab i).val (by omega)]
    split
    · rename_i hij
      have hle : j.val ≤ (Cert.Spec.lastSame lab i).val := Cert.Spec.le_lastSame lab i j (Fin.ext hij.symm)
      rw [toInt_ofNat_small j.val (by omega)]; omega
    · rw [hneg]; omega
  · refine ⟨Cert.Spec.lastSame lab i, Finset.mem_univ _, ?_⟩
    rw [cand_apply labc labr lab hlc hlr i _,
      if_pos (congrArg Fin.val (Cert.Spec.lastSame_lab lab i).symm)]

theorem hot_apply (i c : Fin 1024) :
    hot labc labr (ix2 i c) = (((if c.val = (Cert.Spec.lastSame lab i).val then 1 else 0 : ℝ)) : EReal) := by
  unfold hot
  rw [sitofp_apply, extui_apply]
  have hw : (cmpi .eq (iota .tc S1024x1024 32 [1] iota_S1024x1024_d1_w32)
      (broadcastTo S1024x1024 (shapeCast S1024x1 (win labc labr) shapeCasts_S1024_S1024x1) broadcasts_S1024x1_S1024x1024)) (ix2 i c)
      = IntOp.cmpi .eq (BitVec.ofNat 32 c.val) (BitVec.ofNat 32 (Cert.Spec.lastSame lab i).val) := by
    show IntOp.cmpi .eq (iota .tc S1024x1024 32 [1] iota_S1024x1024_d1_w32 (ix2 i c))
      (broadcastTo S1024x1024 _ broadcasts_S1024x1_S1024x1024 (ix2 i c)) = _
    rw [iota_single_apply, broadcastTo_a1_ab_apply, shapeCast_a_a1_apply, win_apply labc labr lab hlc hlr i]
  rw [hw]
  have := c.isLt
  have := (Cert.Spec.lastSame lab i).isLt
  exact onehot_word _ _ (by omega) (by omega)

include he hg

/-- The centre term: the sum over samples and features of the squared distance to the moved centre. -/
theorem center_eq :
    k1_pay11 (F := Ideal) emb gath labc labr
      = ((∑ i, ∑ d, (e i d - Cert.Spec.moved e lab cen i d) ^ 2 : ℝ) : EReal) := by
  rw [pay11_eq_named, extract_total, sum_idx_1ab, LibBlockSum.coe_sum]
  refine Finset.sum_congr rfl fun i _ => ?_
  rw [LibBlockSum.coe_sum]
  refine Finset.sum_congr rfl fun d _ => ?_
  rw [shapeCast_ab_1ab_apply, mulf_apply]
  have hs : ∑ c : Fin 1024, hot labc labr (ix2 i c) * upd emb gath (ix2 c d)
      = ((Cert.Spec.moved e lab cen i d : ℝ) : EReal) := by
    rw [Finset.sum_eq_single (Cert.Spec.lastSame lab i)]
    · rw [hot_apply labc labr lab hlc hlr, if_pos rfl, upd_apply emb gath e lab cen he hg, EReal.coe_one, one_mul]
      rfl
    · intro c _ hc
      rw [hot_apply labc labr lab hlc hlr, if_neg (fun h => hc (Fin.ext h)), EReal.coe_zero, zero_mul]
    · intro h; exact absurd (Finset.mem_univ _) h
  have hd : dist emb gath labc labr (ix2 i d) = ((e i d - Cert.Spec.moved e lab cen i d : ℝ) : EReal) := by
    unfold dist
    rw [subf_apply, mm_apply, hs, he, ← EReal.coe_sub]
  rw [hd, ← EReal.coe_mul, pow_two]

end Center

end Cert.KernelIdeal.KerValue
end
-- ==== Proof.KerValue.lean ====
/-
  The kernel's output word as mathematics: the mean cross entropy plus the scaled mean squared distance to the
  moved centres, as one real number of the real data.

  With the two accumulators read at a row (the sum of `exp` over the row, and the logit in the label's column) the
  first term is the sum over samples of `log s - t`, divided by 1024; the second is the centre term times `2⁻¹⁷`
  (there are `1024 · 128 = 2¹⁷` entries) times `c8`.
-/
import proofs.«217730_g43602507989570_cont_8to1c4_241_33_alg».proof.Proof.KerAcc
import proofs.«217730_g43602507989570_cont_8to1c4_241_33_alg».proof.Proof.KerCenter

noncomputable section
namespace Cert.KernelIdeal.KerValue
open Idealize.ShloMosaic Idealize.ShloMosaic.ValueIdx Cert.KernelIdeal Cert.KernelIdeal.Gen Cert.KernelIdeal.KerTerm

theorem ofBits_1024 : Ideal.ofBits .f32 0x44800000#32 = ((1024 : ℝ) : EReal) := by
  simp [Ideal.ofBits, Ideal.ieee]
  rw [← EReal.coe_mul]
  norm_num

theorem ofBits_inv131072 : Ideal.ofBits .f32 0x37000000#32 = (((1 : ℝ) / 131072 : ℝ) : EReal) := by
  simp [Ideal.ofBits, Ideal.ieee]
  rw [← EReal.coe_mul]
  norm_num

/-- The cross-entropy term from the two accumulators read at a row: the sum over samples of `log s - t`, over 1024. -/
theorem pay10_eq (s t : Vec Ideal S1024x1 .f32) (S T : Fin 1024 → ℝ)
    (hS : ∀ (i : Fin 1024) (u : Fin 1), s (ix2 i u) = ((S i : ℝ) : EReal)) (hpos : ∀ i, 0 < S i)
    (hT : ∀ (i : Fin 1024) (u : Fin 1), t (ix2 i u) = ((T i : ℝ) : EReal)) :
    k1_pay10 (F := Ideal) s t = (((∑ i, (Real.log (S i) - T i)) / 1024 : ℝ) : EReal) := by
  show Scalar.divf (extractAt ![0, 0, 0] (shapeCast S1x1x1 (multiReduction (F := Ideal) .add [1, 2] S1
      (shapeCast S1x1024x1 (subf (F := Ideal) (φ := .f32) (log (F := Ideal) (φ := .f32) s) t) shapeCasts_S1024x1_S1x1024x1) 0x00000000#32 reduces_S1x1024x1_S1 (.inl rfl) rfl)
      shapeCasts_S1_S1x1x1) inpos_S1x1x1_p0_0_0) (Scalar.ofBits (F := Ideal) .f32 0x44800000#32) = _
  rw [extract_total, sum_idx_1ab]
  have hrow : ∀ p : Fin 1024,
      ∑ q : Fin 1, shapeCast S1x1024x1 (subf (F := Ideal) (φ := .f32) (log (F := Ideal) (φ := .f32) s) t)
          shapeCasts_S1024x1_S1x1024x1 (ix3 (0 : Fin 1) p q)
        = ((Real.log (S p) - T p : ℝ) : EReal) := by
    intro p
    rw [Fin.sum_univ_one, shapeCast_ab_1ab_apply, subf_apply, hT]
    show Ideal.log (s (ix2 p 0)) - _ = _
    rw [hS, Ideal.log_coe, if_neg (not_le.mpr (hpos p)), ← EReal.coe_sub]
  rw [Finset.sum_congr rfl (fun p _ => hrow p), ← LibBlockSum.coe_sum]
  show Ideal.div _ (Ideal.ofBits .f32 0x44800000#32) = _
  rw [ofBits_1024, Ideal.div_coe (by norm_num), ← EReal.coe_mul]
  congr 1; ring

/-- The word the kernel's TensorCore stage stores is the loss. -/
theorem out_eq (blk : ℕ → Vec Ideal S1024x4096 .f32) (labc : Vec Ideal S1024x1 .i32) (labr : Vec Ideal S1x1024 .i32)
    (emb gath : Vec Ideal S1024x128 .f32)
    (e : Fin 1024 → Fin 128 → ℝ) (x : Fin 1024 → Fin 100000 → ℝ) (lab : Fin 1024 → Fin 100000)
    (cen : Fin 100000 → Fin 128 → ℝ)
    (hblk : ∀ (n : ℕ) (i : Fin 1024) (k : Fin 4096) (h : 4096 * n + k.val < 100000),
      blk n (ValueIdx.ix2 i k) = ((x i ⟨4096 * n + k.val, h⟩ : ℝ) : EReal))
    (hlc : ∀ i : Fin 1024, labc (ValueIdx.ix2 i (0 : Fin 1)) = BitVec.ofNat 32 (lab i).val)
    (hlr : ∀ i : Fin 1024, labr (ValueIdx.ix2 (0 : Fin 1) i) = BitVec.ofNat 32 (lab i).val)
    (he : ∀ i d, emb (ValueIdx.ix2 i d) = ((e i d : ℝ) : EReal))
    (hg : ∀ i d, gath (ValueIdx.ix2 i d) = ((cen (lab i) d : ℝ) : EReal)) :
    KerTerm.out (F := Ideal) blk labc labr emb gath = fun _ => ((Cert.Spec.lossR e x lab cen : ℝ) : EReal) := by
  funext j
  have h10 := pay10_eq (sFin (F := Ideal) blk) (tFin (F := Ideal) blk labc)
    (fun i => ∑ k : Fin 100000, Real.exp (x i k)) (fun i => x i (lab i))
    (fun i u => sFin_apply blk x hblk i u)
    (fun i => Finset.sum_pos (fun k _ => Real.exp_pos _) ⟨⟨0, by norm_num⟩, Finset.mem_univ _⟩)
    (fun i u => tFin_apply blk labc x lab hblk hlc i u)
  have h11 := center_eq emb gath labc labr e lab cen hlc hlr he hg
  unfold KerTerm.out k1_pay9
  rw [broadcast_apply]
  show k1_pay10 (F := Ideal) (sFin blk) (tFin blk labc)
    + Ideal.ofBits .f32 0x3C03126F#32 * (k1_pay11 (F := Ideal) emb gath labc labr * Ideal.ofBits .f32 0x37000000#32) = _
  rw [h10, h11, ofBits_c8, ofBits_inv131072, ← EReal.coe_mul, ← EReal.coe_mul, ← EReal.coe_add]
  unfold Cert.Spec.lossR
  congr 1; ring

end Cert.KernelIdeal.KerValue
end
-- ==== Proof.KerGlue.lean ====
/-
  The kernel's value at the program's own operands.

  The program hands the TensorCore stage the labels twice, reshaped to a column and to a row, the logits block
  by block, the embeddings, and the rows of the centre table gathered at the labels; and reshapes the stage's
  one word to a scalar. With the inputs arrays of reals and the labels class numbers, that scalar is the loss.
-/
import proofs.«217730_g43602507989570_cont_8to1c4_241_33_alg».proof.Proof.KerValue

noncomputable section
namespace Cert.KernelIdeal.KerValue
open Idealize.ShloMosaic Idealize.ShloMosaic.ValueIdx Cert.KernelIdeal Cert.KernelIdeal.Gen Cert.KernelIdeal.KerTerm

theorem kernel_value (a0 : FVec Ideal S1024x128 .f32) (a1 : FVec Ideal S1024x100000 .f32) (a2 : IVec S1024 32)
    (a3 : FVec Ideal S100000x128 .f32) (gath : Vec Ideal S1024x128 .f32)
    (e : Fin 1024 → Fin 128 → ℝ) (x : Fin 1024 → Fin 100000 → ℝ) (lab : Fin 1024 → Fin 100000)
    (cen : Fin 100000 → Fin 128 → ℝ)
    (h0 : ∀ i d, a0 (ValueIdx.ix2 i d) = ((e i d : ℝ) : EReal))
    (h1 : ∀ i k, a1 (ValueIdx.ix2 i k) = ((x i k : ℝ) : EReal))
    (h2 : ∀ i, a2 (ValueIdx.ix1 i) = BitVec.ofNat 32 (lab i).val)
    (h3 : ∀ k d, a3 (ValueIdx.ix2 k d) = ((cen k d : ℝ) : EReal))
    (hgath : ∀ (i : Fin 1024) (d : Fin 128) (hi : (a2 (ValueIdx.ix1 i)).toNat < 100000),
      gath (ValueIdx.ix2 i d) = a3 (ValueIdx.ix2 ⟨(a2 (ValueIdx.ix1 i)).toNat, hi⟩ d)) :
    shapeCast S_ (KerTerm.out (F := Ideal) (KerTerm.blkOf a1) (shapeCast S1024x1 a2 shapeCasts_S1024_S1024x1)
        (shapeCast S1x1024 a2 shapeCasts_S1024_S1x1024) a0 gath) shapeCasts_S1x1_S_
      = fun _ => ((Cert.Spec.lossR e x lab cen : ℝ) : EReal) := by
  have hblk : ∀ (n : ℕ) (i : Fin 1024) (k : Fin 4096) (h : 4096 * n + k.val < 100000),
      KerTerm.blkOf (F := Ideal) a1 n (ix2 i k) = ((x i ⟨4096 * n + k.val, h⟩ : ℝ) : EReal) := by
    intro n i k h
    show (if h' : 4096 * n + k.val < 100000 then a1 (ix2 i ⟨4096 * n + k.val, h'⟩)
      else FloatOps.ofBits (F := Ideal) .f32 0x00000000#32) = _
    rw [dif_pos h, h1]
  have hlc : ∀ i : Fin 1024, shapeCast S1024x1 a2 shapeCasts_S1024_S1024x1 (ix2 i (0 : Fin 1)) = BitVec.ofNat 32 (lab i).val := by
    intro i; rw [shapeCast_a_a1_apply, h2]
  have hlr : ∀ i : Fin 1024, shapeCast S1x1024 a2 shapeCasts_S1024_S1x1024 (ix2 (0 : Fin 1) i) = BitVec.ofNat 32 (lab i).val := by
    intro i; rw [shapeCast_a_1a_apply, h2]
  have hg : ∀ i d, gath (ix2 i d) = ((cen (lab i) d : ℝ) : EReal) := by
    intro i d
    have hl := (lab i).isLt
    have ht : (a2 (ix1 i)).toNat = (lab i).val := by
      rw [h2, BitVec.toNat_ofNat]; omega
    have hi : (a2 (ix1 i)).toNat < 100000 := by omega
    have hf : (⟨(a2 (ix1 i)).toNat, hi⟩ : Fin 100000) = lab i := Fin.ext ht
    rw [hgath i d hi, hf, h3]
  rw [out_eq (KerTerm.blkOf a1) _ _ a0 gath e x lab cen hblk hlc hlr h0 hg]
  funext j
  rfl

end Cert.KernelIdeal.KerValue
end
-- ==== Proof.LibFinite.lean ====
/-
  "Every entry is a real number" is kept by the operations of a dense network, on the extended reals.

  An array over the extended reals is ALL REAL when none of its entries is an infinity.  The property passes
  through: every operation that only re-reads its operand at some index (a broadcast, a reshape, a slice, a
  row gather), the pointwise sum, difference, product and maximum, a matrix product (host or vector unit, zero
  accumulator: a finite sum of products), a host sum along axes, the accumulating scatter (each entry plus a
  finite sum of updates), and a quotient by an all-real array with no zero entry.  Nothing here depends on the
  shapes or on which index an operation reads.
-/
import Idealize.ShloMosaic.PureOps.Ideal.Laws

noncomputable section

namespace Cert.LibFinite

open Idealize.ShloMosaic

/-- Every entry of the array is a real number. -/
def AllReal {ι : Type*} (x : ι → EReal) : Prop := ∀ i, ∃ r : ℝ, x i = (r : EReal)

/-! ## Scalars -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- The maximum of a real and a positive real is a nonzero real. -/
theorem real_max_pos {a : EReal} (ha : ∃ r : ℝ, a = (r : EReal)) {s : ℝ} (hs : 0 < s) :
    ∃ r : ℝ, max a (s : EReal) = (r : EReal) ∧ r ≠ 0 := by
  obtain ⟨r, rfl⟩ := ha
  exact ⟨max r s, coe_max r s, ne_of_gt (lt_of_lt_of_le hs (le_max_right r s))⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_div {a b : EReal} (ha : ∃ r : ℝ, a = (r : EReal)) (hb : ∃ r : ℝ, b = (r : EReal) ∧ r ≠ 0) :
    ∃ r : ℝ, Ideal.div a b = (r : EReal) := by
  obtain ⟨r, rfl⟩ := ha; obtain ⟨s, rfl, hs⟩ := hb
  exact ⟨r * (1 / s), by rw [Ideal.div_coe hs, ← EReal.coe_mul]⟩

/-! ## Arrays -/

variable {ι κ : Type*}

/-- Reading an all-real array at any indices gives an all-real array: broadcasts, reshapes, slices and gathers. -/
theorem AllReal.read {x : ι → EReal} (hx : AllReal x) (f : κ → ι) : AllReal fun j => x (f j) := fun j => hx (f j)

theorem AllReal.const {c : EReal} (hc : ∃ r : ℝ, c = (r : EReal)) : AllReal fun _ : ι => c := fun _ => hc

theorem AllReal.broadcastInDim {s t : Shape} {dims : Fin s.rank → Fin t.rank} (h : s.BroadcastsInDim t dims)
    {x : s.Idx → EReal} (hx : AllReal x) : AllReal (broadcastInDim t dims h x) := fun _ => hx _

theorem AllReal.gather {s si t : Shape} {w : Nat} (d : GatherDims s si t) {x : s.Idx → EReal} (hx : AllReal x)
    (idx : IVec si w) : AllReal (Host.gather d x idx) := fun _ => hx _

theorem AllReal.addf {s : Shape} {φ : FTy} {x y : FVec Ideal s φ} (hx : AllReal x) (hy : AllReal y) :
    AllReal (addf x y) := fun i => real_add (hx i) (hy i)

theorem AllReal.subf {s : Shape} {φ : FTy} {x y : FVec Ideal s φ} (hx : AllReal x) (hy : AllReal y) :
    AllReal (subf x y) := fun i => real_sub (hx i) (hy i)

theorem AllReal.mulf {s : Shape} {φ : FTy} {x y : FVec Ideal s φ} (hx : AllReal x) (hy : AllReal y) :
    AllReal (mulf x y) := fun i => real_mul (hx i) (hy i)

theorem AllReal.maximumf {s : Shape} {φ : FTy} {x y : FVec Ideal s φ} (hx : AllReal x) (hy : AllReal y) :
    AllReal (maximumf x y) := fun i => real_max (hx i) (hy i)

/-- A quotient by an all-real array without zero entries. -/
theorem AllReal.hostDivf {s : Shape} {φ : FTy} {x y : FVec Ideal s φ} (hx : AllReal x)
    (hy : ∀ i, ∃ r : ℝ, y i = (r : EReal) ∧ r ≠ 0) : AllReal (Host.divf x y) := fun i => real_div (hx i) (hy i)

/-- A host matrix product of all-real arrays, whatever its dimension numbers. -/
theorem AllReal.dotGeneral {sl sr so : Shape} {φ₁ φ₂ : FTy} (d : DotDims sl sr so) (prec : Option ContractPrecision)
    (sched : HostSchedule) {l : FVec Ideal sl φ₁} {r : FVec Ideal sr φ₂} (hl : AllReal l) (hr : AllReal r) :
    AllReal (FloatOps.dotGeneral d prec sched l r) := fun j => by
  rw [Ideal.dotGeneral_apply]
  exact real_sum _ _ fun k _ => real_mul (hl _) (hr _)

/-- The vector unit's matrix product into the zero accumulator. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (FloatOps.matmul d prec l r (constant so .f32 0x00000000#32)) := fun j => by
  rw [Ideal.matmul_constant_zero_apply]
  exact real_sum _ _ fun k _ => real_mul (hl _) (hr _)

/-- The accumulating scatter: each entry plus a finite sum of updates. -/
theorem AllReal.scatterAdd {s si su : Shape} {φ : FTy} {w : Nat} (d : ScatterDims s si su) {x : FVec Ideal s φ}
    (hx : AllReal x) (idx : IVec si w) {upd : FVec Ideal su φ} (hu : AllReal upd) :
    AllReal (Host.scatterAdd (F := Ideal) d x idx upd) := fun i =>
  real_add (hx i) (real_sum _ _ fun j _ => hu j)

end Cert.LibFinite

end
-- ==== Proof.LibFiniteInput.lean ====
/-
  A float array that passes the "all finite" test is all real.

  The finiteness test of an input, as a precondition states it, is the conjunction over all entries of
  |x| < +∞ (the and-reduction of the comparisons into one bit, from the initial bit 1).  On the extended reals
  |x| = max x (-x) is +∞ at both infinities, so the comparison holds exactly at the real entries: if the reduced
  bit is 1, no entry of the array is an infinity.
-/
import Idealize.ShloMosaic.Lib.ReduceAll
import proofs.«217730_g43602507989570_cont_8to1c4_241_33_alg».proof.Proof.LibFinite

noncomputable section

namespace Cert.LibFiniteInput

open Idealize.ShloMosaic Cert.LibFinite

/-- The f32 word of +∞ denotes the top of the extended reals. -/
theorem ofBits_inf : Ideal.ofBits .f32 0x7F800000#32 = (⊤ : EReal) := by
  simp [Ideal.ofBits, Ideal.ieee]

/-- An extended real whose absolute value compares below +∞ is real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (⊤ : EReal) = 1#1 := by
    have := h
    rwa [Ideal.cmpf_def, Ideal.ofBits_def, ofBits_inf] at this
  induction x using EReal.rec with
  | bot => exact absurd h' (by simp [Ideal.cmp])
  | coe r => exact ⟨r, rfl⟩
  | top => exact absurd h' (by simp [Ideal.cmp])

instance : Subsingleton (⟨0, ![]⟩ : Shape).Idx := ⟨fun a b => funext fun d => d.elim0⟩

/-- If the and-reduction of the tests |x i| < +∞ over the whole array is the bit 1, every entry of x is real. -/
theorem allReal_of_test {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (j : (⟨0, ![]⟩ : Shape).Idx)
    (h : Host.reduce IntOp.andi
        (cmpf .olt (Host.absf x) (broadcastInDim s ![] hb (constant ⟨0, ![]⟩ .f32 0x7F800000#32)))
        (constantI ⟨0, ![]⟩ 1 1#1) hr hu j = 1#1) : AllReal x := fun i =>
  real_of_abs_lt_inf (x i) (Host.reduce_andi_all _ _ hr hu j h i)

end Cert.LibFiniteInput

end
-- ==== Proof.PreFacts.lean ====
/-
  What the precondition gives.

  The precondition is the conjunction, over all entries, of "|x| < +∞" for the three float inputs and of
  "0 ≤ label ≤ 99999" (signed) for the labels. When it holds, the embeddings, the logits and the class
  centres are arrays of real numbers, and every label, read unsigned, is below 100000.
-/
import proofs.«217730_g43602507989570_cont_8to1c4_241_33_alg».proof.Proof.Gen.Pre_input_domain
import proofs.«217730_g43602507989570_cont_8to1c4_241_33_alg».proof.Proof.LibFiniteInput
import Idealize.ShloMosaic.Lib.ReduceAll
import Idealize.ShloMosaic.Lib.ValueIdx

noncomputable section
namespace Cert.PreFacts
open Idealize.ShloMosaic Idealize.ShloMosaic.ValueIdx Cert.Pre_input_domain Cert.LibFinite Cert.LibFiniteInput

section AnyInstance
variable {F : FTy → Type} [FloatOps F]

/-- Every label, read unsigned, is below 100000: the label conjunct read back (the float conjuncts are discarded). -/
theorem labels_inb (a0 : FVec F S1024x128 .f32) (a1 : FVec F S1024x100000 .f32) (a2 : IVec S1024 32)
    (a3 : FVec F S100000x128 .f32) (h : Cert.Pre_input_domain.fn (F := F) a0 a1 a2 a3 = fun _ => 1#1) :
    ∀ j : S1024.Idx, (a2 j).toNat < 100000 := by
  intro j
  have h0 := congrFun h ix0
  dsimp only [fn, fn_part1] at h0
  have hv19 := (IntOp.andi_eq_one.mp h0).2
  have hj := Host.reduce_andi_all _ _ _ _ _ hv19 j
  obtain ⟨hge, hle⟩ := IntOp.andi_eq_one.mp hj
  have hge' : (0#32 : BitVec 32).toInt ≤ (a2 j).toInt := IntOp.cmpi_sge.mp hge
  have hle' : (a2 j).toInt ≤ (99999#32 : BitVec 32).toInt := IntOp.cmpi_sle.mp hle
  have z : (0#32 : BitVec 32).toInt = 0 := by decide
  have n : (99999#32 : BitVec 32).toInt = 99999 := by decide
  rw [z] at hge'
  rw [n] at hle'
  have e := BitVec.toInt_eq_toNat_cond (a2 j)
  have := (a2 j).isLt
  split at e <;> omega

end AnyInstance

/-- The float inputs are arrays of reals and the labels are class numbers. -/
theorem real_views (a0 : FVec Ideal S1024x128 .f32) (a1 : FVec Ideal S1024x100000 .f32) (a2 : IVec S1024 32)
    (a3 : FVec Ideal S100000x128 .f32) (h : Cert.Pre_input_domain.fn (F := Ideal) a0 a1 a2 a3 = fun _ => 1#1) :
    ∃ (e : Fin 1024 → Fin 128 → ℝ) (x : Fin 1024 → Fin 100000 → ℝ) (lab : Fin 1024 → Fin 100000)
      (cen : Fin 100000 → Fin 128 → ℝ),
      (∀ i d, a0 (ValueIdx.ix2 i d) = ((e i d : ℝ) : EReal)) ∧ (∀ i k, a1 (ValueIdx.ix2 i k) = ((x i k : ℝ) : EReal))
        ∧ (∀ i, a2 (ValueIdx.ix1 i) = BitVec.ofNat 32 (lab i).val) ∧ (∀ k d, a3 (ValueIdx.ix2 k d) = ((cen k d : ℝ) : EReal)) := by
  have hlab := labels_inb a0 a1 a2 a3 h
  have h0 := congrFun h ix0
  dsimp only [fn, fn_part1] at h0
  have hv13 := (IntOp.andi_eq_one.mp h0).1
  obtain ⟨hv8, hv12⟩ := IntOp.andi_eq_one.mp hv13
  obtain ⟨hv3, hv7⟩ := IntOp.andi_eq_one.mp hv8
  have r0 : AllReal a0 := allReal_of_test a0 _ _ _ ix0 hv3
  have r1 : AllReal a1 := allReal_of_test a1 _ _ _ ix0 hv7
  have r3 : AllReal a3 := allReal_of_test a3 _ _ _ ix0 hv12
  refine ⟨fun i d => Classical.choose (r0 (ix2 i d)), fun i k => Classical.choose (r1 (ix2 i k)),
    fun i => ⟨(a2 (ix1 i)).toNat, hlab (ix1 i)⟩, fun k d => Classical.choose (r3 (ix2 k d)),
    fun i d => Classical.choose_spec (r0 (ix2 i d)), fun i k => Classical.choose_spec (r1 (ix2 i k)), fun i => ?_,
    fun k d => Classical.choose_spec (r3 (ix2 k d))⟩
  apply BitVec.eq_of_toNat_eq
  have := (a2 (ix1 i)).isLt
  show (a2 (ix1 i)).toNat = (BitVec.ofNat 32 (a2 (ix1 i)).toNat).toNat
  rw [BitVec.toNat_ofNat, Nat.mod_eq_of_lt this]

end Cert.PreFacts
end
-- ==== Proof.RefOps.lean ====
/-
  The reference program's @main as a straight line of its 115 host operations — the five functions it calls
  unfolded where they are called — cut into seven consecutive windows, and its run: every weakly fair execution
  terminates with each buffer at the fold of the operations over the launch contents.
-/
import proofs.«217730_g43602507989570_cont_8to1c4_241_33_alg».proof.Proof.Gen.ReferenceIdeal
import Idealize.ShloMosaic.Lib.StableHlo.Run

noncomputable section

namespace Cert.RefProof

open Cert.ReferenceIdeal Cert.ReferenceIdeal.Facts₀ Idealize.ShloMosaic Idealize.ShloMosaic.TcCoe Idealize.SL.Sem Idealize.ShloMosaic.StableHlo

variable {F : FTy → Type} [FloatOps F]

/-- Operations of @main, window 1: the first row lookup (`take` of the centre table at the labels): 23 operations, the index wrap's select among them. -/
abbrev ops1 : List (HloOp τ sig (Elt F)) :=
  [ StableHlo.TRef.nullary main_call0.c (constantI S_ 32 0#32),
    StableHlo.TRef.unary main_call0.c main_call0.v0 (broadcastInDim S1024 ![] bcast_S_S1024),
    StableHlo.TRef.binary (.of main_arg2 : StableHlo.TRef sig ⟨S1024, .i32⟩) main_call0.v0 main_call0.v1 (cmpi .slt),
    StableHlo.TRef.nullary main_call0.c_0 (constantI S_ 32 100000#32),
    StableHlo.TRef.unary main_call0.c_0 main_call0.v2 (broadcastInDim S1024 ![] bcast_S_S1024),
    StableHlo.TRef.binary (.of main_arg2 : StableHlo.TRef sig ⟨S1024, .i32⟩) main_call0.v2 main_call0.v3 addi,
    StableHlo.TRef.ternary main_call0.v1 main_call0.v3 (.of main_arg2 : StableHlo.TRef sig ⟨S1024, .i32⟩) main_call0.call0.v0 select,
    StableHlo.TRef.unary main_call0.call0.v0 main_call0.v5 (broadcastInDim S1024x1 ![0] bcast_S1024_S1024x1_0),
    StableHlo.TRef.nullary main_call0.c_1 (constantI S1 32 99999#32),
    StableHlo.TRef.nullary main_call0.c_2 (constantI S_ 32 0#32),
    StableHlo.TRef.unary main_call0.c_2 main_call0.v6 (broadcastInDim S1024x1 ![] bcast_S_S1024x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1024x1 ![0, 1] bcast_S1x1_S1024x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x1_S1024_d1 h_S_),
    StableHlo.TRef.binary (.of main_arg3 : StableHlo.TRef sig ⟨S100000x128, .f32⟩) main_call0.v5 main_call0.v13 (fun x i => Host.gather gather_S100000x128_S1024x1_S1024x128_1_0_n_n_0_1_1128 x i),
    StableHlo.TRef.unary main_call0.v12 main_call0.v14 (broadcastInDim S1024x128 ![0] bcast_S1024_S1024x128_0),
    StableHlo.TRef.nullary main_call0.cst (constant S_ .f32 0x7FC00000#32),
    StableHlo.TRef.unary main_call0.cst main_call0.v15 (broadcastInDim S1024x128 ![] bcast_S_S1024x128),
    StableHlo.TRef.ternary main_call0.v14 main_call0.v13 main_call0.v15 main_call0.v16 select ]

/-- Operations of @main, window 2: the blend of the looked-up rows with the embeddings, the wrapped labels as a column, and the scatter of the blend into the table: 16 operations. -/
abbrev ops2 : List (HloOp τ sig (Elt F)) :=
  [ StableHlo.nullary main_cst (constant S_ .f32 0x3F19999A#32),
    StableHlo.unary main_cst main_v1 (broadcastInDim S1024x128 ![] bcast_S_S1024x128 : (⟨S_, .f32⟩ : BufTy).Contents (Elt F) → (⟨S1024x128, .f32⟩ : BufTy).Contents (Elt F)),
    StableHlo.binary main_v1 main_v0 main_v2 (mulf : (⟨S1024x128, .f32⟩ : BufTy).Contents (Elt F) → (⟨S1024x128, .f32⟩ : BufTy).Contents (Elt F) → (⟨S1024x128, .f32⟩ : BufTy).Contents (Elt F)),
    StableHlo.nullary main_cst_0 (constant S_ .f32 0x3ECCCCCD#32),
    StableHlo.unary main_cst_0 main_v3 (broadcastInDim S1024x128 ![] bcast_S_S1024x128 : (⟨S_, .f32⟩ : BufTy).Contents (Elt F) → (⟨S1024x128, .f32⟩ : BufTy).Contents (Elt F)),
    StableHlo.binary main_v3 main_arg0 main_v4 (mulf : (⟨S1024x128, .f32⟩ : BufTy).Contents (Elt F) → (⟨S1024x128, .f32⟩ : BufTy).Contents (Elt F) → (⟨S1024x128, .f32⟩ : BufTy).Contents (Elt F)),
    StableHlo.binary main_v2 main_v4 main_v5 (addf : (⟨S1024x128, .f32⟩ : BufTy).Contents (Elt F) → (⟨S1024x128, .f32⟩ : BufTy).Contents (Elt F) → (⟨S1024x128, .f32⟩ : BufTy).Contents (Elt F)),
    StableHlo.nullary main_c (constantI S_ 32 0#32),
    StableHlo.unary main_c main_v6 (broadcastInDim S1024 ![] bcast_S_S1024 : (⟨S_, .i32⟩ : BufTy).Contents (Elt F) → (⟨S1024, .i32⟩ : BufTy).Contents (Elt F)),
    StableHlo.binary main_arg2 main_v6 main_v7 (cmpi .slt : (⟨S1024, .i32⟩ : BufTy).Contents (Elt F) → (⟨S1024, .i32⟩ : BufTy).Contents (Elt F) → (⟨S1024, .i1⟩ : BufTy).Contents (Elt F)),
    StableHlo.nullary main_c_1 (constantI S_ 32 100000#32),
    StableHlo.unary main_c_1 main_v8 (broadcastInDim S1024 ![] bcast_S_S1024 : (⟨S_, .i32⟩ : BufTy).Contents (Elt F) → (⟨S1024, .i32⟩ : BufTy).Contents (Elt F)),
    StableHlo.binary main_arg2 main_v8 main_v9 (addi : (⟨S1024, .i32⟩ : BufTy).Contents (Elt F) → (⟨S1024, .i32⟩ : BufTy).Contents (Elt F) → (⟨S1024, .i32⟩ : BufTy).Contents (Elt F)),
    StableHlo.ternary main_v7 main_v9 main_arg2 main_v10 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v10 main_v11 (broadcastInDim S1024x1 ![0] bcast_S1024_S1024x1_0 : (⟨S1024, .i32⟩ : BufTy).Contents (Elt F) → (⟨S1024x1, .i32⟩ : BufTy).Contents (Elt F)),
    StableHlo.ternary main_arg3 main_v11 main_v5 main_v12 ((fun x i u => Host.scatter scatter_S100000x128_S1024x1_S1024x128_1_0_0_1 (fun _ b => b) x i u) : (⟨S100000x128, .f32⟩ : BufTy).Contents (Elt F) → (⟨S1024x1, .i32⟩ : BufTy).Contents (Elt F) → (⟨S1024x128, .f32⟩ : BufTy).Contents (Elt F) → (⟨S100000x128, .f32⟩ : BufTy).Contents (Elt F)) ]

/-- Operations of @main, window 3: the row-wise log-softmax of the logits: 15 operations. -/
abbrev ops3 : List (HloOp τ sig (Elt F)) :=
  [ StableHlo.TRef.nullary main_call1.cst (constant S_ .f32 0xFF800000#32),
    StableHlo.TRef.binary (.of main_arg1 : StableHlo.TRef sig ⟨S1024x100000, .f32⟩) main_call1.cst main_call1.v0 (fun x v => Host.reduce FloatOps.maximumf x v reducesTo_S1024x100000_S1024_d1 h_S_),
    StableHlo.TRef.nullary main_call1.cst_0 (constant S_ .f32 0xFF800000#32),
    StableHlo.TRef.unary main_call1.cst_0 main_call1.v1 (broadcastInDim S1024 ![] bcast_S_S1024),
    StableHlo.TRef.binary main_call1.v1 main_call1.v0 main_call1.v2 maximumf,
    StableHlo.TRef.unary main_call1.v2 main_call1.v3 (broadcastInDim S1024x1 ![0] bcast_S1024_S1024x1_0),
    StableHlo.TRef.unary main_call1.v3 main_call1.v4 (broadcastInDim S1024x100000 ![0, 1] bcast_S1024x1_S1024x100000_0_1),
    StableHlo.TRef.binary (.of main_arg1 : StableHlo.TRef sig ⟨S1024x100000, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S1024x100000_S1024_d1 h_S_),
    StableHlo.TRef.unary main_call1.v7 main_call1.v8 (broadcastInDim S1024x1 ![0] bcast_S1024_S1024x1_0),
    StableHlo.TRef.unary main_call1.v8 main_call1.v9 Host.log,
    StableHlo.TRef.unary main_call1.v9 main_call1.v10 (broadcastInDim S1024x100000 ![0, 1] bcast_S1024x1_S1024x100000_0_1),
    StableHlo.TRef.binary main_call1.v5 main_call1.v10 main_call1.v11 subf ]

/-- Operations of @main, window 4: the labels as a column and the lookup of each row's label entry (`take_along_axis`): 23 operations. -/
abbrev ops4 : List (HloOp τ sig (Elt F)) :=
  [ StableHlo.unary main_arg2 main_v14 (broadcastInDim S1024x1 ![0] bcast_S1024_S1024x1_0 : (⟨S1024, .i32⟩ : BufTy).Contents (Elt F) → (⟨S1024x1, .i32⟩ : BufTy).Contents (Elt F)),
    StableHlo.TRef.nullary main_call2.c (constantI S_ 32 0#32),
    StableHlo.TRef.unary main_call2.c main_call2.v0 (broadcastInDim S1024x1 ![] bcast_S_S1024x1),
    StableHlo.TRef.binary (.of main_v14 : StableHlo.TRef sig ⟨S1024x1, .i32⟩) main_call2.v0 main_call2.v1 (cmpi .slt),
    StableHlo.TRef.nullary main_call2.c_0 (constantI S_ 32 100000#32),
    StableHlo.TRef.unary main_call2.c_0 main_call2.v2 (broadcastInDim S1024x1 ![] bcast_S_S1024x1),
    StableHlo.TRef.binary (.of main_v14 : StableHlo.TRef sig ⟨S1024x1, .i32⟩) main_call2.v2 main_call2.v3 addi,
    StableHlo.TRef.ternary main_call2.v1 main_call2.v3 (.of main_v14 : StableHlo.TRef sig ⟨S1024x1, .i32⟩) main_call2.v4 select,
    StableHlo.TRef.reshape main_call2.v4 main_call2.v5 rfl shapeCasts_S1024x1_S1024x1x1,
    StableHlo.TRef.nullary main_call2.c_1 (constantI S1 32 99999#32),
    StableHlo.TRef.nullary main_call2.c_2 (constantI S_ 32 0#32),
    StableHlo.TRef.unary main_call2.c_2 main_call2.v6 (broadcastInDim S1024x1x1 ![] bcast_S_S1024x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S1024x1x1 ![0, 1, 2] bcast_S1x1x1_S1024x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x1x1_S1024x1_d2 h_S_),
    StableHlo.TRef.binary (.of main_v13 : StableHlo.TRef sig ⟨S1024x100000, .f32⟩) main_call2.v5 main_call2.v13 (fun x i => Host.gather gather_S1024x100000_S1024x1x1_S1024x1_n_1_0_0_1_2_11 x i),
    StableHlo.TRef.nullary main_call2.cst (constant S_ .f32 0x7FC00000#32),
    StableHlo.TRef.unary main_call2.cst main_call2.v14 (broadcastInDim S1024x1 ![] bcast_S_S1024x1),
    StableHlo.TRef.ternary main_call2.v12 main_call2.v13 main_call2.v14 main_call2.v15 select ]

/-- Operations of @main, window 5: the negated entries summed and divided by the number of samples: 6 operations. -/
abbrev ops5 : List (HloOp τ sig (Elt F)) :=
  [ StableHlo.reshape main_v15 main_v16 rfl shapeCasts_S1024x1_S1024,
    StableHlo.unary main_v16 main_v17 (Host.negf : (⟨S1024, .f32⟩ : BufTy).Contents (Elt F) → (⟨S1024, .f32⟩ : BufTy).Contents (Elt F)),
    StableHlo.nullary main_cst_2 (constant S_ .f32 0x00000000#32),
    StableHlo.binary main_v17 main_cst_2 main_v18 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.nullary main_cst_3 (constant S_ .f32 0x44800000#32),
    StableHlo.binary main_v18 main_cst_3 main_v19 (Host.divf : (⟨S_, .f32⟩ : BufTy).Contents (Elt F) → (⟨S_, .f32⟩ : BufTy).Contents (Elt F) → (⟨S_, .f32⟩ : BufTy).Contents (Elt F)) ]

/-- Operations of @main, window 6: the second row lookup, from the scattered table: 23 operations. -/
abbrev ops6 : List (HloOp τ sig (Elt F)) :=
  [ StableHlo.TRef.nullary main_call3.c (constantI S_ 32 0#32),
    StableHlo.TRef.unary main_call3.c main_call3.v0 (broadcastInDim S1024 ![] bcast_S_S1024),
    StableHlo.TRef.binary (.of main_arg2 : StableHlo.TRef sig ⟨S1024, .i32⟩) main_call3.v0 main_call3.v1 (cmpi .slt),
    StableHlo.TRef.nullary main_call3.c_0 (constantI S_ 32 100000#32),
    StableHlo.TRef.unary main_call3.c_0 main_call3.v2 (broadcastInDim S1024 ![] bcast_S_S1024),
    StableHlo.TRef.binary (.of main_arg2 : StableHlo.TRef sig ⟨S1024, .i32⟩) main_call3.v2 main_call3.v3 addi,
    StableHlo.TRef.ternary main_call3.v1 main_call3.v3 (.of main_arg2 : StableHlo.TRef sig ⟨S1024, .i32⟩) main_call3.call0.v0 select,
    StableHlo.TRef.unary main_call3.call0.v0 main_call3.v5 (broadcastInDim S1024x1 ![0] bcast_S1024_S1024x1_0),
    StableHlo.TRef.nullary main_call3.c_1 (constantI S1 32 99999#32),
    StableHlo.TRef.nullary main_call3.c_2 (constantI S_ 32 0#32),
    StableHlo.TRef.unary main_call3.c_2 main_call3.v6 (broadcastInDim S1024x1 ![] bcast_S_S1024x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S1024x1 ![0, 1] bcast_S1x1_S1024x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1024x1_S1024_d1 h_S_),
    StableHlo.TRef.binary (.of main_v12 : StableHlo.TRef sig ⟨S100000x128, .f32⟩) main_call3.v5 main_call3.v13 (fun x i => Host.gather gather_S100000x128_S1024x1_S1024x128_1_0_n_n_0_1_1128 x i),
    StableHlo.TRef.unary main_call3.v12 main_call3.v14 (broadcastInDim S1024x128 ![0] bcast_S1024_S1024x128_0),
    StableHlo.TRef.nullary main_call3.cst (constant S_ .f32 0x7FC00000#32),
    StableHlo.TRef.unary main_call3.cst main_call3.v15 (broadcastInDim S1024x128 ![] bcast_S_S1024x128),
    StableHlo.TRef.ternary main_call3.v14 main_call3.v13 main_call3.v15 main_call3.v16 select ]

/-- Operations of @main, window 7: the squared distances summed, divided, scaled and added to the first mean: 9 operations. -/
abbrev ops7 : List (HloOp τ sig (Elt F)) :=
  [ StableHlo.binary main_arg0 main_v20 main_v21 (subf : (⟨S1024x128, .f32⟩ : BufTy).Contents (Elt F) → (⟨S1024x128, .f32⟩ : BufTy).Contents (Elt F) → (⟨S1024x128, .f32⟩ : BufTy).Contents (Elt F)),
    StableHlo.binary main_v21 main_v21 main_v22 (mulf : (⟨S1024x128, .f32⟩ : BufTy).Contents (Elt F) → (⟨S1024x128, .f32⟩ : BufTy).Contents (Elt F) → (⟨S1024x128, .f32⟩ : BufTy).Contents (Elt F)),
    StableHlo.nullary main_cst_4 (constant S_ .f32 0x00000000#32),
    StableHlo.binary main_v22 main_cst_4 main_v23 ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)),
    StableHlo.nullary main_cst_5 (constant S_ .f32 0x48000000#32),
    StableHlo.binary main_v23 main_cst_5 main_v24 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3C03126F#32),
    StableHlo.binary main_cst_6 main_v24 main_v25 (mulf : (⟨S_, .f32⟩ : BufTy).Contents (Elt F) → (⟨S_, .f32⟩ : BufTy).Contents (Elt F) → (⟨S_, .f32⟩ : BufTy).Contents (Elt F)),
    StableHlo.binary main_v19 main_v25 main_v26 (addf : (⟨S_, .f32⟩ : BufTy).Contents (Elt F) → (⟨S_, .f32⟩ : BufTy).Contents (Elt F) → (⟨S_, .f32⟩ : BufTy).Contents (Elt F)) ]

/-- @main's 115 operations in order, the calls unfolded at their call sites. -/
abbrev ops : List (HloOp τ sig (Elt F)) := ops1 ++ (ops2 ++ (ops3 ++ (ops4 ++ (ops5 ++ (ops6 ++ ops7)))))

set_option maxRecDepth 8192 in
set_option maxHeartbeats 4000000 in
/-- @main is that straight line: the called functions unfolded at their calls, sequencing reassociated. -/
theorem main_eq (c : Dev nD) : main (F := F) c = seq ops := by
  simp only [main, fn_take.body, fn_where.body, fn_log_softmax.body, fn_take_along_axis.body, fn_take_0.body,
    ops, ops1, ops2, ops3, ops4, ops5, ops6, ops7, List.cons_append, List.nil_append, seq, bind_assoc, pure_bind] <;> rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩

theorem ops3_sub : (ops3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops4_sub : (ops4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem ops5_sub : (ops5 : List (HloOp τ sig (Elt F))).Forall fun op => op.bufs ⊆ tcRefs τ sig :=
  ⟨reshape_bufs_sub .., unary_bufs_sub .., nullary_bufs_sub .., binary_bufs_sub .., nullary_bufs_sub .., binary_bufs_sub ..⟩

theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem ops7_sub : (ops7 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]

set_option maxRecDepth 8192 in
set_option maxHeartbeats 4000000 in
/-- Every weakly fair execution of @main terminates with each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.RefProof

end
-- ==== Proof.RefTerm.lean ====
/-
  The reference's result as a pure term of its four argument arrays, in named pieces.

  `takeRows tbl lab` is `jnp.take(tbl, lab, axis=0)`: negative labels wrapped by the table's height, rows gathered at the
  clamped index, rows whose index is outside `0 … 99999` filled with a not-a-number word.  `blend` is
  `0.6 · gathered + 0.4 · embeddings` (the two constants are the printed float words), `newCenters` the scatter of the
  blended rows into the table at the labels, `logSoftmax` the row-wise `x - max - log ∑ exp (x - max)`, `takeAlong` the
  lookup of each row's label column, `meanNll` the mean of the negated entries, and `total` adds to it the scaled mean
  squared distance of the embeddings to the rows looked up in the scattered table.
-/
import proofs.«217730_g43602507989570_cont_8to1c4_241_33_alg».proof.Proof.Gen.ReferenceIdeal
import Idealize.ShloMosaic.PureOps.Ideal

noncomputable section

namespace Cert.RefProof

open Cert.ReferenceIdeal Cert.ReferenceIdeal.Facts₀ Idealize.ShloMosaic Idealize.SL.Sem

variable {F : FTy → Type} [FloatOps F]

/-- jnp's wrap of a negative index over a vector: `lab + 100000` where `lab < 0`, else `lab`. -/
def wrap1 (lab : IVec S1024 32) : IVec S1024 32 :=
  select (cmpi .slt lab (broadcastInDim S1024 ![] bcast_S_S1024 (constantI S_ 32 0#32)))
    (addi lab (broadcastInDim S1024 ![] bcast_S_S1024 (constantI S_ 32 100000#32))) lab

/-- The wrapped labels as a column of one-component index vectors. -/
def idxCol (lab : IVec S1024 32) : IVec S1024x1 32 :=
  broadcastInDim S1024x1 ![0] bcast_S1024_S1024x1_0 (wrap1 lab)

/-- Per row: is the index inside `0 … 99999`? -/
def inRange (idx : IVec S1024x1 32) : IVec S1024 1 :=
  Host.reduce IntOp.andi
    (andi (cmpi .sge idx (broadcastInDim S1024x1 ![] bcast_S_S1024x1 (constantI S_ 32 0#32)))
      (cmpi .sle idx (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- `jnp.take(tbl, lab, axis=0)`. -/
def takeRows (tbl : FVec F S100000x128 .f32) (lab : IVec S1024 32) : FVec F S1024x128 .f32 :=
  select (broadcastInDim S1024x128 ![0] bcast_S1024_S1024x128_0 (inRange (idxCol lab)))
    (Host.gather gather_S100000x128_S1024x1_S1024x128_1_0_n_n_0_1_1128 tbl (idxCol lab))
    (broadcastInDim S1024x128 ![] bcast_S_S1024x128 (constant S_ .f32 0x7FC00000#32))

/-- The blend of the gathered rows `g` with the embeddings `e`. -/
def blend (g e : FVec F S1024x128 .f32) : FVec F S1024x128 .f32 :=
  addf (mulf (broadcastInDim S1024x128 ![] bcast_S_S1024x128 (constant S_ .f32 0x3F19999A#32)) g)
    (mulf (broadcastInDim S1024x128 ![] bcast_S_S1024x128 (constant S_ .f32 0x3ECCCCCD#32)) e)

/-- The table with the rows `upd` written at the labels, in row-major order of the updates. -/
def newCenters (cen : FVec F S100000x128 .f32) (lab : IVec S1024 32) (upd : FVec F S1024x128 .f32) :
    FVec F S100000x128 .f32 :=
  Host.scatter scatter_S100000x128_S1024x1_S1024x128_1_0_0_1 (fun _ b => b) cen (idxCol lab) upd

/-- Each row's maximum (joined with `-∞`). -/
def rowMax (x : FVec F S1024x100000 .f32) : FVec F S1024 .f32 :=
  maximumf (broadcastInDim S1024 ![] bcast_S_S1024 (constant S_ .f32 0xFF800000#32))
    (Host.reduce FloatOps.maximumf x (constant S_ .f32 0xFF800000#32) reducesTo_S1024x100000_S1024_d1 h_S_)

/-- The logits minus their row's maximum. -/
def shifted (x : FVec F S1024x100000 .f32) : FVec F S1024x100000 .f32 :=
  subf x (broadcastInDim S1024x100000 ![0, 1] bcast_S1024x1_S1024x100000_0_1
    (broadcastInDim S1024x1 ![0] bcast_S1024_S1024x1_0 (rowMax x)))

/-- Row-wise log-softmax. -/
def logSoftmax (x : FVec F S1024x100000 .f32) : FVec F S1024x100000 .f32 :=
  subf (shifted x) (broadcastInDim S1024x100000 ![0, 1] bcast_S1024x1_S1024x100000_0_1
    (Host.log (broadcastInDim S1024x1 ![0] bcast_S1024_S1024x1_0
      (Host.reduceAdd (Host.exp (shifted x)) (constant S_ .f32 0x00000000#32) reducesTo_S1024x100000_S1024_d1 h_S_))))

/-- The labels as a column. -/
def labCol (lab : IVec S1024 32) : IVec S1024x1 32 :=
  broadcastInDim S1024x1 ![0] bcast_S1024_S1024x1_0 lab

/-- The wrap of a negative index over a column. -/
def wrap2 (i : IVec S1024x1 32) : IVec S1024x1 32 :=
  select (cmpi .slt i (broadcastInDim S1024x1 ![] bcast_S_S1024x1 (constantI S_ 32 0#32)))
    (addi i (broadcastInDim S1024x1 ![] bcast_S_S1024x1 (constantI S_ 32 100000#32))) i

/-- The wrapped column index with a trailing unit axis. -/
def idxCube (i : IVec S1024x1 32) : IVec S1024x1x1 32 :=
  shapeCast S1024x1x1 (wrap2 i) shapeCasts_S1024x1_S1024x1x1

/-- Per row: is the column index inside `0 … 99999`? -/
def inRange3 (idx : IVec S1024x1x1 32) : IVec S1024x1 1 :=
  Host.reduce IntOp.andi
    (andi (cmpi .sge idx (broadcastInDim S1024x1x1 ![] bcast_S_S1024x1x1 (constantI S_ 32 0#32)))
      (cmpi .sle idx (broadcastInDim S1024x1x1 ![0, 1, 2] bcast_S1x1x1_S1024x1x1_0_1_2
        (broadcastInDim S1x1x1 ![2] bcast_S1_S1x1x1_2 (constantI S1 32 99999#32)))))
    (constantI S_ 1 1#1) reducesTo_S1024x1x1_S1024x1_d2 h_S_

/-- `jnp.take_along_axis(lp, i, axis=-1)`. -/
def takeAlong (lp : FVec F S1024x100000 .f32) (i : IVec S1024x1 32) : FVec F S1024x1 .f32 :=
  select (inRange3 (idxCube i))
    (Host.gather gather_S1024x100000_S1024x1x1_S1024x1_n_1_0_0_1_2_11 lp (idxCube i))
    (broadcastInDim S1024x1 ![] bcast_S_S1024x1 (constant S_ .f32 0x7FC00000#32))

/-- The mean over the samples of the negated entries. -/
def meanNll (t : FVec F S1024x1 .f32) : FVec F S_ .f32 :=
  Host.divf (Host.reduceAdd (Host.negf (shapeCast S1024 t shapeCasts_S1024x1_S1024)) (constant S_ .f32 0x00000000#32)
    reducesTo_S1024_S_d0 h_S_) (constant S_ .f32 0x44800000#32)

/-- The first mean plus the scaled mean squared distance of `e` to `g`. -/
def total (e g : FVec F S1024x128 .f32) (s : FVec F S_ .f32) : FVec F S_ .f32 :=
  addf s (mulf (constant S_ .f32 0x3C03126F#32)
    (Host.divf (Host.reduceAdd (mulf (subf e g) (subf e g)) (constant S_ .f32 0x00000000#32)
      reducesTo_S1024x128_S_d0_1 h_S_) (constant S_ .f32 0x48000000#32)))

/-- The reference's result as ONE pure term of its four argument arrays (the operations of @main and of the functions it
    calls, composed). -/
def refVal (a0 : FVec Ideal S1024x128 .f32) (a1 : FVec Ideal S1024x100000 .f32) (a2 : IVec S1024 32)
    (a3 : FVec Ideal S100000x128 .f32) : FVec Ideal S_ .f32 :=
  total a0 (takeRows (newCenters a3 a2 (blend (takeRows a3 a2) a0)) a2)
    (meanNll (takeAlong (logSoftmax a1) (labCol a2)))

end Cert.RefProof

end
-- ==== Proof.RefRun.lean ====
/-
  The reference's run read back: window by window, what each of the seven windows of RefOps leaves in its result buffer
  as a pure term (RefTerm) of the buffers it reads, from any contents, and that it keeps every buffer it does not write;
  composed, the result buffer after the whole line is `refVal` of the four arguments, which no operation writes.
-/
import proofs.«217730_g43602507989570_cont_8to1c4_241_33_alg».proof.Proof.RefOps
import proofs.«217730_g43602507989570_cont_8to1c4_241_33_alg».proof.Proof.RefTerm

noncomputable section

namespace Cert.RefProof

open Cert.ReferenceIdeal Cert.ReferenceIdeal.Facts₀ Idealize.ShloMosaic Idealize.ShloMosaic.TcCoe Idealize.SL.Sem Idealize.ShloMosaic.StableHlo

variable {F : FTy → Type} [FloatOps F]

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Window 1's operations over their buffers directly: a called function's operation is the same operation with its
    function read at the buffers' own types. -/
abbrev ops1u : List (HloOp τ sig (Elt F)) :=
  [ StableHlo.nullary main_call0_c (constantI S_ 32 0#32),
    StableHlo.unary main_call0_c main_call0_v0 ((broadcastInDim S1024 ![] bcast_S_S1024) : (⟨S_, .i32⟩ : BufTy).Contents (Elt F) → (⟨S1024, .i32⟩ : BufTy).Contents (Elt F)),
    StableHlo.binary main_arg2 main_call0_v0 main_call0_v1 ((cmpi .slt) : (⟨S1024, .i32⟩ : BufTy).Contents (Elt F) → (⟨S1024, .i32⟩ : BufTy).Contents (Elt F) → (⟨S1024, .i1⟩ : BufTy).Contents (Elt F)),
    StableHlo.nullary main_call0_c_0 (constantI S_ 32 100000#32),
    StableHlo.unary main_call0_c_0 main_call0_v2 ((broadcastInDim S1024 ![] bcast_S_S1024) : (⟨S_, .i32⟩ : BufTy).Contents (Elt F) → (⟨S1024, .i32⟩ : BufTy).Contents (Elt F)),
    StableHlo.binary main_arg2 main_call0_v2 main_call0_v3 ((addi) : (⟨S1024, .i32⟩ : BufTy).Contents (Elt F) → (⟨S1024, .i32⟩ : BufTy).Contents (Elt F) → (⟨S1024, .i32⟩ : BufTy).Contents (Elt F)),
    StableHlo.ternary main_call0_v1 main_call0_v3 main_arg2 main_call0_v4 ((select) : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_call0_v4 main_call0_v5 ((broadcastInDim S1024x1 ![0] bcast_S1024_S1024x1_0) : (⟨S1024, .i32⟩ : BufTy).Contents (Elt F) → (⟨S1024x1, .i32⟩ : BufTy).Contents (Elt F)),
    StableHlo.nullary main_call0_c_1 (constantI S1 32 99999#32),
    StableHlo.nullary main_call0_c_2 (constantI S_ 32 0#32),
    StableHlo.unary main_call0_c_2 main_call0_v6 ((broadcastInDim S1024x1 ![] bcast_S_S1024x1) : (⟨S_, .i32⟩ : BufTy).Contents (Elt F) → (⟨S1024x1, .i32⟩ : BufTy).Contents (Elt F)),
    StableHlo.binary main_call0_v5 main_call0_v6 main_call0_v7 ((cmpi .sge) : (⟨S1024x1, .i32⟩ : BufTy).Contents (Elt F) → (⟨S1024x1, .i32⟩ : BufTy).Contents (Elt F) → (⟨S1024x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1024x1 ![0, 1] bcast_S1x1_S1024x1_0_1) : (⟨S1x1, .i32⟩ : BufTy).Contents (Elt F) → (⟨S1024x1, .i32⟩ : BufTy).Contents (Elt F)),
    StableHlo.binary main_call0_v5 main_call0_v9 main_call0_v10 ((cmpi .sle) : (⟨S1024x1, .i32⟩ : BufTy).Contents (Elt F) → (⟨S1024x1, .i32⟩ : BufTy).Contents (Elt F) → (⟨S1024x1, .i1⟩ : BufTy).Contents (Elt F)),
    StableHlo.binary main_call0_v7 main_call0_v10 main_call0_v11 ((andi) : (⟨S1024x1, .i1⟩ : BufTy).Contents (Elt F) → (⟨S1024x1, .i1⟩ : BufTy).Contents (Elt F) → (⟨S1024x1, .i1⟩ : BufTy).Contents (Elt F)),
    StableHlo.nullary main_call0_c_3 (constantI S_ 1 1#1),
    StableHlo.binary main_call0_v11 main_call0_c_3 main_call0_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F)),
    StableHlo.binary main_arg3 main_call0_v5 main_call0_v13 ((fun x i => Host.gather gather_S100000x128_S1024x1_S1024x128_1_0_n_n_0_1_1128 x i) : (⟨S100000x128, .f32⟩ : BufTy).Contents (Elt F) → (⟨S1024x1, .i32⟩ : BufTy).Contents (Elt F) → (⟨S1024x128, .f32⟩ : BufTy).Contents (Elt F)),
    StableHlo.unary main_call0_v12 main_call0_v14 ((broadcastInDim S1024x128 ![0] bcast_S1024_S1024x128_0) : (⟨S1024, .i1⟩ : BufTy).Contents (Elt F) → (⟨S1024x128, .i1⟩ : BufTy).Contents (Elt F)),
    StableHlo.nullary main_call0_cst (constant S_ .f32 0x7FC00000#32),
    StableHlo.unary main_call0_cst main_call0_v15 ((broadcastInDim S1024x128 ![] bcast_S_S1024x128) : (⟨S_, .f32⟩ : BufTy).Contents (Elt F) → (⟨S1024x128, .f32⟩ : BufTy).Contents (Elt F)),
    StableHlo.ternary main_call0_v14 main_call0_v13 main_call0_v15 main_v0 ((select) : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)) ]

attribute [local irreducible] Host.reduce Host.reduceAdd Host.gather Host.scatter in
set_option maxRecDepth 8192 in
theorem ops1_eq : (ops1 : List (HloOp τ sig (Elt F))) = ops1u := rfl

/-- The buffers window 1's operations write. -/
abbrev W1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

theorem ops1_writes : (ops1u : List (HloOp τ sig (Elt F))).Forall fun op =>
    op.writes ⊆ (W1.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer window 1 does not write keeps its contents through it. -/
theorem keep1 (V : Valuation τ sig (Elt F)) (r : Ref sig .tc) (h : r ∉ W1) :
    after ops1u V (Proc.devRef .tc r) = V (Proc.devRef .tc r) :=
  after_of_writes_sub ops1u V ops1_writes h

set_option maxRecDepth 8192 in
set_option maxHeartbeats 2000000 in
/-- What window 1 leaves in its result buffer, from any contents. -/
theorem res1 (V : Valuation τ sig (Elt F)) :
    after ops1u V (Proc.devRef .tc main_v0) = takeRows (V (Proc.devRef .tc main_arg3)) (V (Proc.devRef .tc main_arg2)) := by
  simp only [ops1u]
  after_results_simp
  unfold takeRows inRange idxCol wrap1
  rfl

/-- The buffers window 2's operations write. -/
abbrev W2 : List (Ref sig .tc) := [main_cst, main_v1, main_v2, main_cst_0, main_v3, main_v4, main_v5, main_c, main_v6, main_v7, main_c_1, main_v8, main_v9, main_v10, main_v11, main_v12]

theorem ops2_writes : (ops2 : List (HloOp τ sig (Elt F))).Forall fun op =>
    op.writes ⊆ (W2.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer window 2 does not write keeps its contents through it. -/
theorem keep2 (V : Valuation τ sig (Elt F)) (r : Ref sig .tc) (h : r ∉ W2) :
    after ops2 V (Proc.devRef .tc r) = V (Proc.devRef .tc r) :=
  after_of_writes_sub ops2 V ops2_writes h

set_option maxRecDepth 8192 in
set_option maxHeartbeats 2000000 in
/-- What window 2 leaves in its result buffer, from any contents. -/
theorem res2 (V : Valuation τ sig (Elt F)) :
    after ops2 V (Proc.devRef .tc main_v12) = newCenters (V (Proc.devRef .tc main_arg3)) (V (Proc.devRef .tc main_arg2)) (blend (V (Proc.devRef .tc main_v0)) (V (Proc.devRef .tc main_arg0))) := by
  simp only [ops2]
  after_results_simp
  unfold newCenters blend idxCol wrap1
  rfl

/-- Window 3's operations over their buffers directly: a called function's operation is the same operation with its
    function read at the buffers' own types. -/
abbrev ops3u : List (HloOp τ sig (Elt F)) :=
  [ StableHlo.nullary main_call1_cst (constant S_ .f32 0xFF800000#32),
    StableHlo.binary main_arg1 main_call1_cst main_call1_v0 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    StableHlo.nullary main_call1_cst_0 (constant S_ .f32 0xFF800000#32),
    StableHlo.unary main_call1_cst_0 main_call1_v1 ((broadcastInDim S1024 ![] bcast_S_S1024) : (⟨S_, .f32⟩ : BufTy).Contents (Elt F) → (⟨S1024, .f32⟩ : BufTy).Contents (Elt F)),
    StableHlo.binary main_call1_v1 main_call1_v0 main_call1_v2 ((maximumf) : (⟨S1024, .f32⟩ : BufTy).Contents (Elt F) → (⟨S1024, .f32⟩ : BufTy).Contents (Elt F) → (⟨S1024, .f32⟩ : BufTy).Contents (Elt F)),
    StableHlo.unary main_call1_v2 main_call1_v3 ((broadcastInDim S1024x1 ![0] bcast_S1024_S1024x1_0) : (⟨S1024, .f32⟩ : BufTy).Contents (Elt F) → (⟨S1024x1, .f32⟩ : BufTy).Contents (Elt F)),
    StableHlo.unary main_call1_v3 main_call1_v4 ((broadcastInDim S1024x100000 ![0, 1] bcast_S1024x1_S1024x100000_0_1) : (⟨S1024x1, .f32⟩ : BufTy).Contents (Elt F) → (⟨S1024x100000, .f32⟩ : BufTy).Contents (Elt F)),
    StableHlo.binary main_arg1 main_call1_v4 main_call1_v5 ((subf) : (⟨S1024x100000, .f32⟩ : BufTy).Contents (Elt F) → (⟨S1024x100000, .f32⟩ : BufTy).Contents (Elt F) → (⟨S1024x100000, .f32⟩ : BufTy).Contents (Elt F)),
    StableHlo.unary main_call1_v5 main_call1_v6 ((Host.exp) : (⟨S1024x100000, .f32⟩ : BufTy).Contents (Elt F) → (⟨S1024x100000, .f32⟩ : BufTy).Contents (Elt F)),
    StableHlo.nullary main_call1_cst_1 (constant S_ .f32 0x00000000#32),
    StableHlo.binary main_call1_v6 main_call1_cst_1 main_call1_v7 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    StableHlo.unary main_call1_v7 main_call1_v8 ((broadcastInDim S1024x1 ![0] bcast_S1024_S1024x1_0) : (⟨S1024, .f32⟩ : BufTy).Contents (Elt F) → (⟨S1024x1, .f32⟩ : BufTy).Contents (Elt F)),
    StableHlo.unary main_call1_v8 main_call1_v9 ((Host.log) : (⟨S1024x1, .f32⟩ : BufTy).Contents (Elt F) → (⟨S1024x1, .f32⟩ : BufTy).Contents (Elt F)),
    StableHlo.unary main_call1_v9 main_call1_v10 ((broadcastInDim S1024x100000 ![0, 1] bcast_S1024x1_S1024x100000_0_1) : (⟨S1024x1, .f32⟩ : BufTy).Contents (Elt F) → (⟨S1024x100000, .f32⟩ : BufTy).Contents (Elt F)),
    StableHlo.binary main_call1_v5 main_call1_v10 main_v13 ((subf) : (⟨S1024x100000, .f32⟩ : BufTy).Contents (Elt F) → (⟨S1024x100000, .f32⟩ : BufTy).Contents (Elt F) → (⟨S1024x100000, .f32⟩ : BufTy).Contents (Elt F)) ]

attribute [local irreducible] Host.reduce Host.reduceAdd Host.gather Host.scatter in
set_option maxRecDepth 8192 in
theorem ops3_eq : (ops3 : List (HloOp τ sig (Elt F))) = ops3u := rfl

/-- The buffers window 3's operations write. -/
abbrev W3 : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v13]

theorem ops3_writes : (ops3u : List (HloOp τ sig (Elt F))).Forall fun op =>
    op.writes ⊆ (W3.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer window 3 does not write keeps its contents through it. -/
theorem keep3 (V : Valuation τ sig (Elt F)) (r : Ref sig .tc) (h : r ∉ W3) :
    after ops3u V (Proc.devRef .tc r) = V (Proc.devRef .tc r) :=
  after_of_writes_sub ops3u V ops3_writes h

set_option maxRecDepth 8192 in
set_option maxHeartbeats 2000000 in
/-- What window 3 leaves in its result buffer, from any contents. -/
theorem res3 (V : Valuation τ sig (Elt F)) :
    after ops3u V (Proc.devRef .tc main_v13) = logSoftmax (V (Proc.devRef .tc main_arg1)) := by
  simp only [ops3u]
  after_results_simp
  unfold logSoftmax shifted rowMax
  rfl

/-- Window 4's operations over their buffers directly: a called function's operation is the same operation with its
    function read at the buffers' own types. -/
abbrev ops4u : List (HloOp τ sig (Elt F)) :=
  [ StableHlo.unary main_arg2 main_v14 (broadcastInDim S1024x1 ![0] bcast_S1024_S1024x1_0 : (⟨S1024, .i32⟩ : BufTy).Contents (Elt F) → (⟨S1024x1, .i32⟩ : BufTy).Contents (Elt F)),
    StableHlo.nullary main_call2_c (constantI S_ 32 0#32),
    StableHlo.unary main_call2_c main_call2_v0 ((broadcastInDim S1024x1 ![] bcast_S_S1024x1) : (⟨S_, .i32⟩ : BufTy).Contents (Elt F) → (⟨S1024x1, .i32⟩ : BufTy).Contents (Elt F)),
    StableHlo.binary main_v14 main_call2_v0 main_call2_v1 ((cmpi .slt) : (⟨S1024x1, .i32⟩ : BufTy).Contents (Elt F) → (⟨S1024x1, .i32⟩ : BufTy).Contents (Elt F) → (⟨S1024x1, .i1⟩ : BufTy).Contents (Elt F)),
    StableHlo.nullary main_call2_c_0 (constantI S_ 32 100000#32),
    StableHlo.unary main_call2_c_0 main_call2_v2 ((broadcastInDim S1024x1 ![] bcast_S_S1024x1) : (⟨S_, .i32⟩ : BufTy).Contents (Elt F) → (⟨S1024x1, .i32⟩ : BufTy).Contents (Elt F)),
    StableHlo.binary main_v14 main_call2_v2 main_call2_v3 ((addi) : (⟨S1024x1, .i32⟩ : BufTy).Contents (Elt F) → (⟨S1024x1, .i32⟩ : BufTy).Contents (Elt F) → (⟨S1024x1, .i32⟩ : BufTy).Contents (Elt F)),
    StableHlo.ternary main_call2_v1 main_call2_v3 main_v14 main_call2_v4 ((select) : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    StableHlo.reshape main_call2_v4 main_call2_v5 rfl shapeCasts_S1024x1_S1024x1x1,
    StableHlo.nullary main_call2_c_1 (constantI S1 32 99999#32),
    StableHlo.nullary main_call2_c_2 (constantI S_ 32 0#32),
    StableHlo.unary main_call2_c_2 main_call2_v6 ((broadcastInDim S1024x1x1 ![] bcast_S_S1024x1x1) : (⟨S_, .i32⟩ : BufTy).Contents (Elt F) → (⟨S1024x1x1, .i32⟩ : BufTy).Contents (Elt F)),
    StableHlo.binary main_call2_v5 main_call2_v6 main_call2_v7 ((cmpi .sge) : (⟨S1024x1x1, .i32⟩ : BufTy).Contents (Elt F) → (⟨S1024x1x1, .i32⟩ : BufTy).Contents (Elt F) → (⟨S1024x1x1, .i1⟩ : BufTy).Contents (Elt F)),
    StableHlo.unary main_call2_c_1 main_call2_v8 ((broadcastInDim S1x1x1 ![2] bcast_S1_S1x1x1_2) : (⟨S1, .i32⟩ : BufTy).Contents (Elt F) → (⟨S1x1x1, .i32⟩ : BufTy).Contents (Elt F)),
    StableHlo.unary main_call2_v8 main_call2_v9 ((broadcastInDim S1024x1x1 ![0, 1, 2] bcast_S1x1x1_S1024x1x1_0_1_2) : (⟨S1x1x1, .i32⟩ : BufTy).Contents (Elt F) → (⟨S1024x1x1, .i32⟩ : BufTy).Contents (Elt F)),
    StableHlo.binary main_call2_v5 main_call2_v9 main_call2_v10 ((cmpi .sle) : (⟨S1024x1x1, .i32⟩ : BufTy).Contents (Elt F) → (⟨S1024x1x1, .i32⟩ : BufTy).Contents (Elt F) → (⟨S1024x1x1, .i1⟩ : BufTy).Contents (Elt F)),
    StableHlo.binary main_call2_v7 main_call2_v10 main_call2_v11 ((andi) : (⟨S1024x1x1, .i1⟩ : BufTy).Contents (Elt F) → (⟨S1024x1x1, .i1⟩ : BufTy).Contents (Elt F) → (⟨S1024x1x1, .i1⟩ : BufTy).Contents (Elt F)),
    StableHlo.nullary main_call2_c_3 (constantI S_ 1 1#1),
    StableHlo.binary main_call2_v11 main_call2_c_3 main_call2_v12 ((fun x v => Host.reduce IntOp.andi x v reducesTo_S1024x1x1_S1024x1_d2 h_S_) : (⟨S1024x1x1, .i1⟩ : BufTy).Contents (Elt F) → (⟨S_, .i1⟩ : BufTy).Contents (Elt F) → (⟨S1024x1, .i1⟩ : BufTy).Contents (Elt F)),
    StableHlo.binary main_v13 main_call2_v5 main_call2_v13 ((fun x i => Host.gather gather_S1024x100000_S1024x1x1_S1024x1_n_1_0_0_1_2_11 x i) : (⟨S1024x100000, .f32⟩ : BufTy).Contents (Elt F) → (⟨S1024x1x1, .i32⟩ : BufTy).Contents (Elt F) → (⟨S1024x1, .f32⟩ : BufTy).Contents (Elt F)),
    StableHlo.nullary main_call2_cst (constant S_ .f32 0x7FC00000#32),
    StableHlo.unary main_call2_cst main_call2_v14 ((broadcastInDim S1024x1 ![] bcast_S_S1024x1) : (⟨S_, .f32⟩ : BufTy).Contents (Elt F) → (⟨S1024x1, .f32⟩ : BufTy).Contents (Elt F)),
    StableHlo.ternary main_call2_v12 main_call2_v13 main_call2_v14 main_v15 ((select) : (⟨S1024x1, .i1⟩ : BufTy).Contents (Elt F) → (⟨S1024x1, .f32⟩ : BufTy).Contents (Elt F) → (⟨S1024x1, .f32⟩ : BufTy).Contents (Elt F) → (⟨S1024x1, .f32⟩ : BufTy).Contents (Elt F)) ]

attribute [local irreducible] Host.reduce Host.reduceAdd Host.gather Host.scatter in
set_option maxRecDepth 8192 in
theorem ops4_eq : (ops4 : List (HloOp τ sig (Elt F))) = ops4u := rfl

/-- The buffers window 4's operations write. -/
abbrev W4 : List (Ref sig .tc) := [main_v14, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v15]

theorem ops4_writes : (ops4u : List (HloOp τ sig (Elt F))).Forall fun op =>
    op.writes ⊆ (W4.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer window 4 does not write keeps its contents through it. -/
theorem keep4 (V : Valuation τ sig (Elt F)) (r : Ref sig .tc) (h : r ∉ W4) :
    after ops4u V (Proc.devRef .tc r) = V (Proc.devRef .tc r) :=
  after_of_writes_sub ops4u V ops4_writes h

set_option maxRecDepth 8192 in
set_option maxHeartbeats 2000000 in
/-- What window 4 leaves in its result buffer, from any contents. -/
theorem res4 (V : Valuation τ sig (Elt F)) :
    after ops4u V (Proc.devRef .tc main_v15) = takeAlong (V (Proc.devRef .tc main_v13)) (labCol (V (Proc.devRef .tc main_arg2))) := by
  simp only [ops4u]
  after_results_simp
  unfold takeAlong inRange3 idxCube wrap2 labCol
  rfl

/-- The buffers window 5's operations write. -/
abbrev W5 : List (Ref sig .tc) := [main_v16, main_v17, main_cst_2, main_v18, main_cst_3, main_v19]

theorem ops5_writes : (ops5 : List (HloOp τ sig (Elt F))).Forall fun op =>
    op.writes ⊆ (W5.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer window 5 does not write keeps its contents through it. -/
theorem keep5 (V : Valuation τ sig (Elt F)) (r : Ref sig .tc) (h : r ∉ W5) :
    after ops5 V (Proc.devRef .tc r) = V (Proc.devRef .tc r) :=
  after_of_writes_sub ops5 V ops5_writes h

set_option maxRecDepth 8192 in
set_option maxHeartbeats 2000000 in
/-- What window 5 leaves in its result buffer, from any contents. -/
theorem res5 (V : Valuation τ sig (Elt F)) :
    after ops5 V (Proc.devRef .tc main_v19) = meanNll (V (Proc.devRef .tc main_v15)) := by
  simp only [ops5]
  after_results_simp
  unfold meanNll
  rfl

/-- Window 6's operations over their buffers directly: a called function's operation is the same operation with its
    function read at the buffers' own types. -/
abbrev ops6u : List (HloOp τ sig (Elt F)) :=
  [ StableHlo.nullary main_call3_c (constantI S_ 32 0#32),
    StableHlo.unary main_call3_c main_call3_v0 ((broadcastInDim S1024 ![] bcast_S_S1024) : (⟨S_, .i32⟩ : BufTy).Contents (Elt F) → (⟨S1024, .i32⟩ : BufTy).Contents (Elt F)),
    StableHlo.binary main_arg2 main_call3_v0 main_call3_v1 ((cmpi .slt) : (⟨S1024, .i32⟩ : BufTy).Contents (Elt F) → (⟨S1024, .i32⟩ : BufTy).Contents (Elt F) → (⟨S1024, .i1⟩ : BufTy).Contents (Elt F)),
    StableHlo.nullary main_call3_c_0 (constantI S_ 32 100000#32),
    StableHlo.unary main_call3_c_0 main_call3_v2 ((broadcastInDim S1024 ![] bcast_S_S1024) : (⟨S_, .i32⟩ : BufTy).Contents (Elt F) → (⟨S1024, .i32⟩ : BufTy).Contents (Elt F)),
    StableHlo.binary main_arg2 main_call3_v2 main_call3_v3 ((addi) : (⟨S1024, .i32⟩ : BufTy).Contents (Elt F) → (⟨S1024, .i32⟩ : BufTy).Contents (Elt F) → (⟨S1024, .i32⟩ : BufTy).Contents (Elt F)),
    StableHlo.ternary main_call3_v1 main_call3_v3 main_arg2 main_call3_v4 ((select) : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_call3_v4 main_call3_v5 ((broadcastInDim S1024x1 ![0] bcast_S1024_S1024x1_0) : (⟨S1024, .i32⟩ : BufTy).Contents (Elt F) → (⟨S1024x1, .i32⟩ : BufTy).Contents (Elt F)),
    StableHlo.nullary main_call3_c_1 (constantI S1 32 99999#32),
    StableHlo.nullary main_call3_c_2 (constantI S_ 32 0#32),
    StableHlo.unary main_call3_c_2 main_call3_v6 ((broadcastInDim S1024x1 ![] bcast_S_S1024x1) : (⟨S_, .i32⟩ : BufTy).Contents (Elt F) → (⟨S1024x1, .i32⟩ : BufTy).Contents (Elt F)),
    StableHlo.binary main_call3_v5 main_call3_v6 main_call3_v7 ((cmpi .sge) : (⟨S1024x1, .i32⟩ : BufTy).Contents (Elt F) → (⟨S1024x1, .i32⟩ : BufTy).Contents (Elt F) → (⟨S1024x1, .i1⟩ : BufTy).Contents (Elt F)),
    StableHlo.unary main_call3_c_1 main_call3_v8 ((broadcastInDim S1x1 ![1] bcast_S1_S1x1_1) : (⟨S1, .i32⟩ : BufTy).Contents (Elt F) → (⟨S1x1, .i32⟩ : BufTy).Contents (Elt F)),
    StableHlo.unary main_call3_v8 main_call3_v9 ((broadcastInDim S1024x1 ![0, 1] bcast_S1x1_S1024x1_0_1) : (⟨S1x1, .i32⟩ : BufTy).Contents (Elt F) → (⟨S1024x1, .i32⟩ : BufTy).Contents (Elt F)),
    StableHlo.binary main_call3_v5 main_call3_v9 main_call3_v10 ((cmpi .sle) : (⟨S1024x1, .i32⟩ : BufTy).Contents (Elt F) → (⟨S1024x1, .i32⟩ : BufTy).Contents (Elt F) → (⟨S1024x1, .i1⟩ : BufTy).Contents (Elt F)),
    StableHlo.binary main_call3_v7 main_call3_v10 main_call3_v11 ((andi) : (⟨S1024x1, .i1⟩ : BufTy).Contents (Elt F) → (⟨S1024x1, .i1⟩ : BufTy).Contents (Elt F) → (⟨S1024x1, .i1⟩ : BufTy).Contents (Elt F)),
    StableHlo.nullary main_call3_c_3 (constantI S_ 1 1#1),
    StableHlo.binary main_call3_v11 main_call3_c_3 main_call3_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F)),
    StableHlo.binary main_v12 main_call3_v5 main_call3_v13 ((fun x i => Host.gather gather_S100000x128_S1024x1_S1024x128_1_0_n_n_0_1_1128 x i) : (⟨S100000x128, .f32⟩ : BufTy).Contents (Elt F) → (⟨S1024x1, .i32⟩ : BufTy).Contents (Elt F) → (⟨S1024x128, .f32⟩ : BufTy).Contents (Elt F)),
    StableHlo.unary main_call3_v12 main_call3_v14 ((broadcastInDim S1024x128 ![0] bcast_S1024_S1024x128_0) : (⟨S1024, .i1⟩ : BufTy).Contents (Elt F) → (⟨S1024x128, .i1⟩ : BufTy).Contents (Elt F)),
    StableHlo.nullary main_call3_cst (constant S_ .f32 0x7FC00000#32),
    StableHlo.unary main_call3_cst main_call3_v15 ((broadcastInDim S1024x128 ![] bcast_S_S1024x128) : (⟨S_, .f32⟩ : BufTy).Contents (Elt F) → (⟨S1024x128, .f32⟩ : BufTy).Contents (Elt F)),
    StableHlo.ternary main_call3_v14 main_call3_v13 main_call3_v15 main_v20 ((select) : (⟨S1024x128, .i1⟩ : BufTy).Contents (Elt F) → (⟨S1024x128, .f32⟩ : BufTy).Contents (Elt F) → (⟨S1024x128, .f32⟩ : BufTy).Contents (Elt F) → (⟨S1024x128, .f32⟩ : BufTy).Contents (Elt F)) ]

attribute [local irreducible] Host.reduce Host.reduceAdd Host.gather Host.scatter in
set_option maxRecDepth 8192 in
theorem ops6_eq : (ops6 : List (HloOp τ sig (Elt F))) = ops6u := rfl

/-- The buffers window 6's operations write. -/
abbrev W6 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v20]

theorem ops6_writes : (ops6u : List (HloOp τ sig (Elt F))).Forall fun op =>
    op.writes ⊆ (W6.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer window 6 does not write keeps its contents through it. -/
theorem keep6 (V : Valuation τ sig (Elt F)) (r : Ref sig .tc) (h : r ∉ W6) :
    after ops6u V (Proc.devRef .tc r) = V (Proc.devRef .tc r) :=
  after_of_writes_sub ops6u V ops6_writes h

set_option maxRecDepth 8192 in
set_option maxHeartbeats 2000000 in
/-- What window 6 leaves in its result buffer, from any contents. -/
theorem res6 (V : Valuation τ sig (Elt F)) :
    after ops6u V (Proc.devRef .tc main_v20) = takeRows (V (Proc.devRef .tc main_v12)) (V (Proc.devRef .tc main_arg2)) := by
  simp only [ops6u]
  after_results_simp
  unfold takeRows inRange idxCol wrap1
  rfl

/-- The buffers window 7's operations write. -/
abbrev W7 : List (Ref sig .tc) := [main_v21, main_v22, main_cst_4, main_v23, main_cst_5, main_v24, main_cst_6, main_v25, main_v26]

theorem ops7_writes : (ops7 : List (HloOp τ sig (Elt F))).Forall fun op =>
    op.writes ⊆ (W7.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

/-- A buffer window 7 does not write keeps its contents through it. -/
theorem keep7 (V : Valuation τ sig (Elt F)) (r : Ref sig .tc) (h : r ∉ W7) :
    after ops7 V (Proc.devRef .tc r) = V (Proc.devRef .tc r) :=
  after_of_writes_sub ops7 V ops7_writes h

set_option maxRecDepth 8192 in
set_option maxHeartbeats 2000000 in
/-- What window 7 leaves in its result buffer, from any contents. -/
theorem res7 (V : Valuation τ sig (Elt F)) :
    after ops7 V (Proc.devRef .tc main_v26) = total (V (Proc.devRef .tc main_arg0)) (V (Proc.devRef .tc main_v20)) (V (Proc.devRef .tc main_v19)) := by
  simp only [ops7]
  after_results_simp
  unfold total
  rfl

/-- The whole line as the seven windows run in turn. -/
theorem after_ops (V : Valuation τ sig (Elt F)) :
    after ops V = after ops7 (after ops6u (after ops5 (after ops4u (after ops3u (after ops2 (after ops1u V)))))) := by
  show after (ops1 ++ (ops2 ++ (ops3 ++ (ops4 ++ (ops5 ++ (ops6 ++ ops7)))))) V = _
  rw [ops1_eq, ops3_eq, ops4_eq, ops6_eq]
  simp only [after_app]

/-- The result buffer after the whole line: the windows' results composed, the buffers between them kept. -/
theorem after_ops_out (V : Valuation τ sig (Elt F)) :
    after ops V (Proc.devRef .tc main_v26)
      = total (V (Proc.devRef .tc main_arg0))
          (takeRows (newCenters (V (Proc.devRef .tc main_arg3)) (V (Proc.devRef .tc main_arg2))
            (blend (takeRows (V (Proc.devRef .tc main_arg3)) (V (Proc.devRef .tc main_arg2))) (V (Proc.devRef .tc main_arg0)))) (V (Proc.devRef .tc main_arg2)))
          (meanNll (takeAlong (logSoftmax (V (Proc.devRef .tc main_arg1))) (labCol (V (Proc.devRef .tc main_arg2))))) := by
  rw [after_ops, res7,
    keep6 _ main_arg0 (by decide),
    res6,
    keep6 _ main_v19 (by decide),
    keep5 _ main_arg0 (by decide),
    keep5 _ main_v12 (by decide),
    keep5 _ main_arg2 (by decide),
    res5,
    keep4 _ main_arg0 (by decide),
    keep4 _ main_v12 (by decide),
    keep4 _ main_arg2 (by decide),
    res4,
    keep3 _ main_arg0 (by decide),
    keep3 _ main_v12 (by decide),
    keep3 _ main_arg2 (by decide),
    res3,
    keep2 _ main_arg0 (by decide),
    res2,
    keep2 _ main_arg2 (by decide),
    keep2 _ main_arg1 (by decide),
    keep1 _ main_arg0 (by decide),
    keep1 _ main_arg3 (by decide),
    keep1 _ main_arg2 (by decide),
    res1,
    keep1 _ main_arg1 (by decide)]

/-- No operation writes `main_arg0`. -/
theorem after_ops_main_arg0 (V : Valuation τ sig (Elt F)) : after ops V (Proc.devRef .tc main_arg0) = V (Proc.devRef .tc main_arg0) := by
  rw [after_ops, keep7 _ main_arg0 (by decide), keep6 _ main_arg0 (by decide), keep5 _ main_arg0 (by decide), keep4 _ main_arg0 (by decide), keep3 _ main_arg0 (by decide), keep2 _ main_arg0 (by decide), keep1 _ main_arg0 (by decide)]

/-- No operation writes `main_arg1`. -/
theorem after_ops_main_arg1 (V : Valuation τ sig (Elt F)) : after ops V (Proc.devRef .tc main_arg1) = V (Proc.devRef .tc main_arg1) := by
  rw [after_ops, keep7 _ main_arg1 (by decide), keep6 _ main_arg1 (by decide), keep5 _ main_arg1 (by decide), keep4 _ main_arg1 (by decide), keep3 _ main_arg1 (by decide), keep2 _ main_arg1 (by decide), keep1 _ main_arg1 (by decide)]

/-- No operation writes `main_arg2`. -/
theorem after_ops_main_arg2 (V : Valuation τ sig (Elt F)) : after ops V (Proc.devRef .tc main_arg2) = V (Proc.devRef .tc main_arg2) := by
  rw [after_ops, keep7 _ main_arg2 (by decide), keep6 _ main_arg2 (by decide), keep5 _ main_arg2 (by decide), keep4 _ main_arg2 (by decide), keep3 _ main_arg2 (by decide), keep2 _ main_arg2 (by decide), keep1 _ main_arg2 (by decide)]

/-- No operation writes `main_arg3`. -/
theorem after_ops_main_arg3 (V : Valuation τ sig (Elt F)) : after ops V (Proc.devRef .tc main_arg3) = V (Proc.devRef .tc main_arg3) := by
  rw [after_ops, keep7 _ main_arg3 (by decide), keep6 _ main_arg3 (by decide), keep5 _ main_arg3 (by decide), keep4 _ main_arg3 (by decide), keep3 _ main_arg3 (by decide), keep2 _ main_arg3 (by decide), keep1 _ main_arg3 (by decide)]

/-- On every device, from any memory with zero counters: every weakly fair execution of the reference's @main terminates
    with its result at `refVal` of the arguments' launch contents and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v26) = refVal (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨(h c main_v26).trans ((after_ops_out _).trans rfl),
      (h c main_arg0).trans ((after_ops_main_arg0 _).trans rfl),
      (h c main_arg1).trans ((after_ops_main_arg1 _).trans rfl),
      (h c main_arg2).trans ((after_ops_main_arg2 _).trans rfl),
      (h c main_arg3).trans ((after_ops_main_arg3 _).trans rfl)⟩)
    (run_all m ρ)

end Cert.RefProof

end
-- ==== Proof.RefIdx.lean ====
/-
  The integer side of the reference, read at an index, for labels that are class numbers `0 … 99999` written as 32-bit
  words: such a label is not negative, so jnp's wrap leaves it alone; it passes the range test, so the mask over the
  looked-up rows is all ones; and the clamped gathers read the table's row, or the row's column, at the label itself.
  Hence `takeRows tbl lab (i, d) = tbl (l i, d)` and `takeAlong lp (labCol lab) (i, ·) = lp (i, l i)`.
-/
import proofs.«217730_g43602507989570_cont_8to1c4_241_33_alg».proof.Proof.RefTerm
import Idealize.ShloMosaic.Lib.ValueIdx
import Idealize.ShloMosaic.PureOps.Reduce
import Idealize.ShloMosaic.Lib.Pipeline.Value

noncomputable section

namespace Cert.RefProof

open Cert.ReferenceIdeal Cert.ReferenceIdeal.Facts₀ Idealize.ShloMosaic Idealize.ShloMosaic.ValueIdx

/-! ## Labels as 32-bit words -/

/-- A natural number below `2^31` read back signed from its 32-bit word is itself. -/
theorem toInt_ofNat_small {n : ℕ} (h : n < 2 ^ 31) : (BitVec.ofNat 32 n).toInt = (n : ℤ) := by
  rw [BitVec.toInt_eq_toNat_cond, BitVec.toNat_ofNat, Nat.mod_eq_of_lt (by omega)]
  rw [if_pos (by omega)]

theorem toInt_zero32 : (0#32 : BitVec 32).toInt = 0 := by decide
theorem toInt_99999 : (99999#32 : BitVec 32).toInt = 99999 := by decide

/-- A label's word is not negative. -/
theorem slt_zero_label {n : ℕ} (h : n < 100000) : IntOp.cmpi .slt (BitVec.ofNat 32 n) 0#32 = 0#1 := by
  have h1 := toInt_ofNat_small (n := n) (by omega)
  simp only [IntOp.cmpi, BitVec.slt, h1, toInt_zero32]
  have : ¬ ((n : ℤ) < 0) := by omega
  simp [this]

/-- A label's word is at least zero. -/
theorem sge_zero_label {n : ℕ} (h : n < 100000) : IntOp.cmpi .sge (BitVec.ofNat 32 n) 0#32 = 1#1 := by
  have h1 := toInt_ofNat_small (n := n) (by omega)
  simp only [IntOp.cmpi, BitVec.sle, h1, toInt_zero32]
  have : ((0 : ℤ) ≤ n) := by omega
  simp [this]

/-- A label's word is at most 99999. -/
theorem sle_max_label {n : ℕ} (h : n < 100000) : IntOp.cmpi .sle (BitVec.ofNat 32 n) 99999#32 = 1#1 := by
  have h1 := toInt_ofNat_small (n := n) (by omega)
  simp only [IntOp.cmpi, BitVec.sle, h1, toInt_99999]
  have : ((n : ℤ) ≤ 99999) := by omega
  simp [this]

/-! ## The wrapped labels and the range mask -/

section Labels
variable (lab : IVec S1024 32) (l : Fin 1024 → Fin 100000)

/-- A label that is not negative is its own wrap. -/
theorem wrap1_apply (hlab : ∀ i, lab (ix1 i) = BitVec.ofNat 32 (l i).val) (i : Fin 1024) :
    wrap1 lab (ix1 i) = BitVec.ofNat 32 (l i).val := by
  show Scalar.select (IntOp.cmpi .slt (lab (ix1 i)) 0#32) _ (lab (ix1 i)) = _
  rw [hlab i, slt_zero_label (l i).isLt, select_zero]

/-- The index column at row `i` is that row's label. -/
theorem idxCol_apply (hlab : ∀ i, lab (ix1 i) = BitVec.ofNat 32 (l i).val) (i : Fin 1024) (c : Fin 1) :
    idxCol lab (ix2 i c) = BitVec.ofNat 32 (l i).val := by
  have h : idxCol lab (ix2 i c) = wrap1 lab (ix1 i) := by
    show wrap1 lab _ = wrap1 lab _
    congr 1
    funext a
    match a with
    | ⟨0, _⟩ => rfl
  rw [h, wrap1_apply lab l hlab]

end Labels

/-- Folding an idempotent element with itself over any set gives it back. -/
theorem fold_const_idem {κ α : Type} (op : α → α → α) [Std.Commutative op] [Std.Associative op] (b : α)
    (hb : op b b = b) (s : Finset κ) : s.fold op b (fun _ => b) = b := by
  classical
  induction s using Finset.induction_on with
  | empty => rfl
  | insert a s ha ih => rw [Finset.fold_insert ha, ih, hb]

/-- Every row's index is inside `0 … 99999`. -/
theorem inRange_apply (lab : IVec S1024 32) (l : Fin 1024 → Fin 100000)
    (hlab : ∀ i, lab (ix1 i) = BitVec.ofNat 32 (l i).val) (j : S1024.Idx) : inRange (idxCol lab) j = 1#1 := by
  unfold inRange
  rw [Host.reduce_eq_fold_single IntOp.andi _ _ reducesTo_S1024x1_S1024_d1 (by decide : S1024x1.Reduces [1] S1024) h_S_ j]
  have hx : ((andi (cmpi .sge (idxCol lab) (broadcastInDim S1024x1 ![] bcast_S_S1024x1 (constantI S_ 32 0#32)))
      (cmpi .sle (idxCol lab) (broadcastInDim S1024x1 ![0, 1] bcast_S1x1_S1024x1_0_1
        (broadcastInDim S1x1 ![1] bcast_S1_S1x1_1 (constantI S1 32 99999#32))))) : IVec S1024x1 1) = fun _ => 1#1 := by
    funext jj
    obtain ⟨i, c, rfl⟩ : ∃ (i : Fin 1024) (c : Fin 1), jj = ix2 i c := ⟨jj 0, jj 1, eq_ix2 jj⟩
    show IntOp.andi (IntOp.cmpi .sge (idxCol lab (ix2 i c)) 0#32) (IntOp.cmpi .sle (idxCol lab (ix2 i c)) 99999#32) = 1#1
    rw [idxCol_apply lab l hlab, sge_zero_label (l i).isLt, sle_max_label (l i).isLt]
    decide
  rw [hx]
  exact fold_const_idem IntOp.andi 1#1 (by decide) _

/-! ## The row gather read at an index -/

/-- The gather of rows read at `(i, d)`: the table's entry `d` of the row at the index of sample `i`, read signed
    and clamped into `0 … 99999`. -/
theorem gatherRows_apply {α : Type} (tbl : S100000x128.Idx → α) (idx : IVec S1024x1 32) (i : Fin 1024) (d : Fin 128) :
    Host.gather gather_S100000x128_S1024x1_S1024x128_1_0_n_n_0_1_1128 tbl idx (ix2 i d)
      = tbl (ix2 ⟨min (idx (ix2 i 0)).toInt.toNat (100000 - 1), by omega⟩ d) := by
  unfold Host.gather
  congr 1
  funext a
  refine Fin.ext ?_
  show gather_S100000x128_S1024x1_S1024x128_1_0_n_n_0_1_1128.start (ix2 i d) idx a
    + gather_S100000x128_S1024x1_S1024x128_1_0_n_n_0_1_1128.batchCoord (ix2 i d) a
    + gather_S100000x128_S1024x1_S1024x128_1_0_n_n_0_1_1128.offCoord (ix2 i d) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin S100000x128.rank) ∈ gather_S100000x128_S1024x1_S1024x128_1_0_n_n_0_1_1128.startIndexMap from
      List.mem_singleton.mpr rfl)]
    have hsi : gather_S100000x128_S1024x1_S1024x128_1_0_n_n_0_1_1128.siIdx (ix2 i d)
        ⟨List.idxOf (⟨0, h0⟩ : Fin S100000x128.rank) gather_S100000x128_S1024x1_S1024x128_1_0_n_n_0_1_1128.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, h1⟩ =>
    have hs : gather_S100000x128_S1024x1_S1024x128_1_0_n_n_0_1_1128.start (ix2 i d) idx ⟨1, h1⟩ = 0 := by
      unfold GatherDims.start
      rw [dif_neg (by decide +revert)]
    rw [hs, Nat.zero_add]
    rfl

/-- `jnp.take` of a table at labels inside the range, read at `(i, d)`: the label's row. -/
theorem takeRows_apply {F : FTy → Type} [FloatOps F] (tbl : FVec F S100000x128 .f32) (lab : IVec S1024 32)
    (l : Fin 1024 → Fin 100000) (hlab : ∀ i, lab (ix1 i) = BitVec.ofNat 32 (l i).val) (i : Fin 1024) (d : Fin 128) :
    takeRows tbl lab (ix2 i d) = tbl (ix2 (l i) d) := by
  unfold takeRows
  rw [select_apply]
  have hm : broadcastInDim S1024x128 ![0] bcast_S1024_S1024x128_0 (inRange (idxCol lab)) (ix2 i d) = 1#1 := by
    show inRange (idxCol lab) _ = 1#1
    exact inRange_apply lab l hlab _
  rw [hm, select_one, gatherRows_apply]
  congr 1
  have h1 := toInt_ofNat_small (n := (l i).val) (by have := (l i).isLt; omega)
  have hl := (l i).isLt
  funext a
  refine Fin.ext ?_
  match a with
  | ⟨0, _⟩ =>
    show min (idxCol lab (ix2 i 0)).toInt.toNat (100000 - 1) = (l i).val
    rw [idxCol_apply lab l hlab, h1]; simp only [Int.toNat_natCast]; omega
  | ⟨1, _⟩ => rfl

/-! ## The lookup of each row's label column, read at an index -/

/-- The column gather read at `(i, c)`: the row's entry at the index of `(i, c)`, read signed and clamped. -/
theorem gatherAlong_apply {α : Type} (lp : S1024x100000.Idx → α) (idx : IVec S1024x1x1 32) (i : Fin 1024) (c : Fin 1) :
    Host.gather gather_S1024x100000_S1024x1x1_S1024x1_n_1_0_0_1_2_11 lp idx (ix2 i c)
      = lp (ix2 i ⟨min (idx (ix3 i c 0)).toInt.toNat (100000 - 1), by omega⟩) := by
  unfold Host.gather
  congr 1
  funext a
  refine Fin.ext ?_
  show gather_S1024x100000_S1024x1x1_S1024x1_n_1_0_0_1_2_11.start (ix2 i c) idx a + gather_S1024x100000_S1024x1x1_S1024x1_n_1_0_0_1_2_11.batchCoord (ix2 i c) a + gather_S1024x100000_S1024x1x1_S1024x1_n_1_0_0_1_2_11.offCoord (ix2 i c) a = _
  match a with
  | ⟨0, h0⟩ =>
    have hs : gather_S1024x100000_S1024x1x1_S1024x1_n_1_0_0_1_2_11.start (ix2 i c) idx ⟨0, h0⟩ = 0 := by
      unfold GatherDims.start
      rw [dif_neg (by decide +revert)]
    rw [hs, Nat.zero_add,
      GatherDims.offCoord_eq_zero _ _ _ (fun h => ((GatherDims.mem_sKept _ _).mp h).2 (List.mem_singleton.mpr rfl)),
      Nat.add_zero]
    unfold GatherDims.batchCoord
    rw [dif_pos (show (⟨0, h0⟩ : Fin S1024x100000.rank) ∈ gather_S1024x100000_S1024x1x1_S1024x1_n_1_0_0_1_2_11.operandBatchingDims from List.mem_singleton.mpr rfl)]
    rfl
  | ⟨1, h1⟩ =>
    rw [GatherDims.batchCoord_eq_zero _ _ _ (by decide +revert), Nat.add_zero,
      GatherDims.offCoord_eq_zero _ _ _ (fun h => ((GatherDims.mem_sKept _ _).mp h).1 (List.mem_singleton.mpr rfl)),
      Nat.add_zero]
    unfold GatherDims.start
    rw [dif_pos (show (⟨1, h1⟩ : Fin S1024x100000.rank) ∈ gather_S1024x100000_S1024x1x1_S1024x1_n_1_0_0_1_2_11.startIndexMap from List.mem_singleton.mpr rfl)]
    have hsi : gather_S1024x100000_S1024x1x1_S1024x1_n_1_0_0_1_2_11.siIdx (ix2 i c)
        ⟨List.idxOf (⟨1, h1⟩ : Fin S1024x100000.rank) gather_S1024x100000_S1024x1x1_S1024x1_n_1_0_0_1_2_11.startIndexMap,
          List.idxOf_lt_length_iff.2 (List.mem_singleton.mpr rfl)⟩ = ix3 i c 0 := by
      funext b; refine Fin.ext ?_
      match b with
      | ⟨0, _⟩ => rfl
      | ⟨1, _⟩ => rfl
      | ⟨2, _⟩ => rfl
    rw [hsi]
    rfl

section Along
variable (lab : IVec S1024 32) (l : Fin 1024 → Fin 100000) (hlab : ∀ i, lab (ix1 i) = BitVec.ofNat 32 (l i).val)

include hlab in
/-- The wrapped column index with its unit axis, at `(i, c, z)`: row `i`'s label. -/
theorem idxCube_apply (i : Fin 1024) (c z : Fin 1) :
    idxCube (labCol lab) (ix3 i c z) = BitVec.ofNat 32 (l i).val := by
  unfold idxCube
  rw [shapeCast_apply (wrap2 (labCol lab)) shapeCasts_S1024x1_S1024x1x1 (ix3 i c z) (ix2 i c) (by
    rw [Shape.rowMajor_val_three, Shape.rowMajor_val_two]
    have hz : z.val = 0 := by omega
    show i.val * 1 + c.val = (i.val * 1 + c.val) * 1 + z.val
    rw [hz]; omega)]
  have hl : labCol lab (ix2 i c) = BitVec.ofNat 32 (l i).val := by
    have h : labCol lab (ix2 i c) = lab (ix1 i) := by
      show lab _ = lab _
      congr 1
      funext a
      match a with
      | ⟨0, _⟩ => rfl
    rw [h, hlab]
  show Scalar.select (IntOp.cmpi .slt (labCol lab (ix2 i c)) 0#32) _ (labCol lab (ix2 i c)) = _
  rw [hl, slt_zero_label (l i).isLt, select_zero]

include hlab in
/-- Every row's column index is inside `0 … 99999`. -/
theorem inRange3_apply (j : S1024x1.Idx) : inRange3 (idxCube (labCol lab)) j = 1#1 := by
  unfold inRange3
  rw [Host.reduce_eq_fold_single IntOp.andi _ _ reducesTo_S1024x1x1_S1024x1_d2 (by decide : S1024x1x1.Reduces [2] S1024x1) h_S_ j]
  have hx : ((andi (cmpi .sge (idxCube (labCol lab)) (broadcastInDim S1024x1x1 ![] bcast_S_S1024x1x1 (constantI S_ 32 0#32)))
      (cmpi .sle (idxCube (labCol lab)) (broadcastInDim S1024x1x1 ![0, 1, 2] bcast_S1x1x1_S1024x1x1_0_1_2
        (broadcastInDim S1x1x1 ![2] bcast_S1_S1x1x1_2 (constantI S1 32 99999#32))))) : IVec S1024x1x1 1) = fun _ => 1#1 := by
    funext jj
    obtain ⟨i, c, z, rfl⟩ : ∃ (i : Fin 1024) (c z : Fin 1), jj = ix3 i c z := ⟨jj 0, jj 1, jj 2, eq_ix3 jj⟩
    show IntOp.andi (IntOp.cmpi .sge (idxCube (labCol lab) (ix3 i c z)) 0#32)
      (IntOp.cmpi .sle (idxCube (labCol lab) (ix3 i c z)) 99999#32) = 1#1
    rw [idxCube_apply lab l hlab, sge_zero_label (l i).isLt, sle_max_label (l i).isLt]
    decide
  rw [hx]
  exact fold_const_idem IntOp.andi 1#1 (by decide) _

include hlab in
/-- `take_along_axis` at the labels, read at row `i`: the row's entry in its label's column. -/
theorem takeAlong_apply {F : FTy → Type} [FloatOps F] (lp : FVec F S1024x100000 .f32) (i : Fin 1024) (c : Fin 1) :
    takeAlong lp (labCol lab) (ix2 i c) = lp (ix2 i (l i)) := by
  unfold takeAlong
  rw [select_apply, inRange3_apply lab l hlab, select_one, gatherAlong_apply]
  congr 1
  have h1 := toInt_ofNat_small (n := (l i).val) (by have := (l i).isLt; omega)
  have hl := (l i).isLt
  funext a
  refine Fin.ext ?_
  match a with
  | ⟨0, _⟩ => rfl
  | ⟨1, _⟩ =>
    show min (idxCube (labCol lab) (ix3 i c 0)).toInt.toNat (100000 - 1) = (l i).val
    rw [idxCube_apply lab l hlab, h1]; simp only [Int.toNat_natCast]; omega

end Along

end Cert.RefProof

end
-- ==== Proof.LibFoldLast.lean ====
/-
  A left fold of overwrites, read at one place.

  A step function `step : (ι → α) → κ → (ι → α)` is an OVERWRITE along `g : κ → Option ι` with values `v : κ → α` when
  item `n` puts `v n` at the place `g n` names (if it names one) and leaves every other place alone.  Folding such steps
  over a strictly increasing list, the value found at a place `i` is that of the LAST item naming `i`: the item `n₀` of
  the list with `g n₀ = some i` such that no later item names `i`.  A scatter that overwrites, its updates taken in a
  fixed order, is such a fold.
-/
import Mathlib.Data.List.Sort
import Mathlib.Order.Basic

namespace Cert.Lib

variable {ι κ α : Type}

/-- A place no item of the list names keeps its value through the fold. -/
theorem foldl_overwrite_miss (g : κ → Option ι) (step : (ι → α) → κ → (ι → α))
    (miss : ∀ r n i, g n ≠ some i → step r n i = r i) (i : ι) :
    ∀ (l : List κ) (x : ι → α), (∀ n ∈ l, g n ≠ some i) → l.foldl step x i = x i
  | [], _, _ => rfl
  | a :: t, x, h => by
    rw [List.foldl_cons, foldl_overwrite_miss g step miss i t _ fun n hn => h n (List.mem_cons_of_mem _ hn),
      miss _ _ _ (h a List.mem_cons_self)]

/-- Over a strictly increasing list, the fold leaves at place `i` the value of the last item naming `i`. -/
theorem foldl_overwrite_last [Preorder κ] (g : κ → Option ι) (v : κ → α) (step : (ι → α) → κ → (ι → α))
    (hit : ∀ r n i, g n = some i → step r n i = v n) (miss : ∀ r n i, g n ≠ some i → step r n i = r i)
    (i : ι) (n₀ : κ) (hg : g n₀ = some i) :
    ∀ (l : List κ) (x : ι → α), l.Pairwise (· < ·) → n₀ ∈ l → (∀ n ∈ l, n₀ < n → g n ≠ some i) →
      l.foldl step x i = v n₀
  | [], _, _, hn₀, _ => nomatch hn₀
  | a :: t, x, hl, hn₀, hlast => by
    rw [List.foldl_cons]
    rw [List.pairwise_cons] at hl
    rcases List.mem_cons.mp hn₀ with rfl | hmem
    · rw [foldl_overwrite_miss g step miss i t _ fun n hn => hlast n (List.mem_cons_of_mem _ hn) (hl.1 n hn),
        hit _ _ _ hg]
    · exact foldl_overwrite_last g v step hit miss i n₀ hg t _ hl.2 hmem
        fun n hn => hlast n (List.mem_cons_of_mem _ hn)

end Cert.Lib
-- ==== Proof.RefScatter.lean ====
/-
  The scatter of the blended rows into the centre table, read at a written row.  The updates are taken in row-major order,
  each overwriting the row its sample's label names; so the table's row at sample `i`'s label holds, in the end, the update
  of the LAST sample carrying that label: update `(r, c)` lands at `(l r, c)`, and among the updates landing at `(l i, d)`
  the one of largest row-major number is that of the largest sample index.
-/
import proofs.«217730_g43602507989570_cont_8to1c4_241_33_alg».proof.Proof.RefIdx
import proofs.«217730_g43602507989570_cont_8to1c4_241_33_alg».proof.Proof.LibFoldLast
import proofs.«217730_g43602507989570_cont_8to1c4_241_33_alg».proof.Proof.Spec

noncomputable section

namespace Cert.RefProof

open Cert.ReferenceIdeal Cert.ReferenceIdeal.Facts₀ Idealize.ShloMosaic Idealize.ShloMosaic.ValueIdx

/-! ## The scatter read at a written row -/

section Scatter
variable (idx : IVec S1024x1 32) (l : Fin 1024 → Fin 100000)

/-- Update `(r, c)` lands at row `l r`, column `c` of the table. -/
theorem scatter_resultIdx (hidx : ∀ i c, idx (ix2 i c) = BitVec.ofNat 32 (l i).val) (r : Fin 1024) (c : Fin 128) :
    scatter_S100000x128_S1024x1_S1024x128_1_0_0_1.resultIdx? (ix2 r c) idx = some (ix2 (l r) c) := by
  have hsi : ∀ h, scatter_S100000x128_S1024x1_S1024x128_1_0_0_1.siIdx (ix2 r c) ⟨0, h⟩ = ix2 r 0 := by
    intro h; funext b; refine Fin.ext ?_
    match b with
    | ⟨0, _⟩ => rfl
    | ⟨1, _⟩ => rfl
  have hs0 : ∀ h0, scatter_S100000x128_S1024x1_S1024x128_1_0_0_1.start (ix2 r c) idx ⟨0, h0⟩ = ((l r).val : ℤ) := by
    intro h0
    unfold ScatterDims.start
    rw [dif_pos (show (⟨0, h0⟩ : Fin 2) ∈ scatter_S100000x128_S1024x1_S1024x128_1_0_0_1.scatterDimsToOperandDims from
      List.mem_singleton.mpr rfl)]
    have : (⟨List.idxOf (⟨0, h0⟩ : Fin 2) scatter_S100000x128_S1024x1_S1024x128_1_0_0_1.scatterDimsToOperandDims,
        List.idxOf_lt_length_iff.2 (List.mem_singleton.mpr rfl)⟩ :
        Fin scatter_S100000x128_S1024x1_S1024x128_1_0_0_1.scatterDimsToOperandDims.length) = ⟨0, by decide⟩ := rfl
    rw [this, hsi, hidx, toInt_ofNat_small (by have := (l r).isLt; omega)]
  have hs1 : ∀ h1, scatter_S100000x128_S1024x1_S1024x128_1_0_0_1.start (ix2 r c) idx ⟨1, h1⟩ = 0 := by
    intro h1
    unfold ScatterDims.start
    rw [dif_neg (by decide +revert)]
  have hw0 : ∀ h0, scatter_S100000x128_S1024x1_S1024x128_1_0_0_1.window (ix2 r c) ⟨0, h0⟩ = 0 := by
    intro h0
    unfold ScatterDims.window
    rw [dif_neg (by decide +revert)]
  have hw1 : ∀ h1, scatter_S100000x128_S1024x1_S1024x128_1_0_0_1.window (ix2 r c) ⟨1, h1⟩ = c.val := by
    intro h1
    unfold ScatterDims.window
    rw [dif_pos (by decide +revert)]
    rfl
  have hl := (l r).isLt
  have hc := c.isLt
  unfold ScatterDims.resultIdx?
  rw [dif_pos (by
    intro a
    match a with
    | ⟨0, h0⟩ => rw [hs0, hw0]; constructor <;> (show _ ; simp only [Nat.cast_zero, add_zero]; first | omega | exact_mod_cast hl)
    | ⟨1, h1⟩ => rw [hs1, hw1]; constructor <;> (show _ ; simp only [zero_add]; first | omega | exact_mod_cast hc))]
  congr 1
  funext a
  refine Fin.ext ?_
  match a with
  | ⟨0, h0⟩ =>
    show (scatter_S100000x128_S1024x1_S1024x128_1_0_0_1.start (ix2 r c) idx ⟨0, h0⟩
      + scatter_S100000x128_S1024x1_S1024x128_1_0_0_1.window (ix2 r c) ⟨0, h0⟩).toNat = (l r).val
    rw [hs0, hw0]; simp
  | ⟨1, h1⟩ =>
    show (scatter_S100000x128_S1024x1_S1024x128_1_0_0_1.start (ix2 r c) idx ⟨1, h1⟩
      + scatter_S100000x128_S1024x1_S1024x128_1_0_0_1.window (ix2 r c) ⟨1, h1⟩).toNat = c.val
    rw [hs1, hw1]; simp

end Scatter

/-- The scattered table read at the row of sample `i`'s label: the update of the LAST sample carrying that label. -/
theorem scatterRows_apply {α : Type} (cen : S100000x128.Idx → α) (idx : IVec S1024x1 32) (l : Fin 1024 → Fin 100000)
    (hidx : ∀ i c, idx (ix2 i c) = BitVec.ofNat 32 (l i).val) (upd : S1024x128.Idx → α) (i : Fin 1024) (d : Fin 128) :
    Host.scatter scatter_S100000x128_S1024x1_S1024x128_1_0_0_1 (fun _ b => b) cen idx upd (ix2 (l i) d)
      = upd (ix2 (Cert.Spec.lastSame l i) d) := by
  unfold Host.scatter
  have hsym : ∀ j : S1024x128.Idx, S1024x128.rowMajor.symm (S1024x128.rowMajor j) = j := fun j => Equiv.symm_apply_apply _ _
  rw [← hsym (ix2 (Cert.Spec.lastSame l i) d)]
  exact Cert.Lib.foldl_overwrite_last
    (g := fun n : Fin S1024x128.numel => scatter_S100000x128_S1024x1_S1024x128_1_0_0_1.resultIdx? (S1024x128.rowMajor.symm n) idx)
    (v := fun n : Fin S1024x128.numel => upd (S1024x128.rowMajor.symm n)) _
    (by
      intro r n i' h
      dsimp only at h ⊢
      rw [h]
      exact if_pos rfl)
    (by
      intro r n i' h
      dsimp only at h ⊢
      generalize scatter_S100000x128_S1024x1_S1024x128_1_0_0_1.resultIdx? (S1024x128.rowMajor.symm n) idx = o at h ⊢
      cases o with
      | none => rfl
      | some j => exact if_neg (fun e => h (by rw [e])))
    (ix2 (l i) d) (S1024x128.rowMajor (ix2 (Cert.Spec.lastSame l i) d))
    (by
      show scatter_S100000x128_S1024x1_S1024x128_1_0_0_1.resultIdx? (S1024x128.rowMajor.symm (S1024x128.rowMajor (ix2 (Cert.Spec.lastSame l i) d))) idx = _
      rw [hsym, scatter_resultIdx idx l hidx, Cert.Spec.lastSame_lab l i])
    (List.finRange S1024x128.numel) cen (List.sortedLT_finRange _).pairwise (List.mem_finRange _)
    (by
      intro n _ hlt hg
      change scatter_S100000x128_S1024x1_S1024x128_1_0_0_1.resultIdx? (S1024x128.rowMajor.symm n) idx = _ at hg
      obtain ⟨r, c, hrc⟩ : ∃ (r : Fin 1024) (c : Fin 128), S1024x128.rowMajor.symm n = ix2 r c :=
        ⟨(S1024x128.rowMajor.symm n) 0, (S1024x128.rowMajor.symm n) 1, eq_ix2 _⟩
      rw [hrc, scatter_resultIdx idx l hidx] at hg
      have hg' := Option.some.inj hg
      have e0 : l r = l i := congrFun hg' 0
      have e1 : c = d := congrFun hg' 1
      have hle : r ≤ Cert.Spec.lastSame l i := Cert.Spec.le_lastSame l i r e0
      have hn : n = S1024x128.rowMajor (ix2 r c) := by rw [← hrc]; exact (Equiv.apply_symm_apply _ _).symm
      rw [hn, Fin.lt_def, Shape.rowMajor_val_two, Shape.rowMajor_val_two] at hlt
      subst e1
      have hle' : r.val ≤ (Cert.Spec.lastSame l i).val := hle
      have : (r.val) * 128 ≤ (Cert.Spec.lastSame l i).val * 128 := Nat.mul_le_mul_right _ hle'
      have hlt' : (Cert.Spec.lastSame l i).val * 128 + c.val < r.val * 128 + c.val := hlt
      exact absurd (Nat.lt_of_add_lt_add_right hlt') (Nat.not_lt.mpr this))

end Cert.RefProof

end
-- ==== Proof.RefConst.lean ====
/-
  The float words the reference names, as extended reals: the three blend and scale constants are the coercions of the
  reals the specification names, `0xFF800000` is `-∞`, `0x44800000` is 1024 and `0x48000000` is 131072; and the coercion
  of a finite real sum is the sum of the coercions.
-/
import proofs.«217730_g43602507989570_cont_8to1c4_241_33_alg».proof.Proof.Spec
import Idealize.ShloMosaic.PureOps.Ideal
import Idealize.ShloMosaic.PureOps.Ideal.Laws
import Mathlib.Data.EReal.Basic
import Mathlib.Data.EReal.Operations

noncomputable section

namespace Cert.RefProof

open Idealize.ShloMosaic

/-! ## The float words of the reference as extended reals -/

/-- A float word whose exponent field is not all ones denotes a real number. -/
theorem ofBits_f32_real (w : BitVec 32) (h : ¬ (BitVec.extractLsb' 23 8 w).toNat = 2 ^ 8 - 1) :
    ∃ r : ℝ, Ideal.ofBits .f32 w = (r : EReal) := by
  show ∃ r : ℝ, Ideal.ieee 8 23 w = _
  unfold Ideal.ieee
  dsimp only
  rw [if_neg h]
  split_ifs <;> exact ⟨_, rfl⟩

/-- Such a word is the coercion of its own real part. -/
theorem ofBits_f32_coe_toReal (w : BitVec 32) (h : ¬ (BitVec.extractLsb' 23 8 w).toNat = 2 ^ 8 - 1) :
    Ideal.ofBits .f32 w = (((Ideal.ofBits .f32 w).toReal : ℝ) : EReal) := by
  obtain ⟨r, hr⟩ := ofBits_f32_real w h
  rw [hr, EReal.toReal_coe]

theorem ofBits_c6 : Ideal.ofBits .f32 0x3F19999A#32 = ((Cert.Spec.c6 : ℝ) : EReal) :=
  ofBits_f32_coe_toReal _ (by decide)
theorem ofBits_c4 : Ideal.ofBits .f32 0x3ECCCCCD#32 = ((Cert.Spec.c4 : ℝ) : EReal) :=
  ofBits_f32_coe_toReal _ (by decide)
theorem ofBits_c8 : Ideal.ofBits .f32 0x3C03126F#32 = ((Cert.Spec.c8 : ℝ) : EReal) :=
  ofBits_f32_coe_toReal _ (by decide)

/-- The word `0xFF800000` is `-∞`. -/
theorem ofBits_neg_inf : Ideal.ofBits .f32 0xFF800000#32 = (⊥ : EReal) := by
  show Ideal.ieee 8 23 (0xFF800000#32 : BitVec 32) = _
  unfold Ideal.ieee
  dsimp only
  have h1 : (BitVec.extractLsb' 23 8 (0xFF800000#32 : BitVec 32)).toNat = 2 ^ 8 - 1 := by decide
  have h2 : (BitVec.extractLsb' 0 23 (0xFF800000#32 : BitVec 32)).toNat = 0 := by decide
  have h3 : (BitVec.extractLsb' (8 + 23) 1 (0xFF800000#32 : BitVec 32) == 1#1) = true := by decide
  rw [if_pos h1, if_pos h2, h3]
  rfl

/-- The word `0x44800000` is 1024. -/
theorem ofBits_1024 : Ideal.ofBits .f32 0x44800000#32 = ((1024 : ℝ) : EReal) := by
  show Ideal.ieee 8 23 (0x44800000#32 : BitVec 32) = _
  unfold Ideal.ieee
  dsimp only
  have h1 : (BitVec.extractLsb' 23 8 (0x44800000#32 : BitVec 32)).toNat = 137 := by decide
  have h2 : (BitVec.extractLsb' 0 23 (0x44800000#32 : BitVec 32)).toNat = 0 := by decide
  have h3 : (BitVec.extractLsb' (8 + 23) 1 (0x44800000#32 : BitVec 32) == 1#1) = false := by decide
  rw [h1, h2, h3]
  norm_num

/-- The word `0x48000000` is 131072. -/
theorem ofBits_131072 : Ideal.ofBits .f32 0x48000000#32 = ((131072 : ℝ) : EReal) := by
  show Ideal.ieee 8 23 (0x48000000#32 : BitVec 32) = _
  unfold Ideal.ieee
  dsimp only
  have h1 : (BitVec.extractLsb' 23 8 (0x48000000#32 : BitVec 32)).toNat = 144 := by decide
  have h2 : (BitVec.extractLsb' 0 23 (0x48000000#32 : BitVec 32)).toNat = 0 := by decide
  have h3 : (BitVec.extractLsb' (8 + 23) 1 (0x48000000#32 : BitVec 32) == 1#1) = false := by decide
  rw [h1, h2, h3]
  norm_num

/-- A finite sum of reals, coerced, is the sum of the coercions. -/
theorem coe_finset_sum {κ : Type} (s : Finset κ) (f : κ → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.RefProof

end
-- ==== Proof.RefSoftmax.lean ====
/-
  The row-wise log-softmax of real logits, read at an index.  A row's maximum is the fold of `max` from `-∞` over a
  nonempty row of reals, hence a real `m`; the shifted logits are `x - m`, their exponentials sum to a positive real, and
  `log ∑ₖ exp (x k - m) = log ∑ₖ exp (x k) - m`; so the entry at `(i, k)` is `x i k - log ∑ₖ' exp (x i k')`, whatever
  the maximum was.
-/
import proofs.«217730_g43602507989570_cont_8to1c4_241_33_alg».proof.Proof.RefTerm
import proofs.«217730_g43602507989570_cont_8to1c4_241_33_alg».proof.Proof.RefConst
import Idealize.ShloMosaic.Lib.ValueIdx
import Idealize.ShloMosaic.PureOps.Reduce
import Idealize.ShloMosaic.PureOps.Ideal.Laws
import Mathlib.Analysis.SpecialFunctions.Log.Basic

noncomputable section

namespace Cert.RefProof

open Cert.ReferenceIdeal Cert.ReferenceIdeal.Facts₀ Idealize.ShloMosaic Idealize.ShloMosaic.ValueIdx

/-! ## Host operations at the ideal values, read at an index -/

theorem hostLog_apply {s : Shape} (v : FVec Ideal s .f32) (j : s.Idx) : Host.log v j = Ideal.log (v j) := rfl
theorem hostExp_apply {s : Shape} (v : FVec Ideal s .f32) (j : s.Idx) : Host.exp v j = Ideal.exp (v j) := rfl
theorem hostReduceAdd_apply {s t u : Shape} {axes : List (Fin s.rank)} (v : FVec Ideal s .f32) (init : u.Idx → Ideal .f32)
    (h : s.ReducesTo axes t) (hu : 0 < u.numel) (j : t.Idx) :
    Host.reduceAdd v init h hu j = Ideal.hostReduceAdd h v (init (Shape.Idx.first hu)) j := rfl
theorem constant_first (w : BitVec 32) (hu : 0 < S_.numel) :
    (constant (F := Ideal) S_ .f32 w) (Shape.Idx.first hu) = Ideal.ofBits .f32 w := rfl
theorem bcast_const_apply {t : Shape} (dims : Fin S_.rank → Fin t.rank) (h : S_.BroadcastsInDim t dims) (w : BitVec 32)
    (j : t.Idx) : broadcastInDim t dims h (constant (F := Ideal) S_ .f32 w) j = Ideal.ofBits .f32 w := rfl

/-! ## The row-wise log-softmax of real logits, read at an index -/

/-- The fold of `max` from `-∞` over a nonempty set of reals is a real. -/
theorem fold_max_coe {κ : Type} (s : Finset κ) (hs : s.Nonempty) (f : κ → ℝ) :
    ∃ m : ℝ, s.fold max (⊥ : EReal) (fun k => (f k : EReal)) = (m : EReal) := by
  classical
  induction hs using Finset.Nonempty.cons_induction with
  | singleton a => exact ⟨f a, by rw [Finset.fold_singleton, max_bot_right]⟩
  | cons a s ha hs ih =>
    obtain ⟨m, hm⟩ := ih
    exact ⟨max (f a) m, by rw [Finset.fold_cons, hm]; exact (Monotone.map_max EReal.coe_strictMono.monotone).symm⟩

/-- The log of a sum of exponentials, shifted: `log ∑ exp (y - m) = log ∑ exp y - m`. -/
theorem log_sum_exp_shift {κ : Type} (s : Finset κ) (hs : s.Nonempty) (y : κ → ℝ) (m : ℝ) :
    Real.log (∑ k ∈ s, Real.exp (y k - m)) = Real.log (∑ k ∈ s, Real.exp (y k)) - m := by
  have h1 : ∑ k ∈ s, Real.exp (y k - m) = (∑ k ∈ s, Real.exp (y k)) * Real.exp (-m) := by
    rw [Finset.sum_mul]
    refine Finset.sum_congr rfl fun k _ => ?_
    rw [← Real.exp_add, sub_eq_add_neg]
  have hpos : 0 < ∑ k ∈ s, Real.exp (y k) := Finset.sum_pos (fun k _ => Real.exp_pos _) hs
  rw [h1, Real.log_mul hpos.ne' (Real.exp_pos _).ne', Real.log_exp]
  ring

section Softmax
variable (a1 : FVec Ideal S1024x100000 .f32) (x : Fin 1024 → Fin 100000 → ℝ)
  (h1 : ∀ i k, a1 (ix2 i k) = ((x i k : ℝ) : EReal))

/-- The reduced index `i` with coordinate `k` put back on the class axis is `(i, k)`. -/
theorem lift_row (h : S1024x100000.Reduces [1] S1024) (i : Fin 1024) (k : Fin 100000) :
    h.lift (ix1 i) k = ix2 i k := by
  funext a
  refine Fin.ext ?_
  match a with
  | ⟨0, _⟩ => rfl
  | ⟨1, _⟩ => rfl

include h1 in
/-- Each row's maximum is a real number. -/
theorem rowMax_real (i : Fin 1024) : ∃ m : ℝ, rowMax a1 (ix1 i) = (m : EReal) := by
  have hR : S1024x100000.Reduces [1] S1024 := by decide
  obtain ⟨m, hm⟩ := fold_max_coe (Finset.univ : Finset (Fin 100000)) ⟨0, Finset.mem_univ _⟩ (x i)
  refine ⟨m, ?_⟩
  unfold rowMax
  rw [maximumf_apply]
  rw [Host.reduce_eq_fold_single FloatOps.maximumf a1 _ reducesTo_S1024x100000_S1024_d1 hR h_S_ (ix1 i)]
  rw [bcast_const_apply, constant_first, ofBits_neg_inf]
  have hf : (a1 ∘ hR.lift (ix1 i)) = fun k : Fin 100000 => ((x i k : ℝ) : EReal) := by
    funext k
    show a1 (hR.lift (ix1 i) k) = _
    rw [lift_row hR i k]
    exact h1 i k
  rw [hf]
  exact (congrArg (max (⊥ : EReal)) hm).trans (max_bot_left _)

/-- A per-row value broadcast along the classes, read at `(i, k)`. -/
theorem bcast_row_apply (v : FVec Ideal S1024 .f32) (i : Fin 1024) (k : Fin 100000) :
    broadcastInDim S1024x100000 ![0, 1] bcast_S1024x1_S1024x100000_0_1
      (broadcastInDim S1024x1 ![0] bcast_S1024_S1024x1_0 v) (ix2 i k) = v (ix1 i) := by
  show v _ = v _
  congr 1
  funext a
  match a with
  | ⟨0, _⟩ => rfl

/-- The log of a per-row value, broadcast along the classes, read at `(i, k)`. -/
theorem bcast_row_log_apply (R : FVec Ideal S1024 .f32) (i : Fin 1024) (k : Fin 100000) :
    broadcastInDim S1024x100000 ![0, 1] bcast_S1024x1_S1024x100000_0_1
      (Host.log (broadcastInDim S1024x1 ![0] bcast_S1024_S1024x1_0 R)) (ix2 i k) = Ideal.log (R (ix1 i)) := by
  show Ideal.log (R _) = Ideal.log (R _)
  congr 2
  funext a
  match a with
  | ⟨0, _⟩ => rfl

include h1 in
/-- The log-softmax at `(i, k)`: the logit minus the log of its row's sum of exponentials. -/
theorem logSoftmax_apply (i : Fin 1024) (k : Fin 100000) :
    logSoftmax a1 (ix2 i k) = ((x i k - Real.log (∑ k', Real.exp (x i k')) : ℝ) : EReal) := by
  have hR : S1024x100000.Reduces [1] S1024 := by decide
  obtain ⟨m, hm⟩ := rowMax_real a1 x h1 i
  have hsh : ∀ k', shifted a1 (ix2 i k') = ((x i k' - m : ℝ) : EReal) := by
    intro k'
    unfold shifted
    rw [subf_apply, bcast_row_apply, hm, h1, EReal.coe_sub]
  have hsum : Host.reduceAdd (Host.exp (shifted a1)) (constant (F := Ideal) S_ .f32 0x00000000#32)
      reducesTo_S1024x100000_S1024_d1 h_S_ (ix1 i) = ((∑ k', Real.exp (x i k' - m) : ℝ) : EReal) := by
    rw [hostReduceAdd_apply, Ideal.hostReduceAdd_single reducesTo_S1024x100000_S1024_d1 hR, constant_first,
      Ideal.ofBits_zero_f32, zero_add, coe_finset_sum]
    refine Finset.sum_congr rfl fun k' _ => ?_
    rw [lift_row hR i k', hostExp_apply]
    exact (congrArg Ideal.exp (hsh k')).trans (Ideal.exp_coe _)
  have hpos : 0 < ∑ k', Real.exp (x i k' - m) :=
    Finset.sum_pos (fun k' _ => Real.exp_pos _) ⟨0, Finset.mem_univ _⟩
  unfold logSoftmax
  rw [subf_apply, hsh k]
  rw [bcast_row_log_apply, hsum, Ideal.log_coe, if_neg (not_le.mpr hpos)]
  rw [← EReal.coe_sub]
  rw [log_sum_exp_shift Finset.univ ⟨0, Finset.mem_univ _⟩ (x i) m]
  exact congrArg (fun r : ℝ => (r : EReal)) (by ring)

end Softmax

end Cert.RefProof

end
-- ==== Proof.RefValue.lean ====
/-
  The reference's value: with real embeddings `e`, logits `x`, class centres `cen` and labels `lab` in `0 … 99999`, the
  reference's result is the loss of the specification.  The rows looked up first are the labels' centres; their blend with
  the embeddings is scattered back at the labels, the last sample of each label winning; looked up again at the labels,
  the rows are the moved centres; the log-softmax read at the labels gives the cross entropy; and the two host sums are
  the means over the samples and over the sample-feature pairs.
-/
import proofs.«217730_g43602507989570_cont_8to1c4_241_33_alg».proof.Proof.RefIdx
import proofs.«217730_g43602507989570_cont_8to1c4_241_33_alg».proof.Proof.RefScatter
import proofs.«217730_g43602507989570_cont_8to1c4_241_33_alg».proof.Proof.RefSoftmax
import proofs.«217730_g43602507989570_cont_8to1c4_241_33_alg».proof.Proof.RefConst
import proofs.«217730_g43602507989570_cont_8to1c4_241_33_alg».proof.Proof.Spec

noncomputable section

namespace Cert.RefProof

open Cert.ReferenceIdeal Cert.ReferenceIdeal.Facts₀ Idealize.ShloMosaic Idealize.ShloMosaic.ValueIdx

theorem hostDivf_apply {s : Shape} (a b : FVec Ideal s .f32) (i : s.Idx) : Host.divf a b i = Ideal.div (a i) (b i) := rfl
theorem hostNegf_apply {s : Shape} (a : FVec Ideal s .f32) (i : s.Idx) : Host.negf a i = -(a i) := rfl

/-! ## The reference's value -/

/-- A rank-1 index set is its one coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Value
variable (a0 : FVec Ideal S1024x128 .f32) (a1 : FVec Ideal S1024x100000 .f32) (a2 : IVec S1024 32)
  (a3 : FVec Ideal S100000x128 .f32)
  (e : Fin 1024 → Fin 128 → ℝ) (x : Fin 1024 → Fin 100000 → ℝ) (lab : Fin 1024 → Fin 100000) (cen : Fin 100000 → Fin 128 → ℝ)
  (h0 : ∀ i d, a0 (ix2 i d) = ((e i d : ℝ) : EReal)) (h1 : ∀ i k, a1 (ix2 i k) = ((x i k : ℝ) : EReal))
  (h2 : ∀ i, a2 (ix1 i) = BitVec.ofNat 32 (lab i).val) (h3 : ∀ k d, a3 (ix2 k d) = ((cen k d : ℝ) : EReal))

include h0 h2 h3 in
/-- The blended rows at `(j, d)`: the blend of sample `j`'s class centre with its embedding. -/
theorem blend_apply (j : Fin 1024) (d : Fin 128) :
    blend (takeRows a3 a2) a0 (ix2 j d) = ((Cert.Spec.c6 * cen (lab j) d + Cert.Spec.c4 * e j d : ℝ) : EReal) := by
  unfold blend
  rw [addf_apply, mulf_apply, mulf_apply, takeRows_apply a3 a2 lab h2, h3, h0]
  rw [bcast_const_apply, bcast_const_apply, ofBits_c6, ofBits_c4, ← EReal.coe_mul, ← EReal.coe_mul, ← EReal.coe_add]

include h0 h2 h3 in
/-- The rows looked up in the scattered table at `(i, d)`: the moved centre of sample `i`'s class. -/
theorem moved_apply (i : Fin 1024) (d : Fin 128) :
    takeRows (newCenters a3 a2 (blend (takeRows a3 a2) a0)) a2 (ix2 i d)
      = ((Cert.Spec.moved e lab cen i d : ℝ) : EReal) := by
  rw [takeRows_apply _ a2 lab h2]
  unfold newCenters
  rw [scatterRows_apply a3 (idxCol a2) lab (fun i c => idxCol_apply a2 lab h2 i c),
    blend_apply a0 a2 a3 e lab cen h0 h2 h3]
  rfl

include h1 h2 in
/-- The mean cross entropy. -/
theorem meanNll_apply (j : S_.Idx) :
    meanNll (takeAlong (logSoftmax a1) (labCol a2)) j
      = (((∑ i, (Real.log (∑ k, Real.exp (x i k)) - x i (lab i))) / 1024 : ℝ) : EReal) := by
  unfold meanNll
  rw [hostDivf_apply]
  rw [constant_apply, ofBits_1024, Ideal.div_coe (by norm_num), hostReduceAdd_apply,
    Ideal.hostReduceAdd_total reducesTo_S1024_S_d0 (fun b => b.elim0), constant_first, Ideal.ofBits_zero_f32, zero_add, sum_idx1]
  have hterm : ∀ i : Fin 1024, Host.negf (shapeCast S1024 (takeAlong (logSoftmax a1) (labCol a2)) shapeCasts_S1024x1_S1024) (ix1 i)
      = ((Real.log (∑ k, Real.exp (x i k)) - x i (lab i) : ℝ) : EReal) := by
    intro i
    rw [hostNegf_apply, shapeCast_apply _ shapeCasts_S1024x1_S1024 (ix1 i) (ix2 i 0) (by
      rw [Shape.rowMajor_val_two, Shape.rowMajor_val_one]
      show i.val * 1 + 0 = i.val
      omega)]
    rw [takeAlong_apply a2 lab h2, logSoftmax_apply a1 x h1, ← EReal.coe_neg]
    exact congrArg (fun r : ℝ => (r : EReal)) (by ring)
  rw [Finset.sum_congr rfl (fun i _ => hterm i), ← coe_finset_sum, ← EReal.coe_mul]
  exact congrArg (fun r : ℝ => (r : EReal)) (by ring)

include h0 h1 h2 h3 in
/-- Both means together: the loss. -/
theorem refVal_eq : refVal a0 a1 a2 a3 = fun _ => ((Cert.Spec.lossR e x lab cen : ℝ) : EReal) := by
  funext j
  unfold refVal total
  rw [addf_apply, mulf_apply, hostDivf_apply, meanNll_apply a1 a2 x lab h1 h2]
  rw [constant_apply, constant_apply, ofBits_c8, ofBits_131072, Ideal.div_coe (by norm_num)]
  have hsum : Host.reduceAdd (mulf (subf a0 (takeRows (newCenters a3 a2 (blend (takeRows a3 a2) a0)) a2))
        (subf a0 (takeRows (newCenters a3 a2 (blend (takeRows a3 a2) a0)) a2)))
      (constant (F := Ideal) S_ .f32 0x00000000#32) reducesTo_S1024x128_S_d0_1 h_S_ j
      = ((∑ i, ∑ d, (e i d - Cert.Spec.moved e lab cen i d) ^ 2 : ℝ) : EReal) := by
    rw [hostReduceAdd_apply, Ideal.hostReduceAdd_total reducesTo_S1024x128_S_d0_1 (fun b => b.elim0), constant_first,
      Ideal.ofBits_zero_f32, zero_add, sum_idx2, coe_finset_sum]
    refine Finset.sum_congr rfl fun i _ => ?_
    rw [coe_finset_sum]
    refine Finset.sum_congr rfl fun d _ => ?_
    rw [mulf_apply, subf_apply, h0, moved_apply a0 a2 a3 e lab cen h0 h2 h3, ← EReal.coe_sub, ← EReal.coe_mul]
    exact congrArg (fun r : ℝ => (r : EReal)) (by ring)
  rw [hsum, ← EReal.coe_mul, ← EReal.coe_mul, ← EReal.coe_add]
  unfold Cert.Spec.lossR
  exact congrArg (fun r : ℝ => (r : EReal)) (by ring)

end Value

end Cert.RefProof

end
-- ==== Proof.Claims.lean ====
/-
  The five claims.  The kernel program, at either float instance, runs to its end with its four argument arrays
  unchanged whenever the labels are row numbers of the centre table, which the precondition says; that is both of
  its frames.  The reference's frame is its run with the result dropped.  At the exact instance the inputs are real
  numbers, by the precondition, and the kernel's result and the reference's are then the same real number: the mean
  cross entropy plus the scaled mean squared distance to the moved class centres.
-/
import proofs.«217730_g43602507989570_cont_8to1c4_241_33_alg».proof.Defs
import proofs.«217730_g43602507989570_cont_8to1c4_241_33_alg».proof.Proof.ScRun
import proofs.«217730_g43602507989570_cont_8to1c4_241_33_alg».proof.Proof.WScRun
import proofs.«217730_g43602507989570_cont_8to1c4_241_33_alg».proof.Proof.KerGlue
import proofs.«217730_g43602507989570_cont_8to1c4_241_33_alg».proof.Proof.PreFacts
import proofs.«217730_g43602507989570_cont_8to1c4_241_33_alg».proof.Proof.RefRun
import proofs.«217730_g43602507989570_cont_8to1c4_241_33_alg».proof.Proof.RefValue

noncomputable section

namespace Cert.Proof.Claims

open Idealize.ShloMosaic Idealize.SL.Sem

/-- The precondition makes every label a row number of the table: at the exact instance, -/
theorem preOK_ideal (m : (ℓ : Loc Cert.KernelIdeal.nD Cert.KernelIdeal.τ Cert.KernelIdeal.sig) → Buf (Elt Ideal) ℓ) (h : Cert.Pre_KernelIdeal m) :
    Cert.KernelIdeal.ScProof.PreOK (F := Ideal) m := fun d j => Cert.PreFacts.labels_inb _ _ _ _ (h d) j

/-- and at the word-level one. -/
theorem preOK_bits (m : (ℓ : Loc Cert.Kernel.nD Cert.Kernel.τ Cert.Kernel.sig) → Buf (Elt Bits) ℓ) (h : Cert.Pre_Kernel m) :
    Cert.Kernel.ScProof.PreOK (F := Bits) m := fun d j => Cert.PreFacts.labels_inb _ _ _ _ (h d) j

theorem frame_kernel : Cert.frame_Kernel := fun m g h =>
  (θ_run Cert.Kernel.defs _ _).mono (fun _ hr c => (hr c).2) (Cert.Kernel.ScProof.run_main (F := Bits) m g (preOK_bits m h))

theorem frame_kernelIdeal : Cert.frame_KernelIdeal := fun m g h =>
  (θ_run Cert.KernelIdeal.defs _ _).mono (fun _ hr c => (hr c).2) (Cert.KernelIdeal.ScProof.run_main (F := Ideal) m g (preOK_ideal m h))

theorem frame_reference : Cert.frame_ReferenceIdeal := fun m g _ =>
  (θ_run Cert.ReferenceIdeal.defs _ _).mono (fun _ hr c => (hr c).2) (Cert.RefProof.run m g)

/-- The gathered rows are the table's rows at the labels. -/
theorem gathered_rows (m : (ℓ : Loc Cert.KernelIdeal.nD Cert.KernelIdeal.τ Cert.KernelIdeal.sig) → Buf (Elt Ideal) ℓ)
    (hok : Cert.KernelIdeal.ScProof.PreOK (F := Ideal) m) (c : Dev Cert.KernelIdeal.nD) (i : Fin 1024) (d : Fin 128)
    (hi : (m (Cert.KernelIdeal.ScProof.lLoc c) (ValueIdx.ix1 i) : BitVec 32).toNat < 100000) :
    Cert.KernelIdeal.ScProof.gathered m hok c (ValueIdx.ix2 i d) = m (Cert.KernelIdeal.ScProof.xLoc c) (ValueIdx.ix2 ⟨(m (Cert.KernelIdeal.ScProof.lLoc c) (ValueIdx.ix1 i) : BitVec 32).toNat, hi⟩ d) := rfl

theorem algebraic : Cert.algebraic_KernelIdeal_ReferenceIdeal := by
  intro m g m' g' hpre hagree
  have hok := preOK_ideal m hpre
  refine ⟨fun c => Cert.KernelIdeal.ScProof.V5 m hok c Cert.KernelIdeal.ScProof.v4', ?_, ?_⟩
  · exact (θ_run Cert.KernelIdeal.defs _ _).mono (fun _ hr c => hr c) (Cert.KernelIdeal.ScProof.run_main (F := Ideal) m g hok)
  · refine (θ_run Cert.ReferenceIdeal.defs _ _).mono (fun _ hr c => ⟨(hr c).1.trans ?_, (hr c).2⟩) (Cert.RefProof.run m' g')
    obtain ⟨e, x, lab, cen, h0, h1, h2, h3⟩ := Cert.PreFacts.real_views _ _ _ _ (hpre c)
    rw [(hagree c).1, (hagree c).2.1, (hagree c).2.2.1, (hagree c).2.2.2,
      Cert.RefProof.refVal_eq _ _ _ _ e x lab cen h0 h1 h2 h3]
    show _ = Cert.KernelIdeal.ScProof.V5 m hok c Cert.KernelIdeal.ScProof.v4'
    rw [Cert.KernelIdeal.ScProof.result_eq]
    exact (Cert.KernelIdeal.KerValue.kernel_value _ _ _ _ _ e x lab cen h0 h1 h2 h3 (gathered_rows m hok c)).symm

end Cert.Proof.Claims

end
-- ==== Proof.lean ====
/-
  The kernel computes, for 1024 samples with embeddings, logits over 100000 classes and a label each, and a table of
  class centres, the loss: mean cross entropy plus 0.008 times the mean squared distance of each embedding to its
  class's centre after the centres have moved — a centre moves to the blend 0.6·centre + 0.4·embedding of the LAST
  sample carrying its label.  The kernel gathers the labelled centre rows on the SparseCores (32 tiles, 32 samples
  each), then visits the logits in 25 column blocks on the TensorCore, accumulating per sample the sum of exp and
  the logit at the label, and at the last visit forms log-sum-exp minus the label's logit, and resolves repeated
  labels by a one-hot matrix of the largest sample index sharing the label.  The reference subtracts the row
  maximum before exponentiating, scatters the blends into the table in sample order, and gathers them back.  Over
  the reals these are one number: log ∑ exp(x − M) + M = log ∑ exp x, the later write wins a scatter, a one-hot
  row of a matrix product selects a row, and 2⁻¹⁷ is 1/131072.

  Frames: the programs run to their ends, fault nowhere and leave their arguments unchanged, given that every label
  is a row number of the table (the precondition says 0 ≤ label ≤ 99999).  Nothing was rewritten between the kernel
  and its idealization.  The modules: Spec (the loss over the reals), KerTerm / KerAcc / KerCenter / KerValue /
  KerGlue (the kernel's output term and its value), Tc* (the 25-visit stage), Sc* (the gather stage, the launch
  and @main), Ref* (the reference's run and value), PreFacts (what the precondition gives), Claims (the five
  claims), and the same kernel-side modules once more for the word-level program (W*).
-/
import proofs.«217730_g43602507989570_cont_8to1c4_241_33_alg».proof.Defs
import proofs.«217730_g43602507989570_cont_8to1c4_241_33_alg».proof.Proof.Claims
import proofs.«217730_g43602507989570_cont_8to1c4_241_33_alg».proof.Proof.Gen.Kernel
import proofs.«217730_g43602507989570_cont_8to1c4_241_33_alg».proof.Proof.Gen.Kernel.Skeleton
import proofs.«217730_g43602507989570_cont_8to1c4_241_33_alg».proof.Proof.Gen.Kernel.Launch
import proofs.«217730_g43602507989570_cont_8to1c4_241_33_alg».proof.Proof.Gen.Kernel.Points
import proofs.«217730_g43602507989570_cont_8to1c4_241_33_alg».proof.Proof.Gen.KernelIdeal
import proofs.«217730_g43602507989570_cont_8to1c4_241_33_alg».proof.Proof.Gen.KernelIdeal.Skeleton
import proofs.«217730_g43602507989570_cont_8to1c4_241_33_alg».proof.Proof.Gen.KernelIdeal.Launch
import proofs.«217730_g43602507989570_cont_8to1c4_241_33_alg».proof.Proof.Gen.KernelIdeal.Points
import proofs.«217730_g43602507989570_cont_8to1c4_241_33_alg».proof.Proof.Gen.ReferenceIdeal
import proofs.«217730_g43602507989570_cont_8to1c4_241_33_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_kernel, Claims.frame_kernelIdeal, Claims.frame_reference, trivial, Claims.algebraic⟩

end Cert.Proof

end
